-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S200x4096 : Shape := ⟨2, ![200, 4096]⟩
abbrev S25000x100 : Shape := ⟨2, ![25000, 100]⟩
abbrev S1x100 : Shape := ⟨2, ![1, 100]⟩
abbrev S1 : Shape := ⟨1, ![1]⟩
abbrev S_ : Shape := ⟨0, ![]⟩

class Facts : Prop where
  bcast_S_S25000x100 : S_.BroadcastsInDim S25000x100 (![] : Fin 0 → Fin S25000x100.rank)
  reducesTo_S25000x100_S_d0_1 : S25000x100.ReducesTo [0, 1] S_
  h_S_ : 0 < S_.numel
  bcast_S_S1x100 : S_.BroadcastsInDim S1x100 (![] : Fin 0 → Fin S1x100.rank)
  reducesTo_S1x100_S_d0_1 : S1x100.ReducesTo [0, 1] S_
  bcast_S_S1 : S_.BroadcastsInDim S1 (![] : Fin 0 → Fin S1.rank)
  reducesTo_S1_S_d0 : S1.ReducesTo [0] S_
  bcast_S_S200x4096 : S_.BroadcastsInDim S200x4096 (![] : Fin 0 → Fin S200x4096.rank)
  reducesTo_S200x4096_S_d0_1 : S200x4096.ReducesTo [0, 1] S_

variable [Facts]

def fn_part1 {F : FTy → Type} [FloatOps F] (main_arg0 : IVec S200x4096 32) (main_v13 : IVec S_ 1) (main_v15 : IVec S200x4096 1) (main_c_5 : IVec S_ 32) : IVec S_ 1 :=
  let main_v16 : IVec S200x4096 32 := broadcastInDim S200x4096 ![] bcast_S_S200x4096 main_c_5
  let main_v17 : IVec S200x4096 1 := cmpi .sle main_arg0 main_v16
  let main_v18 : IVec S200x4096 1 := andi main_v15 main_v17
  let main_c_6 : IVec S_ 1 := constantI S_ 1 1#1
  let main_v19 : IVec S_ 1 := (fun x v => Host.reduce IntOp.andi x v reducesTo_S200x4096_S_d0_1 h_S_) main_v18 main_c_6
  let main_v20 : IVec S_ 1 := andi main_v13 main_v19
  main_v20

def fn {F : FTy → Type} [FloatOps F] (main_arg0 : IVec S200x4096 32) (main_arg1 : FVec F S25000x100 .f32) (main_arg2 : FVec F S1x100 .f32) (main_arg3 : FVec F S1 .f32) : IVec S_ 1 :=
  let main_v0 : FVec F S25000x100 .f32 := Host.absf main_arg1
  let main_cst : FVec F S_ .f32 := constant S_ .f32 0x7F800000#32
  let main_v1 : FVec F S25000x100 .f32 := broadcastInDim S25000x100 ![] bcast_S_S25000x100 main_cst
  let main_v2 : IVec S25000x100 1 := cmpf .olt main_v0 main_v1
  let main_c : IVec S_ 1 := constantI S_ 1 1#1
  let main_v3 : IVec S_ 1 := (fun x v => Host.reduce IntOp.andi x v reducesTo_S25000x100_S_d0_1 h_S_) main_v2 main_c
  let main_v4 : FVec F S1x100 .f32 := Host.absf main_arg2
  let main_cst_0 : FVec F S_ .f32 := constant S_ .f32 0x7F800000#32
  let main_v5 : FVec F S1x100 .f32 := broadcastInDim S1x100 ![] bcast_S_S1x100 main_cst_0
  let main_v6 : IVec S1x100 1 := cmpf .olt main_v4 main_v5
  let main_c_1 : IVec S_ 1 := constantI S_ 1 1#1
  let main_v7 : IVec S_ 1 := (fun x v => Host.reduce IntOp.andi x v reducesTo_S1x100_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S200x4096 32 := broadcastInDim S200x4096 ![] bcast_S_S200x4096 main_c_4
  let main_v15 : IVec S200x4096 1 := cmpi .sge main_arg0 main_v14
  let main_c_5 : IVec S_ 32 := constantI S_ 32 24999#32
  fn_part1 (F := F) main_arg0 main_v13 main_v15 main_c_5
-- ==== Kernel.lean ====
abbrev S200x4096 : Shape := ⟨2, ![200, 4096]⟩
abbrev S25000x100 : Shape := ⟨2, ![25000, 100]⟩
abbrev S1x100 : Shape := ⟨2, ![1, 100]⟩
abbrev S1 : Shape := ⟨1, ![1]⟩
abbrev S100x25000 : Shape := ⟨2, ![100, 25000]⟩
abbrev S1x1 : Shape := ⟨2, ![1, 1]⟩
abbrev S2x1x12800 : Shape := ⟨3, ![2, 1, 12800]⟩
abbrev S100x12800 : Shape := ⟨2, ![100, 12800]⟩
abbrev S1x1x12800 : Shape := ⟨3, ![1, 1, 12800]⟩
abbrev S1x12800 : Shape := ⟨2, ![1, 12800]⟩
abbrev S25600 : Shape := ⟨1, ![25600]⟩
abbrev S40x32x128 : Shape := ⟨3, ![40, 32, 128]⟩
abbrev S200x128 : Shape := ⟨2, ![200, 128]⟩
abbrev S40x128 : Shape := ⟨2, ![40, 128]⟩
abbrev S_ : Shape := ⟨0, ![]⟩
abbrev S6400 : Shape := ⟨1, ![6400]⟩
abbrev S120x128 : Shape := ⟨2, ![120, 128]⟩
abbrev S80x128 : Shape := ⟨2, ![80, 128]⟩
abbrev S16 : Shape := ⟨1, ![16]⟩
abbrev S1x16 : Shape := ⟨2, ![1, 16]⟩
abbrev S40x1x128 : Shape := ⟨3, ![40, 1, 128]⟩
abbrev S40x4096 : Shape := ⟨2, ![40, 4096]⟩
abbrev S4096x40 : Shape := ⟨2, ![4096, 40]⟩
abbrev S4096x40x1 : Shape := ⟨3, ![4096, 40, 1]⟩

abbrev nBuf : Table → Nat
  | .hbm => 12
  | .local .tc .vmem => 6
  | .local .scVector .vmem => 3
  | _ => 0

abbrev bufTy : (tb : Table) → Fin (nBuf tb) → BufTy
  | .hbm, ⟨0, _⟩ => ⟨S200x4096, .i32⟩
  | .hbm, ⟨1, _⟩ => ⟨S25000x100, .f32⟩
  | .hbm, ⟨2, _⟩ => ⟨S1x100, .f32⟩
  | .hbm, ⟨3, _⟩ => ⟨S1, .f32⟩
  | .hbm, ⟨4, _⟩ => ⟨S100x25000, .f32⟩
  | .hbm, ⟨5, _⟩ => ⟨S1x1, .f32⟩
  | .hbm, ⟨6, _⟩ => ⟨S2x1x12800, .f32⟩
  | .hbm, ⟨7, _⟩ => ⟨S25600, .f32⟩
  | .hbm, ⟨8, _⟩ => ⟨S40x32x128, .f32⟩
  | .hbm, ⟨9, _⟩ => ⟨S40x4096, .f32⟩
  | .hbm, ⟨10, _⟩ => ⟨S4096x40, .f32⟩
  | .hbm, ⟨11, _⟩ => ⟨S4096x40x1, .f32⟩
  | .local .tc .vmem, ⟨0, _⟩ => ⟨S100x12800, .f32⟩
  | .local .tc .vmem, ⟨1, _⟩ => ⟨S100x12800, .f32⟩
  | .local .tc .vmem, ⟨2, _⟩ => ⟨S1x100, .f32⟩
  | .local .tc .vmem, ⟨3, _⟩ => ⟨S1x1, .f32⟩
  | .local .tc .vmem, ⟨4, _⟩ => ⟨S1x1x12800, .f32⟩
  | .local .tc .vmem, ⟨5, _⟩ => ⟨S1x1x12800, .f32⟩
  | .local .scVector .vmem, ⟨0, _⟩ => ⟨S25600, .f32⟩
  | .local .scVector .vmem, ⟨1, _⟩ => ⟨S200x128, .i32⟩
  | .local .scVector .vmem, ⟨2, _⟩ => ⟨S40x128, .f32⟩
  | _, _ => ⟨S200x4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v3_scv : Ref sig .scVector := ⟨.hbm, 7, rfl⟩
abbrev main_arg0_scv : Ref sig .scVector := ⟨.hbm, 0, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x12800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let c0_i32_14 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
def k1_off2 (i : grid1.Coords) : Fin 2 → Nat :=
  let c120_i32_19 : BitVec 32 := 120#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![120, v2.toNat]
@[reducible] def k1_t1_loop : Scf.Loop 32 :=
  let c0_i32_47 : BitVec 32 := 0#32
  let c24_i32 : BitVec 32 := 24#32
  let v49 : BitVec 32 := Scalar.addi c0_i32_47 c24_i32
  let c1_i32 : BitVec 32 := 1#32
  ⟨c0_i32_47, v49, c1_i32⟩
def k1_off3 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v58 : Index := Scalar.indexCast v55
  let c0 : Index := 0#32
  ![v58.toNat, 0]

def k1_chk1 (v59 : IVec S16 32) : Prop :=
  (∀ a x, ((![v59] : Fin 1 → IVec S16 32) a x).toNat < S25600.size a)
instance k1_chk1.dec : ∀ (v59 : IVec S16 32), Decidable (k1_chk1 v59) := fun v59 => decidable_of_iff' _ (Iff.of_eq (k1_chk1.eq_1 v59))
theorem k1_idx1_inb : ∀ (v59 : IVec S16 32) (k1_hw1 : k1_chk1 v59), ∀ a x, ((![v59] : Fin 1 → IVec S16 32) a x).toNat < S25600.size a := fun v59 k1_hw1 => k1_hw1
def k1_off4 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_59 : BitVec 32 := 1#32
  let v61 : BitVec 32 := Scalar.addi v55 c1_i32_59
  let v62 : Index := Scalar.indexCast v61
  let c0_60 : Index := 0#32
  ![v62.toNat, 0]

def k1_chk2 (v63 : IVec S16 32) : Prop :=
  (∀ a x, ((![v63] : Fin 1 → IVec S16 32) a x).toNat < S25600.size a)
instance k1_chk2.dec : ∀ (v63 : IVec S16 32), Decidable (k1_chk2 v63) := fun v63 => decidable_of_iff' _ (Iff.of_eq (k1_chk2.eq_1 v63))
theorem k1_idx2_inb : ∀ (v63 : IVec S16 32) (k1_hw2 : k1_chk2 v63), ∀ a x, ((![v63] : Fin 1 → IVec S16 32) a x).toNat < S25600.size a := fun v63 k1_hw2 => k1_hw2
def k1_off5 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_61 : BitVec 32 := 2#32
  let v66 : BitVec 32 := Scalar.addi v55 c2_i32_61
  let v67 : Index := Scalar.indexCast v66
  let c0_62 : Index := 0#32
  ![v67.toNat, 0]

def k1_chk3 (v68 : IVec S16 32) : Prop :=
  (∀ a x, ((![v68] : Fin 1 → IVec S16 32) a x).toNat < S25600.size a)
instance k1_chk3.dec : ∀ (v68 : IVec S16 32), Decidable (k1_chk3 v68) := fun v68 => decidable_of_iff' _ (Iff.of_eq (k1_chk3.eq_1 v68))
theorem k1_idx3_inb : ∀ (v68 : IVec S16 32) (k1_hw3 : k1_chk3 v68), ∀ a x, ((![v68] : Fin 1 → IVec S16 32) a x).toNat < S25600.size a := fun v68 k1_hw3 => k1_hw3
def k1_off6 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32 : BitVec 32 := 3#32
  let v71 : BitVec 32 := Scalar.addi v55 c3_i32
  let v72 : Index := Scalar.indexCast v71
  let c0_63 : Index := 0#32
  ![v72.toNat, 0]

def k1_chk4 (v73 : IVec S16 32) : Prop :=
  (∀ a x, ((![v73] : Fin 1 → IVec S16 32) a x).toNat < S25600.size a)
instance k1_chk4.dec : ∀ (v73 : IVec S16 32), Decidable (k1_chk4 v73) := fun v73 => decidable_of_iff' _ (Iff.of_eq (k1_chk4.eq_1 v73))
theorem k1_idx4_inb : ∀ (v73 : IVec S16 32) (k1_hw4 : k1_chk4 v73), ∀ a x, ((![v73] : Fin 1 → IVec S16 32) a x).toNat < S25600.size a := fun v73 k1_hw4 => k1_hw4
def k1_off7 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32 : BitVec 32 := 4#32
  let v76 : BitVec 32 := Scalar.addi v55 c4_i32
  let v77 : Index := Scalar.indexCast v76
  let c0_64 : Index := 0#32
  ![v77.toNat, 0]

def k1_chk5 (v78 : IVec S16 32) : Prop :=
  (∀ a x, ((![v78] : Fin 1 → IVec S16 32) a x).toNat < S25600.size a)
instance k1_chk5.dec : ∀ (v78 : IVec S16 32), Decidable (k1_chk5 v78) := fun v78 => decidable_of_iff' _ (Iff.of_eq (k1_chk5.eq_1 v78))
theorem k1_idx5_inb : ∀ (v78 : IVec S16 32) (k1_hw5 : k1_chk5 v78), ∀ a x, ((![v78] : Fin 1 → IVec S16 32) a x).toNat < S25600.size a := fun v78 k1_hw5 => k1_hw5

def k1_chk6 (v57 : IVec S16 32) (v82 : IVec S16 32) : Prop :=
  (∀ a x, ((![v57, v82] : Fin 2 → IVec S16 32) a x).toNat < S40x128.size a)
instance k1_chk6.dec : ∀ (v57 : IVec S16 32) (v82 : IVec S16 32), Decidable (k1_chk6 v57 v82) := fun v57 v82 => decidable_of_iff' _ (Iff.of_eq (k1_chk6.eq_1 v57 v82))
theorem k1_idx6_inb : ∀ (v57 : IVec S16 32) (v82 : IVec S16 32) (k1_hw6 : k1_chk6 v57 v82), ∀ a x, ((![v57, v82] : Fin 2 → IVec S16 32) a x).toNat < S40x128.size a := fun v57 v82 k1_hw6 => k1_hw6
def k1_off8 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v83 : Index := Scalar.indexCast v55
  let c16 : Index := 16#32
  ![v83.toNat, 16]

def k1_chk7 (v84 : IVec S16 32) : Prop :=
  (∀ a x, ((![v84] : Fin 1 → IVec S16 32) a x).toNat < S25600.size a)
instance k1_chk7.dec : ∀ (v84 : IVec S16 32), Decidable (k1_chk7 v84) := fun v84 => decidable_of_iff' _ (Iff.of_eq (k1_chk7.eq_1 v84))
theorem k1_idx7_inb : ∀ (v84 : IVec S16 32) (k1_hw7 : k1_chk7 v84), ∀ a x, ((![v84] : Fin 1 → IVec S16 32) a x).toNat < S25600.size a := fun v84 k1_hw7 => k1_hw7
def k1_off9 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_66 : BitVec 32 := 1#32
  let v86 : BitVec 32 := Scalar.addi v55 c1_i32_66
  let v87 : Index := Scalar.indexCast v86
  let c16_67 : Index := 16#32
  ![v87.toNat, 16]

def k1_chk8 (v88 : IVec S16 32) : Prop :=
  (∀ a x, ((![v88] : Fin 1 → IVec S16 32) a x).toNat < S25600.size a)
instance k1_chk8.dec : ∀ (v88 : IVec S16 32), Decidable (k1_chk8 v88) := fun v88 => decidable_of_iff' _ (Iff.of_eq (k1_chk8.eq_1 v88))
theorem k1_idx8_inb : ∀ (v88 : IVec S16 32) (k1_hw8 : k1_chk8 v88), ∀ a x, ((![v88] : Fin 1 → IVec S16 32) a x).toNat < S25600.size a := fun v88 k1_hw8 => k1_hw8
def k1_off10 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_68 : BitVec 32 := 2#32
  let v91 : BitVec 32 := Scalar.addi v55 c2_i32_68
  let v92 : Index := Scalar.indexCast v91
  let c16_69 : Index := 16#32
  ![v92.toNat, 16]

def k1_chk9 (v93 : IVec S16 32) : Prop :=
  (∀ a x, ((![v93] : Fin 1 → IVec S16 32) a x).toNat < S25600.size a)
instance k1_chk9.dec : ∀ (v93 : IVec S16 32), Decidable (k1_chk9 v93) := fun v93 => decidable_of_iff' _ (Iff.of_eq (k1_chk9.eq_1 v93))
theorem k1_idx9_inb : ∀ (v93 : IVec S16 32) (k1_hw9 : k1_chk9 v93), ∀ a x, ((![v93] : Fin 1 → IVec S16 32) a x).toNat < S25600.size a := fun v93 k1_hw9 => k1_hw9
def k1_off11 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_70 : BitVec 32 := 3#32
  let v96 : BitVec 32 := Scalar.addi v55 c3_i32_70
  let v97 : Index := Scalar.indexCast v96
  let c16_71 : Index := 16#32
  ![v97.toNat, 16]

def k1_chk10 (v98 : IVec S16 32) : Prop :=
  (∀ a x, ((![v98] : Fin 1 → IVec S16 32) a x).toNat < S25600.size a)
instance k1_chk10.dec : ∀ (v98 : IVec S16 32), Decidable (k1_chk10 v98) := fun v98 => decidable_of_iff' _ (Iff.of_eq (k1_chk10.eq_1 v98))
theorem k1_idx10_inb : ∀ (v98 : IVec S16 32) (k1_hw10 : k1_chk10 v98), ∀ a x, ((![v98] : Fin 1 → IVec S16 32) a x).toNat < S25600.size a := fun v98 k1_hw10 => k1_hw10
def k1_off12 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_72 : BitVec 32 := 4#32
  let v101 : BitVec 32 := Scalar.addi v55 c4_i32_72
  let v102 : Index := Scalar.indexCast v101
  let c16_73 : Index := 16#32
  ![v102.toNat, 16]

def k1_chk11 (v103 : IVec S16 32) : Prop :=
  (∀ a x, ((![v103] : Fin 1 → IVec S16 32) a x).toNat < S25600.size a)
instance k1_chk11.dec : ∀ (v103 : IVec S16 32), Decidable (k1_chk11 v103) := fun v103 => decidable_of_iff' _ (Iff.of_eq (k1_chk11.eq_1 v103))
theorem k1_idx11_inb : ∀ (v103 : IVec S16 32) (k1_hw11 : k1_chk11 v103), ∀ a x, ((![v103] : Fin 1 → IVec S16 32) a x).toNat < S25600.size a := fun v103 k1_hw11 => k1_hw11

def k1_chk12 (v57 : IVec S16 32) (v107 : IVec S16 32) : Prop :=
  (∀ a x, ((![v57, v107] : Fin 2 → IVec S16 32) a x).toNat < S40x128.size a)
instance k1_chk12.dec : ∀ (v57 : IVec S16 32) (v107 : IVec S16 32), Decidable (k1_chk12 v57 v107) := fun v57 v107 => decidable_of_iff' _ (Iff.of_eq (k1_chk12.eq_1 v57 v107))
theorem k1_idx12_inb : ∀ (v57 : IVec S16 32) (v107 : IVec S16 32) (k1_hw12 : k1_chk12 v57 v107), ∀ a x, ((![v57, v107] : Fin 2 → IVec S16 32) a x).toNat < S40x128.size a := fun v57 v107 k1_hw12 => k1_hw12
def k1_off13 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v108 : Index := Scalar.indexCast v55
  let c32 : Index := 32#32
  ![v108.toNat, 32]

def k1_chk13 (v109 : IVec S16 32) : Prop :=
  (∀ a x, ((![v109] : Fin 1 → IVec S16 32) a x).toNat < S25600.size a)
instance k1_chk13.dec : ∀ (v109 : IVec S16 32), Decidable (k1_chk13 v109) := fun v109 => decidable_of_iff' _ (Iff.of_eq (k1_chk13.eq_1 v109))
theorem k1_idx13_inb : ∀ (v109 : IVec S16 32) (k1_hw13 : k1_chk13 v109), ∀ a x, ((![v109] : Fin 1 → IVec S16 32) a x).toNat < S25600.size a := fun v109 k1_hw13 => k1_hw13
def k1_off14 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_75 : BitVec 32 := 1#32
  let v111 : BitVec 32 := Scalar.addi v55 c1_i32_75
  let v112 : Index := Scalar.indexCast v111
  let c32_76 : Index := 32#32
  ![v112.toNat, 32]

def k1_chk14 (v113 : IVec S16 32) : Prop :=
  (∀ a x, ((![v113] : Fin 1 → IVec S16 32) a x).toNat < S25600.size a)
instance k1_chk14.dec : ∀ (v113 : IVec S16 32), Decidable (k1_chk14 v113) := fun v113 => decidable_of_iff' _ (Iff.of_eq (k1_chk14.eq_1 v113))
theorem k1_idx14_inb : ∀ (v113 : IVec S16 32) (k1_hw14 : k1_chk14 v113), ∀ a x, ((![v113] : Fin 1 → IVec S16 32) a x).toNat < S25600.size a := fun v113 k1_hw14 => k1_hw14
def k1_off15 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_77 : BitVec 32 := 2#32
  let v116 : BitVec 32 := Scalar.addi v55 c2_i32_77
  let v117 : Index := Scalar.indexCast v116
  let c32_78 : Index := 32#32
  ![v117.toNat, 32]

def k1_chk15 (v118 : IVec S16 32) : Prop :=
  (∀ a x, ((![v118] : Fin 1 → IVec S16 32) a x).toNat < S25600.size a)
instance k1_chk15.dec : ∀ (v118 : IVec S16 32), Decidable (k1_chk15 v118) := fun v118 => decidable_of_iff' _ (Iff.of_eq (k1_chk15.eq_1 v118))
theorem k1_idx15_inb : ∀ (v118 : IVec S16 32) (k1_hw15 : k1_chk15 v118), ∀ a x, ((![v118] : Fin 1 → IVec S16 32) a x).toNat < S25600.size a := fun v118 k1_hw15 => k1_hw15
def k1_off16 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_79 : BitVec 32 := 3#32
  let v121 : BitVec 32 := Scalar.addi v55 c3_i32_79
  let v122 : Index := Scalar.indexCast v121
  let c32_80 : Index := 32#32
  ![v122.toNat, 32]

def k1_chk16 (v123 : IVec S16 32) : Prop :=
  (∀ a x, ((![v123] : Fin 1 → IVec S16 32) a x).toNat < S25600.size a)
instance k1_chk16.dec : ∀ (v123 : IVec S16 32), Decidable (k1_chk16 v123) := fun v123 => decidable_of_iff' _ (Iff.of_eq (k1_chk16.eq_1 v123))
theorem k1_idx16_inb : ∀ (v123 : IVec S16 32) (k1_hw16 : k1_chk16 v123), ∀ a x, ((![v123] : Fin 1 → IVec S16 32) a x).toNat < S25600.size a := fun v123 k1_hw16 => k1_hw16
def k1_off17 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_81 : BitVec 32 := 4#32
  let v126 : BitVec 32 := Scalar.addi v55 c4_i32_81
  let v127 : Index := Scalar.indexCast v126
  let c32_82 : Index := 32#32
  ![v127.toNat, 32]

def k1_chk17 (v128 : IVec S16 32) : Prop :=
  (∀ a x, ((![v128] : Fin 1 → IVec S16 32) a x).toNat < S25600.size a)
instance k1_chk17.dec : ∀ (v128 : IVec S16 32), Decidable (k1_chk17 v128) := fun v128 => decidable_of_iff' _ (Iff.of_eq (k1_chk17.eq_1 v128))
theorem k1_idx17_inb : ∀ (v128 : IVec S16 32) (k1_hw17 : k1_chk17 v128), ∀ a x, ((![v128] : Fin 1 → IVec S16 32) a x).toNat < S25600.size a := fun v128 k1_hw17 => k1_hw17

def k1_chk18 (v57 : IVec S16 32) (v132 : IVec S16 32) : Prop :=
  (∀ a x, ((![v57, v132] : Fin 2 → IVec S16 32) a x).toNat < S40x128.size a)
instance k1_chk18.dec : ∀ (v57 : IVec S16 32) (v132 : IVec S16 32), Decidable (k1_chk18 v57 v132) := fun v57 v132 => decidable_of_iff' _ (Iff.of_eq (k1_chk18.eq_1 v57 v132))
theorem k1_idx18_inb : ∀ (v57 : IVec S16 32) (v132 : IVec S16 32) (k1_hw18 : k1_chk18 v57 v132), ∀ a x, ((![v57, v132] : Fin 2 → IVec S16 32) a x).toNat < S40x128.size a := fun v57 v132 k1_hw18 => k1_hw18
def k1_off18 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v133 : Index := Scalar.indexCast v55
  let c48 : Index := 48#32
  ![v133.toNat, 48]

def k1_chk19 (v134 : IVec S16 32) : Prop :=
  (∀ a x, ((![v134] : Fin 1 → IVec S16 32) a x).toNat < S25600.size a)
instance k1_chk19.dec : ∀ (v134 : IVec S16 32), Decidable (k1_chk19 v134) := fun v134 => decidable_of_iff' _ (Iff.of_eq (k1_chk19.eq_1 v134))
theorem k1_idx19_inb : ∀ (v134 : IVec S16 32) (k1_hw19 : k1_chk19 v134), ∀ a x, ((![v134] : Fin 1 → IVec S16 32) a x).toNat < S25600.size a := fun v134 k1_hw19 => k1_hw19
def k1_off19 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_83 : BitVec 32 := 1#32
  let v136 : BitVec 32 := Scalar.addi v55 c1_i32_83
  let v137 : Index := Scalar.indexCast v136
  let c48_84 : Index := 48#32
  ![v137.toNat, 48]

def k1_chk20 (v138 : IVec S16 32) : Prop :=
  (∀ a x, ((![v138] : Fin 1 → IVec S16 32) a x).toNat < S25600.size a)
instance k1_chk20.dec : ∀ (v138 : IVec S16 32), Decidable (k1_chk20 v138) := fun v138 => decidable_of_iff' _ (Iff.of_eq (k1_chk20.eq_1 v138))
theorem k1_idx20_inb : ∀ (v138 : IVec S16 32) (k1_hw20 : k1_chk20 v138), ∀ a x, ((![v138] : Fin 1 → IVec S16 32) a x).toNat < S25600.size a := fun v138 k1_hw20 => k1_hw20
def k1_off20 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_85 : BitVec 32 := 2#32
  let v141 : BitVec 32 := Scalar.addi v55 c2_i32_85
  let v142 : Index := Scalar.indexCast v141
  let c48_86 : Index := 48#32
  ![v142.toNat, 48]

def k1_chk21 (v143 : IVec S16 32) : Prop :=
  (∀ a x, ((![v143] : Fin 1 → IVec S16 32) a x).toNat < S25600.size a)
instance k1_chk21.dec : ∀ (v143 : IVec S16 32), Decidable (k1_chk21 v143) := fun v143 => decidable_of_iff' _ (Iff.of_eq (k1_chk21.eq_1 v143))
theorem k1_idx21_inb : ∀ (v143 : IVec S16 32) (k1_hw21 : k1_chk21 v143), ∀ a x, ((![v143] : Fin 1 → IVec S16 32) a x).toNat < S25600.size a := fun v143 k1_hw21 => k1_hw21
def k1_off21 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_87 : BitVec 32 := 3#32
  let v146 : BitVec 32 := Scalar.addi v55 c3_i32_87
  let v147 : Index := Scalar.indexCast v146
  let c48_88 : Index := 48#32
  ![v147.toNat, 48]

def k1_chk22 (v148 : IVec S16 32) : Prop :=
  (∀ a x, ((![v148] : Fin 1 → IVec S16 32) a x).toNat < S25600.size a)
instance k1_chk22.dec : ∀ (v148 : IVec S16 32), Decidable (k1_chk22 v148) := fun v148 => decidable_of_iff' _ (Iff.of_eq (k1_chk22.eq_1 v148))
theorem k1_idx22_inb : ∀ (v148 : IVec S16 32) (k1_hw22 : k1_chk22 v148), ∀ a x, ((![v148] : Fin 1 → IVec S16 32) a x).toNat < S25600.size a := fun v148 k1_hw22 => k1_hw22
def k1_off22 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_89 : BitVec 32 := 4#32
  let v151 : BitVec 32 := Scalar.addi v55 c4_i32_89
  let v152 : Index := Scalar.indexCast v151
  let c48_90 : Index := 48#32
  ![v152.toNat, 48]

def k1_chk23 (v153 : IVec S16 32) : Prop :=
  (∀ a x, ((![v153] : Fin 1 → IVec S16 32) a x).toNat < S25600.size a)
instance k1_chk23.dec : ∀ (v153 : IVec S16 32), Decidable (k1_chk23 v153) := fun v153 => decidable_of_iff' _ (Iff.of_eq (k1_chk23.eq_1 v153))
theorem k1_idx23_inb : ∀ (v153 : IVec S16 32) (k1_hw23 : k1_chk23 v153), ∀ a x, ((![v153] : Fin 1 → IVec S16 32) a x).toNat < S25600.size a := fun v153 k1_hw23 => k1_hw23

def k1_chk24 (v57 : IVec S16 32) (v157 : IVec S16 32) : Prop :=
  (∀ a x, ((![v57, v157] : Fin 2 → IVec S16 32) a x).toNat < S40x128.size a)
instance k1_chk24.dec : ∀ (v57 : IVec S16 32) (v157 : IVec S16 32), Decidable (k1_chk24 v57 v157) := fun v57 v157 => decidable_of_iff' _ (Iff.of_eq (k1_chk24.eq_1 v57 v157))
theorem k1_idx24_inb : ∀ (v57 : IVec S16 32) (v157 : IVec S16 32) (k1_hw24 : k1_chk24 v57 v157), ∀ a x, ((![v57, v157] : Fin 2 → IVec S16 32) a x).toNat < S40x128.size a := fun v57 v157 k1_hw24 => k1_hw24
def k1_off23 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v158 : Index := Scalar.indexCast v55
  let c64 : Index := 64#32
  ![v158.toNat, 64]

def k1_chk25 (v159 : IVec S16 32) : Prop :=
  (∀ a x, ((![v159] : Fin 1 → IVec S16 32) a x).toNat < S25600.size a)
instance k1_chk25.dec : ∀ (v159 : IVec S16 32), Decidable (k1_chk25 v159) := fun v159 => decidable_of_iff' _ (Iff.of_eq (k1_chk25.eq_1 v159))
theorem k1_idx25_inb : ∀ (v159 : IVec S16 32) (k1_hw25 : k1_chk25 v159), ∀ a x, ((![v159] : Fin 1 → IVec S16 32) a x).toNat < S25600.size a := fun v159 k1_hw25 => k1_hw25
def k1_off24 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_91 : BitVec 32 := 1#32
  let v161 : BitVec 32 := Scalar.addi v55 c1_i32_91
  let v162 : Index := Scalar.indexCast v161
  let c64_92 : Index := 64#32
  ![v162.toNat, 64]

def k1_chk26 (v163 : IVec S16 32) : Prop :=
  (∀ a x, ((![v163] : Fin 1 → IVec S16 32) a x).toNat < S25600.size a)
instance k1_chk26.dec : ∀ (v163 : IVec S16 32), Decidable (k1_chk26 v163) := fun v163 => decidable_of_iff' _ (Iff.of_eq (k1_chk26.eq_1 v163))
theorem k1_idx26_inb : ∀ (v163 : IVec S16 32) (k1_hw26 : k1_chk26 v163), ∀ a x, ((![v163] : Fin 1 → IVec S16 32) a x).toNat < S25600.size a := fun v163 k1_hw26 => k1_hw26
def k1_off25 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_93 : BitVec 32 := 2#32
  let v166 : BitVec 32 := Scalar.addi v55 c2_i32_93
  let v167 : Index := Scalar.indexCast v166
  let c64_94 : Index := 64#32
  ![v167.toNat, 64]

def k1_chk27 (v168 : IVec S16 32) : Prop :=
  (∀ a x, ((![v168] : Fin 1 → IVec S16 32) a x).toNat < S25600.size a)
instance k1_chk27.dec : ∀ (v168 : IVec S16 32), Decidable (k1_chk27 v168) := fun v168 => decidable_of_iff' _ (Iff.of_eq (k1_chk27.eq_1 v168))
theorem k1_idx27_inb : ∀ (v168 : IVec S16 32) (k1_hw27 : k1_chk27 v168), ∀ a x, ((![v168] : Fin 1 → IVec S16 32) a x).toNat < S25600.size a := fun v168 k1_hw27 => k1_hw27
def k1_off26 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_95 : BitVec 32 := 3#32
  let v171 : BitVec 32 := Scalar.addi v55 c3_i32_95
  let v172 : Index := Scalar.indexCast v171
  let c64_96 : Index := 64#32
  ![v172.toNat, 64]

def k1_chk28 (v173 : IVec S16 32) : Prop :=
  (∀ a x, ((![v173] : Fin 1 → IVec S16 32) a x).toNat < S25600.size a)
instance k1_chk28.dec : ∀ (v173 : IVec S16 32), Decidable (k1_chk28 v173) := fun v173 => decidable_of_iff' _ (Iff.of_eq (k1_chk28.eq_1 v173))
theorem k1_idx28_inb : ∀ (v173 : IVec S16 32) (k1_hw28 : k1_chk28 v173), ∀ a x, ((![v173] : Fin 1 → IVec S16 32) a x).toNat < S25600.size a := fun v173 k1_hw28 => k1_hw28
def k1_off27 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_97 : BitVec 32 := 4#32
  let v176 : BitVec 32 := Scalar.addi v55 c4_i32_97
  let v177 : Index := Scalar.indexCast v176
  let c64_98 : Index := 64#32
  ![v177.toNat, 64]

def k1_chk29 (v178 : IVec S16 32) : Prop :=
  (∀ a x, ((![v178] : Fin 1 → IVec S16 32) a x).toNat < S25600.size a)
instance k1_chk29.dec : ∀ (v178 : IVec S16 32), Decidable (k1_chk29 v178) := fun v178 => decidable_of_iff' _ (Iff.of_eq (k1_chk29.eq_1 v178))
theorem k1_idx29_inb : ∀ (v178 : IVec S16 32) (k1_hw29 : k1_chk29 v178), ∀ a x, ((![v178] : Fin 1 → IVec S16 32) a x).toNat < S25600.size a := fun v178 k1_hw29 => k1_hw29

def k1_chk30 (v57 : IVec S16 32) (v182 : IVec S16 32) : Prop :=
  (∀ a x, ((![v57, v182] : Fin 2 → IVec S16 32) a x).toNat < S40x128.size a)
instance k1_chk30.dec : ∀ (v57 : IVec S16 32) (v182 : IVec S16 32), Decidable (k1_chk30 v57 v182) := fun v57 v182 => decidable_of_iff' _ (Iff.of_eq (k1_chk30.eq_1 v57 v182))
theorem k1_idx30_inb : ∀ (v57 : IVec S16 32) (v182 : IVec S16 32) (k1_hw30 : k1_chk30 v57 v182), ∀ a x, ((![v57, v182] : Fin 2 → IVec S16 32) a x).toNat < S40x128.size a := fun v57 v182 k1_hw30 => k1_hw30
def k1_off28 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v183 : Index := Scalar.indexCast v55
  let c80 : Index := 80#32
  ![v183.toNat, 80]

def k1_chk31 (v184 : IVec S16 32) : Prop :=
  (∀ a x, ((![v184] : Fin 1 → IVec S16 32) a x).toNat < S25600.size a)
instance k1_chk31.dec : ∀ (v184 : IVec S16 32), Decidable (k1_chk31 v184) := fun v184 => decidable_of_iff' _ (Iff.of_eq (k1_chk31.eq_1 v184))
theorem k1_idx31_inb : ∀ (v184 : IVec S16 32) (k1_hw31 : k1_chk31 v184), ∀ a x, ((![v184] : Fin 1 → IVec S16 32) a x).toNat < S25600.size a := fun v184 k1_hw31 => k1_hw31
def k1_off29 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_99 : BitVec 32 := 1#32
  let v186 : BitVec 32 := Scalar.addi v55 c1_i32_99
  let v187 : Index := Scalar.indexCast v186
  let c80_100 : Index := 80#32
  ![v187.toNat, 80]

def k1_chk32 (v188 : IVec S16 32) : Prop :=
  (∀ a x, ((![v188] : Fin 1 → IVec S16 32) a x).toNat < S25600.size a)
instance k1_chk32.dec : ∀ (v188 : IVec S16 32), Decidable (k1_chk32 v188) := fun v188 => decidable_of_iff' _ (Iff.of_eq (k1_chk32.eq_1 v188))
theorem k1_idx32_inb : ∀ (v188 : IVec S16 32) (k1_hw32 : k1_chk32 v188), ∀ a x, ((![v188] : Fin 1 → IVec S16 32) a x).toNat < S25600.size a := fun v188 k1_hw32 => k1_hw32
def k1_off30 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_101 : BitVec 32 := 2#32
  let v191 : BitVec 32 := Scalar.addi v55 c2_i32_101
  let v192 : Index := Scalar.indexCast v191
  let c80_102 : Index := 80#32
  ![v192.toNat, 80]

def k1_chk33 (v193 : IVec S16 32) : Prop :=
  (∀ a x, ((![v193] : Fin 1 → IVec S16 32) a x).toNat < S25600.size a)
instance k1_chk33.dec : ∀ (v193 : IVec S16 32), Decidable (k1_chk33 v193) := fun v193 => decidable_of_iff' _ (Iff.of_eq (k1_chk33.eq_1 v193))
theorem k1_idx33_inb : ∀ (v193 : IVec S16 32) (k1_hw33 : k1_chk33 v193), ∀ a x, ((![v193] : Fin 1 → IVec S16 32) a x).toNat < S25600.size a := fun v193 k1_hw33 => k1_hw33
def k1_off31 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_103 : BitVec 32 := 3#32
  let v196 : BitVec 32 := Scalar.addi v55 c3_i32_103
  let v197 : Index := Scalar.indexCast v196
  let c80_104 : Index := 80#32
  ![v197.toNat, 80]

def k1_chk34 (v198 : IVec S16 32) : Prop :=
  (∀ a x, ((![v198] : Fin 1 → IVec S16 32) a x).toNat < S25600.size a)
instance k1_chk34.dec : ∀ (v198 : IVec S16 32), Decidable (k1_chk34 v198) := fun v198 => decidable_of_iff' _ (Iff.of_eq (k1_chk34.eq_1 v198))
theorem k1_idx34_inb : ∀ (v198 : IVec S16 32) (k1_hw34 : k1_chk34 v198), ∀ a x, ((![v198] : Fin 1 → IVec S16 32) a x).toNat < S25600.size a := fun v198 k1_hw34 => k1_hw34
def k1_off32 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_105 : BitVec 32 := 4#32
  let v201 : BitVec 32 := Scalar.addi v55 c4_i32_105
  let v202 : Index := Scalar.indexCast v201
  let c80_106 : Index := 80#32
  ![v202.toNat, 80]

def k1_chk35 (v203 : IVec S16 32) : Prop :=
  (∀ a x, ((![v203] : Fin 1 → IVec S16 32) a x).toNat < S25600.size a)
instance k1_chk35.dec : ∀ (v203 : IVec S16 32), Decidable (k1_chk35 v203) := fun v203 => decidable_of_iff' _ (Iff.of_eq (k1_chk35.eq_1 v203))
theorem k1_idx35_inb : ∀ (v203 : IVec S16 32) (k1_hw35 : k1_chk35 v203), ∀ a x, ((![v203] : Fin 1 → IVec S16 32) a x).toNat < S25600.size a := fun v203 k1_hw35 => k1_hw35

def k1_chk36 (v57 : IVec S16 32) (v207 : IVec S16 32) : Prop :=
  (∀ a x, ((![v57, v207] : Fin 2 → IVec S16 32) a x).toNat < S40x128.size a)
instance k1_chk36.dec : ∀ (v57 : IVec S16 32) (v207 : IVec S16 32), Decidable (k1_chk36 v57 v207) := fun v57 v207 => decidable_of_iff' _ (Iff.of_eq (k1_chk36.eq_1 v57 v207))
theorem k1_idx36_inb : ∀ (v57 : IVec S16 32) (v207 : IVec S16 32) (k1_hw36 : k1_chk36 v57 v207), ∀ a x, ((![v57, v207] : Fin 2 → IVec S16 32) a x).toNat < S40x128.size a := fun v57 v207 k1_hw36 => k1_hw36
def k1_off33 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v208 : Index := Scalar.indexCast v55
  let c96 : Index := 96#32
  ![v208.toNat, 96]

def k1_chk37 (v209 : IVec S16 32) : Prop :=
  (∀ a x, ((![v209] : Fin 1 → IVec S16 32) a x).toNat < S25600.size a)
instance k1_chk37.dec : ∀ (v209 : IVec S16 32), Decidable (k1_chk37 v209) := fun v209 => decidable_of_iff' _ (Iff.of_eq (k1_chk37.eq_1 v209))
theorem k1_idx37_inb : ∀ (v209 : IVec S16 32) (k1_hw37 : k1_chk37 v209), ∀ a x, ((![v209] : Fin 1 → IVec S16 32) a x).toNat < S25600.size a := fun v209 k1_hw37 => k1_hw37
def k1_off34 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_107 : BitVec 32 := 1#32
  let v211 : BitVec 32 := Scalar.addi v55 c1_i32_107
  let v212 : Index := Scalar.indexCast v211
  let c96_108 : Index := 96#32
  ![v212.toNat, 96]

def k1_chk38 (v213 : IVec S16 32) : Prop :=
  (∀ a x, ((![v213] : Fin 1 → IVec S16 32) a x).toNat < S25600.size a)
instance k1_chk38.dec : ∀ (v213 : IVec S16 32), Decidable (k1_chk38 v213) := fun v213 => decidable_of_iff' _ (Iff.of_eq (k1_chk38.eq_1 v213))
theorem k1_idx38_inb : ∀ (v213 : IVec S16 32) (k1_hw38 : k1_chk38 v213), ∀ a x, ((![v213] : Fin 1 → IVec S16 32) a x).toNat < S25600.size a := fun v213 k1_hw38 => k1_hw38
def k1_off35 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_109 : BitVec 32 := 2#32
  let v216 : BitVec 32 := Scalar.addi v55 c2_i32_109
  let v217 : Index := Scalar.indexCast v216
  let c96_110 : Index := 96#32
  ![v217.toNat, 96]

def k1_chk39 (v218 : IVec S16 32) : Prop :=
  (∀ a x, ((![v218] : Fin 1 → IVec S16 32) a x).toNat < S25600.size a)
instance k1_chk39.dec : ∀ (v218 : IVec S16 32), Decidable (k1_chk39 v218) := fun v218 => decidable_of_iff' _ (Iff.of_eq (k1_chk39.eq_1 v218))
theorem k1_idx39_inb : ∀ (v218 : IVec S16 32) (k1_hw39 : k1_chk39 v218), ∀ a x, ((![v218] : Fin 1 → IVec S16 32) a x).toNat < S25600.size a := fun v218 k1_hw39 => k1_hw39
def k1_off36 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_111 : BitVec 32 := 3#32
  let v221 : BitVec 32 := Scalar.addi v55 c3_i32_111
  let v222 : Index := Scalar.indexCast v221
  let c96_112 : Index := 96#32
  ![v222.toNat, 96]

def k1_chk40 (v223 : IVec S16 32) : Prop :=
  (∀ a x, ((![v223] : Fin 1 → IVec S16 32) a x).toNat < S25600.size a)
instance k1_chk40.dec : ∀ (v223 : IVec S16 32), Decidable (k1_chk40 v223) := fun v223 => decidable_of_iff' _ (Iff.of_eq (k1_chk40.eq_1 v223))
theorem k1_idx40_inb : ∀ (v223 : IVec S16 32) (k1_hw40 : k1_chk40 v223), ∀ a x, ((![v223] : Fin 1 → IVec S16 32) a x).toNat < S25600.size a := fun v223 k1_hw40 => k1_hw40
def k1_off37 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_113 : BitVec 32 := 4#32
  let v226 : BitVec 32 := Scalar.addi v55 c4_i32_113
  let v227 : Index := Scalar.indexCast v226
  let c96_114 : Index := 96#32
  ![v227.toNat, 96]

def k1_chk41 (v228 : IVec S16 32) : Prop :=
  (∀ a x, ((![v228] : Fin 1 → IVec S16 32) a x).toNat < S25600.size a)
instance k1_chk41.dec : ∀ (v228 : IVec S16 32), Decidable (k1_chk41 v228) := fun v228 => decidable_of_iff' _ (Iff.of_eq (k1_chk41.eq_1 v228))
theorem k1_idx41_inb : ∀ (v228 : IVec S16 32) (k1_hw41 : k1_chk41 v228), ∀ a x, ((![v228] : Fin 1 → IVec S16 32) a x).toNat < S25600.size a := fun v228 k1_hw41 => k1_hw41

def k1_chk42 (v57 : IVec S16 32) (v232 : IVec S16 32) : Prop :=
  (∀ a x, ((![v57, v232] : Fin 2 → IVec S16 32) a x).toNat < S40x128.size a)
instance k1_chk42.dec : ∀ (v57 : IVec S16 32) (v232 : IVec S16 32), Decidable (k1_chk42 v57 v232) := fun v57 v232 => decidable_of_iff' _ (Iff.of_eq (k1_chk42.eq_1 v57 v232))
theorem k1_idx42_inb : ∀ (v57 : IVec S16 32) (v232 : IVec S16 32) (k1_hw42 : k1_chk42 v57 v232), ∀ a x, ((![v57, v232] : Fin 2 → IVec S16 32) a x).toNat < S40x128.size a := fun v57 v232 k1_hw42 => k1_hw42
def k1_off38 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let v233 : Index := Scalar.indexCast v55
  let c112 : Index := 112#32
  ![v233.toNat, 112]

def k1_chk43 (v234 : IVec S16 32) : Prop :=
  (∀ a x, ((![v234] : Fin 1 → IVec S16 32) a x).toNat < S25600.size a)
instance k1_chk43.dec : ∀ (v234 : IVec S16 32), Decidable (k1_chk43 v234) := fun v234 => decidable_of_iff' _ (Iff.of_eq (k1_chk43.eq_1 v234))
theorem k1_idx43_inb : ∀ (v234 : IVec S16 32) (k1_hw43 : k1_chk43 v234), ∀ a x, ((![v234] : Fin 1 → IVec S16 32) a x).toNat < S25600.size a := fun v234 k1_hw43 => k1_hw43
def k1_off39 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c1_i32_115 : BitVec 32 := 1#32
  let v236 : BitVec 32 := Scalar.addi v55 c1_i32_115
  let v237 : Index := Scalar.indexCast v236
  let c112_116 : Index := 112#32
  ![v237.toNat, 112]

def k1_chk44 (v238 : IVec S16 32) : Prop :=
  (∀ a x, ((![v238] : Fin 1 → IVec S16 32) a x).toNat < S25600.size a)
instance k1_chk44.dec : ∀ (v238 : IVec S16 32), Decidable (k1_chk44 v238) := fun v238 => decidable_of_iff' _ (Iff.of_eq (k1_chk44.eq_1 v238))
theorem k1_idx44_inb : ∀ (v238 : IVec S16 32) (k1_hw44 : k1_chk44 v238), ∀ a x, ((![v238] : Fin 1 → IVec S16 32) a x).toNat < S25600.size a := fun v238 k1_hw44 => k1_hw44
def k1_off40 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c2_i32_117 : BitVec 32 := 2#32
  let v241 : BitVec 32 := Scalar.addi v55 c2_i32_117
  let v242 : Index := Scalar.indexCast v241
  let c112_118 : Index := 112#32
  ![v242.toNat, 112]

def k1_chk45 (v243 : IVec S16 32) : Prop :=
  (∀ a x, ((![v243] : Fin 1 → IVec S16 32) a x).toNat < S25600.size a)
instance k1_chk45.dec : ∀ (v243 : IVec S16 32), Decidable (k1_chk45 v243) := fun v243 => decidable_of_iff' _ (Iff.of_eq (k1_chk45.eq_1 v243))
theorem k1_idx45_inb : ∀ (v243 : IVec S16 32) (k1_hw45 : k1_chk45 v243), ∀ a x, ((![v243] : Fin 1 → IVec S16 32) a x).toNat < S25600.size a := fun v243 k1_hw45 => k1_hw45
def k1_off41 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c3_i32_119 : BitVec 32 := 3#32
  let v246 : BitVec 32 := Scalar.addi v55 c3_i32_119
  let v247 : Index := Scalar.indexCast v246
  let c112_120 : Index := 112#32
  ![v247.toNat, 112]

def k1_chk46 (v248 : IVec S16 32) : Prop :=
  (∀ a x, ((![v248] : Fin 1 → IVec S16 32) a x).toNat < S25600.size a)
instance k1_chk46.dec : ∀ (v248 : IVec S16 32), Decidable (k1_chk46 v248) := fun v248 => decidable_of_iff' _ (Iff.of_eq (k1_chk46.eq_1 v248))
theorem k1_idx46_inb : ∀ (v248 : IVec S16 32) (k1_hw46 : k1_chk46 v248), ∀ a x, ((![v248] : Fin 1 → IVec S16 32) a x).toNat < S25600.size a := fun v248 k1_hw46 => k1_hw46
def k1_off42 (k1_t1 : Fin k1_t1_loop.trips) : Fin 2 → Nat :=
  let c0_i32_47 : BitVec 32 := 0#32
  let c1_i32 : BitVec 32 := 1#32
  let arg11 : BitVec 32 := Scf.iv c0_i32_47 c1_i32 k1_t1
  let c5_i32 : BitVec 32 := 5#32
  let v55 : BitVec 32 := Scalar.muli arg11 c5_i32
  let c4_i32_121 : BitVec 32 := 4#32
  let v251 : BitVec 32 := Scalar.addi v55 c4_i32_121
  let v252 : Index := Scalar.indexCast v251
  let c112_122 : Index := 112#32
  ![v252.toNat, 112]

def k1_chk47 (v253 : IVec S16 32) : Prop :=
  (∀ a x, ((![v253] : Fin 1 → IVec S16 32) a x).toNat < S25600.size a)
instance k1_chk47.dec : ∀ (v253 : IVec S16 32), Decidable (k1_chk47 v253) := fun v253 => decidable_of_iff' _ (Iff.of_eq (k1_chk47.eq_1 v253))
theorem k1_idx47_inb : ∀ (v253 : IVec S16 32) (k1_hw47 : k1_chk47 v253), ∀ a x, ((![v253] : Fin 1 → IVec S16 32) a x).toNat < S25600.size a := fun v253 k1_hw47 => k1_hw47

def k1_chk48 (v57 : IVec S16 32) (v257 : IVec S16 32) : Prop :=
  (∀ a x, ((![v57, v257] : Fin 2 → IVec S16 32) a x).toNat < S40x128.size a)
instance k1_chk48.dec : ∀ (v57 : IVec S16 32) (v257 : IVec S16 32), Decidable (k1_chk48 v57 v257) := fun v57 v257 => decidable_of_iff' _ (Iff.of_eq (k1_chk48.eq_1 v57 v257))
theorem k1_idx48_inb : ∀ (v57 : IVec S16 32) (v257 : IVec S16 32) (k1_hw48 : k1_chk48 v57 v257), ∀ a x, ((![v57, v257] : Fin 2 → IVec S16 32) a x).toNat < S40x128.size a := fun v57 v257 k1_hw48 => k1_hw48
@[reducible] def k1_t2_loop : Scf.Loop 32 :=
  let c24_i32_56 : BitVec 32 := 24#32
  let c16_i32 : BitVec 32 := 16#32
  let v54 : BitVec 32 := Scalar.addi c24_i32_56 c16_i32
  let c1_i32_57 : BitVec 32 := 1#32
  ⟨c24_i32_56, v54, c1_i32_57⟩
def k1_off43 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v58 : Index := Scalar.indexCast v55
  let c0 : Index := 0#32
  ![v58.toNat, 0]

def k1_chk49 (v59 : IVec S16 32) : Prop :=
  (∀ a x, ((![v59] : Fin 1 → IVec S16 32) a x).toNat < S25600.size a)
instance k1_chk49.dec : ∀ (v59 : IVec S16 32), Decidable (k1_chk49 v59) := fun v59 => decidable_of_iff' _ (Iff.of_eq (k1_chk49.eq_1 v59))
theorem k1_idx49_inb : ∀ (v59 : IVec S16 32) (k1_hw49 : k1_chk49 v59), ∀ a x, ((![v59] : Fin 1 → IVec S16 32) a x).toNat < S25600.size a := fun v59 k1_hw49 => k1_hw49
def k1_off44 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_59 : BitVec 32 := 1#32
  let v61 : BitVec 32 := Scalar.addi v55 c1_i32_59
  let v62 : Index := Scalar.indexCast v61
  let c0_60 : Index := 0#32
  ![v62.toNat, 0]

def k1_chk50 (v63 : IVec S16 32) : Prop :=
  (∀ a x, ((![v63] : Fin 1 → IVec S16 32) a x).toNat < S25600.size a)
instance k1_chk50.dec : ∀ (v63 : IVec S16 32), Decidable (k1_chk50 v63) := fun v63 => decidable_of_iff' _ (Iff.of_eq (k1_chk50.eq_1 v63))
theorem k1_idx50_inb : ∀ (v63 : IVec S16 32) (k1_hw50 : k1_chk50 v63), ∀ a x, ((![v63] : Fin 1 → IVec S16 32) a x).toNat < S25600.size a := fun v63 k1_hw50 => k1_hw50
def k1_off45 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_61 : BitVec 32 := 2#32
  let v66 : BitVec 32 := Scalar.addi v55 c2_i32_61
  let v67 : Index := Scalar.indexCast v66
  let c0_62 : Index := 0#32
  ![v67.toNat, 0]

def k1_chk51 (v68 : IVec S16 32) : Prop :=
  (∀ a x, ((![v68] : Fin 1 → IVec S16 32) a x).toNat < S25600.size a)
instance k1_chk51.dec : ∀ (v68 : IVec S16 32), Decidable (k1_chk51 v68) := fun v68 => decidable_of_iff' _ (Iff.of_eq (k1_chk51.eq_1 v68))
theorem k1_idx51_inb : ∀ (v68 : IVec S16 32) (k1_hw51 : k1_chk51 v68), ∀ a x, ((![v68] : Fin 1 → IVec S16 32) a x).toNat < S25600.size a := fun v68 k1_hw51 => k1_hw51
def k1_off46 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32 : BitVec 32 := 3#32
  let v71 : BitVec 32 := Scalar.addi v55 c3_i32
  let v72 : Index := Scalar.indexCast v71
  let c0_63 : Index := 0#32
  ![v72.toNat, 0]

def k1_chk52 (v73 : IVec S16 32) : Prop :=
  (∀ a x, ((![v73] : Fin 1 → IVec S16 32) a x).toNat < S25600.size a)
instance k1_chk52.dec : ∀ (v73 : IVec S16 32), Decidable (k1_chk52 v73) := fun v73 => decidable_of_iff' _ (Iff.of_eq (k1_chk52.eq_1 v73))
theorem k1_idx52_inb : ∀ (v73 : IVec S16 32) (k1_hw52 : k1_chk52 v73), ∀ a x, ((![v73] : Fin 1 → IVec S16 32) a x).toNat < S25600.size a := fun v73 k1_hw52 => k1_hw52
def k1_off47 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32 : BitVec 32 := 4#32
  let v76 : BitVec 32 := Scalar.addi v55 c4_i32
  let v77 : Index := Scalar.indexCast v76
  let c0_64 : Index := 0#32
  ![v77.toNat, 0]

def k1_chk53 (v78 : IVec S16 32) : Prop :=
  (∀ a x, ((![v78] : Fin 1 → IVec S16 32) a x).toNat < S25600.size a)
instance k1_chk53.dec : ∀ (v78 : IVec S16 32), Decidable (k1_chk53 v78) := fun v78 => decidable_of_iff' _ (Iff.of_eq (k1_chk53.eq_1 v78))
theorem k1_idx53_inb : ∀ (v78 : IVec S16 32) (k1_hw53 : k1_chk53 v78), ∀ a x, ((![v78] : Fin 1 → IVec S16 32) a x).toNat < S25600.size a := fun v78 k1_hw53 => k1_hw53

def k1_chk54 (v57 : IVec S16 32) (v82 : IVec S16 32) : Prop :=
  (∀ a x, ((![v57, v82] : Fin 2 → IVec S16 32) a x).toNat < S40x128.size a)
instance k1_chk54.dec : ∀ (v57 : IVec S16 32) (v82 : IVec S16 32), Decidable (k1_chk54 v57 v82) := fun v57 v82 => decidable_of_iff' _ (Iff.of_eq (k1_chk54.eq_1 v57 v82))
theorem k1_idx54_inb : ∀ (v57 : IVec S16 32) (v82 : IVec S16 32) (k1_hw54 : k1_chk54 v57 v82), ∀ a x, ((![v57, v82] : Fin 2 → IVec S16 32) a x).toNat < S40x128.size a := fun v57 v82 k1_hw54 => k1_hw54
def k1_off48 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v83 : Index := Scalar.indexCast v55
  let c16 : Index := 16#32
  ![v83.toNat, 16]

def k1_chk55 (v84 : IVec S16 32) : Prop :=
  (∀ a x, ((![v84] : Fin 1 → IVec S16 32) a x).toNat < S25600.size a)
instance k1_chk55.dec : ∀ (v84 : IVec S16 32), Decidable (k1_chk55 v84) := fun v84 => decidable_of_iff' _ (Iff.of_eq (k1_chk55.eq_1 v84))
theorem k1_idx55_inb : ∀ (v84 : IVec S16 32) (k1_hw55 : k1_chk55 v84), ∀ a x, ((![v84] : Fin 1 → IVec S16 32) a x).toNat < S25600.size a := fun v84 k1_hw55 => k1_hw55
def k1_off49 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_66 : BitVec 32 := 1#32
  let v86 : BitVec 32 := Scalar.addi v55 c1_i32_66
  let v87 : Index := Scalar.indexCast v86
  let c16_67 : Index := 16#32
  ![v87.toNat, 16]

def k1_chk56 (v88 : IVec S16 32) : Prop :=
  (∀ a x, ((![v88] : Fin 1 → IVec S16 32) a x).toNat < S25600.size a)
instance k1_chk56.dec : ∀ (v88 : IVec S16 32), Decidable (k1_chk56 v88) := fun v88 => decidable_of_iff' _ (Iff.of_eq (k1_chk56.eq_1 v88))
theorem k1_idx56_inb : ∀ (v88 : IVec S16 32) (k1_hw56 : k1_chk56 v88), ∀ a x, ((![v88] : Fin 1 → IVec S16 32) a x).toNat < S25600.size a := fun v88 k1_hw56 => k1_hw56
def k1_off50 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_68 : BitVec 32 := 2#32
  let v91 : BitVec 32 := Scalar.addi v55 c2_i32_68
  let v92 : Index := Scalar.indexCast v91
  let c16_69 : Index := 16#32
  ![v92.toNat, 16]

def k1_chk57 (v93 : IVec S16 32) : Prop :=
  (∀ a x, ((![v93] : Fin 1 → IVec S16 32) a x).toNat < S25600.size a)
instance k1_chk57.dec : ∀ (v93 : IVec S16 32), Decidable (k1_chk57 v93) := fun v93 => decidable_of_iff' _ (Iff.of_eq (k1_chk57.eq_1 v93))
theorem k1_idx57_inb : ∀ (v93 : IVec S16 32) (k1_hw57 : k1_chk57 v93), ∀ a x, ((![v93] : Fin 1 → IVec S16 32) a x).toNat < S25600.size a := fun v93 k1_hw57 => k1_hw57
def k1_off51 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_70 : BitVec 32 := 3#32
  let v96 : BitVec 32 := Scalar.addi v55 c3_i32_70
  let v97 : Index := Scalar.indexCast v96
  let c16_71 : Index := 16#32
  ![v97.toNat, 16]

def k1_chk58 (v98 : IVec S16 32) : Prop :=
  (∀ a x, ((![v98] : Fin 1 → IVec S16 32) a x).toNat < S25600.size a)
instance k1_chk58.dec : ∀ (v98 : IVec S16 32), Decidable (k1_chk58 v98) := fun v98 => decidable_of_iff' _ (Iff.of_eq (k1_chk58.eq_1 v98))
theorem k1_idx58_inb : ∀ (v98 : IVec S16 32) (k1_hw58 : k1_chk58 v98), ∀ a x, ((![v98] : Fin 1 → IVec S16 32) a x).toNat < S25600.size a := fun v98 k1_hw58 => k1_hw58
def k1_off52 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_72 : BitVec 32 := 4#32
  let v101 : BitVec 32 := Scalar.addi v55 c4_i32_72
  let v102 : Index := Scalar.indexCast v101
  let c16_73 : Index := 16#32
  ![v102.toNat, 16]

def k1_chk59 (v103 : IVec S16 32) : Prop :=
  (∀ a x, ((![v103] : Fin 1 → IVec S16 32) a x).toNat < S25600.size a)
instance k1_chk59.dec : ∀ (v103 : IVec S16 32), Decidable (k1_chk59 v103) := fun v103 => decidable_of_iff' _ (Iff.of_eq (k1_chk59.eq_1 v103))
theorem k1_idx59_inb : ∀ (v103 : IVec S16 32) (k1_hw59 : k1_chk59 v103), ∀ a x, ((![v103] : Fin 1 → IVec S16 32) a x).toNat < S25600.size a := fun v103 k1_hw59 => k1_hw59

def k1_chk60 (v57 : IVec S16 32) (v107 : IVec S16 32) : Prop :=
  (∀ a x, ((![v57, v107] : Fin 2 → IVec S16 32) a x).toNat < S40x128.size a)
instance k1_chk60.dec : ∀ (v57 : IVec S16 32) (v107 : IVec S16 32), Decidable (k1_chk60 v57 v107) := fun v57 v107 => decidable_of_iff' _ (Iff.of_eq (k1_chk60.eq_1 v57 v107))
theorem k1_idx60_inb : ∀ (v57 : IVec S16 32) (v107 : IVec S16 32) (k1_hw60 : k1_chk60 v57 v107), ∀ a x, ((![v57, v107] : Fin 2 → IVec S16 32) a x).toNat < S40x128.size a := fun v57 v107 k1_hw60 => k1_hw60
def k1_off53 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v108 : Index := Scalar.indexCast v55
  let c32 : Index := 32#32
  ![v108.toNat, 32]

def k1_chk61 (v109 : IVec S16 32) : Prop :=
  (∀ a x, ((![v109] : Fin 1 → IVec S16 32) a x).toNat < S25600.size a)
instance k1_chk61.dec : ∀ (v109 : IVec S16 32), Decidable (k1_chk61 v109) := fun v109 => decidable_of_iff' _ (Iff.of_eq (k1_chk61.eq_1 v109))
theorem k1_idx61_inb : ∀ (v109 : IVec S16 32) (k1_hw61 : k1_chk61 v109), ∀ a x, ((![v109] : Fin 1 → IVec S16 32) a x).toNat < S25600.size a := fun v109 k1_hw61 => k1_hw61
def k1_off54 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_75 : BitVec 32 := 1#32
  let v111 : BitVec 32 := Scalar.addi v55 c1_i32_75
  let v112 : Index := Scalar.indexCast v111
  let c32_76 : Index := 32#32
  ![v112.toNat, 32]

def k1_chk62 (v113 : IVec S16 32) : Prop :=
  (∀ a x, ((![v113] : Fin 1 → IVec S16 32) a x).toNat < S25600.size a)
instance k1_chk62.dec : ∀ (v113 : IVec S16 32), Decidable (k1_chk62 v113) := fun v113 => decidable_of_iff' _ (Iff.of_eq (k1_chk62.eq_1 v113))
theorem k1_idx62_inb : ∀ (v113 : IVec S16 32) (k1_hw62 : k1_chk62 v113), ∀ a x, ((![v113] : Fin 1 → IVec S16 32) a x).toNat < S25600.size a := fun v113 k1_hw62 => k1_hw62
def k1_off55 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_77 : BitVec 32 := 2#32
  let v116 : BitVec 32 := Scalar.addi v55 c2_i32_77
  let v117 : Index := Scalar.indexCast v116
  let c32_78 : Index := 32#32
  ![v117.toNat, 32]

def k1_chk63 (v118 : IVec S16 32) : Prop :=
  (∀ a x, ((![v118] : Fin 1 → IVec S16 32) a x).toNat < S25600.size a)
instance k1_chk63.dec : ∀ (v118 : IVec S16 32), Decidable (k1_chk63 v118) := fun v118 => decidable_of_iff' _ (Iff.of_eq (k1_chk63.eq_1 v118))
theorem k1_idx63_inb : ∀ (v118 : IVec S16 32) (k1_hw63 : k1_chk63 v118), ∀ a x, ((![v118] : Fin 1 → IVec S16 32) a x).toNat < S25600.size a := fun v118 k1_hw63 => k1_hw63
def k1_off56 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_79 : BitVec 32 := 3#32
  let v121 : BitVec 32 := Scalar.addi v55 c3_i32_79
  let v122 : Index := Scalar.indexCast v121
  let c32_80 : Index := 32#32
  ![v122.toNat, 32]

def k1_chk64 (v123 : IVec S16 32) : Prop :=
  (∀ a x, ((![v123] : Fin 1 → IVec S16 32) a x).toNat < S25600.size a)
instance k1_chk64.dec : ∀ (v123 : IVec S16 32), Decidable (k1_chk64 v123) := fun v123 => decidable_of_iff' _ (Iff.of_eq (k1_chk64.eq_1 v123))
theorem k1_idx64_inb : ∀ (v123 : IVec S16 32) (k1_hw64 : k1_chk64 v123), ∀ a x, ((![v123] : Fin 1 → IVec S16 32) a x).toNat < S25600.size a := fun v123 k1_hw64 => k1_hw64
def k1_off57 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_81 : BitVec 32 := 4#32
  let v126 : BitVec 32 := Scalar.addi v55 c4_i32_81
  let v127 : Index := Scalar.indexCast v126
  let c32_82 : Index := 32#32
  ![v127.toNat, 32]

def k1_chk65 (v128 : IVec S16 32) : Prop :=
  (∀ a x, ((![v128] : Fin 1 → IVec S16 32) a x).toNat < S25600.size a)
instance k1_chk65.dec : ∀ (v128 : IVec S16 32), Decidable (k1_chk65 v128) := fun v128 => decidable_of_iff' _ (Iff.of_eq (k1_chk65.eq_1 v128))
theorem k1_idx65_inb : ∀ (v128 : IVec S16 32) (k1_hw65 : k1_chk65 v128), ∀ a x, ((![v128] : Fin 1 → IVec S16 32) a x).toNat < S25600.size a := fun v128 k1_hw65 => k1_hw65

def k1_chk66 (v57 : IVec S16 32) (v132 : IVec S16 32) : Prop :=
  (∀ a x, ((![v57, v132] : Fin 2 → IVec S16 32) a x).toNat < S40x128.size a)
instance k1_chk66.dec : ∀ (v57 : IVec S16 32) (v132 : IVec S16 32), Decidable (k1_chk66 v57 v132) := fun v57 v132 => decidable_of_iff' _ (Iff.of_eq (k1_chk66.eq_1 v57 v132))
theorem k1_idx66_inb : ∀ (v57 : IVec S16 32) (v132 : IVec S16 32) (k1_hw66 : k1_chk66 v57 v132), ∀ a x, ((![v57, v132] : Fin 2 → IVec S16 32) a x).toNat < S40x128.size a := fun v57 v132 k1_hw66 => k1_hw66
def k1_off58 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v133 : Index := Scalar.indexCast v55
  let c48 : Index := 48#32
  ![v133.toNat, 48]

def k1_chk67 (v134 : IVec S16 32) : Prop :=
  (∀ a x, ((![v134] : Fin 1 → IVec S16 32) a x).toNat < S25600.size a)
instance k1_chk67.dec : ∀ (v134 : IVec S16 32), Decidable (k1_chk67 v134) := fun v134 => decidable_of_iff' _ (Iff.of_eq (k1_chk67.eq_1 v134))
theorem k1_idx67_inb : ∀ (v134 : IVec S16 32) (k1_hw67 : k1_chk67 v134), ∀ a x, ((![v134] : Fin 1 → IVec S16 32) a x).toNat < S25600.size a := fun v134 k1_hw67 => k1_hw67
def k1_off59 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_83 : BitVec 32 := 1#32
  let v136 : BitVec 32 := Scalar.addi v55 c1_i32_83
  let v137 : Index := Scalar.indexCast v136
  let c48_84 : Index := 48#32
  ![v137.toNat, 48]

def k1_chk68 (v138 : IVec S16 32) : Prop :=
  (∀ a x, ((![v138] : Fin 1 → IVec S16 32) a x).toNat < S25600.size a)
instance k1_chk68.dec : ∀ (v138 : IVec S16 32), Decidable (k1_chk68 v138) := fun v138 => decidable_of_iff' _ (Iff.of_eq (k1_chk68.eq_1 v138))
theorem k1_idx68_inb : ∀ (v138 : IVec S16 32) (k1_hw68 : k1_chk68 v138), ∀ a x, ((![v138] : Fin 1 → IVec S16 32) a x).toNat < S25600.size a := fun v138 k1_hw68 => k1_hw68
def k1_off60 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_85 : BitVec 32 := 2#32
  let v141 : BitVec 32 := Scalar.addi v55 c2_i32_85
  let v142 : Index := Scalar.indexCast v141
  let c48_86 : Index := 48#32
  ![v142.toNat, 48]

def k1_chk69 (v143 : IVec S16 32) : Prop :=
  (∀ a x, ((![v143] : Fin 1 → IVec S16 32) a x).toNat < S25600.size a)
instance k1_chk69.dec : ∀ (v143 : IVec S16 32), Decidable (k1_chk69 v143) := fun v143 => decidable_of_iff' _ (Iff.of_eq (k1_chk69.eq_1 v143))
theorem k1_idx69_inb : ∀ (v143 : IVec S16 32) (k1_hw69 : k1_chk69 v143), ∀ a x, ((![v143] : Fin 1 → IVec S16 32) a x).toNat < S25600.size a := fun v143 k1_hw69 => k1_hw69
def k1_off61 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_87 : BitVec 32 := 3#32
  let v146 : BitVec 32 := Scalar.addi v55 c3_i32_87
  let v147 : Index := Scalar.indexCast v146
  let c48_88 : Index := 48#32
  ![v147.toNat, 48]

def k1_chk70 (v148 : IVec S16 32) : Prop :=
  (∀ a x, ((![v148] : Fin 1 → IVec S16 32) a x).toNat < S25600.size a)
instance k1_chk70.dec : ∀ (v148 : IVec S16 32), Decidable (k1_chk70 v148) := fun v148 => decidable_of_iff' _ (Iff.of_eq (k1_chk70.eq_1 v148))
theorem k1_idx70_inb : ∀ (v148 : IVec S16 32) (k1_hw70 : k1_chk70 v148), ∀ a x, ((![v148] : Fin 1 → IVec S16 32) a x).toNat < S25600.size a := fun v148 k1_hw70 => k1_hw70
def k1_off62 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_89 : BitVec 32 := 4#32
  let v151 : BitVec 32 := Scalar.addi v55 c4_i32_89
  let v152 : Index := Scalar.indexCast v151
  let c48_90 : Index := 48#32
  ![v152.toNat, 48]

def k1_chk71 (v153 : IVec S16 32) : Prop :=
  (∀ a x, ((![v153] : Fin 1 → IVec S16 32) a x).toNat < S25600.size a)
instance k1_chk71.dec : ∀ (v153 : IVec S16 32), Decidable (k1_chk71 v153) := fun v153 => decidable_of_iff' _ (Iff.of_eq (k1_chk71.eq_1 v153))
theorem k1_idx71_inb : ∀ (v153 : IVec S16 32) (k1_hw71 : k1_chk71 v153), ∀ a x, ((![v153] : Fin 1 → IVec S16 32) a x).toNat < S25600.size a := fun v153 k1_hw71 => k1_hw71

def k1_chk72 (v57 : IVec S16 32) (v157 : IVec S16 32) : Prop :=
  (∀ a x, ((![v57, v157] : Fin 2 → IVec S16 32) a x).toNat < S40x128.size a)
instance k1_chk72.dec : ∀ (v57 : IVec S16 32) (v157 : IVec S16 32), Decidable (k1_chk72 v57 v157) := fun v57 v157 => decidable_of_iff' _ (Iff.of_eq (k1_chk72.eq_1 v57 v157))
theorem k1_idx72_inb : ∀ (v57 : IVec S16 32) (v157 : IVec S16 32) (k1_hw72 : k1_chk72 v57 v157), ∀ a x, ((![v57, v157] : Fin 2 → IVec S16 32) a x).toNat < S40x128.size a := fun v57 v157 k1_hw72 => k1_hw72
def k1_off63 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v158 : Index := Scalar.indexCast v55
  let c64 : Index := 64#32
  ![v158.toNat, 64]

def k1_chk73 (v159 : IVec S16 32) : Prop :=
  (∀ a x, ((![v159] : Fin 1 → IVec S16 32) a x).toNat < S25600.size a)
instance k1_chk73.dec : ∀ (v159 : IVec S16 32), Decidable (k1_chk73 v159) := fun v159 => decidable_of_iff' _ (Iff.of_eq (k1_chk73.eq_1 v159))
theorem k1_idx73_inb : ∀ (v159 : IVec S16 32) (k1_hw73 : k1_chk73 v159), ∀ a x, ((![v159] : Fin 1 → IVec S16 32) a x).toNat < S25600.size a := fun v159 k1_hw73 => k1_hw73
def k1_off64 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_91 : BitVec 32 := 1#32
  let v161 : BitVec 32 := Scalar.addi v55 c1_i32_91
  let v162 : Index := Scalar.indexCast v161
  let c64_92 : Index := 64#32
  ![v162.toNat, 64]

def k1_chk74 (v163 : IVec S16 32) : Prop :=
  (∀ a x, ((![v163] : Fin 1 → IVec S16 32) a x).toNat < S25600.size a)
instance k1_chk74.dec : ∀ (v163 : IVec S16 32), Decidable (k1_chk74 v163) := fun v163 => decidable_of_iff' _ (Iff.of_eq (k1_chk74.eq_1 v163))
theorem k1_idx74_inb : ∀ (v163 : IVec S16 32) (k1_hw74 : k1_chk74 v163), ∀ a x, ((![v163] : Fin 1 → IVec S16 32) a x).toNat < S25600.size a := fun v163 k1_hw74 => k1_hw74
def k1_off65 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_93 : BitVec 32 := 2#32
  let v166 : BitVec 32 := Scalar.addi v55 c2_i32_93
  let v167 : Index := Scalar.indexCast v166
  let c64_94 : Index := 64#32
  ![v167.toNat, 64]

def k1_chk75 (v168 : IVec S16 32) : Prop :=
  (∀ a x, ((![v168] : Fin 1 → IVec S16 32) a x).toNat < S25600.size a)
instance k1_chk75.dec : ∀ (v168 : IVec S16 32), Decidable (k1_chk75 v168) := fun v168 => decidable_of_iff' _ (Iff.of_eq (k1_chk75.eq_1 v168))
theorem k1_idx75_inb : ∀ (v168 : IVec S16 32) (k1_hw75 : k1_chk75 v168), ∀ a x, ((![v168] : Fin 1 → IVec S16 32) a x).toNat < S25600.size a := fun v168 k1_hw75 => k1_hw75
def k1_off66 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_95 : BitVec 32 := 3#32
  let v171 : BitVec 32 := Scalar.addi v55 c3_i32_95
  let v172 : Index := Scalar.indexCast v171
  let c64_96 : Index := 64#32
  ![v172.toNat, 64]

def k1_chk76 (v173 : IVec S16 32) : Prop :=
  (∀ a x, ((![v173] : Fin 1 → IVec S16 32) a x).toNat < S25600.size a)
instance k1_chk76.dec : ∀ (v173 : IVec S16 32), Decidable (k1_chk76 v173) := fun v173 => decidable_of_iff' _ (Iff.of_eq (k1_chk76.eq_1 v173))
theorem k1_idx76_inb : ∀ (v173 : IVec S16 32) (k1_hw76 : k1_chk76 v173), ∀ a x, ((![v173] : Fin 1 → IVec S16 32) a x).toNat < S25600.size a := fun v173 k1_hw76 => k1_hw76
def k1_off67 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_97 : BitVec 32 := 4#32
  let v176 : BitVec 32 := Scalar.addi v55 c4_i32_97
  let v177 : Index := Scalar.indexCast v176
  let c64_98 : Index := 64#32
  ![v177.toNat, 64]

def k1_chk77 (v178 : IVec S16 32) : Prop :=
  (∀ a x, ((![v178] : Fin 1 → IVec S16 32) a x).toNat < S25600.size a)
instance k1_chk77.dec : ∀ (v178 : IVec S16 32), Decidable (k1_chk77 v178) := fun v178 => decidable_of_iff' _ (Iff.of_eq (k1_chk77.eq_1 v178))
theorem k1_idx77_inb : ∀ (v178 : IVec S16 32) (k1_hw77 : k1_chk77 v178), ∀ a x, ((![v178] : Fin 1 → IVec S16 32) a x).toNat < S25600.size a := fun v178 k1_hw77 => k1_hw77

def k1_chk78 (v57 : IVec S16 32) (v182 : IVec S16 32) : Prop :=
  (∀ a x, ((![v57, v182] : Fin 2 → IVec S16 32) a x).toNat < S40x128.size a)
instance k1_chk78.dec : ∀ (v57 : IVec S16 32) (v182 : IVec S16 32), Decidable (k1_chk78 v57 v182) := fun v57 v182 => decidable_of_iff' _ (Iff.of_eq (k1_chk78.eq_1 v57 v182))
theorem k1_idx78_inb : ∀ (v57 : IVec S16 32) (v182 : IVec S16 32) (k1_hw78 : k1_chk78 v57 v182), ∀ a x, ((![v57, v182] : Fin 2 → IVec S16 32) a x).toNat < S40x128.size a := fun v57 v182 k1_hw78 => k1_hw78
def k1_off68 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v183 : Index := Scalar.indexCast v55
  let c80 : Index := 80#32
  ![v183.toNat, 80]

def k1_chk79 (v184 : IVec S16 32) : Prop :=
  (∀ a x, ((![v184] : Fin 1 → IVec S16 32) a x).toNat < S25600.size a)
instance k1_chk79.dec : ∀ (v184 : IVec S16 32), Decidable (k1_chk79 v184) := fun v184 => decidable_of_iff' _ (Iff.of_eq (k1_chk79.eq_1 v184))
theorem k1_idx79_inb : ∀ (v184 : IVec S16 32) (k1_hw79 : k1_chk79 v184), ∀ a x, ((![v184] : Fin 1 → IVec S16 32) a x).toNat < S25600.size a := fun v184 k1_hw79 => k1_hw79
def k1_off69 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_99 : BitVec 32 := 1#32
  let v186 : BitVec 32 := Scalar.addi v55 c1_i32_99
  let v187 : Index := Scalar.indexCast v186
  let c80_100 : Index := 80#32
  ![v187.toNat, 80]

def k1_chk80 (v188 : IVec S16 32) : Prop :=
  (∀ a x, ((![v188] : Fin 1 → IVec S16 32) a x).toNat < S25600.size a)
instance k1_chk80.dec : ∀ (v188 : IVec S16 32), Decidable (k1_chk80 v188) := fun v188 => decidable_of_iff' _ (Iff.of_eq (k1_chk80.eq_1 v188))
theorem k1_idx80_inb : ∀ (v188 : IVec S16 32) (k1_hw80 : k1_chk80 v188), ∀ a x, ((![v188] : Fin 1 → IVec S16 32) a x).toNat < S25600.size a := fun v188 k1_hw80 => k1_hw80
def k1_off70 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_101 : BitVec 32 := 2#32
  let v191 : BitVec 32 := Scalar.addi v55 c2_i32_101
  let v192 : Index := Scalar.indexCast v191
  let c80_102 : Index := 80#32
  ![v192.toNat, 80]

def k1_chk81 (v193 : IVec S16 32) : Prop :=
  (∀ a x, ((![v193] : Fin 1 → IVec S16 32) a x).toNat < S25600.size a)
instance k1_chk81.dec : ∀ (v193 : IVec S16 32), Decidable (k1_chk81 v193) := fun v193 => decidable_of_iff' _ (Iff.of_eq (k1_chk81.eq_1 v193))
theorem k1_idx81_inb : ∀ (v193 : IVec S16 32) (k1_hw81 : k1_chk81 v193), ∀ a x, ((![v193] : Fin 1 → IVec S16 32) a x).toNat < S25600.size a := fun v193 k1_hw81 => k1_hw81
def k1_off71 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_103 : BitVec 32 := 3#32
  let v196 : BitVec 32 := Scalar.addi v55 c3_i32_103
  let v197 : Index := Scalar.indexCast v196
  let c80_104 : Index := 80#32
  ![v197.toNat, 80]

def k1_chk82 (v198 : IVec S16 32) : Prop :=
  (∀ a x, ((![v198] : Fin 1 → IVec S16 32) a x).toNat < S25600.size a)
instance k1_chk82.dec : ∀ (v198 : IVec S16 32), Decidable (k1_chk82 v198) := fun v198 => decidable_of_iff' _ (Iff.of_eq (k1_chk82.eq_1 v198))
theorem k1_idx82_inb : ∀ (v198 : IVec S16 32) (k1_hw82 : k1_chk82 v198), ∀ a x, ((![v198] : Fin 1 → IVec S16 32) a x).toNat < S25600.size a := fun v198 k1_hw82 => k1_hw82
def k1_off72 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_105 : BitVec 32 := 4#32
  let v201 : BitVec 32 := Scalar.addi v55 c4_i32_105
  let v202 : Index := Scalar.indexCast v201
  let c80_106 : Index := 80#32
  ![v202.toNat, 80]

def k1_chk83 (v203 : IVec S16 32) : Prop :=
  (∀ a x, ((![v203] : Fin 1 → IVec S16 32) a x).toNat < S25600.size a)
instance k1_chk83.dec : ∀ (v203 : IVec S16 32), Decidable (k1_chk83 v203) := fun v203 => decidable_of_iff' _ (Iff.of_eq (k1_chk83.eq_1 v203))
theorem k1_idx83_inb : ∀ (v203 : IVec S16 32) (k1_hw83 : k1_chk83 v203), ∀ a x, ((![v203] : Fin 1 → IVec S16 32) a x).toNat < S25600.size a := fun v203 k1_hw83 => k1_hw83

def k1_chk84 (v57 : IVec S16 32) (v207 : IVec S16 32) : Prop :=
  (∀ a x, ((![v57, v207] : Fin 2 → IVec S16 32) a x).toNat < S40x128.size a)
instance k1_chk84.dec : ∀ (v57 : IVec S16 32) (v207 : IVec S16 32), Decidable (k1_chk84 v57 v207) := fun v57 v207 => decidable_of_iff' _ (Iff.of_eq (k1_chk84.eq_1 v57 v207))
theorem k1_idx84_inb : ∀ (v57 : IVec S16 32) (v207 : IVec S16 32) (k1_hw84 : k1_chk84 v57 v207), ∀ a x, ((![v57, v207] : Fin 2 → IVec S16 32) a x).toNat < S40x128.size a := fun v57 v207 k1_hw84 => k1_hw84
def k1_off73 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v208 : Index := Scalar.indexCast v55
  let c96 : Index := 96#32
  ![v208.toNat, 96]

def k1_chk85 (v209 : IVec S16 32) : Prop :=
  (∀ a x, ((![v209] : Fin 1 → IVec S16 32) a x).toNat < S25600.size a)
instance k1_chk85.dec : ∀ (v209 : IVec S16 32), Decidable (k1_chk85 v209) := fun v209 => decidable_of_iff' _ (Iff.of_eq (k1_chk85.eq_1 v209))
theorem k1_idx85_inb : ∀ (v209 : IVec S16 32) (k1_hw85 : k1_chk85 v209), ∀ a x, ((![v209] : Fin 1 → IVec S16 32) a x).toNat < S25600.size a := fun v209 k1_hw85 => k1_hw85
def k1_off74 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_107 : BitVec 32 := 1#32
  let v211 : BitVec 32 := Scalar.addi v55 c1_i32_107
  let v212 : Index := Scalar.indexCast v211
  let c96_108 : Index := 96#32
  ![v212.toNat, 96]

def k1_chk86 (v213 : IVec S16 32) : Prop :=
  (∀ a x, ((![v213] : Fin 1 → IVec S16 32) a x).toNat < S25600.size a)
instance k1_chk86.dec : ∀ (v213 : IVec S16 32), Decidable (k1_chk86 v213) := fun v213 => decidable_of_iff' _ (Iff.of_eq (k1_chk86.eq_1 v213))
theorem k1_idx86_inb : ∀ (v213 : IVec S16 32) (k1_hw86 : k1_chk86 v213), ∀ a x, ((![v213] : Fin 1 → IVec S16 32) a x).toNat < S25600.size a := fun v213 k1_hw86 => k1_hw86
def k1_off75 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_109 : BitVec 32 := 2#32
  let v216 : BitVec 32 := Scalar.addi v55 c2_i32_109
  let v217 : Index := Scalar.indexCast v216
  let c96_110 : Index := 96#32
  ![v217.toNat, 96]

def k1_chk87 (v218 : IVec S16 32) : Prop :=
  (∀ a x, ((![v218] : Fin 1 → IVec S16 32) a x).toNat < S25600.size a)
instance k1_chk87.dec : ∀ (v218 : IVec S16 32), Decidable (k1_chk87 v218) := fun v218 => decidable_of_iff' _ (Iff.of_eq (k1_chk87.eq_1 v218))
theorem k1_idx87_inb : ∀ (v218 : IVec S16 32) (k1_hw87 : k1_chk87 v218), ∀ a x, ((![v218] : Fin 1 → IVec S16 32) a x).toNat < S25600.size a := fun v218 k1_hw87 => k1_hw87
def k1_off76 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_111 : BitVec 32 := 3#32
  let v221 : BitVec 32 := Scalar.addi v55 c3_i32_111
  let v222 : Index := Scalar.indexCast v221
  let c96_112 : Index := 96#32
  ![v222.toNat, 96]

def k1_chk88 (v223 : IVec S16 32) : Prop :=
  (∀ a x, ((![v223] : Fin 1 → IVec S16 32) a x).toNat < S25600.size a)
instance k1_chk88.dec : ∀ (v223 : IVec S16 32), Decidable (k1_chk88 v223) := fun v223 => decidable_of_iff' _ (Iff.of_eq (k1_chk88.eq_1 v223))
theorem k1_idx88_inb : ∀ (v223 : IVec S16 32) (k1_hw88 : k1_chk88 v223), ∀ a x, ((![v223] : Fin 1 → IVec S16 32) a x).toNat < S25600.size a := fun v223 k1_hw88 => k1_hw88
def k1_off77 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_113 : BitVec 32 := 4#32
  let v226 : BitVec 32 := Scalar.addi v55 c4_i32_113
  let v227 : Index := Scalar.indexCast v226
  let c96_114 : Index := 96#32
  ![v227.toNat, 96]

def k1_chk89 (v228 : IVec S16 32) : Prop :=
  (∀ a x, ((![v228] : Fin 1 → IVec S16 32) a x).toNat < S25600.size a)
instance k1_chk89.dec : ∀ (v228 : IVec S16 32), Decidable (k1_chk89 v228) := fun v228 => decidable_of_iff' _ (Iff.of_eq (k1_chk89.eq_1 v228))
theorem k1_idx89_inb : ∀ (v228 : IVec S16 32) (k1_hw89 : k1_chk89 v228), ∀ a x, ((![v228] : Fin 1 → IVec S16 32) a x).toNat < S25600.size a := fun v228 k1_hw89 => k1_hw89

def k1_chk90 (v57 : IVec S16 32) (v232 : IVec S16 32) : Prop :=
  (∀ a x, ((![v57, v232] : Fin 2 → IVec S16 32) a x).toNat < S40x128.size a)
instance k1_chk90.dec : ∀ (v57 : IVec S16 32) (v232 : IVec S16 32), Decidable (k1_chk90 v57 v232) := fun v57 v232 => decidable_of_iff' _ (Iff.of_eq (k1_chk90.eq_1 v57 v232))
theorem k1_idx90_inb : ∀ (v57 : IVec S16 32) (v232 : IVec S16 32) (k1_hw90 : k1_chk90 v57 v232), ∀ a x, ((![v57, v232] : Fin 2 → IVec S16 32) a x).toNat < S40x128.size a := fun v57 v232 k1_hw90 => k1_hw90
def k1_off78 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let v233 : Index := Scalar.indexCast v55
  let c112 : Index := 112#32
  ![v233.toNat, 112]

def k1_chk91 (v234 : IVec S16 32) : Prop :=
  (∀ a x, ((![v234] : Fin 1 → IVec S16 32) a x).toNat < S25600.size a)
instance k1_chk91.dec : ∀ (v234 : IVec S16 32), Decidable (k1_chk91 v234) := fun v234 => decidable_of_iff' _ (Iff.of_eq (k1_chk91.eq_1 v234))
theorem k1_idx91_inb : ∀ (v234 : IVec S16 32) (k1_hw91 : k1_chk91 v234), ∀ a x, ((![v234] : Fin 1 → IVec S16 32) a x).toNat < S25600.size a := fun v234 k1_hw91 => k1_hw91
def k1_off79 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c1_i32_115 : BitVec 32 := 1#32
  let v236 : BitVec 32 := Scalar.addi v55 c1_i32_115
  let v237 : Index := Scalar.indexCast v236
  let c112_116 : Index := 112#32
  ![v237.toNat, 112]

def k1_chk92 (v238 : IVec S16 32) : Prop :=
  (∀ a x, ((![v238] : Fin 1 → IVec S16 32) a x).toNat < S25600.size a)
instance k1_chk92.dec : ∀ (v238 : IVec S16 32), Decidable (k1_chk92 v238) := fun v238 => decidable_of_iff' _ (Iff.of_eq (k1_chk92.eq_1 v238))
theorem k1_idx92_inb : ∀ (v238 : IVec S16 32) (k1_hw92 : k1_chk92 v238), ∀ a x, ((![v238] : Fin 1 → IVec S16 32) a x).toNat < S25600.size a := fun v238 k1_hw92 => k1_hw92
def k1_off80 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c2_i32_117 : BitVec 32 := 2#32
  let v241 : BitVec 32 := Scalar.addi v55 c2_i32_117
  let v242 : Index := Scalar.indexCast v241
  let c112_118 : Index := 112#32
  ![v242.toNat, 112]

def k1_chk93 (v243 : IVec S16 32) : Prop :=
  (∀ a x, ((![v243] : Fin 1 → IVec S16 32) a x).toNat < S25600.size a)
instance k1_chk93.dec : ∀ (v243 : IVec S16 32), Decidable (k1_chk93 v243) := fun v243 => decidable_of_iff' _ (Iff.of_eq (k1_chk93.eq_1 v243))
theorem k1_idx93_inb : ∀ (v243 : IVec S16 32) (k1_hw93 : k1_chk93 v243), ∀ a x, ((![v243] : Fin 1 → IVec S16 32) a x).toNat < S25600.size a := fun v243 k1_hw93 => k1_hw93
def k1_off81 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c3_i32_119 : BitVec 32 := 3#32
  let v246 : BitVec 32 := Scalar.addi v55 c3_i32_119
  let v247 : Index := Scalar.indexCast v246
  let c112_120 : Index := 112#32
  ![v247.toNat, 112]

def k1_chk94 (v248 : IVec S16 32) : Prop :=
  (∀ a x, ((![v248] : Fin 1 → IVec S16 32) a x).toNat < S25600.size a)
instance k1_chk94.dec : ∀ (v248 : IVec S16 32), Decidable (k1_chk94 v248) := fun v248 => decidable_of_iff' _ (Iff.of_eq (k1_chk94.eq_1 v248))
theorem k1_idx94_inb : ∀ (v248 : IVec S16 32) (k1_hw94 : k1_chk94 v248), ∀ a x, ((![v248] : Fin 1 → IVec S16 32) a x).toNat < S25600.size a := fun v248 k1_hw94 => k1_hw94
def k1_off82 (k1_t2 : Fin k1_t2_loop.trips) : Fin 2 → Nat :=
  let c24_i32_56 : BitVec 32 := 24#32
  let c1_i32_57 : BitVec 32 := 1#32
  let arg11 : BitVec 32 := Scf.iv c24_i32_56 c1_i32_57 k1_t2
  let c5_i32 : BitVec 32 := 5#32
  let v55 : BitVec 32 := Scalar.muli arg11 c5_i32
  let c4_i32_121 : BitVec 32 := 4#32
  let v251 : BitVec 32 := Scalar.addi v55 c4_i32_121
  let v252 : Index := Scalar.indexCast v251
  let c112_122 : Index := 112#32
  ![v252.toNat, 112]

def k1_chk95 (v253 : IVec S16 32) : Prop :=
  (∀ a x, ((![v253] : Fin 1 → IVec S16 32) a x).toNat < S25600.size a)
instance k1_chk95.dec : ∀ (v253 : IVec S16 32), Decidable (k1_chk95 v253) := fun v253 => decidable_of_iff' _ (Iff.of_eq (k1_chk95.eq_1 v253))
theorem k1_idx95_inb : ∀ (v253 : IVec S16 32) (k1_hw95 : k1_chk95 v253), ∀ a x, ((![v253] : Fin 1 → IVec S16 32) a x).toNat < S25600.size a := fun v253 k1_hw95 => k1_hw95

def k1_chk96 (v57 : IVec S16 32) (v257 : IVec S16 32) : Prop :=
  (∀ a x, ((![v57, v257] : Fin 2 → IVec S16 32) a x).toNat < S40x128.size a)
instance k1_chk96.dec : ∀ (v57 : IVec S16 32) (v257 : IVec S16 32), Decidable (k1_chk96 v57 v257) := fun v57 v257 => decidable_of_iff' _ (Iff.of_eq (k1_chk96.eq_1 v57 v257))
theorem k1_idx96_inb : ∀ (v57 : IVec S16 32) (v257 : IVec S16 32) (k1_hw96 : k1_chk96 v57 v257), ∀ a x, ((![v57, v257] : Fin 2 → IVec S16 32) a x).toNat < S40x128.size a := fun v57 v257 k1_hw96 => k1_hw96
def k1_off83 (i : grid1.Coords) : Fin 3 → Nat :=
  let c0_i32_59_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_60_r0 : BitVec 32 := 0#32
  ![0, v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S25000x100_S100x25000_1_0 : S25000x100.Transposes [1, 0] S100x25000
  shapeCasts_S1_S1x1 : S1.ShapeCasts S1x1
  inb_S1x100_S1x100_0_0 : ∀ a, (![0, 0] : Fin 2 → Nat) a + S1x100.size a ≤ S1x100.size a
  h_S1x100 : 0 < S1x100.numel
  inb_S100x12800_S100x12800_0_0 : ∀ a, (![0, 0] : Fin 2 → Nat) a + S100x12800.size a ≤ S100x12800.size a
  h_S100x12800 : 0 < S100x12800.numel
  shapeCasts_S100x12800_S100x12800 : S100x12800.ShapeCasts S100x12800
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x1x12800_S1x1x12800_0_0_0 : ∀ a, (![0, 0, 0] : Fin 3 → Nat) a + S1x1x12800.size a ≤ S1x1x12800.size a
  h_S1x1x12800 : 0 < S1x1x12800.numel
  shapeCasts_S1x1x12800_S1x12800 : S1x1x12800.ShapeCasts S1x12800
  shapeCasts_S1x12800_S1x1x12800 : S1x12800.ShapeCasts S1x1x12800
  shapeCasts_S2x1x12800_S25600 : S2x1x12800.ShapeCasts S25600
  inb_S25600_S6400_0 : ∀ a, (![0] : Fin 1 → Nat) a + S6400.size a ≤ S25600.size a
  inb_S25600_S6400_6400 : ∀ a, (![6400] : Fin 1 → Nat) a + S6400.size a ≤ S25600.size a
  inb_S25600_S6400_12800 : ∀ a, (![12800] : Fin 1 → Nat) a + S6400.size a ≤ S25600.size a
  inb_S25600_S6400_19200 : ∀ a, (![19200] : Fin 1 → Nat) a + S6400.size a ≤ S25600.size a
  inb_S200x128_S120x128_0_0 : ∀ a, (![0, 0] : Fin 2 → Nat) a + S120x128.size a ≤ S200x128.size a
  inb_S200x128_S80x128_120_0 : ∀ a, (![120, 0] : Fin 2 → Nat) a + S80x128.size a ≤ S200x128.size a
  iota_S16_d0_w32_scVector : S16.Iotas .scVector 32 [0]
  h_S1x16 : 0 < S1x16.numel
  shapeCasts_S1x16_S16 : S1x16.ShapeCasts S16
  h_S25600 : 0 < S25600.numel
  h_S40x128 : 0 < S40x128.numel
  squeezes_S40x1x128_S40x128 : S40x1x128.Squeezes S40x128
  shapeCasts_S40x32x128_S40x4096 : S40x32x128.ShapeCasts S40x4096
  transposes_S40x4096_S4096x40_1_0 : S40x4096.Transposes [1, 0] S4096x40
  shapeCasts_S4096x40_S4096x40x1 : S4096x40.ShapeCasts S4096x40x1
  dot_S1x100_S100x12800_S1x12800_1_0_0_1_n_n_wf : DotDims.WF S1x100 S100x12800 S1x12800 [1] [0] [0] [1] [] []
  hcc1_scratch3 : 6 + S_.numel ≤ 10
  hcc1_scratch4 : 7 + S_.numel ≤ 10
  hcc1_scratch5 : 8 + S_.numel ≤ 10
  hcc1_scoped0 : 9 + S_.numel ≤ 10
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S100x12800.size a < S100x25000.size a
  hwx0_0 : ∀ i : grid0.Coords, EltTy.bits .f32 = 32 ∨ (Rect.unit (s := S100x25000) (fun a => cc0_transform_0 i a * S100x12800.size a) (fun a => (Pipeline.Clip.of (cc0_transform_0 i a) (S100x12800.size a) (S100x25000.size a)).extent (S100x12800.size a)) fun a => Pipeline.Clip.inb (Pipeline.Clip.ok_of (hstart0_0 i a))).WholeWords (EltTy.packing .f32)
  hwxs0_0 : ∀ i : grid0.Coords, EltTy.bits .f32 = 32 ∨ (Rect.unit (s := S100x12800) (fun _ => 0) (fun a => (Pipeline.Clip.of (cc0_transform_0 i a) (S100x12800.size a) (S100x25000.size a)).extent (S100x12800.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x100.size a ≤ S1x100.size a
  hwx0_1 : ∀ i : grid0.Coords, EltTy.bits .f32 = 32 ∨ (Rect.block (s := S1x100) S1x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x12800.size a ≤ S2x1x12800.size a
  hwx0_3 : ∀ i : grid0.Coords, EltTy.bits .f32 = 32 ∨ (Rect.block (s := S2x1x12800) S1x1x12800.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S120x128.size a ≤ S200x4096.size a
  k1_off2_inb : ∀ i : grid1.Coords, ∀ a, (k1_off2 i) a + S80x128.size a ≤ S200x4096.size a
  k1_t1_ok : k1_t1_loop.OK
  k1_off3_inb : ∀ k1_t1 : Fin k1_t1_loop.trips, ∀ a, (k1_off3 k1_t1) a + S1x16.size a ≤ S200x128.size a
  k1_off4_inb : ∀ k1_t1 : Fin k1_t1_loop.trips, ∀ a, (k1_off4 k1_t1) a + S1x16.size a ≤ S200x128.size a
  k1_off5_inb : ∀ k1_t1 : Fin k1_t1_loop.trips, ∀ a, (k1_off5 k1_t1) a + S1x16.size a ≤ S200x128.size a
  k1_off6_inb : ∀ k1_t1 : Fin k1_t1_loop.trips, ∀ a, (k1_off6 k1_t1) a + S1x16.size a ≤ S200x128.size a
  k1_off7_inb : ∀ k1_t1 : Fin k1_t1_loop.trips, ∀ a, (k1_off7 k1_t1) a + S1x16.size a ≤ S200x128.size a
  k1_off8_inb : ∀ k1_t1 : Fin k1_t1_loop.trips, ∀ a, (k1_off8 k1_t1) a + S1x16.size a ≤ S200x128.size a
  k1_off9_inb : ∀ k1_t1 : Fin k1_t1_loop.trips, ∀ a, (k1_off9 k1_t1) a + S1x16.size a ≤ S200x128.size a
  k1_off10_inb : ∀ k1_t1 : Fin k1_t1_loop.trips, ∀ a, (k1_off10 k1_t1) a + S1x16.size a ≤ S200x128.size a
  k1_off11_inb : ∀ k1_t1 : Fin k1_t1_loop.trips, ∀ a, (k1_off11 k1_t1) a + S1x16.size a ≤ S200x128.size a
  k1_off12_inb : ∀ k1_t1 : Fin k1_t1_loop.trips, ∀ a, (k1_off12 k1_t1) a + S1x16.size a ≤ S200x128.size a
  k1_off13_inb : ∀ k1_t1 : Fin k1_t1_loop.trips, ∀ a, (k1_off13 k1_t1) a + S1x16.size a ≤ S200x128.size a
  k1_off14_inb : ∀ k1_t1 : Fin k1_t1_loop.trips, ∀ a, (k1_off14 k1_t1) a + S1x16.size a ≤ S200x128.size a
  k1_off15_inb : ∀ k1_t1 : Fin k1_t1_loop.trips, ∀ a, (k1_off15 k1_t1) a + S1x16.size a ≤ S200x128.size a
  k1_off16_inb : ∀ k1_t1 : Fin k1_t1_loop.trips, ∀ a, (k1_off16 k1_t1) a + S1x16.size a ≤ S200x128.size a
  k1_off17_inb : ∀ k1_t1 : Fin k1_t1_loop.trips, ∀ a, (k1_off17 k1_t1) a + S1x16.size a ≤ S200x128.size a
  k1_off18_inb : ∀ k1_t1 : Fin k1_t1_loop.trips, ∀ a, (k1_off18 k1_t1) a + S1x16.size a ≤ S200x128.size a
  k1_off19_inb : ∀ k1_t1 : Fin k1_t1_loop.trips, ∀ a, (k1_off19 k1_t1) a + S1x16.size a ≤ S200x128.size a
  k1_off20_inb : ∀ k1_t1 : Fin k1_t1_loop.trips, ∀ a, (k1_off20 k1_t1) a + S1x16.size a ≤ S200x128.size a
  k1_off21_inb : ∀ k1_t1 : Fin k1_t1_loop.trips, ∀ a, (k1_off21 k1_t1) a + S1x16.size a ≤ S200x128.size a
  k1_off22_inb : ∀ k1_t1 : Fin k1_t1_loop.trips, ∀ a, (k1_off22 k1_t1) a + S1x16.size a ≤ S200x128.size a
  k1_off23_inb : ∀ k1_t1 : Fin k1_t1_loop.trips, ∀ a, (k1_off23 k1_t1) a + S1x16.size a ≤ S200x128.size a
  k1_off24_inb : ∀ k1_t1 : Fin k1_t1_loop.trips, ∀ a, (k1_off24 k1_t1) a + S1x16.size a ≤ S200x128.size a
  k1_off25_inb : ∀ k1_t1 : Fin k1_t1_loop.trips, ∀ a, (k1_off25 k1_t1) a + S1x16.size a ≤ S200x128.size a
  k1_off26_inb : ∀ k1_t1 : Fin k1_t1_loop.trips, ∀ a, (k1_off26 k1_t1) a + S1x16.size a ≤ S200x128.size a
  k1_off27_inb : ∀ k1_t1 : Fin k1_t1_loop.trips, ∀ a, (k1_off27 k1_t1) a + S1x16.size a ≤ S200x128.size a
  k1_off28_inb : ∀ k1_t1 : Fin k1_t1_loop.trips, ∀ a, (k1_off28 k1_t1) a + S1x16.size a ≤ S200x128.size a
  k1_off29_inb : ∀ k1_t1 : Fin k1_t1_loop.trips, ∀ a, (k1_off29 k1_t1) a + S1x16.size a ≤ S200x128.size a
  k1_off30_inb : ∀ k1_t1 : Fin k1_t1_loop.trips, ∀ a, (k1_off30 k1_t1) a + S1x16.size a ≤ S200x128.size a
  k1_off31_inb : ∀ k1_t1 : Fin k1_t1_loop.trips, ∀ a, (k1_off31 k1_t1) a + S1x16.size a ≤ S200x128.size a
  k1_off32_inb : ∀ k1_t1 : Fin k1_t1_loop.trips, ∀ a, (k1_off32 k1_t1) a + S1x16.size a ≤ S200x128.size a
  k1_off33_inb : ∀ k1_t1 : Fin k1_t1_loop.trips, ∀ a, (k1_off33 k1_t1) a + S1x16.size a ≤ S200x128.size a
  k1_off34_inb : ∀ k1_t1 : Fin k1_t1_loop.trips, ∀ a, (k1_off34 k1_t1) a + S1x16.size a ≤ S200x128.size a
  k1_off35_inb : ∀ k1_t1 : Fin k1_t1_loop.trips, ∀ a, (k1_off35 k1_t1) a + S1x16.size a ≤ S200x128.size a
  k1_off36_inb : ∀ k1_t1 : Fin k1_t1_loop.trips, ∀ a, (k1_off36 k1_t1) a + S1x16.size a ≤ S200x128.size a
  k1_off37_inb : ∀ k1_t1 : Fin k1_t1_loop.trips, ∀ a, (k1_off37 k1_t1) a + S1x16.size a ≤ S200x128.size a
  k1_off38_inb : ∀ k1_t1 : Fin k1_t1_loop.trips, ∀ a, (k1_off38 k1_t1) a + S1x16.size a ≤ S200x128.size a
  k1_off39_inb : ∀ k1_t1 : Fin k1_t1_loop.trips, ∀ a, (k1_off39 k1_t1) a + S1x16.size a ≤ S200x128.size a
  k1_off40_inb : ∀ k1_t1 : Fin k1_t1_loop.trips, ∀ a, (k1_off40 k1_t1) a + S1x16.size a ≤ S200x128.size a
  k1_off41_inb : ∀ k1_t1 : Fin k1_t1_loop.trips, ∀ a, (k1_off41 k1_t1) a + S1x16.size a ≤ S200x128.size a
  k1_off42_inb : ∀ k1_t1 : Fin k1_t1_loop.trips, ∀ a, (k1_off42 k1_t1) a + S1x16.size a ≤ S200x128.size a
  k1_t2_ok : k1_t2_loop.OK
  k1_off43_inb : ∀ k1_t2 : Fin k1_t2_loop.trips, ∀ a, (k1_off43 k1_t2) a + S1x16.size a ≤ S200x128.size a
  k1_off44_inb : ∀ k1_t2 : Fin k1_t2_loop.trips, ∀ a, (k1_off44 k1_t2) a + S1x16.size a ≤ S200x128.size a
  k1_off45_inb : ∀ k1_t2 : Fin k1_t2_loop.trips, ∀ a, (k1_off45 k1_t2) a + S1x16.size a ≤ S200x128.size a
  k1_off46_inb : ∀ k1_t2 : Fin k1_t2_loop.trips, ∀ a, (k1_off46 k1_t2) a + S1x16.size a ≤ S200x128.size a
  k1_off47_inb : ∀ k1_t2 : Fin k1_t2_loop.trips, ∀ a, (k1_off47 k1_t2) a + S1x16.size a ≤ S200x128.size a
  k1_off48_inb : ∀ k1_t2 : Fin k1_t2_loop.trips, ∀ a, (k1_off48 k1_t2) a + S1x16.size a ≤ S200x128.size a
  k1_off49_inb : ∀ k1_t2 : Fin k1_t2_loop.trips, ∀ a, (k1_off49 k1_t2) a + S1x16.size a ≤ S200x128.size a
  k1_off50_inb : ∀ k1_t2 : Fin k1_t2_loop.trips, ∀ a, (k1_off50 k1_t2) a + S1x16.size a ≤ S200x128.size a
  k1_off51_inb : ∀ k1_t2 : Fin k1_t2_loop.trips, ∀ a, (k1_off51 k1_t2) a + S1x16.size a ≤ S200x128.size a
  k1_off52_inb : ∀ k1_t2 : Fin k1_t2_loop.trips, ∀ a, (k1_off52 k1_t2) a + S1x16.size a ≤ S200x128.size a
  k1_off53_inb : ∀ k1_t2 : Fin k1_t2_loop.trips, ∀ a, (k1_off53 k1_t2) a + S1x16.size a ≤ S200x128.size a
  k1_off54_inb : ∀ k1_t2 : Fin k1_t2_loop.trips, ∀ a, (k1_off54 k1_t2) a + S1x16.size a ≤ S200x128.size a
  k1_off55_inb : ∀ k1_t2 : Fin k1_t2_loop.trips, ∀ a, (k1_off55 k1_t2) a + S1x16.size a ≤ S200x128.size a
  k1_off56_inb : ∀ k1_t2 : Fin k1_t2_loop.trips, ∀ a, (k1_off56 k1_t2) a + S1x16.size a ≤ S200x128.size a
  k1_off57_inb : ∀ k1_t2 : Fin k1_t2_loop.trips, ∀ a, (k1_off57 k1_t2) a + S1x16.size a ≤ S200x128.size a
  k1_off58_inb : ∀ k1_t2 : Fin k1_t2_loop.trips, ∀ a, (k1_off58 k1_t2) a + S1x16.size a ≤ S200x128.size a
  k1_off59_inb : ∀ k1_t2 : Fin k1_t2_loop.trips, ∀ a, (k1_off59 k1_t2) a + S1x16.size a ≤ S200x128.size a
  k1_off60_inb : ∀ k1_t2 : Fin k1_t2_loop.trips, ∀ a, (k1_off60 k1_t2) a + S1x16.size a ≤ S200x128.size a
  k1_off61_inb : ∀ k1_t2 : Fin k1_t2_loop.trips, ∀ a, (k1_off61 k1_t2) a + S1x16.size a ≤ S200x128.size a
  k1_off62_inb : ∀ k1_t2 : Fin k1_t2_loop.trips, ∀ a, (k1_off62 k1_t2) a + S1x16.size a ≤ S200x128.size a
  k1_off63_inb : ∀ k1_t2 : Fin k1_t2_loop.trips, ∀ a, (k1_off63 k1_t2) a + S1x16.size a ≤ S200x128.size a
  k1_off64_inb : ∀ k1_t2 : Fin k1_t2_loop.trips, ∀ a, (k1_off64 k1_t2) a + S1x16.size a ≤ S200x128.size a
  k1_off65_inb : ∀ k1_t2 : Fin k1_t2_loop.trips, ∀ a, (k1_off65 k1_t2) a + S1x16.size a ≤ S200x128.size a
  k1_off66_inb : ∀ k1_t2 : Fin k1_t2_loop.trips, ∀ a, (k1_off66 k1_t2) a + S1x16.size a ≤ S200x128.size a
  k1_off67_inb : ∀ k1_t2 : Fin k1_t2_loop.trips, ∀ a, (k1_off67 k1_t2) a + S1x16.size a ≤ S200x128.size a
  k1_off68_inb : ∀ k1_t2 : Fin k1_t2_loop.trips, ∀ a, (k1_off68 k1_t2) a + S1x16.size a ≤ S200x128.size a
  k1_off69_inb : ∀ k1_t2 : Fin k1_t2_loop.trips, ∀ a, (k1_off69 k1_t2) a + S1x16.size a ≤ S200x128.size a
  k1_off70_inb : ∀ k1_t2 : Fin k1_t2_loop.trips, ∀ a, (k1_off70 k1_t2) a + S1x16.size a ≤ S200x128.size a
  k1_off71_inb : ∀ k1_t2 : Fin k1_t2_loop.trips, ∀ a, (k1_off71 k1_t2) a + S1x16.size a ≤ S200x128.size a
  k1_off72_inb : ∀ k1_t2 : Fin k1_t2_loop.trips, ∀ a, (k1_off72 k1_t2) a + S1x16.size a ≤ S200x128.size a
  k1_off73_inb : ∀ k1_t2 : Fin k1_t2_loop.trips, ∀ a, (k1_off73 k1_t2) a + S1x16.size a ≤ S200x128.size a
  k1_off74_inb : ∀ k1_t2 : Fin k1_t2_loop.trips, ∀ a, (k1_off74 k1_t2) a + S1x16.size a ≤ S200x128.size a
  k1_off75_inb : ∀ k1_t2 : Fin k1_t2_loop.trips, ∀ a, (k1_off75 k1_t2) a + S1x16.size a ≤ S200x128.size a
  k1_off76_inb : ∀ k1_t2 : Fin k1_t2_loop.trips, ∀ a, (k1_off76 k1_t2) a + S1x16.size a ≤ S200x128.size a
  k1_off77_inb : ∀ k1_t2 : Fin k1_t2_loop.trips, ∀ a, (k1_off77 k1_t2) a + S1x16.size a ≤ S200x128.size a
  k1_off78_inb : ∀ k1_t2 : Fin k1_t2_loop.trips, ∀ a, (k1_off78 k1_t2) a + S1x16.size a ≤ S200x128.size a
  k1_off79_inb : ∀ k1_t2 : Fin k1_t2_loop.trips, ∀ a, (k1_off79 k1_t2) a + S1x16.size a ≤ S200x128.size a
  k1_off80_inb : ∀ k1_t2 : Fin k1_t2_loop.trips, ∀ a, (k1_off80 k1_t2) a + S1x16.size a ≤ S200x128.size a
  k1_off81_inb : ∀ k1_t2 : Fin k1_t2_loop.trips, ∀ a, (k1_off81 k1_t2) a + S1x16.size a ≤ S200x128.size a
  k1_off82_inb : ∀ k1_t2 : Fin k1_t2_loop.trips, ∀ a, (k1_off82 k1_t2) a + S1x16.size a ≤ S200x128.size a
  k1_off83_inb : ∀ i : grid1.Coords, ∀ a, (k1_off83 i) a + S40x1x128.size a ≤ S40x32x128.size a

variable [Facts₀]

abbrev cc1_scratch3 : DmaSems sig S_ := SemArray.consecutive 6 S_ hcc1_scratch3
abbrev cc1_scratch4 : DmaSems sig S_ := SemArray.consecutive 7 S_ hcc1_scratch4
abbrev cc1_scratch5 : DmaSems sig S_ := SemArray.consecutive 8 S_ hcc1_scratch5
abbrev cc1_scoped0 : DmaSems sig S_ := SemArray.consecutive 9 S_ hcc1_scoped0
def dot_S1x100_S100x12800_S1x12800_1_0_0_1_n_n : DotDims S1x100 S100x12800 S1x12800 where
  lhsContracting := [1]
  rhsContracting := [0]
  lhsNonContracting := [0]
  rhsNonContracting := [1]
  lhsBatch := []
  rhsBatch := []
  wf := dot_S1x100_S100x12800_S1x12800_1_0_0_1_n_n_wf

abbrev win0_0 : Pipeline.Window sig grid0 :=
  Pipeline.Window.ofSpecClip (Memref.whole main_v0) S100x12800.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg2) S1x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x12800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200x4096 : Shape := ⟨2, ![200, 4096]⟩
abbrev S25000x100 : Shape := ⟨2, ![25000, 100]⟩
abbrev S1x100 : Shape := ⟨2, ![1, 100]⟩
abbrev S1 : Shape := ⟨1, ![1]⟩
abbrev S_ : Shape := ⟨0, ![]⟩
abbrev S200x4096x1 : Shape := ⟨3, ![200, 4096, 1]⟩
abbrev S1x1x1 : Shape := ⟨3, ![1, 1, 1]⟩
abbrev S200x4096x100 : Shape := ⟨3, ![200, 4096, 100]⟩
abbrev S4096x200x100 : Shape := ⟨3, ![4096, 200, 100]⟩
abbrev S4096x40x5x100 : Shape := ⟨4, ![4096, 40, 5, 100]⟩
abbrev S4096x40x100 : Shape := ⟨3, ![4096, 40, 100]⟩
abbrev S100x1 : Shape := ⟨2, ![100, 1]⟩
abbrev S4096x40x1 : Shape := ⟨3, ![4096, 40, 1]⟩

abbrev nBuf : Space → Nat
  | .hbm => 39
  | .vmem => 0
  | .smem => 0
  | _ => 0

abbrev bufTy : (tb : Table) → Fin (tcTables nBuf tb) → BufTy
  | .hbm, ⟨0, _⟩ => ⟨S200x4096, .i32⟩
  | .hbm, ⟨1, _⟩ => ⟨S25000x100, .f32⟩
  | .hbm, ⟨2, _⟩ => ⟨S1x100, .f32⟩
  | .hbm, ⟨3, _⟩ => ⟨S1, .f32⟩
  | .hbm, ⟨4, _⟩ => ⟨S_, .i32⟩
  | .hbm, ⟨5, _⟩ => ⟨S200x4096, .i32⟩
  | .hbm, ⟨6, _⟩ => ⟨S200x4096, .i1⟩
  | .hbm, ⟨7, _⟩ => ⟨S_, .i32⟩
  | .hbm, ⟨8, _⟩ => ⟨S200x4096, .i32⟩
  | .hbm, ⟨9, _⟩ => ⟨S200x4096, .i32⟩
  | .hbm, ⟨10, _⟩ => ⟨S200x4096, .i32⟩
  | .hbm, ⟨11, _⟩ => ⟨S200x4096x1, .i32⟩
  | .hbm, ⟨12, _⟩ => ⟨S1, .i32⟩
  | .hbm, ⟨13, _⟩ => ⟨S_, .i32⟩
  | .hbm, ⟨14, _⟩ => ⟨S200x4096x1, .i32⟩
  | .hbm, ⟨15, _⟩ => ⟨S200x4096x1, .i1⟩
  | .hbm, ⟨16, _⟩ => ⟨S1x1x1, .i32⟩
  | .hbm, ⟨17, _⟩ => ⟨S200x4096x1, .i32⟩
  | .hbm, ⟨18, _⟩ => ⟨S200x4096x1, .i1⟩
  | .hbm, ⟨19, _⟩ => ⟨S200x4096x1, .i1⟩
  | .hbm, ⟨20, _⟩ => ⟨S_, .i1⟩
  | .hbm, ⟨21, _⟩ => ⟨S200x4096, .i1⟩
  | .hbm, ⟨22, _⟩ => ⟨S200x4096x100, .f32⟩
  | .hbm, ⟨23, _⟩ => ⟨S200x4096x100, .i1⟩
  | .hbm, ⟨24, _⟩ => ⟨S_, .f32⟩
  | .hbm, ⟨25, _⟩ => ⟨S200x4096x100, .f32⟩
  | .hbm, ⟨26, _⟩ => ⟨S200x4096x100, .f32⟩
  | .hbm, ⟨27, _⟩ => ⟨S4096x200x100, .f32⟩
  | .hbm, ⟨28, _⟩ => ⟨S4096x40x5x100, .f32⟩
  | .hbm, ⟨29, _⟩ => ⟨S_, .f32⟩
  | .hbm, ⟨30, _⟩ => ⟨S4096x40x100, .f32⟩
  | .hbm, ⟨31, _⟩ => ⟨S_, .f32⟩
  | .hbm, ⟨32, _⟩ => ⟨S4096x40x100, .f32⟩
  | .hbm, ⟨33, _⟩ => ⟨S4096x40x100, .f32⟩
  | .hbm, ⟨34, _⟩ => ⟨S100x1, .f32⟩
  | .hbm, ⟨35, _⟩ => ⟨S4096x40x1, .f32⟩
  | .hbm, ⟨36, _⟩ => ⟨S1x1x1, .f32⟩
  | .hbm, ⟨37, _⟩ => ⟨S4096x40x1, .f32⟩
  | .hbm, ⟨38, _⟩ => ⟨S4096x40x1, .f32⟩
  | _, _ => ⟨S200x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]

class Facts₀ : Prop where
  bcast_S_S200x4096 : S_.BroadcastsInDim S200x4096 (![] : Fin 0 → Fin S200x4096.rank)
  bcast_S200x4096_S200x4096x1_0_1 : S200x4096.BroadcastsInDim S200x4096x1 (![0, 1] : Fin 2 → Fin S200x4096x1.rank)
  bcast_S_S200x4096x1 : S_.BroadcastsInDim S200x4096x1 (![] : Fin 0 → Fin S200x4096x1.rank)
  bcast_S1_S1x1x1_2 : S1.BroadcastsInDim S1x1x1 (![2] : Fin 1 → Fin S1x1x1.rank)
  bcast_S1x1x1_S200x4096x1_0_1_2 : S1x1x1.BroadcastsInDim S200x4096x1 (![0, 1, 2] : Fin 3 → Fin S200x4096x1.rank)
  reducesTo_S200x4096x1_S200x4096_d2 : S200x4096x1.ReducesTo [2] S200x4096
  h_S_ : 0 < S_.numel
  bcast_S200x4096_S200x4096x100_0_1 : S200x4096.BroadcastsInDim S200x4096x100 (![0, 1] : Fin 2 → Fin S200x4096x100.rank)
  bcast_S_S200x4096x100 : S_.BroadcastsInDim S200x4096x100 (![] : Fin 0 → Fin S200x4096x100.rank)
  transposes_S200x4096x100_S4096x200x100_1_0_2 : S200x4096x100.Transposes [1, 0, 2] S4096x200x100
  shapeCasts_S4096x200x100_S4096x40x5x100 : S4096x200x100.ShapeCasts S4096x40x5x100
  reducesTo_S4096x40x5x100_S4096x40x100_d2 : S4096x40x5x100.ReducesTo [2] S4096x40x100
  bcast_S_S4096x40x100 : S_.BroadcastsInDim S4096x40x100 (![] : Fin 0 → Fin S4096x40x100.rank)
  transposes_S1x100_S100x1_1_0 : S1x100.Transposes [1, 0] S100x1
  bcast_S1x1x1_S4096x40x1_0_1_2 : S1x1x1.BroadcastsInDim S4096x40x1 (![0, 1, 2] : Fin 3 → Fin S4096x40x1.rank)
  gather_S25000x100_S200x4096x1_S200x4096x100_2_0_n_n_0_2_1100_wf : GatherDims.WF S25000x100 S200x4096x1 S200x4096x100 [2] [0] [] [0] [] 2 ![1, 100]
  dot_S4096x40x100_S100x1_S4096x40x1_2_0_01_1_n_n_wf : DotDims.WF S4096x40x100 S100x1 S4096x40x1 [2] [0] [0, 1] [1] [] []

variable [Facts₀]

def gather_S25000x100_S200x4096x1_S200x4096x100_2_0_n_n_0_2_1100 : GatherDims S25000x100 S200x4096x1 S200x4096x100 where
  offsetDims := [2]
  collapsedSliceDims := [0]
  operandBatchingDims := []
  startIndicesBatchingDims := []
  startIndexMap := [0]
  indexVectorDim := 2
  sliceSizes := ![1, 100]
  wf := gather_S25000x100_S200x4096x1_S200x4096x100_2_0_n_n_0_2_1100_wf
def dot_S4096x40x100_S100x1_S4096x40x1_2_0_01_1_n_n : DotDims S4096x40x100 S100x1 S4096x40x1 where
  lhsContracting := [2]
  rhsContracting := [0]
  lhsNonContracting := [0, 1]
  rhsNonContracting := [1]
  lhsBatch := []
  rhsBatch := []
  wf := dot_S4096x40x100_S100x1_S4096x40x1_2_0_01_1_n_n_wf

class Facts : Prop extends Facts₀ where

variable [Facts]
-- ==== Proof.SetupI.lean ====
/-
  The program as the launch theorem reads it, and the ghost state every module of this proof shares.

  The device runs 35 threads: the TensorCore (the host operations, one pipelined matrix product that computes every
  table row's score, the start of the SparseCores and the wait for them), two sequencers and thirty-two vector
  subcores. The ghost state has three independent parts: the launch handshakes' rounds, the pipelined call's staging
  cells' rounds, and the counters of the vector subcores' own copies.
-/
import proofs.«207257_g22479858827769_cont_8to1_397_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207257_g22479858827769_cont_8to1_397_21_alg».proof.Proof.Gen.KernelIdeal
import proofs.«207257_g22479858827769_cont_8to1_397_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] [Named F] : Labels := Pipeline.Sig Λ₀ (Fin 1) fun p => (pcfgs (F := F) p).Adm
abbrev K [FloatOps F] [Named F] : SparseCore.Cfg τ sig (ΛP (F := F)) 1 := sc (F := F)
theorem nSub_zero [FloatOps F] [Named F] : (K (F := F)).nSub 0 = 16 := rfl
theorem nCore_zero [FloatOps F] [Named F] : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipelined call's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KI

end
-- ==== Proof.PayI.lean ====
/-
  What the SparseCore call hands each vector subcore and takes back.

  Tile number `w = 2 s + c` (subcore `s` of SparseCore `c`) pools batch entries `128 w … 128 w + 127`: it reads the
  whole score vector and its own 128 columns of the token array, and writes the slab `(·, w, ·)` of the [40, 32, 128]
  result. The token array and the score vector are only read, so each tile gets one read token of each (of 32 tokens
  cut from the full share; the remainder stays with the TensorCore); the result array is cut into its 32 slabs.

  What is known of the score vector when the call starts is an abstract property `Φ` (its entries beyond the table's
  25000 rows are not determined by the inputs, so the vector itself is existentially bound), and what a tile
  guarantees of its slab an abstract property `Ψ`: the frames take both trivial, the value claim takes `Φ` "entry v is
  row v's score" and `Ψ` "the slab holds the pooled sums".
-/
import proofs.«207257_g22479858827769_cont_8to1_397_21_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## The arrays, as locations of device `d` -/

abbrev textLoc (d : Dev nD) : Loc nD τ sig := (SparseCore.T d).loc main_arg0
abbrev embLoc (d : Dev nD) : Loc nD τ sig := (SparseCore.T d).loc main_arg1
abbrev wLoc (d : Dev nD) : Loc nD τ sig := (SparseCore.T d).loc main_arg2
abbrev biasLoc (d : Dev nD) : Loc nD τ sig := (SparseCore.T d).loc main_arg3
abbrev embTLoc (d : Dev nD) : Loc nD τ sig := (SparseCore.T d).loc main_v0
abbrev bias2Loc (d : Dev nD) : Loc nD τ sig := (SparseCore.T d).loc main_v1
abbrev blocksLoc (d : Dev nD) : Loc nD τ sig := (SparseCore.T d).loc main_v2
abbrev scoresLoc (d : Dev nD) : Loc nD τ sig := (SparseCore.T d).loc main_v3
abbrev outLoc (d : Dev nD) : Loc nD τ sig := (SparseCore.T d).loc main_v4
abbrev out2Loc (d : Dev nD) : Loc nD τ sig := (SparseCore.T d).loc main_v5
abbrev outTLoc (d : Dev nD) : Loc nD τ sig := (SparseCore.T d).loc main_v6
abbrev resLoc (d : Dev nD) : Loc nD τ sig := (SparseCore.T d).loc main_v7

/-! ## Tiles, tokens, slabs -/

/-- The tile number of subcore `s` of SparseCore `c`. -/
def widOf (c : Fin 2) (s : Fin 16) : Fin 32 := ⟨s.val * 2 + c.val, by omega⟩

/-- Tile `w`'s read token of an array held at the full share. -/
abbrev tok (w : Fin 32) : PosShare TreeShare := shareTok fullShare 32 w

theorem hdiv32 : 32 ∣ S40x32x128.size 1 := ⟨1, rfl⟩
/-- Slab `w` of the result array: the indices `(t, w, j)`. -/
abbrev slab (w : Fin 32) : Rect S40x32x128 := Rect.part (s := S40x32x128) (a₀ := 1) hdiv32 w
abbrev slabSet (w : Fin 32) : Finset S40x32x128.Idx :=
  ((Memref.whole main_v4_scv : Memref sig .scVector .hbm S40x32x128 .f32).view.slice (slab w)).set

section Payloads

variable [FloatOps F] [Named F]
variable (m : (ℓ : Loc nD τ sig) → Buf (Elt F) ℓ)
variable (Φ : (d : Dev nD) → Buf (Elt F) (scoresLoc d) → Prop)
variable (Ψ : (d : Dev nD) → Fin 32 → Buf (Elt F) (outLoc d) → Prop)

/-- What tile `w` of device `d` starts from. -/
def tileIn (d : Dev nD) (w : Fin 32) : sProp 𝕄 :=
  iprop((textLoc d ↦{tok w} m (textLoc d)) ∗ (∃ sc, ⌜Φ d sc⌝ ∗ scoresLoc d ↦{tok w} sc) ∗ ∃ f, outLoc d ↦[slabSet w]{fullShare} f)

/-- What tile `w` of device `d` hands back. -/
def tileOut (d : Dev nD) (w : Fin 32) : sProp 𝕄 :=
  iprop((textLoc d ↦{tok w} m (textLoc d)) ∗ (∃ sc, scoresLoc d ↦{tok w} sc) ∗ ∃ f, ⌜Ψ d w f⌝ ∗ outLoc d ↦[slabSet w]{fullShare} f)

instance tileIn_storable (d : Dev nD) (w : Fin 32) : BI.Storable (upEmb : UEmb _ 𝕄) (tileIn m Φ d w) := by
  unfold tileIn; infer_instance
instance tileOut_storable (d : Dev nD) (w : Fin 32) : BI.Storable (upEmb : UEmb _ 𝕄) (tileOut m Ψ d w) := by
  unfold tileOut; infer_instance

/-- The one SparseCore call: each SparseCore takes its sixteen tiles' parts and brings them back. -/
def P : (K (F := F)).Pay (nD := nD) (Val := Elt F) (Name := ℕ) (U := UU) where
  st := fun q d c => match q with
    | 0 => bigSep Finset.univ fun s : Fin 16 => tileIn m Φ d (widOf (Fin.cast nCore_zero c) s)
  dn := fun q d c => match q with
    | 0 => bigSep Finset.univ fun s : Fin 16 => tileOut m Ψ d (widOf (Fin.cast nCore_zero c) s)
  go := fun q d c s => match q with
    | 0 => tileIn m Φ d (widOf (Fin.cast nCore_zero c) (Fin.cast nSub_zero s))
  td := fun q d c s => match q with
    | 0 => tileOut m Ψ d (widOf (Fin.cast nCore_zero c) (Fin.cast nSub_zero s))
  x := fun _ _ => iprop(emp)

instance P_storable : (P (F := F) m Φ Ψ).IsStorable where
  st q d c := match q with
    | 0 => (inferInstance : BI.Storable (upEmb : UEmb _ 𝕄) (bigSep Finset.univ fun s : Fin 16 => tileIn m Φ d (widOf (Fin.cast nCore_zero c) s)))
  dn q d c := match q with
    | 0 => (inferInstance : BI.Storable (upEmb : UEmb _ 𝕄) (bigSep Finset.univ fun s : Fin 16 => tileOut m Ψ d (widOf (Fin.cast nCore_zero c) s)))
  go q d c s := match q with
    | 0 => (inferInstance : BI.Storable (upEmb : UEmb _ 𝕄) (tileIn m Φ d (widOf (Fin.cast nCore_zero c) (Fin.cast nSub_zero s))))
  td q d c s := match q with
    | 0 => (inferInstance : BI.Storable (upEmb : UEmb _ 𝕄) (tileOut m Ψ d (widOf (Fin.cast nCore_zero c) (Fin.cast nSub_zero s))))

end Payloads

end Cert.Proof.KI

end
-- ==== Proof.GhostI.lean ====
/-
  The pipelined matrix product's part of the launch: the ghost state of its staging cells (per staging buffer the
  cell's launch state, its owner at round 0, round 0 reached) and the duty tokens of the transfers its loop issues,
  dealt to each device's TensorCore from the middle factor of the launch element.
-/
import proofs.«207257_g22479858827769_cont_8to1_397_21_alg».proof.Proof.PayI
import proofs.«207257_g22479858827769_cont_8to1_397_21_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The middle component of the launch element: every staging cell's owner at round 0 and a duty token for every
    transfer the pipeline issues. -/
def uP₀ : UP := initOf (Pipeline.cells (nD := nD) (τ := τ) cfgs cellOf_inj) (Pipeline.launchToks (nD := nD) (τ := τ) cfgs cellOf_inj)

/-- What @main needs on device `d` for the pipelined call: its staging cells' launch ghost state and duty tokens. -/
def G (d : Dev nD) : sProp 𝕄 :=
  iprop(Pipeline.cellsGhost cfgs (EP (F := F)) 0 d ∗ Pipeline.toksInit cfgs (EP (F := F)) 0 d)

theorem bigSep_fin1 (Φ : Dev nD → Fin 1 → sProp 𝕄) :
    (bigSep Finset.univ fun c : Dev nD => bigSep Finset.univ fun p : Fin 1 => Φ c p) = bigSep Finset.univ fun c : Dev nD => Φ c 0 :=
  bigSep_congr fun c _ => by
    rw [show (Finset.univ : Finset (Fin 1)) = {0} by decide, bigSep_singleton]

theorem fundG : BI.own ((EP (F := F)) uP₀) ⊢ (iprop(|==> bigSep Finset.univ (G (F := F))) : sProp 𝕄) := by
  have h := Pipeline.fund_ghost (Ix := HIx 1) (Val := Elt F) (Name := ℕ) (U := UU) (Lvl := ℕ) cfgs (EP (F := F)) cellOf_inj
  rw [bigSep_fin1, bigSep_fin1] at h
  unfold G; rw [bigSep_sep']; exact h

end Cert.Proof.KI

end
-- ==== Proof.BodyI.lean ====
/-
  The matrix-product kernel's body on its staging buffers.
-/
import proofs.«207257_g22479858827769_cont_8to1_397_21_alg».proof.Proof.GhostI
import proofs.«207257_g22479858827769_cont_8to1_397_21_alg».proof.Proof.Gen.KernelIdeal.Points

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

/-- The kernel body on staging buffers `s0` of the table's window, `s1` of the weights', `s2` of the bias's and `s3` of the
    result's: three whole loads, the dead load of the result's buffer, the whole store of the payload — the result's buffer
    ends holding the scores of the staged block, the other three unchanged. -/
theorem sound_body (c : Dev nD) (E : Set ℕ) (i : grid0.Coords) (s0 : Fin 2) (s1 : Fin 1) (s2 : Fin 1) (s3 : Fin 2)
    (X0 : S100x12800.Idx → Elt F .f32) (X1 : S1x100.Idx → Elt F .f32) (X2 : S1x1.Idx → Elt F .f32) (X3 : S1x1x12800.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare (k0_pay1 X1 X0 X2)) -∗ K ⟨⟩))
      ⊢ wp frame (wpE (defs₀ (F := F)) 𝒱₀ c none) E
          (cc0__scores_body i (stage0_0 s0) (hstage0_0 s0) (stage0_1 s1) (hstage0_1 s1) (stage0_2 s2) (hstage0_2 s2) (stage0_3 s3) (hstage0_3 s3)) K := by
  have hz : (![0, 0] : Fin 2 → Nat) = fun _ => 0 := funext fun a => by fin_cases a <;> rfl
  have hz3 : (![0, 0, 0] : Fin 3 → Nat) = fun _ => 0 := funext fun a => by fin_cases a <;> rfl
  have hr00 : (Memref.whole cc0_stg0_0 : Memref sig .tc _ _ _).view.readAt (Elt F) (Rect.unit (s := S100x12800) ![0, 0] S100x12800.size
      inb_S100x12800_S100x12800_0_0).toLoadRect = id := funext (Memref.readAt_unit_zero (Elt F) cc0_stg0_0 hz _)
  have hr01 : (Memref.whole cc0_stg0_1 : Memref sig .tc _ _ _).view.readAt (Elt F) (Rect.unit (s := S100x12800) ![0, 0] S100x12800.size
      inb_S100x12800_S100x12800_0_0).toLoadRect = id := funext (Memref.readAt_unit_zero (Elt F) cc0_stg0_1 hz _)
  have hr1 : (Memref.whole cc0_stg1_0 : Memref sig .tc _ _ _).view.readAt (Elt F) (Rect.unit (s := S1x100) ![0, 0] S1x100.size
      inb_S1x100_S1x100_0_0).toLoadRect = id := funext (Memref.readAt_unit_zero (Elt F) cc0_stg1_0 hz _)
  have hr2 : (Memref.whole cc0_stg2_0 : Memref sig .tc _ _ _).view.readAt (Elt F) (Rect.unit (s := S1x1) ![0, 0] S1x1.size
      inb_S1x1_S1x1_0_0).toLoadRect = id := funext (Memref.readAt_unit_zero (Elt F) cc0_stg2_0 hz _)
  have hw30 : ∀ f w, (((Memref.whole cc0_stg3_0).access (Rect.unit (s := S1x1x12800) ![0, 0, 0] S1x1x12800.size inb_S1x1x12800_S1x1x12800_0_0_0)) :
      View sig .tc _ _ _).write (Elt F) f w Finset.univ = w := Memref.write_access_unit_zero_univ (Elt F) cc0_stg3_0 hz3 _
  have hw31 : ∀ f w, (((Memref.whole cc0_stg3_1).access (Rect.unit (s := S1x1x12800) ![0, 0, 0] S1x1x12800.size inb_S1x1x12800_S1x1x12800_0_0_0)) :
      View sig .tc _ _ _).write (Elt F) f w Finset.univ = w := Memref.write_access_unit_zero_univ (Elt F) cc0_stg3_1 hz3 _
  fin_cases s0 <;> fin_cases s1 <;> fin_cases s2 <;> fin_cases s3 <;>
  · simp only [owns_whole_eq, cc0__scores_body_eq_skeleton]; unfold cc0__scores_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    simp only [hr00, hr01, hr1, hr2, hw30, hw31]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

end Cert.Proof.KI

end
-- ==== Proof.RegionI.lean ====
/-
  The pipelined matrix product's proof data on device `d`, relational in the result window: the table's second block
  overhangs the table's end, so what the body stores in the result's staging buffer depends on staged words that no
  array names; the relation says the stored block is the body's payload of SOME filled-out table block, weights block
  and bias block. The body obligation follows from the body's run on its staging buffers.
-/
import proofs.«207257_g22479858827769_cont_8to1_397_21_alg».proof.Proof.BodyI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

variable (m : (ℓ : Loc nD τ sig) → Buf (Elt F) ℓ)

/-! ## The host operations before the call, and the device's buffers after them -/

/-- The transpose of the table. -/
abbrev opT : HloOp τ sig (Elt F) :=
  StableHlo.unary main_arg1 main_v0 ((transpose S100x25000 [1, 0] · transposes_S25000x100_S100x25000_1_0) : (⟨S25000x100, .f32⟩ : BufTy).Contents (Elt F) → (⟨S100x25000, .f32⟩ : BufTy).Contents (Elt F))
/-- The bias as a 1 × 1 array. -/
abbrev opB : HloOp τ sig (Elt F) := StableHlo.reshape main_arg3 main_v1 rfl shapeCasts_S1_S1x1

/-- The device's buffers at launch, -/
def V0 (d : Dev nD) : Valuation τ sig (Elt F) := fun b => m (d, b)
/-- and after the two host operations that precede the pipelined call. -/
def V2 (d : Dev nD) : Valuation τ sig (Elt F) := (opB (F := F)).result ((opT (F := F)).result (V0 m d))

/-- The same, read at the TensorCore's references. -/
def W2 (d : Dev nD) (b : Ref sig .tc) : Buf (Elt F) ((d.tc : Thread nD τ).loc b) := V2 m d (Proc.devRef .tc b)

/-! ## What the staging buffers hold when fetched -/

/-- The table's block at point `t`, its columns inside the table, filled out with `dd` past the table's end. -/
def B0 (d : Dev nD) (t : Fin cfg0.N) (dd : S100x12800.Idx → Elt F .f32) : S100x12800.Idx → Elt F .f32 :=
  win0_0.fill (grid0.coords t) dd ((win0_0.blk t).view.read (Elt F) (W2 m d main_v0))
/-- The weights, as the first point's fetch lands them. -/
def B1 (d : Dev nD) (dd : S1x100.Idx → Elt F .f32) : S1x100.Idx → Elt F .f32 :=
  win0_1.fill (grid0.coords t0_0) dd ((win0_1.blk t0_0).view.read (Elt F) (W2 m d main_arg2))
/-- The bias, likewise. -/
def B2 (d : Dev nD) (dd : S1x1.Idx → Elt F .f32) : S1x1.Idx → Elt F .f32 :=
  win0_2.fill (grid0.coords t0_0) dd ((win0_2.blk t0_0).view.read (Elt F) (W2 m d main_v1))

/-- What the TensorCore owes throughout the call: the start signals of the SparseCore call that follows. -/
abbrev OT (d : Dev nD) : CellTallies nD τ sig (HIx 1) := (K (F := F)).Otc d 0

/-- The proof data: the arrays as the host operations left them; the body leaves the three inputs' buffers as it found
    them and the result's at the payload of some filled-out blocks; no invariant; the TensorCore owes its start signals
    throughout, and has recorded waits at index `none` only. -/
def rd (d : Dev nD) : RDat τ (Elt F) (HIx 1) ℕ UU ℕ cfg0 d where
  A w := W2 m d (Pipeline.arrRef spec0 w)
  after w t Y X := match w with
    | ⟨0, _⟩ => X = Y
    | ⟨1, _⟩ => X = Y
    | ⟨2, _⟩ => X = Y
    | ⟨3, _⟩ => ∃ d0 d1 d2, X = k0_pay1 (B1 m d d1) (B0 m d t d0) (B2 m d d2)
  Φ _ := iprop(emp)
  q _ := fullShare
  owed _ := OT (F := F) d
  recorded _ := {p | p.2 = none}

theorem flush0_0 : ∀ t : Fin cfg0.N, (cfg0.win 0).flush t = false :=
  (by decide +kernel : ∀ t : Fin grid0.N, win0_0.flush t = false)
theorem flush0_1 : ∀ t : Fin cfg0.N, (cfg0.win 1).flush t = false :=
  (by decide +kernel : ∀ t : Fin grid0.N, win0_1.flush t = false)
theorem flush0_2 : ∀ t : Fin cfg0.N, (cfg0.win 2).flush t = false :=
  (by decide +kernel : ∀ t : Fin grid0.N, win0_2.flush t = false)

theorem finds0 (d : Dev nD) (t : Fin cfg0.N) (Y) (h : (rd m d).Finds 0 t Y) : ∃ dd, Y = B0 m d t dd :=
  ((rd m d).finds_of_fetch (fetch0_0 t) Y).mp h

theorem finds1 (d : Dev nD) (t : Fin cfg0.N) (Y) (h : (rd m d).Finds 1 t Y) : ∃ dd, Y = B1 m d dd := by
  rcases fin_N0 t with rfl | rfl
  · exact ((rd m d).finds_of_fetch ((fetch0_1 t0_0).mpr rfl) Y).mp h
  · rw [(rd m d).finds_of_pos (w := 1) (t := t0_1) (by
      have := (fetch0_1 t0_1); cases hh : (cfg0.win 1).fetch t0_1
      · rfl
      · exact absurd (this.mp hh) (by decide)) (by decide)] at h
    rcases h with h | ⟨Y', hY', ha⟩
    · rw [flush0_1] at h; exact absurd h (by decide)
    · have e : Y = Y' := ha
      subst e
      exact ((rd m d).finds_of_fetch ((fetch0_1 _).mpr rfl) Y).mp hY'

theorem finds2 (d : Dev nD) (t : Fin cfg0.N) (Y) (h : (rd m d).Finds 2 t Y) : ∃ dd, Y = B2 m d dd := by
  rcases fin_N0 t with rfl | rfl
  · exact ((rd m d).finds_of_fetch ((fetch0_2 t0_0).mpr rfl) Y).mp h
  · rw [(rd m d).finds_of_pos (w := 2) (t := t0_1) (by
      have := (fetch0_2 t0_1); cases hh : (cfg0.win 2).fetch t0_1
      · rfl
      · exact absurd (this.mp hh) (by decide)) (by decide)] at h
    rcases h with h | ⟨Y', hY', ha⟩
    · rw [flush0_2] at h; exact absurd h (by decide)
    · have e : Y = Y' := ha
      subst e
      exact ((rd m d).finds_of_fetch ((fetch0_2 _).mpr rfl) Y).mp hY'

/-- The library's body obligation, from the body's run on the point's staging buffers. -/
theorem body_obligation (d : Dev nD) : (rd m d).BodyObligation (defs₀ (F := F)) 𝒱₀ none Set.univ := fun t Y hY => by
  obtain ⟨d0, h0⟩ := finds0 m d t _ (hY 0)
  obtain ⟨d1, h1⟩ := finds1 m d t _ (hY 1)
  obtain ⟨d2, h2⟩ := finds2 m d t _ (hY 2)
  rw [bigSep_W0, bigSep_W0]
  rw [show (rd m d).Φ t.succ = (rd m d).Φ t.castSucc from rfl,
    show (rd m d).owesAt none t.succ = (rd m d).owesAt none t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists (k0_pay1 (Y 1) (Y 0) (Y 2)); isplitr
    · ipureintro; exact ⟨d0, d1, d2, by rw [h0, h1, h2]⟩
    iexact H3

end Cert.Proof.KI

end
-- ==== Proof.StepI.lean ====
/-
  The pipelined call as one step of @main on the TensorCore: from the region boundary, the device's arrays as the host
  operations left them, what the TensorCore owes and the call's ghost state, to the boundary, the three input arrays
  unchanged and the result array at contents the write-backs may have left.
-/
import proofs.«207257_g22479858827769_cont_8to1_397_21_alg».proof.Proof.RegionI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

variable (m : (ℓ : Loc nD τ sig) → Buf (Elt F) ℓ)

/-- The one admissible table contents: none. -/
abbrev adm : (p : Fin 1) → (pcfgs (F := F) p).Adm := fun p => (cfgs p).toPCfg_adm
/-- The proof data of the one pipeline. -/
abbrev rdats (p : Fin 1) (c : Dev nD) : RDat τ (Elt F) (HIx 1) ℕ UU ℕ (Pipeline.pin (pcfgs (F := F)) adm p) c := rd m c

theorem OT_none (d : Dev nD) (g : GSem nD τ sig) : OT (F := F) d g none = 0 := by
  by_contra h
  have := (K (F := F)).lev_of_Otc_pos (Nat.pos_of_ne_zero h)
  rw [SparseCore.Cfg.lev_none] at this; omega

/-- What the TensorCore owes before SparseCore call 0, as its handshake state holds it. -/
def owesT (d : Dev nD) : sProp 𝕄 :=
  iprop(∃ W, ⌜(K (F := F)).WBelow (T d) W (8 * 0)⌝ ∗ owes (T d) ((K (F := F)).Otc d 0) W)

theorem owesT_at (d : Dev nD) (t : Fin (cfg0.N + 1)) : owesT (F := F) d ⊢ ((rd m d).owesAt none t : sProp 𝕄) := by
  unfold owesT
  iintro ⟨%W, %hW, H⟩
  iexists W
  isplitr
  · ipureintro
    intro p hp
    refine Or.inl ?_
    have h := hW p hp
    show p.2 = none
    cases hq : p.2 with
    | none => rfl
    | some q => rw [hq] at h; have := (K (F := F)).lev_some_pos (T d, p.1) q; omega
  · iexact H

theorem at_owesT (d : Dev nD) (t : Fin (cfg0.N + 1)) : ((rd m d).owesAt none t : sProp 𝕄) ⊢ owesT (F := F) d := by
  unfold owesT
  iintro ⟨%W, %hW, H⟩
  iexists W
  isplitr
  · ipureintro
    intro p hp
    have hn : p.2 = none := by
      rcases hW hp with h | ⟨w, s, h⟩
      · exact h
      · rw [h]
    rw [hn]; exact le_of_eq rfl
  · iexact H

/-- The TensorCore's state the call is entered from: its arrays as the two host operations left them, and what it owes. -/
def preR (d : Dev nD) : sProp 𝕄 := iprop(unscopedBufs d (W2 m d) ∗ owesT (F := F) d)
/-- And the state it leaves: the call's arrays at contents the write-backs may have left, the other arrays, what it owes. -/
def postR (d : Dev nD) : sProp 𝕄 :=
  iprop(((rd m d).arraysAt cfg0.N ∗ Pipeline.unscopedRest spec0 d (W2 m d)) ∗ owesT (F := F) d)

theorem share_full (d : Dev nD) (w : Fin cfg0.W) : (rd m d).share w = fullShare := by
  unfold RDat.share; split <;> rfl

theorem prefHeld_none (c : Dev nD) : (Pipeline.prefHeld (pcfgs (F := F) 0).pre c (fun _ => fullShare) (adm (F := F) 0).1 : sProp 𝕄) = BI.emp := by
  unfold Pipeline.prefHeld; rw [Finset.univ_eq_empty, BI.bigSep_empty]

/-- The region's record. -/
def R : Pipeline.RDat.RegionSeg (pcfgs (F := F)) adm (rdats m) none (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => body_obligation m c
  hwaits := fun c => Pipeline.RDat.cellsWaits_intro (Pipeline.pin (pcfgs (F := F)) adm) (rdats m) none 0 c
    fun w s t => (K (F := F)).mayWait_none _ (OT_none (F := F) c)
  pre := preR m
  post := postR m
  X := fun _ => iprop(emp)
  Y := fun _ => iprop(emp)
  Z := fun c => Pipeline.unscopedRest spec0 c (W2 m c)
  hentry := fun c => by
    rw [prefHeld_none]
    unfold preR
    iintro ⟨⟨Hb, Ho⟩, -, -⟩
    imodintro
    ihave H := (Pipeline.RDat.arrays_of_unscopedBufs (pcfgs (F := F)) adm (rdats m) (p := 0) winFacts0 arr_whole0 c (share_full m c) (W2 m c) (fun _ => rfl)) $$ Hb
    icases H with ⟨Ha, Hr⟩
    isplitl [Ha]; · iexact Ha
    isplitr; · iempintro
    isplitl [Ho]; · iapply (owesT_at m c 0); iexact Ho
    isplitr; · iempintro
    iexact Hr
  hin := fun c => by iintro -; iempintro
  hout := fun c => by
    rw [Pipeline.ownSems0_none, scopedRest0_eq]
    iintro -; isplitr; · iempintro
    isplitr <;> iempintro
  hexit := fun c => by
    unfold postR
    iintro ⟨Ha, Ho, -, Hz⟩
    imodintro
    isplitl [Ha Hz]
    · isplitl [Ha] <;> iassumption
    · iapply (at_owesT m c (Fin.last _)); iexact Ho

set_option backward.isDefEq.respectTransparency.types false in
/-- The pipelined call on device `d`'s TensorCore, under the pipeline's body table. -/
theorem wp_region_inner (d : Dev nD) (Φ : PUnit → sProp 𝕄) :
    iprop(boundary (T d) ∗ preR m d ∗ levAts (K (F := F)).L (K (F := F)).lev ∗ G (F := F) d
        ∗ (iprop(boundary (T d) ∗ postR m d) -∗ Φ ⟨⟩))
      ⊢ wp frame (wpE (D (F := F)) 𝒱 (T d) none) Set.univ
          (.op (.customCall (Pipeline.entry 0) ()) fun x => .ret x) Φ := by
  have h := Pipeline.RDat.RegionSeg.wp (pcfgs (F := F)) adm (rdats m) none cellOf_inj (EP (F := F)) (defs₀ (F := F)) 𝒱₀
    (K (F := F)).L (K (F := F)).lev (R m) d none (fun u hu => nomatch hu) (fun x => .ret x) Φ
  rw [show (R m).pre d = preR m d from rfl, show (R m).post d = postR m d from rfl] at h
  refine .trans ?_ h
  unfold G
  iintro ⟨Hb, Hpre, Hl, ⟨Hg, Ht⟩, Hk⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- The same under the whole program's body table. -/
theorem wp_region (d : Dev nD) (Φ : PUnit → sProp 𝕄) :
    iprop(boundary (T d) ∗ preR m d ∗ levAts (K (F := F)).L (K (F := F)).lev ∗ G (F := F) d
        ∗ (iprop(boundary (T d) ∗ postR m d) -∗ Φ ⟨⟩))
      ⊢ wp frame (wpE ((K (F := F)).defs (D (F := F))) 𝒱 (T d) none) Set.univ
          (Prog.lift (.customCall (SparseCore.inner (Pipeline.entry 0)) ())) Φ :=
  (wp_region_inner m d Φ).trans
    ((K (F := F)).wp_liftProg (D (F := F)) 𝒱 (T d) Set.univ none (.op (.customCall (Pipeline.entry 0) ()) fun x => .ret x) Φ)

end Cert.Proof.KI

end
-- ==== Proof.PrepI.lean ====
/-
  Bookkeeping for @main on the TensorCore: the device's unscoped buffers as a set of whole buffers at a valuation, what
  the two leading host operations leave in the buffers they do not write, the TensorCore's handshake state with what it
  owes set apart, and the state the pipelined call leaves read buffer by buffer.
-/
import proofs.«207257_g22479858827769_cont_8to1_397_21_alg».proof.Proof.StepI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

variable (m : (ℓ : Loc nD τ sig) → Buf (Elt F) ℓ)

/-! ## The unscoped buffers as a held set -/

/-- The TensorCore's unscoped buffers, as device buffers. -/
def Sall : Finset (DevRef τ sig) :=
  (Finset.univ.filter fun b : Ref sig .tc => ¬ b.isScoped).map ⟨Proc.devRef (τ := τ) .tc, Proc.devRef_injective _⟩

omit [FloatOps F] [Named F] in
theorem unscoped_held (d : Dev nD) (V : Valuation τ sig (Elt F)) :
    (unscopedBufs d (fun b => V (Proc.devRef .tc b)) : sProp 𝕄) = StableHlo.held (T d) Sall V := by
  unfold unscopedBufs StableHlo.held Sall
  rw [bigSep_map]; rfl

omit [FloatOps F] [Named F] in
theorem mem_Sall (b : Ref sig .tc) (h : b.isScoped = false) : Proc.devRef (τ := τ) .tc b ∈ Sall :=
  Finset.mem_map_of_mem _ (Finset.mem_filter.mpr ⟨Finset.mem_univ _, by rw [h]; exact Bool.false_ne_true⟩)

theorem opT_sub : (opT (F := F)).bufs ⊆ Sall := by
  rw [show (opT (F := F)).bufs = {Proc.devRef .tc main_arg1, Proc.devRef .tc main_v0} from rfl]
  intro b hb
  rcases Finset.mem_insert.mp hb with rfl | hb
  · exact mem_Sall _ (by decide)
  · rw [Finset.mem_singleton.mp hb]; exact mem_Sall _ (by decide)
theorem opB_sub : (opB (F := F)).bufs ⊆ Sall := by
  rw [show (opB (F := F)).bufs = {Proc.devRef .tc main_arg3, Proc.devRef .tc main_v1} from rfl]
  intro b hb
  rcases Finset.mem_insert.mp hb with rfl | hb
  · exact mem_Sall _ (by decide)
  · rw [Finset.mem_singleton.mp hb]; exact mem_Sall _ (by decide)

theorem bufs_launch (d : Dev nD) :
    (unscopedBufs d (fun b => m ((SparseCore.T d).loc b)) : sProp 𝕄) = StableHlo.held (SparseCore.T d) Sall (V0 m d) :=
  unscoped_held d (V0 m d)
theorem bufs_W2 (d : Dev nD) :
    (StableHlo.held (T d) Sall ((opB (F := F)).result ((opT (F := F)).result (V0 m d))) : sProp 𝕄) = unscopedBufs d (W2 m d) :=
  (unscoped_held d (V2 m d)).symm

/-- A buffer neither host operation writes holds its launch contents. -/
theorem W2_other (d : Dev nD) (b : Ref sig .tc) (h0 : b ≠ main_v0) (h1 : b ≠ main_v1) : W2 m d b = m ((SparseCore.T d).loc b) := by
  unfold W2 V2
  rw [StableHlo.reshape_result_ne _ _ _ _ _ _ _ h1, StableHlo.unary_result_ne _ _ _ _ _ _ h0]; rfl

/-! ## The handshake state, what is owed apart -/

theorem tcSt0_split (d : Dev nD) : ∃ R : sProp 𝕄, (K (F := F)).tcSt EH d 0 = iprop(owesT (F := F) d ∗ R) := by
  unfold SparseCore.Cfg.tcSt owesT; exact ⟨_, rfl⟩

/-! ## After the call -/

theorem arr_pts (d : Dev nD) (w : Fin 4) (B : Buf (Elt F) ((cfg0.win w).arr.view.loc (d.tc : Thread nD τ))) :
    ((cfg0.win w).arr.view.loc (d.tc : Thread nD τ) ↦[(cfg0.win w).arr.view.set]{(rd m d).share w} B : sProp 𝕄)
      = ((cfg0.win w).arr.view.loc (d.tc : Thread nD τ) ↦{fullShare} B) := by
  rw [(arr_whole0 w).set_eq_univ, share_full]

/-- What the pipelined call leaves, buffer by buffer: the result array at contents the write-backs may have left, the
    call's weight input and every buffer it does not touch at their launch contents (the transposed table and the 1 × 1
    bias, not needed again, are let go), and what the TensorCore owes. -/
theorem postR_elim (d : Dev nD) :
    postR m d ⊢ (iprop((∃ B, ⌜(rd m d).ArrAt 3 cfg0.N B⌝ ∗ blocksLoc d ↦{fullShare} B)
      ∗ (wLoc d ↦{fullShare} m (wLoc d))
      ∗ (textLoc d ↦{fullShare} m (textLoc d)) ∗ (embLoc d ↦{fullShare} m (embLoc d)) ∗ (biasLoc d ↦{fullShare} m (biasLoc d))
      ∗ (scoresLoc d ↦{fullShare} m (scoresLoc d)) ∗ (outLoc d ↦{fullShare} m (outLoc d)) ∗ (out2Loc d ↦{fullShare} m (out2Loc d))
      ∗ (outTLoc d ↦{fullShare} m (outTLoc d)) ∗ (resLoc d ↦{fullShare} m (resLoc d))
      ∗ owesT (F := F) d) : sProp 𝕄) := by
  unfold postR RDat.arraysAt
  rw [bigSep_W0, unscopedRest0_eq,
    W2_other m d main_arg0 (by decide) (by decide), W2_other m d main_arg1 (by decide) (by decide), W2_other m d main_arg3 (by decide) (by decide),
    W2_other m d main_v3 (by decide) (by decide), W2_other m d main_v4 (by decide) (by decide), W2_other m d main_v5 (by decide) (by decide),
    W2_other m d main_v6 (by decide) (by decide), W2_other m d main_v7 (by decide) (by decide)]
  iintro ⟨⟨⟨-, ⟨%F1, %h1, H1⟩, -, ⟨%B, %hB, H3⟩⟩, Ha0, Ha1, Ha3, Hv3, Hv4, Hv5, Hv6, Hv7⟩, Ho⟩
  rw [(rd m d).ArrAt_in 1 rfl] at h1
  have h1' : F1 = m (wLoc d) := h1.trans (W2_other m d main_arg2 (by decide) (by decide))
  subst h1'
  ihave H1' := (Entails.of_eq (arr_pts m d 1 _)) $$ H1
  ihave H3' := (Entails.of_eq (arr_pts m d 3 B)) $$ H3
  isplitl [H3']
  · iexists B; isplitr; · ipureintro; exact hB
    iexact H3'
  isplitl [H1']; · iexact H1'
  isplitl [Ha0]; · iexact Ha0
  isplitl [Ha1]; · iexact Ha1
  isplitl [Ha3]; · iexact Ha3
  isplitl [Hv3]; · iexact Hv3
  isplitl [Hv4]; · iexact Hv4
  isplitl [Hv5]; · iexact Hv5
  isplitl [Hv6]; · iexact Hv6
  isplitl [Hv7]; · iexact Hv7
  iexact Ho

end Cert.Proof.KI

end
-- ==== Proof.HostI.lean ====
/-
  A host operation with one operand and one result, run from the two buffers alone: the operand's buffer is read and
  kept, the result's buffer ends at the operation's value.
-/
import proofs.«207257_g22479858827769_cont_8to1_397_21_alg».proof.Proof.PayI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

section Host

variable {Λ : Labels} {defs : Defs nD τ sig (Elt F) Λ} (𝒱' : Variants) (bd : Option 𝒱'.V) {α : Type}

omit [FloatOps F] [Named F] in
/-- Any valuation with two given buffers' contents. -/
def val2 (x y : Ref sig .tc) (fx : (Proc.devRef (τ := τ) .tc x).ty.Contents (Elt F)) (fy : (Proc.devRef (τ := τ) .tc y).ty.Contents (Elt F))
    (V : Valuation τ sig (Elt F)) : Valuation τ sig (Elt F) :=
  Function.update (Function.update V (Proc.devRef .tc x) fx) (Proc.devRef .tc y) fy

omit [FloatOps F] [Named F] in
theorem val2_y (x y : Ref sig .tc) (fx fy) (V : Valuation τ sig (Elt F)) : val2 x y fx fy V (Proc.devRef .tc y) = fy :=
  Function.update_self _ _ _
omit [FloatOps F] [Named F] in
theorem val2_x (x y : Ref sig .tc) (h : x ≠ y) (fx fy) (V : Valuation τ sig (Elt F)) : val2 x y fx fy V (Proc.devRef .tc x) = fx := by
  unfold val2
  rw [Function.update_of_ne (StableHlo.devRef_ne_of_ne h), Function.update_self]

omit [FloatOps F] [Named F] in
theorem held_pair (d : Dev nD) (x y : Ref sig .tc) (h : x ≠ y) (V : Valuation τ sig (Elt F)) :
    (StableHlo.held (T d) {Proc.devRef .tc x, Proc.devRef .tc y} V : sProp 𝕄)
      = iprop(((d, Proc.devRef .tc x) ↦{fullShare} V (Proc.devRef .tc x)) ∗ ((d, Proc.devRef .tc y) ↦{fullShare} V (Proc.devRef .tc y))) := by
  unfold StableHlo.held
  rw [SparseCore.bigSep_insert' (by rw [Finset.mem_singleton]; exact StableHlo.devRef_ne_of_ne h), bigSep_singleton]

omit [FloatOps F] [Named F] in
/-- `%y = ‹op› %x` from the two buffers. -/
theorem wp_unary_at (V₀ : Valuation τ sig (Elt F)) (d : Dev nD) (x y : Ref sig .tc) (h : x ≠ y) (f : x.ty.Contents (Elt F) → y.ty.Contents (Elt F)) (hx hy)
    (fx : (Proc.devRef (τ := τ) .tc x).ty.Contents (Elt F)) (fy : (Proc.devRef (τ := τ) .tc y).ty.Contents (Elt F))
    {k : ((b : (StableHlo.unary (τ := τ) x y f hx hy).writes) → b.1.ty.Contents (Elt F)) → Prog (TpuEff nD τ sig (Elt F) Λ (T (nD := nD) (τ := τ) d).2) α} {Q : α → sProp 𝕄} :
    iprop(boundary (T d) ∗ ((d, Proc.devRef .tc x) ↦{fullShare} fx) ∗ ((d, Proc.devRef .tc y) ↦{fullShare} fy)
        ∗ (∀ r, iprop(boundary (T d) ∗ ((d, Proc.devRef .tc x) ↦{fullShare} fx) ∗ ((d, Proc.devRef .tc y) ↦{fullShare} f fx))
            -∗ wp frame (wpE defs 𝒱' (T d) bd) Set.univ (k r) Q))
      ⊢ wp frame (wpE defs 𝒱' (T d) bd) Set.univ (hlo rfl (StableHlo.unary x y f hx hy) k) Q := by
  iintro ⟨Hb, Hx, Hy, Hk⟩
  iapply (StableHlo.wp_hlo_within 𝒱' (T d) bd Set.univ (op := StableHlo.unary x y f hx hy) (S := {Proc.devRef .tc x, Proc.devRef .tc y})
    (by rw [StableHlo.unary_bufs]) (V := val2 x y fx fy V₀)) $$ [Hb Hx Hy]
  · isplitl [Hb]; · iexact Hb
    rw [held_pair d x y h, val2_x x y h, val2_y]
    isplitl [Hx] <;> iassumption
  iintro ⟨Hb, Hh⟩
  ihave Hh' := (Entails.of_eq (show (StableHlo.held (T d) {Proc.devRef .tc x, Proc.devRef .tc y} ((StableHlo.unary x y f hx hy).result (val2 x y fx fy V₀)) : sProp 𝕄)
      = iprop(((d, Proc.devRef .tc x) ↦{fullShare} fx) ∗ ((d, Proc.devRef .tc y) ↦{fullShare} f fx)) from by
    rw [held_pair d x y h, StableHlo.unary_result, StableHlo.unary_result_ne _ _ _ _ _ _ h, val2_x x y h])) $$ Hh
  icases Hh' with ⟨Hx, Hy⟩
  ispecialize Hk $$ %((StableHlo.unary x y f hx hy).fn fun b => val2 x y fx fy V₀ b.1)
  iapply Hk
  isplitl [Hb]; · iexact Hb
  isplitl [Hx] <;> iassumption

omit [FloatOps F] [Named F] in
/-- `%y = stablehlo.reshape %x` from the two buffers. -/
theorem wp_reshape_at (V₀ : Valuation τ sig (Elt F)) (d : Dev nD) (x y : Ref sig .tc) (h : x ≠ y) (he : x.ty.elt = y.ty.elt) (hn : x.ty.shape.ShapeCasts y.ty.shape) (hx hy)
    (fx : (Proc.devRef (τ := τ) .tc x).ty.Contents (Elt F)) (fy : (Proc.devRef (τ := τ) .tc y).ty.Contents (Elt F))
    {k : ((b : (StableHlo.reshape (τ := τ) (Val := Elt F) x y he hn hx hy).writes) → b.1.ty.Contents (Elt F)) → Prog (TpuEff nD τ sig (Elt F) Λ (T (nD := nD) (τ := τ) d).2) α} {Q : α → sProp 𝕄} :
    iprop(boundary (T d) ∗ ((d, Proc.devRef .tc x) ↦{fullShare} fx) ∗ ((d, Proc.devRef .tc y) ↦{fullShare} fy)
        ∗ (∀ r, iprop(boundary (T d) ∗ ((d, Proc.devRef .tc x) ↦{fullShare} fx)
              ∗ ((d, Proc.devRef .tc y) ↦{fullShare} (fun i => he ▸ shapeCast y.ty.shape fx hn i : (Proc.devRef (τ := τ) .tc y).ty.Contents (Elt F))))
            -∗ wp frame (wpE defs 𝒱' (T d) bd) Set.univ (k r) Q))
      ⊢ wp frame (wpE defs 𝒱' (T d) bd) Set.univ (hlo rfl (StableHlo.reshape x y he hn hx hy) k) Q := by
  iintro ⟨Hb, Hx, Hy, Hk⟩
  iapply (StableHlo.wp_hlo_within 𝒱' (T d) bd Set.univ (op := StableHlo.reshape x y he hn hx hy) (S := {Proc.devRef .tc x, Proc.devRef .tc y})
    (by rw [StableHlo.reshape_bufs]) (V := val2 x y fx fy V₀)) $$ [Hb Hx Hy]
  · isplitl [Hb]; · iexact Hb
    rw [held_pair d x y h, val2_x x y h, val2_y]
    isplitl [Hx] <;> iassumption
  iintro ⟨Hb, Hh⟩
  ihave Hh' := (Entails.of_eq (show (StableHlo.held (T d) {Proc.devRef .tc x, Proc.devRef .tc y} ((StableHlo.reshape (τ := τ) (Val := Elt F) x y he hn hx hy).result (val2 x y fx fy V₀)) : sProp 𝕄)
      = iprop(((d, Proc.devRef .tc x) ↦{fullShare} fx)
          ∗ ((d, Proc.devRef .tc y) ↦{fullShare} (fun i => he ▸ shapeCast y.ty.shape fx hn i : (Proc.devRef (τ := τ) .tc y).ty.Contents (Elt F)))) from by
    rw [held_pair d x y h, StableHlo.reshape_result, StableHlo.reshape_result_ne _ _ _ _ _ _ _ h, val2_x x y h])) $$ Hh
  icases Hh' with ⟨Hx, Hy⟩
  ispecialize Hk $$ %((StableHlo.reshape (τ := τ) (Val := Elt F) x y he hn hx hy).fn fun b => val2 x y fx fy V₀ b.1)
  iapply Hk
  isplitl [Hb]; · iexact Hb
  isplitl [Hx] <;> iassumption

end Host

end Cert.Proof.KI

end
-- ==== Proof.SplitI.lean ====
/-
  What the TensorCore hands the SparseCore call and takes back: the token array and the score vector go out as one read
  token per tile (the remainder kept), the result array as its 32 slabs; afterwards the token array is whole again and the
  slabs join into one array that every tile's property holds of.
-/
import proofs.«207257_g22479858827769_cont_8to1_397_21_alg».proof.Proof.PayI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ)
variable (Φ : (d : Dev nD) → Buf (Elt F) (scoresLoc d) → Prop)
variable (Ψ : (d : Dev nD) → Fin 32 → Buf (Elt F) (outLoc d) → Prop)

/-! ## The slabs -/

omit [FloatOps F] [Named F] in
theorem slabSet_eq (w : Fin 32) : slabSet w = (slab w).set := by
  show ((View.whole (main_v4_scv : Ref sig .scVector)).slice (slab w)).set = _
  rw [View.set_slice]; exact Finset.map_refl
omit [FloatOps F] [Named F] in
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdiv32 h
omit [FloatOps F] [Named F] in
theorem slabs_cover : (Finset.univ : Finset (Fin 32)).biUnion slabSet = Finset.univ :=
  (Finset.biUnion_congr rfl fun i _ => slabSet_eq i).trans (Rect.biUnion_part hdiv32)

omit [FloatOps F] [Named F] in
theorem out_slabs (d : Dev nD) (f : Buf (Elt F) (outLoc d)) :
    (outLoc d ↦{fullShare} f : sProp 𝕄) = bigSep Finset.univ fun w : Fin 32 => outLoc d ↦[slabSet w]{fullShare} f := by
  rw [← pointsTo_biUnion Finset.univ (ℓ := outLoc d) slabSet slabs_disjoint, slabs_cover]; try rfl

/-! ## The 32 tiles as the two SparseCores' sixteen -/

/-- Subcore `s` of SparseCore `c` is tile `2 s + c`: a bijection. -/
def widEmb : Fin 2 × Fin 16 ↪ Fin 32 where
  toFun p := widOf p.1 p.2
  inj' := by
    rintro ⟨c, s⟩ ⟨c', s'⟩ h
    have h' : s.val * 2 + c.val = s'.val * 2 + c'.val := by
      have := congrArg Fin.val h; simpa [widOf] using this
    have hc := c.isLt; have hc' := c'.isLt
    have e1 : c.val = c'.val := by omega
    have e2 : s.val = s'.val := by omega
    exact Prod.ext (Fin.ext e1) (Fin.ext e2)

theorem widEmb_univ : (Finset.univ : Finset (Fin 2 × Fin 16)).map widEmb = Finset.univ :=
  Finset.eq_univ_of_card _ (by rw [Finset.card_map, Finset.card_univ, Fintype.card_prod, Fintype.card_fin, Fintype.card_fin, Fintype.card_fin])

omit [FloatOps F] [Named F] in
theorem bigSep_tiles' (Θ : Fin 32 → sProp 𝕄) :
    (bigSep (Finset.univ : Finset (Fin 2)) fun c => bigSep (Finset.univ : Finset (Fin 16)) fun s => Θ (widOf c s)) = bigSep Finset.univ Θ := by
  rw [← widEmb_univ, bigSep_map, bigSep_univ_prod]; rfl

theorem bigSep_tiles (Θ : Fin 32 → sProp 𝕄) :
    (bigSep Finset.univ fun c : Fin ((K (F := F)).nCore 0) => bigSep (Finset.univ : Finset (Fin 16)) fun s => Θ (widOf (Fin.cast nCore_zero c) s)) = bigSep Finset.univ Θ :=
  bigSep_tiles' Θ

theorem st_eq (d : Dev nD) :
    (bigSep Finset.univ fun c : Fin ((K (F := F)).nCore 0) => (P m Φ Ψ).st 0 d c) = bigSep Finset.univ (tileIn m Φ d) :=
  bigSep_tiles (tileIn m Φ d)
theorem dn_eq (d : Dev nD) :
    (bigSep Finset.univ fun c : Fin ((K (F := F)).nCore 0) => (P m Φ Ψ).dn 0 d c) = bigSep Finset.univ (tileOut m Ψ d) :=
  bigSep_tiles (tileOut m Ψ d)

/-! ## Out and back -/

/-- What the call takes: from the token array, the score vector (of which `Φ` holds) and the result array whole, every
    tile's part; the remainders of the two read arrays stay. -/
theorem st_split (d : Dev nD) (sc : Buf (Elt F) (scoresLoc d)) (hsc : Φ d sc) (f0 : Buf (Elt F) (outLoc d)) :
    iprop((textLoc d ↦{fullShare} m (textLoc d)) ∗ (scoresLoc d ↦{fullShare} sc) ∗ (outLoc d ↦{fullShare} f0))
      ⊢ (iprop((bigSep Finset.univ fun c : Fin ((K (F := F)).nCore 0) => (P m Φ Ψ).st 0 d c)
          ∗ (textLoc d ↦{shareDrop fullShare 32} m (textLoc d)) ∗ (scoresLoc d ↦{shareDrop fullShare 32} sc)) : sProp 𝕄) := by
  have hS1 : ∀ w : Fin 32, (scoresLoc d ↦{tok w} sc : sProp 𝕄) ⊢ iprop(∃ sc, ⌜Φ d sc⌝ ∗ scoresLoc d ↦{tok w} sc) := fun w => by
    iintro H; iexists sc; isplitr; · ipureintro; exact hsc
    iexact H
  have hO1 : ∀ w : Fin 32, (outLoc d ↦[slabSet w]{fullShare} f0 : sProp 𝕄) ⊢ iprop(∃ f, outLoc d ↦[slabSet w]{fullShare} f) := fun w => by
    iintro H; iexists f0; iexact H
  have hS : (bigSep Finset.univ fun w : Fin 32 => (scoresLoc d ↦{tok w} sc : sProp 𝕄))
      ⊢ bigSep Finset.univ fun w : Fin 32 => iprop(∃ sc, ⌜Φ d sc⌝ ∗ scoresLoc d ↦{tok w} sc) :=
    bigSep_mono fun w _ => hS1 w
  have hO : (bigSep Finset.univ fun w : Fin 32 => (outLoc d ↦[slabSet w]{fullShare} f0 : sProp 𝕄))
      ⊢ bigSep Finset.univ fun w : Fin 32 => iprop(∃ f, outLoc d ↦[slabSet w]{fullShare} f) :=
    bigSep_mono fun w _ => hO1 w
  rw [st_eq, out_slabs]
  unfold tileIn
  rw [bigSep_sep', bigSep_sep']
  iintro ⟨Ht, Hs, Ho⟩
  ihave Ht' := (Transfers.pointsTo_toks_split fullShare 32) $$ Ht
  ihave Hs' := (Transfers.pointsTo_toks_split fullShare 32) $$ Hs
  icases Ht' with ⟨Htd, Htt⟩
  icases Hs' with ⟨Hsd, Hst⟩
  isplitl [Htt Hst Ho]
  · isplitl [Htt]; · iexact Htt
    isplitl [Hst]
    · iapply hS; iexact Hst
    · iapply hO; iexact Ho
  isplitl [Htd] <;> iassumption

/-- What the call brings back: the token array whole again, and the result array whole at contents every tile's property
    holds of (a property of a slab's contents only: `hΨ`). The score vector's tokens are let go. -/
theorem dn_join (hΨ : ∀ d w f g, (∀ i ∈ slabSet w, f i = g i) → Ψ d w f → Ψ d w g) (d : Dev nD) :
    iprop((bigSep Finset.univ fun c : Fin ((K (F := F)).nCore 0) => (P m Φ Ψ).dn 0 d c)
        ∗ (textLoc d ↦{shareDrop fullShare 32} m (textLoc d)))
      ⊢ (iprop((textLoc d ↦{fullShare} m (textLoc d)) ∗ ∃ f, ⌜∀ w, Ψ d w f⌝ ∗ outLoc d ↦{fullShare} f) : sProp 𝕄) := by
  rw [dn_eq]
  unfold tileOut
  rw [bigSep_sep', bigSep_sep']
  iintro ⟨⟨Htt, -, Ho⟩, Htd⟩
  isplitl [Htt Htd]
  · iapply (Transfers.pointsTo_toks_join fullShare 32)
    isplitl [Htd] <;> iassumption
  ihave Ho' := (bigSep_exists_pi Finset.univ (fun (w : Fin 32) (f : Buf (Elt F) (outLoc d)) => iprop(⌜Ψ d w f⌝ ∗ outLoc d ↦[slabSet w]{fullShare} f))) $$ Ho
  icases Ho' with ⟨%fs, Ho⟩
  ihave Ho'' := (bigSep_pure_sep Finset.univ (fun w : Fin 32 => Ψ d w (fs w)) (fun w => (outLoc d ↦[slabSet w]{fullShare} fs w : sProp 𝕄))) $$ Ho
  icases Ho'' with ⟨%hfs, Ho⟩
  ihave Hg := (pointsTo_biUnion_join Finset.univ slabSet fs (fs 0) slabs_disjoint) $$ Ho
  icases Hg with ⟨%g, %hg, Hg⟩
  rw [slabs_cover]
  iexists g
  isplitr
  · ipureintro
    exact fun w => hΨ d w (fs w) g (fun i hi => (hg w (Finset.mem_univ w) i hi).symm) (hfs w (Finset.mem_univ w))
  · iexact Hg

end Cert.Proof.KI

end
-- ==== Proof.MainI.lean ====
/-
  @main on device `d`'s TensorCore: the table transposed and the bias reshaped, the pipelined matrix product (the score
  of every table row, and of 600 columns past the table's end that depend on staged words no array names), the scores as
  one vector, the SparseCore call — every tile handed its read tokens and its slab —, and the three host operations that
  lay the pooled result out; and how the final memory reads what @main leaves.
-/
import proofs.«207257_g22479858827769_cont_8to1_397_21_alg».proof.Proof.PrepI
import proofs.«207257_g22479858827769_cont_8to1_397_21_alg».proof.Proof.HostI
import proofs.«207257_g22479858827769_cont_8to1_397_21_alg».proof.Proof.SplitI

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (Φ : (d : Dev nD) → Buf (Elt F) (scoresLoc d) → Prop)
variable (Ψ : (d : Dev nD) → Fin 32 → Buf (Elt F) (outLoc d) → Prop)

/-- The score vector a result array of the pipelined call reshapes to. -/
def scoresOf (d : Dev nD) (B : Buf (Elt F) (blocksLoc d)) : Buf (Elt F) (scoresLoc d) :=
  fun i => shapeCast S25600 B shapeCasts_S2x1x12800_S25600 i

/-- What is known of the score vector when the SparseCore call starts: it is the reshape of an array the pipelined call's
    write-backs may have left. -/
def ScoresOK (d : Dev nD) (sc : Buf (Elt F) (scoresLoc d)) : Prop :=
  ∃ B : Buf (Elt F) (blocksLoc d), (rd m d).ArrAt 3 cfg0.N B ∧ sc = scoresOf d B

/-- The three host operations after the SparseCore call, composed: [40, 32, 128] to [40, 4096], transposed, to [4096, 40, 1]. -/
def tailOf (d : Dev nD) (f : Buf (Elt F) (outLoc d)) : Buf (Elt F) (resLoc d) :=
  fun i => shapeCast S4096x40x1
    (transpose S4096x40 [1, 0] (fun j => shapeCast S40x4096 f shapeCasts_S40x32x128_S40x4096 j : (⟨S40x4096, .f32⟩ : BufTy).Contents (Elt F)) transposes_S40x4096_S4096x40_1_0 : (⟨S4096x40, .f32⟩ : BufTy).Contents (Elt F))
    shapeCasts_S4096x40_S4096x40x1 i

/-- What @main leaves the claim: the four argument arrays at their launch contents, and the result as the tail of an
    array every tile's property holds of. -/
def FIN (d : Dev nD) : sProp 𝕄 :=
  iprop((textLoc d ↦{fullShare} m (textLoc d)) ∗ (embLoc d ↦{fullShare} m (embLoc d)) ∗ (wLoc d ↦{fullShare} m (wLoc d))
    ∗ (biasLoc d ↦{fullShare} m (biasLoc d)) ∗ ∃ f, ⌜∀ w, Ψ d w f⌝ ∗ resLoc d ↦{fullShare} tailOf d f)

set_option backward.isDefEq.respectTransparency.types false in
theorem hmain (hΦ : ∀ d sc, ScoresOK m d sc → Φ d sc)
    (hΨ : ∀ d w f g, (∀ i ∈ slabSet w, f i = g i) → Ψ d w f → Ψ d w g) (κ : GSem nD τ sig → ℕ) (d : Dev nD) :
    iprop((K (F := F)).ctx EH (P m Φ Ψ) κ ∗ (K (F := F)).tcSt EH d 0 ∗ (K (F := F)).tcRes m ρ d ∗ G (F := F) d)
      ⊢ wp frame (wpE ((K (F := F)).defs (D (F := F))) 𝒱 (SparseCore.T d) none) Set.univ (Cert.KernelIdeal.main d)
          fun _ => iprop((K (F := F)).tcSt EH d 1 ∗ FIN m Ψ d) := by
  obtain ⟨R, hR⟩ := tcSt0_split (F := F) d
  unfold SparseCore.Cfg.tcRes
  rw [hR, bufs_launch]
  simp only [main, wp_bind, wp_pure]
  iintro ⟨#Hctx, ⟨Ho, HR⟩, ⟨Hb, Hheld, -, -⟩, HG⟩
  ihave Hlv := (SparseCore.Cfg.ctx_levAts κ) $$ Hctx
  -- the transpose and the reshape before the call
  iapply (StableHlo.wp_hlo_within 𝒱 (T d) none Set.univ (op := opT (F := F)) (S := Sall) opT_sub (V := V0 m d)) $$ [Hb Hheld]
  · isplitl [Hb] <;> iassumption
  iintro ⟨Hb, Hheld⟩
  rw [wp_ret]; imodintro
  iapply (StableHlo.wp_hlo_within 𝒱 (T d) none Set.univ (op := opB (F := F)) (S := Sall) opB_sub (V := (opT (F := F)).result (V0 m d))) $$ [Hb Hheld]
  · isplitl [Hb] <;> iassumption
  iintro ⟨Hb, Hheld⟩
  rw [wp_ret]; imodintro
  ihave Hbufs := (Entails.of_eq (bufs_W2 m d)) $$ Hheld
  -- the pipelined call
  iapply (wp_region m d _)
  isplitl [Hb]; · iexact Hb
  isplitl [Hbufs Ho]
  · unfold preR; isplitl [Hbufs] <;> iassumption
  isplitl [Hlv]; · iexact Hlv
  isplitl [HG]; · iexact HG
  iintro ⟨Hb, Hpost⟩
  ihave Hp := (postR_elim m d) $$ Hpost
  icases Hp with ⟨⟨%B, %hB, Hv2⟩, Hw, Htext, Hemb, Hbias, Hv3, Hv4, Hv5, Hv6, Hv7, Ho⟩
  -- the scores as one vector
  iapply (wp_reshape_at 𝒱 none (V0 m d) d main_v2 main_v3 (by decide) _ _ _ _ B (m (scoresLoc d)))
  isplitl [Hb]; · iexact Hb
  isplitl [Hv2]; · iexact Hv2
  isplitl [Hv3]; · iexact Hv3
  iintro %r ⟨Hb, Hv2, Hv3⟩
  rw [wp_ret]; imodintro
  -- the SparseCore call
  have hsc : Φ d (scoresOf d B) := hΦ d _ ⟨B, hB, rfl⟩
  ihave Hst := (st_split m Φ Ψ d (scoresOf d B) hsc (m (outLoc d))) $$ [Htext Hv3 Hv4]
  · isplitl [Htext]; · iexact Htext
    isplitl [Hv3]; · iexact Hv3
    iexact Hv4
  icases Hst with ⟨Hst, Htd, -⟩
  iapply ((K (F := F)).wp_run (D (F := F)) 𝒱 (EH := EH) (P := P m Φ Ψ) κ d 0)
  isplitr; · iexact Hctx
  isplitl [Ho HR]
  · iapply (Entails.of_eq hR.symm); isplitl [Ho] <;> iassumption
  isplitl [Hst]; · iexact Hst
  iintro ⟨Hst1, Hdn⟩
  ihave Hj := (dn_join m Φ Ψ hΨ d) $$ [Hdn Htd]
  · isplitl [Hdn] <;> iassumption
  icases Hj with ⟨Htext, %f, %hf, Hv4⟩
  -- the three host operations after it
  iapply (wp_reshape_at 𝒱 none (V0 m d) d main_v4 main_v5 (by decide) _ _ _ _ f (m (out2Loc d)))
  isplitl [Hb]; · iexact Hb
  isplitl [Hv4]; · iexact Hv4
  isplitl [Hv5]; · iexact Hv5
  iintro %r1 ⟨Hb, Hv4, Hv5⟩
  rw [wp_ret]; imodintro
  iapply (wp_unary_at 𝒱 none (V0 m d) d main_v5 main_v6 (by decide) _ _ _ _ (m (outTLoc d)))
  isplitl [Hb]; · iexact Hb
  isplitl [Hv5]; · iexact Hv5
  isplitl [Hv6]; · iexact Hv6
  iintro %r2 ⟨Hb, Hv5, Hv6⟩
  rw [wp_ret]; imodintro
  iapply (wp_reshape_at 𝒱 none (V0 m d) d main_v6 main_v7 (by decide) _ _ _ _ _ (m (resLoc d)))
  isplitl [Hb]; · iexact Hb
  isplitl [Hv6]; · iexact Hv6
  isplitl [Hv7]; · iexact Hv7
  iintro %r3 ⟨Hb, Hv6, Hv7⟩
  rw [wp_ret]; imodintro; imodintro
  isplitl [Hst1]; · iexact Hst1
  unfold FIN
  isplitl [Htext]; · iexact Htext
  isplitl [Hemb]; · iexact Hemb
  isplitl [Hw]; · iexact Hw
  isplitl [Hbias]; · iexact Hbias
  iexists f
  isplitr; · ipureintro; exact hf
  iexact Hv7

/-- What the final memory is read as. -/
def fq (d : Dev nD) (s' : Phys nD τ sig (Elt F)) : Prop :=
  s'.mem.mem (textLoc d) = m (textLoc d) ∧ s'.mem.mem (embLoc d) = m (embLoc d) ∧ s'.mem.mem (wLoc d) = m (wLoc d)
    ∧ s'.mem.mem (biasLoc d) = m (biasLoc d) ∧ ∃ f, (∀ w, Ψ d w f) ∧ s'.mem.mem (resLoc d) = tailOf d f

theorem hfin (d : Dev nD) (s' : Phys nD τ sig (Elt F)) : iprop(FIN m Ψ d ∗ SI s') ⊢ (⌜fq m Ψ d s'⌝ : sProp 𝕄) := by
  unfold FIN
  iintro ⟨⟨Ht, He, Hw, Hb, %f, %hf, Hr⟩, HSI⟩
  icombine HSI Ht gives %ht
  icombine HSI He gives %he
  icombine HSI Hw gives %hw
  icombine HSI Hb gives %hb
  icombine HSI Hr gives %hr
  ipureintro
  exact ⟨funext fun i => ht i (Finset.mem_univ i), funext fun i => he i (Finset.mem_univ i), funext fun i => hw i (Finset.mem_univ i),
    funext fun i => hb i (Finset.mem_univ i), f, hf, funext fun i => hr i (Finset.mem_univ i)⟩

end Cert.Proof.KI

end
-- ==== Proof.TileCellsI.lean ====
/-
  One vector subcore's task.

  Tile `w = 2 s + c` copies the whole score vector into its own memory (four quarter copies completing on one
  semaphore, all started before any is waited for and none of their buffers touched until the last wait), and its
  128 token columns in two copies (rows 0–119 and 120–199, each on a semaphore of its own). After the first token
  copy has landed it pools windows 0–23, which read token rows 0–119 only, while the second copy may still be
  landing in rows 120–199; after the second it pools windows 24–39. Pooling window `t`, for each of eight groups of
  sixteen lanes: read the five token rows `5 t … 5 t + 4` at those lanes, read the score vector at each of the five
  words (in range because every token is below 25000), add the five reads left to right, and put the sixteen sums
  into row `t` of the output block at those lanes. Last, the output block goes to the tile's slab of the result.
-/
import proofs.«207257_g22479858827769_cont_8to1_397_21_alg».proof.Proof.PayI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's number. -/
abbrev widL (L : grid1.Coords) : Fin 32 := widOf (Fin.cast bound_zero (L 0)) (Fin.cast bound_one (L 1))

/-! ## The subcore's own semaphores and buffers, split out of what the launch hands it -/

abbrev cellS (d : Dev nD) (c : Fin τ.nSC) (i : Fin τ.nSub) : GSem nD τ sig := (V d c i, .dma cc1_scratch3.sem)
abbrev cellT0 (d : Dev nD) (c : Fin τ.nSC) (i : Fin τ.nSub) : GSem nD τ sig := (V d c i, .dma cc1_scratch4.sem)
abbrev cellT1 (d : Dev nD) (c : Fin τ.nSC) (i : Fin τ.nSub) : GSem nD τ sig := (V d c i, .dma cc1_scratch5.sem)
abbrev cellO (d : Dev nD) (c : Fin τ.nSC) (i : Fin τ.nSub) : GSem nD τ sig := (V d c i, .dma cc1_scoped0.sem)

theorem ownSems0_V [FloatOps F] [Named F] :
    (ownSems0 (V d (cV L) (jV L)) : sProp 𝕄)
      = iprop(semVal (cellS d (cV L) (jV L)) 0 ∗ semVal (cellT0 d (cV L) (jV L)) 0 ∗ semVal (cellT1 d (cV L) (jV L)) 0 ∗ semVal (cellO d (cV L) (jV L)) 0
          ∗ bigSep (((((ownCells (V d (cV L) (jV L))).erase (cellS d (cV L) (jV L))).erase (cellT0 d (cV L) (jV L))).erase (cellT1 d (cV L) (jV L))).erase (cellO d (cV L) (jV L)))
              fun g => semVal g 0) := by
  unfold SparseCore.Cfg.ownSems0
  rw [SparseCore.bigSep_erase' ((mem_ownCells (g := cellS d (cV L) (jV L))).mpr ⟨rfl, by
      show (SemLoc.dma cc1_scratch3.sem : SemLoc sig).isScoped .scVector = true; decide⟩),
    SparseCore.bigSep_erase' (Finset.mem_erase.mpr ⟨by simp [cellS, cellT0]; decide, (mem_ownCells (g := cellT0 d (cV L) (jV L))).mpr ⟨rfl, by
      show (SemLoc.dma cc1_scratch4.sem : SemLoc sig).isScoped .scVector = true; decide⟩⟩),
    SparseCore.bigSep_erase' (Finset.mem_erase.mpr ⟨by simp [cellT0, cellT1]; decide, Finset.mem_erase.mpr ⟨by simp [cellS, cellT1]; decide,
      (mem_ownCells (g := cellT1 d (cV L) (jV L))).mpr ⟨rfl, by show (SemLoc.dma cc1_scratch5.sem : SemLoc sig).isScoped .scVector = true; decide⟩⟩⟩),
    SparseCore.bigSep_erase' (Finset.mem_erase.mpr ⟨by simp [cellT1, cellO]; decide, Finset.mem_erase.mpr ⟨by simp [cellT0, cellO]; decide,
      Finset.mem_erase.mpr ⟨by simp [cellS, cellO]; decide,
      (mem_ownCells (g := cellO d (cV L) (jV L))).mpr ⟨rfl, by show (SemLoc.dma cc1_scoped0.sem : SemLoc sig).isScoped .scVector = true; decide⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

end Tile

end Cert.Proof.KI

end
-- ==== Proof.TileViewsI.lean ====
/-
  The pieces a vector subcore's copies land in.

  The score vector's copy in the subcore's memory is filled by four copies, one per quarter (6400 entries each); the
  token block by two, rows 0–119 and rows 120–199. Each quarter, and each row range, is a rectangle of its buffer;
  the four quarters are pairwise disjoint and cover the vector, the two row ranges are disjoint and cover the block.
  So a buffer held whole is the same as its pieces held side by side.
-/
import proofs.«207257_g22479858827769_cont_8to1_397_21_alg».proof.Proof.TileCellsI

noncomputable section

namespace Cert.Proof.KI

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (Idealize.ShloMosaic.SparseCore.Cfg.HIx 1) (Elt F) ℕ UU ℕ

/-! ## Quarters of the score vector -/

theorem inbQ (j : Fin 4) : ∀ a, (![6400 * j.val] : Fin 1 → Nat) a + S6400.size a ≤ S25600.size a := by
  have := j.isLt; intro a; fin_cases a; show 6400 * j.val + 6400 ≤ 25600; omega
/-- Quarter `j`: entries `6400 j … 6400 j + 6399`. -/
abbrev qRect (j : Fin 4) : Rect S25600 := Rect.unit (s := S25600) ![6400 * j.val] S6400.size (inbQ j)
abbrev qSet (j : Fin 4) : Finset S25600.Idx := (qRect j).set

theorem mem_qSet {j : Fin 4} {i : S25600.Idx} : i ∈ qSet j ↔ 6400 * j.val ≤ (i 0).val ∧ (i 0).val < 6400 * j.val + 6400 := by
  unfold qSet qRect
  rw [Rect.mem_set_unit]
  constructor
  · intro h; exact h 0
  · intro h a; fin_cases a; exact h

theorem qSet_disjoint {j k : Fin 4} (h : j ≠ k) : Disjoint (qSet j) (qSet k) := by
  rw [Finset.disjoint_left]
  intro i hj hk
  rw [mem_qSet] at hj hk
  have : j.val ≠ k.val := fun e => h (Fin.ext e)
  omega

theorem qSet_cover : qSet 0 ∪ (qSet 1 ∪ (qSet 2 ∪ qSet 3)) = (Finset.univ : Finset S25600.Idx) := by
  ext i
  simp only [Finset.mem_union, mem_qSet, Finset.mem_univ, iff_true]
  have h : (i 0).val < 25600 := (i 0).isLt
  show (6400 * 0 ≤ (i 0).val ∧ (i 0).val < 6400 * 0 + 6400) ∨ (6400 * 1 ≤ (i 0).val ∧ (i 0).val < 6400 * 1 + 6400)
    ∨ (6400 * 2 ≤ (i 0).val ∧ (i 0).val < 6400 * 2 + 6400) ∨ (6400 * 3 ≤ (i 0).val ∧ (i 0).val < 6400 * 3 + 6400)
  omega

/-! ## The two row ranges of the token block -/

abbrev loRect : Rect S200x128 := Rect.unit (s := S200x128) ![0, 0] S120x128.size inb_S200x128_S120x128_0_0
abbrev hiRect : Rect S200x128 := Rect.unit (s := S200x128) ![120, 0] S80x128.size inb_S200x128_S80x128_120_0
abbrev loSet : Finset S200x128.Idx := loRect.set
abbrev hiSet : Finset S200x128.Idx := hiRect.set

theorem mem_loSet {i : S200x128.Idx} : i ∈ loSet ↔ (i 0).val < 120 := by
  unfold loSet loRect
  rw [Rect.mem_set_unit]
  constructor
  · intro h; have := h 0; simpa using this.2
  · intro h a; fin_cases a
    · exact ⟨Nat.zero_le _, by simpa using h⟩
    · exact ⟨Nat.zero_le _, by have := (i 1).isLt; simpa using this⟩

theorem mem_hiSet {i : S200x128.Idx} : i ∈ hiSet ↔ 120 ≤ (i 0).val := by
  unfold hiSet hiRect
  rw [Rect.mem_set_unit]
  constructor
  · intro h; have := h 0; simpa using this.1
  · intro h a; fin_cases a
    · exact ⟨by simpa using h, by have := (i 0).isLt; simpa using this⟩
    · exact ⟨Nat.zero_le _, by have := (i 1).isLt; simpa using this⟩

theorem lo_hi_disjoint : Disjoint loSet hiSet := by
  rw [Finset.disjoint_left]; intro i h1 h2; rw [mem_loSet] at h1; rw [mem_hiSet] at h2; omega

theorem lo_hi_cover : loSet ∪ hiSet = (Finset.univ : Finset S200x128.Idx) := by
  ext i; simp only [Finset.mem_union, mem_loSet, mem_hiSet, Finset.mem_univ, iff_true]; omega

/-! ## A buffer held whole is its pieces held side by side -/

theorem pointsTo_quarters {ℓ : Loc nD τ sig} (hℓ : ℓ.ty.shape = S25600) {q : PosShare TreeShare} (f : Buf (Elt F) ℓ)
    (Q : Fin 4 → Finset (Idx ℓ)) (hd : ∀ j k, j ≠ k → Disjoint (Q j) (Q k)) (hc : Q 0 ∪ (Q 1 ∪ (Q 2 ∪ Q 3)) = Finset.univ) :
    (ℓ ↦{q} f : sProp 𝕄) ⊣⊢ iprop((ℓ ↦[Q 0]{q} f) ∗ (ℓ ↦[Q 1]{q} f) ∗ (ℓ ↦[Q 2]{q} f) ∗ ℓ ↦[Q 3]{q} f) := by
  have d23 : Disjoint (Q 2) (Q 3) := hd 2 3 (by decide)
  have d1 : Disjoint (Q 1) (Q 2 ∪ Q 3) := Finset.disjoint_union_right.mpr ⟨hd 1 2 (by decide), hd 1 3 (by decide)⟩
  have d0 : Disjoint (Q 0) (Q 1 ∪ (Q 2 ∪ Q 3)) :=
    Finset.disjoint_union_right.mpr ⟨hd 0 1 (by decide), Finset.disjoint_union_right.mpr ⟨hd 0 2 (by decide), hd 0 3 (by decide)⟩⟩
  show (ℓ ↦[Finset.univ]{q} f : sProp 𝕄) ⊣⊢ _
  rw [← hc]
  constructor
  · refine (pointsTo_union d0).1.trans (sep_mono_right ((pointsTo_union d1).1.trans (sep_mono_right (pointsTo_union d23).1)))
  · refine BI.Entails.trans (sep_mono_right ((sep_mono_right (pointsTo_union d23).2).trans (pointsTo_union d1).2)) (pointsTo_union d0).2

end Cert.Proof.KI

end
-- ==== Proof.PoolSpec.lean ====
/-
  The one function both programs compute, over the extended reals.

  A token `text[s, b]` names row `text[s, b]` of the embedding table. The linear layer of that row, bias included,
  divided by five, is the row's SCORE; the result at batch entry `b` and pooling window `t` is the sum of the scores of
  the five tokens `text[5 t + k, b]`, `k < 5`, added left to right. The kernel computes exactly this (scores of all
  rows first, then five indexed reads and four additions); the reference averages the five rows first and applies the
  linear layer to the average, which is the same number when every table entry, weight and bias is a real number
  (distributivity of a real factor over a finite sum of reals).

  This module fixes the statement's vocabulary and imports no program.
-/
import Idealize.ShloMosaic.PureOps.Ideal
import Idealize.ShloMosaic.Lib.ValueIdx

noncomputable section

namespace Cert.Proof.PoolSpec

open Idealize.ShloMosaic Idealize.ShloMosaic.ValueIdx

abbrev SText : Shape := ⟨2, ![200, 4096]⟩
abbrev SEmb : Shape := ⟨2, ![25000, 100]⟩
abbrev SW : Shape := ⟨2, ![1, 100]⟩
abbrev SB : Shape := ⟨1, ![1]⟩
abbrev SOut : Shape := ⟨3, ![4096, 40, 1]⟩

/-- Every token names a row of the table: read unsigned, the word is below the table's extent (so its sign bit is
    clear and its signed reading is the same number). -/
def InRange (text : IVec SText 32) : Prop := ∀ i : SText.Idx, (text i).toNat < 25000

/-- Every entry of the array is a real number (neither infinity). -/
def AllReal {S : Shape} (x : S.Idx → EReal) : Prop := ∀ i : S.Idx, ∃ r : ℝ, x i = (r : EReal)

/-- The table row token `(s, b)` names: the word read unsigned, reduced into the table's extent — the identity on a
    word in range, and total, so that no proof of range is carried inside the function. -/
def rowOf (text : IVec SText 32) (s : Fin 200) (b : Fin 4096) : Fin 25000 :=
  ⟨(text (ix2 s b)).toNat % 25000, Nat.mod_lt _ (by norm_num)⟩

theorem rowOf_val_of_inRange {text : IVec SText 32} (h : InRange text) (s : Fin 200) (b : Fin 4096) :
    (rowOf text s b).val = (text (ix2 s b)).toNat :=
  Nat.mod_eq_of_lt (h _)

/-- The score of table row `v`: the weights' inner product with the row, times one fifth, plus the bias times one
    fifth. -/
def scoreAt (emb : SEmb.Idx → EReal) (w : SW.Idx → EReal) (b : SB.Idx → EReal) (v : Fin 25000) : EReal :=
  (∑ d : Fin 100, w (ix2 0 d) * emb (ix2 v d)) * ((1 / 5 : ℝ) : EReal) + b (ix1 0) * ((1 / 5 : ℝ) : EReal)

/-- Step `k` of pooling window `t`: sequence position `5 t + k`. -/
def stepOf (t : Fin 40) (k : Fin 5) : Fin 200 := ⟨5 * t.val + k.val, by omega⟩

/-- The pooled result at batch entry `b`, window `t`: the five tokens' scores added left to right. -/
def pooledAt (text : IVec SText 32) (emb : SEmb.Idx → EReal) (w : SW.Idx → EReal) (bias : SB.Idx → EReal)
    (b : Fin 4096) (t : Fin 40) : EReal :=
  scoreAt emb w bias (rowOf text (stepOf t 0) b) + scoreAt emb w bias (rowOf text (stepOf t 1) b)
    + scoreAt emb w bias (rowOf text (stepOf t 2) b) + scoreAt emb w bias (rowOf text (stepOf t 3) b)
    + scoreAt emb w bias (rowOf text (stepOf t 4) b)

/-- The whole result array. -/
def pooled (text : IVec SText 32) (emb : SEmb.Idx → EReal) (w : SW.Idx → EReal) (bias : SB.Idx → EReal) : SOut.Idx → EReal :=
  fun j => pooledAt text emb w bias (j 0) (j 1)

end Cert.Proof.PoolSpec

end
-- ==== Proof.LibLanded.lean ====
/-
  A buffer after one write of a view's whole extent, read under an index of the view.

  A copy that fills a window of a buffer leaves, under each index of the window, the element the copy carried there —
  whatever the buffer held before, which therefore never has to be named. General: any view of any buffer, any element
  type, any interpretation of the elements.
-/
import Idealize.ShloMosaic.Lib.Writes

noncomputable section

namespace Idealize.ShloMosaic

/-- What a buffer holds under index `v.emb y` of a view `v` after ONE write of the view's whole extent with payload
    `w`, over any prior contents `f`: `w y`. -/
theorem landed_emb {sig : RefSig} {κ : Kind} {sp : Space} {s : Shape} {e : EltTy} {Val : EltTy → Type}
    (v : View sig κ sp s e) (f : v.ty.Contents Val) (w : s.Idx → Val e) (y : s.Idx) :
    v.writes Val f [⟨Rect.whole s, w⟩] (v.emb y) = _root_.cast (congrArg Val v.elt_eq.symm) (w y) := by
  have h := View.write_emb_of_mem (v := v.slice (Rect.whole s)) (Val := Val) f w (M := Finset.univ) (x := y) (Finset.mem_univ _)
  simpa [View.writes_singleton, View.emb_slice, Rect.emb_whole_apply] using h

end Idealize.ShloMosaic

end
-- ==== Proof.TileLandI.lean ====
/-
  What the token copies land.

  Tile `w`'s token block is the 200 × 128 array whose entry `(r, l)` is `text[r, 128 w + l]`: rows 0–119 arrive by the
  first copy, rows 120–199 by the second, each copying a rectangle of the token array with the same row range and the
  columns `128 w … 128 w + 127`. So after a copy has landed, the rows it wrote hold that array's entries, whatever
  the buffer held before; and every entry, being a token, is below 25000 under the precondition.
-/
import proofs.«207257_g22479858827769_cont_8to1_397_21_alg».proof.Proof.TileViewsI
import proofs.«207257_g22479858827769_cont_8to1_397_21_alg».proof.Proof.PoolSpec
import proofs.«207257_g22479858827769_cont_8to1_397_21_alg».proof.Proof.LibLanded

noncomputable section

namespace Cert.Proof.KI

open Cert.KernelIdeal Cert.KernelIdeal.Gen
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (Idealize.ShloMosaic.SparseCore.Cfg.HIx 1) (Elt F) ℕ UU ℕ

section Land

variable (m : (ℓ : Loc nD τ sig) → Buf (Elt F) ℓ) (d : Dev nD) (L : grid1.Coords)

/-- The token-array column that lane `l` of tile `w` pools. -/
def colOf (L : grid1.Coords) (l : Fin 128) : Fin 4096 :=
  ⟨128 * (widL L).val + l.val, by have := (widL L).isLt; have := l.isLt; omega⟩

theorem widL_val (L : grid1.Coords) : (widL L).val = (L 1).val * 2 + (L 0).val := rfl

/-- The tile's token block as one function: entry `(r, l)` is `text[r, 128 w + l]`. -/
def gT : Buf (Elt F) ((V d (cV L) (jV L)).loc cc1_scratch1) :=
  fun i => m (textLoc d) (ix2 (n0 := 200) (n1 := 4096) ⟨(i 0).val, (i 0).isLt⟩ (colOf L ⟨(i 1).val, (i 1).isLt⟩))

/-- Every entry of the token block is a token: below 25000 under the precondition. -/
theorem gT_lt (hr : Cert.Proof.PoolSpec.InRange (m (textLoc d))) (i : S200x128.Idx) : (gT m d L i).toNat < 25000 := hr _

/-- The rows of the token array the two copies read, as the program slices them. -/
abbrev txLo (L : grid1.Coords) : Memref sig .scVector .hbm S120x128 .i32 :=
  (Memref.whole main_arg0_scv).slice (Rect.unit (s := S200x4096) (k1_off1 L) S120x128.size (k1_off1_inb L)) (fun _ => rfl)
abbrev txHi (L : grid1.Coords) : Memref sig .scVector .hbm S80x128 .i32 :=
  (Memref.whole main_arg0_scv).slice (Rect.unit (s := S200x4096) (k1_off2 L) S80x128.size (k1_off2_inb L)) (fun _ => rfl)
abbrev tvLo : Memref sig .scVector .vmem S120x128 .i32 := (Memref.whole cc1_scratch1).slice loRect (fun _ => rfl)
abbrev tvHi : Memref sig .scVector .vmem S80x128 .i32 := (Memref.whole cc1_scratch1).slice hiRect (fun _ => rfl)

theorem set_tvLo : (tvLo).view.set = loSet := View.set_slice_whole _ _
theorem set_tvHi : (tvHi).view.set = hiSet := View.set_slice_whole _ _

/-- What rows 0–119 of the block hold once the first copy has landed, over any prior contents: the token block's. -/
theorem lo_landed (f₀ : Buf (Elt F) ((tvLo).view.loc (V d (cV L) (jV L)))) :
    ∀ i ∈ (tvLo).view.set,
      (tvLo).view.writes (Elt F) f₀ [⟨Rect.whole S120x128, ReadAs.same.apply ((txLo L).view.read (Elt F) (m (textLoc d)))⟩] i = gT m d L i := by
  intro i hi
  rw [set_tvLo, mem_loSet] at hi
  obtain ⟨y, rfl⟩ : ∃ y : S120x128.Idx, (tvLo).view.emb y = i := by
    refine ⟨ix2 (n0 := 120) (n1 := 128) ⟨(i 0).val, hi⟩ ⟨(i 1).val, (i 1).isLt⟩, ?_⟩
    funext a
    fin_cases a
    · apply Fin.ext
      show (![0, 0] : Fin 2 → ℕ) 0 + 1 * (i 0).val = (i 0).val
      simp
    · apply Fin.ext
      show (![0, 0] : Fin 2 → ℕ) 1 + 1 * (i 1).val = (i 1).val
      simp
  rw [landed_emb]
  unfold gT
  simp only [ReadAs.apply, View.read_apply, cast_eq]
  congr 1
  funext a
  fin_cases a
  · apply Fin.ext
    show (k1_off1 L) 0 + 1 * (y 0).val = (![0, 0] : Fin 2 → ℕ) 0 + 1 * (y 0).val
    rw [k1_off1_eq]; simp
  · apply Fin.ext
    show (k1_off1 L) 1 + 1 * (y 1).val = 128 * (widL L).val + ((![0, 0] : Fin 2 → ℕ) 1 + 1 * (y 1).val)
    rw [k1_off1_eq, widL_val]; simp; omega

/-- What rows 120–199 of the block hold once the second copy has landed, over any prior contents: the token block's. -/
theorem hi_landed (f₀ : Buf (Elt F) ((tvHi).view.loc (V d (cV L) (jV L)))) :
    ∀ i ∈ (tvHi).view.set,
      (tvHi).view.writes (Elt F) f₀ [⟨Rect.whole S80x128, ReadAs.same.apply ((txHi L).view.read (Elt F) (m (textLoc d)))⟩] i = gT m d L i := by
  intro i hi
  rw [set_tvHi, mem_hiSet] at hi
  have h200 : (i 0).val < 200 := (i 0).isLt
  obtain ⟨y, rfl⟩ : ∃ y : S80x128.Idx, (tvHi).view.emb y = i := by
    refine ⟨ix2 (n0 := 80) (n1 := 128) ⟨(i 0).val - 120, by omega⟩ ⟨(i 1).val, (i 1).isLt⟩, ?_⟩
    funext a
    fin_cases a
    · apply Fin.ext
      show (![120, 0] : Fin 2 → ℕ) 0 + 1 * ((i 0).val - 120) = (i 0).val
      simp; omega
    · apply Fin.ext
      show (![120, 0] : Fin 2 → ℕ) 1 + 1 * (i 1).val = (i 1).val
      simp
  rw [landed_emb]
  unfold gT
  simp only [ReadAs.apply, View.read_apply, cast_eq]
  congr 1
  funext a
  fin_cases a
  · apply Fin.ext
    show (k1_off2 L) 0 + 1 * (y 0).val = (![120, 0] : Fin 2 → ℕ) 0 + 1 * (y 0).val
    rw [k1_off2_eq]; simp
  · apply Fin.ext
    show (k1_off2 L) 1 + 1 * (y 1).val = 128 * (widL L).val + ((![120, 0] : Fin 2 → ℕ) 1 + 1 * (y 1).val)
    rw [k1_off2_eq, widL_val]; simp; omega

/-! ## The score vector's copy -/

/-- Quarter `j` of the score vector in HBM and of its copy in the subcore's memory, as the program slices them. -/
abbrev scQ (j : Fin 4) : Memref sig .scVector .hbm S6400 .f32 := (Memref.whole main_v3_scv).slice (qRect j) (fun _ => rfl)
abbrev svQ (j : Fin 4) : Memref sig .scVector .vmem S6400 .f32 := (Memref.whole cc1_scratch0).slice (qRect j) (fun _ => rfl)

theorem set_svQ (j : Fin 4) : (svQ j).view.set = qSet j := View.set_slice_whole _ _
theorem set_scQ (j : Fin 4) : (scQ j).view.set = qSet j := View.set_slice_whole _ _

/-- The score vector as the contents of the subcore's copy of it (the two buffers have one index type). -/
def scV (sc : Buf (Elt F) (scoresLoc d)) : Buf (Elt F) ((V d (cV L) (jV L)).loc cc1_scratch0) := fun i => sc i

/-- What quarter `j` of the copy holds once its copy has landed, over any prior contents: the score vector's. -/
theorem q_landed (j : Fin 4) (sc : Buf (Elt F) (scoresLoc d)) (f₀ : Buf (Elt F) ((svQ j).view.loc (V d (cV L) (jV L)))) :
    ∀ i ∈ (svQ j).view.set,
      (svQ j).view.writes (Elt F) f₀ [⟨Rect.whole S6400, ReadAs.same.apply ((scQ j).view.read (Elt F) sc)⟩] i = scV d L sc i := by
  intro i hi
  rw [set_svQ, mem_qSet] at hi
  obtain ⟨y, rfl⟩ : ∃ y : S6400.Idx, (svQ j).view.emb y = i := by
    refine ⟨ix1 (n := 6400) ⟨(i 0).val - 6400 * j.val, by omega⟩, ?_⟩
    funext a
    fin_cases a
    apply Fin.ext
    show (![6400 * j.val] : Fin 1 → ℕ) 0 + 1 * ((i 0).val - 6400 * j.val) = (i 0).val
    simp; omega
  rw [landed_emb]
  unfold scV
  simp only [ReadAs.apply, View.read_apply, cast_eq]
  rfl

end Land

end Cert.Proof.KI

end
-- ==== Proof.TileChkI.lean ====
/-
  The side conditions of the indexed reads and writes.

  An indexed read of the score vector takes sixteen token words as positions: each must be below the vector's 25600
  entries, and a token is below 25000. An indexed write of the output block takes a row word per lane — the pooling
  window, the same for all lanes, below 40 — and a column word per lane — the lane number plus sixteen times the lane
  group, below 128.
-/
import proofs.«207257_g22479858827769_cont_8to1_397_21_alg».proof.Proof.TileViewsI
import Idealize.ShloMosaic.Lib.Scf

noncomputable section

namespace Cert.Proof.KI

open Cert.KernelIdeal Cert.KernelIdeal.Gen
open Idealize.ShloMosaic

/-- Sixteen token words name entries of the score vector. -/
theorem chk_gather (v : IVec S16 32) (hv : ∀ x, (v x).toNat < 25000) :
    ∀ a x, ((![v] : Fin 1 → IVec S16 32) a x).toNat < S25600.size a := by
  intro a x
  have ha : a = 0 := Subsingleton.elim _ _
  subst ha
  show (v x).toNat < 25600
  exact lt_trans (hv x) (by norm_num)

/-- A row word below 40 and a column word below 128 per lane name entries of the output block. -/
theorem chk_scatter (u v : IVec S16 32) (hu : ∀ x, (u x).toNat < 40) (hv : ∀ x, (v x).toNat < 128) :
    ∀ a x, ((![u, v] : Fin 2 → IVec S16 32) a x).toNat < S40x128.size a := by
  intro a x
  fin_cases a
  · exact hu x
  · exact hv x

/-- The row word of trip `k` of a loop that starts at `lb`: `lb + k`, in every lane. -/
theorem row_word (lb k : ℕ) (h : lb + k < 40) (x : S16.Idx) :
    (addi (broadcast S16 (0#32 : BitVec 32)) (broadcast S16 (Scf.iv (BitVec.ofNat 32 lb) 1#32 k)) x).toNat = lb + k := by
  show (IntOp.addi (0#32) (Scf.iv (BitVec.ofNat 32 lb) 1#32 k)).toNat = lb + k
  unfold IntOp.addi Scf.iv
  simp only [BitVec.toNat_add, BitVec.toNat_mul, BitVec.toNat_ofNat]
  omega

theorem row_word_lt (lb k : ℕ) (h : lb + k < 40) (x : S16.Idx) :
    (addi (broadcast S16 (0#32 : BitVec 32)) (broadcast S16 (Scf.iv (BitVec.ofNat 32 lb) 1#32 k)) x).toNat < 40 := by
  rw [row_word lb k h x]; exact h

/-- The column word of lane `x` in lane group `c / 16`: `x + c`. -/
theorem lane_word (c : ℕ) (hc : c ≤ 112) (h : S16.Iotas .scVector 32 [0]) (x : S16.Idx) :
    (addi (iota .scVector S16 32 [0] h) (broadcast S16 (BitVec.ofNat 32 c)) x).toNat = (x 0).val + c := by
  have hx : (x 0).val < 16 := (x 0).isLt
  show (IntOp.addi (BitVec.ofNat 32 (0 * S16.size 0 + (x 0).val)) (BitVec.ofNat 32 c)).toNat = (x 0).val + c
  unfold IntOp.addi
  simp only [BitVec.toNat_add, BitVec.toNat_ofNat]
  omega

theorem lane_word_lt (c : ℕ) (hc : c ≤ 112) (h : S16.Iotas .scVector 32 [0]) (x : S16.Idx) :
    (addi (iota .scVector S16 32 [0] h) (broadcast S16 (BitVec.ofNat 32 c)) x).toNat < 128 := by
  have hx : (x 0).val < 16 := (x 0).isLt
  rw [lane_word c hc h x]; omega

end Cert.Proof.KI

end
-- ==== Proof.TileSpec.lean ====
/-
  What one tile computes, for any reading of the floats.

  The tile holds a copy `Sv` of the score vector (25600 entries) and its token block `T` (200 rows of 128 lanes).
  For pooling window `t` and lane `l` it reads `Sv` at the five tokens `T[5 t + k, l]`, `k < 5`, and adds the five reads
  left to right with the float addition of the reading in force; the sum goes to entry `(t, l)` of its 40 × 128 block.
  A token word is taken as a position by its unsigned value; reduced into the vector's extent it is total, and it is
  the identity on every word the precondition admits (below 25000).

  This module imports no program.
-/
import Idealize.ShloMosaic.PureOps
import Idealize.ShloMosaic.Lib.ValueIdx

noncomputable section

namespace Cert.Proof.TileSpec

open Idealize.ShloMosaic Idealize.ShloMosaic.ValueIdx

abbrev SScore : Shape := ⟨1, ![25600]⟩
abbrev STok : Shape := ⟨2, ![200, 128]⟩
abbrev SBlk : Shape := ⟨2, ![40, 128]⟩

/-- The position in the score vector that token `(r, l)` of the block names. -/
def posOf (T : STok.Idx → BitVec 32) (r : Fin 200) (l : Fin 128) : SScore.Idx :=
  ix1 (n := 25600) ⟨(T (ix2 r l)).toNat % 25600, Nat.mod_lt _ (by norm_num)⟩

/-- Row `5 t + k` of the token block. -/
def rowOfStep (t : Fin 40) (k : Fin 5) : Fin 200 := ⟨5 * t.val + k.val, by omega⟩

/-- Entry `(t, l)` of the tile's block: five reads of the score vector, added left to right. -/
def pool5 {F : FTy → Type} [FloatOps F] (Sv : SScore.Idx → F .f32) (T : STok.Idx → BitVec 32) (t : Fin 40) (l : Fin 128) : F .f32 :=
  FloatOps.addf (FloatOps.addf (FloatOps.addf (FloatOps.addf (Sv (posOf T (rowOfStep t 0) l)) (Sv (posOf T (rowOfStep t 1) l)))
    (Sv (posOf T (rowOfStep t 2) l))) (Sv (posOf T (rowOfStep t 3) l))) (Sv (posOf T (rowOfStep t 4) l))

/-- The tile's whole block. -/
def poolBlock {F : FTy → Type} [FloatOps F] (Sv : SScore.Idx → F .f32) (T : STok.Idx → BitVec 32) : SBlk.Idx → F .f32 :=
  fun j => pool5 Sv T (j 0) (j 1)

end Cert.Proof.TileSpec

end
-- ==== Proof.LibStoreIdxRow.lean ====
/-
  An indexed store of a segment of one row, and an indexed load from a vector, read at an index.

  An unmasked indexed store that does not add walks the lanes of the stored vector in ascending order and overwrites,
  for each lane, the element the index vectors name for it. Read at an index `j` the result is therefore decided by
  the lanes that name `j`: if all of them store the same value, the result at `j` is that value when some lane names
  `j` and the old contents when none does, whatever the order of the walk. When every lane names row `t` of a rank-two
  array and lane `x` names column `x + c`, the lanes' targets are the `n` consecutive entries of row `t` from column
  `c`: inside that segment the result is the stored vector at lane `column − c`, outside it the array is unchanged.
  An indexed load from a rank-one array at one index vector reads, at lane `x`, the array at the `x`-th index.
-/
import Idealize.ShloMosaic.PureOps
import Idealize.ShloMosaic.Lib.ValueIdx

namespace Idealize.ShloMosaic

open Idealize.ShloMosaic.ValueIdx

/-- A left fold of overwrites read at one point: step `k` replaces the value at every point it hits by `w k`. If
    every step that hits `j` writes the same value `y`, the fold at `j` is `y` when some step of the list hits `j`
    and the initial value at `j` otherwise. -/
theorem foldl_overwrite_apply {ι α β : Type} (hit : ι → β → Prop) (inst : ∀ k j, Decidable (hit k j)) (w : ι → α)
    (j : β) (y : α) (hy : ∀ k, hit k j → w k = y) :
    ∀ (l : List ι) (g : β → α),
      l.foldl (fun g k j' => @ite _ (hit k j') (inst k j') (w k) (g j')) g j
        = @ite _ (∃ k ∈ l, hit k j) (Classical.propDecidable _) y (g j)
  | [], g => by simp
  | k :: l, g => by
    rw [List.foldl_cons, foldl_overwrite_apply hit inst w j y hy l]
    by_cases h1 : ∃ k' ∈ l, hit k' j
    · have h1' : ∃ k' ∈ k :: l, hit k' j := by
        obtain ⟨k', hk', hh⟩ := h1
        exact ⟨k', List.mem_cons_of_mem _ hk', hh⟩
      rw [if_pos h1, if_pos h1']
    · rw [if_neg h1]
      by_cases h2 : hit k j
      · rw [if_pos h2, hy k h2, if_pos ⟨k, List.mem_cons_self .., h2⟩]
      · have h3 : ¬ ∃ k' ∈ k :: l, hit k' j := by
          rintro ⟨k', hk', hh⟩
          rcases List.mem_cons.1 hk' with rfl | hk'
          · exact h2 hh
          · exact h1 ⟨k', hk', hh⟩
        rw [if_neg h2, if_neg h3]

section Indexed
variable {F : FTy → Type} [FloatOps F] {e : EltTy}

/-- A lane of a rank-one shape of literal extent `n`, as a multi-index, is `ix1` of the lane. -/
theorem Shape.ofLane_eq_ix1 {n : ℕ} (k : Fin n) : Shape.ofLane (d := ![n]) k = ix1 k := by
  funext a
  match a with
  | ⟨0, _⟩ => rfl

/-- The unmasked indexed store that does not add is the fold, over the lanes in ascending order, of the overwrite of
    the element each lane names by the lane's value. -/
theorem storeIdx_eq_foldl {s : Shape} {d : Fin 1 → Nat} (f : Vec F s e) (idxs : Fin s.rank → IVec ⟨1, d⟩ 32)
    (v : Vec F ⟨1, d⟩ e) (h : ∀ a x, (idxs a x).toNat < s.size a) :
    storeIdx f idxs v (fun _ => 1#1) false h
      = (List.finRange (d 0)).foldl (fun g k j' =>
          if (∀ a, (j' a).val = (idxAt idxs h (Shape.ofLane k) a).val) then v (Shape.ofLane k) else g j') f := by
  unfold storeIdx
  simp

/-- AN INDEXED STORE OF A ROW SEGMENT, READ AT AN INDEX (any lane count `d 0`): when every lane names row `t` of a
    rank-two array and lane `x` names column `x + c`, the array after the unmasked, non-adding store holds, at row
    `t` and a column in `[c, c + d 0)`, the stored vector at lane `column − c`; everywhere else it is unchanged. -/
theorem storeIdx_row_apply' {R C : ℕ} {d : Fin 1 → Nat} (f : Vec F ⟨2, ![R, C]⟩ e) (u v : IVec ⟨1, d⟩ 32)
    (val : Vec F ⟨1, d⟩ e)
    (h : ∀ a x, ((![u, v] : Fin 2 → IVec ⟨1, d⟩ 32) a x).toNat < (⟨2, ![R, C]⟩ : Shape).size a) (t c : ℕ)
    (hu : ∀ x, (u x).toNat = t) (hv : ∀ x, (v x).toNat = (x 0).val + c) (j : (⟨2, ![R, C]⟩ : Shape).Idx) :
    storeIdx f ![u, v] val (fun _ => 1#1) false h j
      = if hj : (j 0).val = t ∧ c ≤ (j 1).val ∧ (j 1).val < c + d 0 then
          val (Shape.ofLane ⟨(j 1).val - c, by omega⟩) else f j := by
  have hit_iff : ∀ k : Fin (d 0), (∀ a, (j a).val = (idxAt ![u, v] h (Shape.ofLane k) a).val)
      ↔ ((j 0).val = t ∧ (j 1).val = k.val + c) := by
    intro k
    constructor
    · intro hall
      exact ⟨(hall 0).trans (hu (Shape.ofLane k)), (hall 1).trans (hv (Shape.ofLane k))⟩
    · rintro ⟨h0, h1⟩ a
      match a with
      | ⟨0, _⟩ => exact h0.trans (hu (Shape.ofLane k)).symm
      | ⟨1, _⟩ => exact h1.trans (hv (Shape.ofLane k)).symm
  rw [storeIdx_eq_foldl]
  by_cases hj : (j 0).val = t ∧ c ≤ (j 1).val ∧ (j 1).val < c + d 0
  · rw [dif_pos hj,
      foldl_overwrite_apply (fun (k : Fin (d 0)) (j' : (⟨2, ![R, C]⟩ : Shape).Idx) =>
          ∀ a, (j' a).val = (idxAt ![u, v] h (Shape.ofLane k) a).val) _ (fun k => val (Shape.ofLane k)) j
        (val (Shape.ofLane ⟨(j 1).val - c, by omega⟩))
        (fun k hk => by
          have h1 := ((hit_iff k).1 hk).2
          exact congrArg (fun q => val (Shape.ofLane q)) (Fin.ext (by show k.val = (j 1).val - c; omega)))]
    exact if_pos ⟨⟨(j 1).val - c, by omega⟩, List.mem_finRange _,
      (hit_iff _).2 ⟨hj.1, by show (j 1).val = (j 1).val - c + c; omega⟩⟩
  · rw [dif_neg hj,
      foldl_overwrite_apply (fun (k : Fin (d 0)) (j' : (⟨2, ![R, C]⟩ : Shape).Idx) =>
          ∀ a, (j' a).val = (idxAt ![u, v] h (Shape.ofLane k) a).val) _ (fun k => val (Shape.ofLane k)) j (f j)
        (fun k hk => by
          obtain ⟨h0, h1⟩ := (hit_iff k).1 hk
          exact absurd ⟨h0, by omega, by have := k.isLt; omega⟩ hj)]
    exact ite_self _

/-- The same at a literal lane count `n`, the stored lane named by `ix1`. -/
theorem storeIdx_row_apply {R C n : ℕ} (f : Vec F ⟨2, ![R, C]⟩ e) (u v : IVec ⟨1, ![n]⟩ 32)
    (val : Vec F ⟨1, ![n]⟩ e)
    (h : ∀ a x, ((![u, v] : Fin 2 → IVec ⟨1, ![n]⟩ 32) a x).toNat < (⟨2, ![R, C]⟩ : Shape).size a) (t c : ℕ)
    (hu : ∀ x, (u x).toNat = t) (hv : ∀ x, (v x).toNat = (x 0).val + c) (j : (⟨2, ![R, C]⟩ : Shape).Idx) :
    storeIdx f ![u, v] val (fun _ => 1#1) false h j
      = if hj : (j 0).val = t ∧ c ≤ (j 1).val ∧ (j 1).val < c + n then
          val (ix1 ⟨(j 1).val - c, by omega⟩) else f j := by
  rw [storeIdx_row_apply' (d := ![n]) f u v val h t c hu hv j]
  by_cases hj : (j 0).val = t ∧ c ≤ (j 1).val ∧ (j 1).val < c + n
  · rw [dif_pos (show (j 0).val = t ∧ c ≤ (j 1).val ∧ (j 1).val < c + (![n] : Fin 1 → ℕ) 0 from hj), dif_pos hj]
    exact congrArg val (Shape.ofLane_eq_ix1 _)
  · rw [dif_neg (show ¬((j 0).val = t ∧ c ≤ (j 1).val ∧ (j 1).val < c + (![n] : Fin 1 → ℕ) 0) from hj), dif_neg hj]

/-- AN INDEXED LOAD FROM A VECTOR, READ AT A LANE: the array at the lane's index, read unsigned. -/
theorem loadIdx_apply1 {N n : ℕ} (f : Vec F ⟨1, ![N]⟩ e) (w : IVec ⟨1, ![n]⟩ 32)
    (h : ∀ a x, ((![w] : Fin 1 → IVec ⟨1, ![n]⟩ 32) a x).toNat < (⟨1, ![N]⟩ : Shape).size a)
    (x : (⟨1, ![n]⟩ : Shape).Idx) :
    loadIdx f ![w] h x = f (ix1 ⟨(w x).toNat, h 0 x⟩) := by
  unfold loadIdx
  refine congrArg f (funext fun a => ?_)
  match a with
  | ⟨0, _⟩ => rfl

end Indexed

end Idealize.ShloMosaic
-- ==== Proof.LibRowFill.lean ====
/-
  Whole-block writes through a whole-buffer view, and a row of a rank-two array filled by consecutive row stores.

  A write of the whole rectangle through the view of a whole buffer replaces the buffer's contents by the payload, so
  after a list of such writes the buffer holds the last payload, and a read of the whole view after them reads it.
  A rank-two array `g` has row `t` FILLED TO COLUMN `N` from `f` by `target` when it agrees with `target` on row `t`
  below column `N` and with `f` everywhere else. Nothing is filled at `N = 0`; an unmasked indexed store whose lanes
  all name row `t` and whose lane `x` names column `x + c`, storing `target`'s values there, fills `n` more columns;
  and a row filled to the array's width, over an `f` that already agrees with `target` on the rows below `t`, agrees
  with `target` on every row up to `t`.
-/
import proofs.«207257_g22479858827769_cont_8to1_397_21_alg».proof.Proof.LibStoreIdxRow
import Idealize.ShloMosaic.Lib.Exec.Geometry
import Idealize.ShloMosaic.Signature.Memref

namespace Idealize.ShloMosaic

open Idealize.ShloMosaic.ValueIdx

section WholeWrites
variable {sig : RefSig} {κ : Kind} {Val : EltTy → Type}

/-- After a list of writes through a whole buffer's view whose last one covers the whole rectangle, the buffer holds
    that write's payload. -/
theorem Memref.writes_whole_cons (b : Ref sig κ) (f w : b.ty.Contents Val) (L : List (View.Piece Val b.ty.shape b.ty.elt)) :
    (Memref.whole b : Memref sig κ _ _ _).view.writes Val f (⟨Rect.whole _, w⟩ :: L) = w :=
  Memref.write_access_whole_univ Val b _ w

/-- A read of the whole view after such a list, over any prior contents, reads that payload. -/
theorem Memref.readCov_whole_cons [∀ e, Nonempty (Val e)] (b : Ref sig κ) (w : b.ty.Contents Val)
    (L : List (View.Piece Val b.ty.shape b.ty.elt)) :
    (Memref.whole b : Memref sig κ _ _ _).view.readCov (⟨Rect.whole _, w⟩ :: L) (LoadRect.whole _) = w := by
  unfold View.readCov
  rw [Memref.writes_whole_cons]
  exact Memref.readAt_whole Val b w

end WholeWrites

section RowFill
variable {F : FTy → Type} [FloatOps F] {e : EltTy} {R C : ℕ}

/-- Row `t` of `g` is filled to column `N` from `f` by `target`. -/
def RowFilled (t N : ℕ) (f g : Vec F ⟨2, ![R, C]⟩ e) (target : (⟨2, ![R, C]⟩ : Shape).Idx → Elt F e) : Prop :=
  ∀ j, g j = if (j 0).val = t ∧ (j 1).val < N then target j else f j

/-- Nothing filled. -/
theorem RowFilled.base (t : ℕ) (f : Vec F ⟨2, ![R, C]⟩ e) (target : (⟨2, ![R, C]⟩ : Shape).Idx → Elt F e) :
    RowFilled t 0 f f target := fun j => by
  rw [if_neg (fun h => Nat.not_lt_zero _ h.2)]

/-- One row store fills `n` more columns. -/
theorem RowFilled.step {t N c n : ℕ} (hN : N = c + n) {f g : Vec F ⟨2, ![R, C]⟩ e}
    {target : (⟨2, ![R, C]⟩ : Shape).Idx → Elt F e} (h : RowFilled t c f g target)
    {u v : IVec ⟨1, ![n]⟩ 32} {val : Vec F ⟨1, ![n]⟩ e}
    {hidx : ∀ a x, ((![u, v] : Fin 2 → IVec ⟨1, ![n]⟩ 32) a x).toNat < (⟨2, ![R, C]⟩ : Shape).size a}
    (hu : ∀ x, (u x).toNat = t) (hv : ∀ x, (v x).toNat = (x 0).val + c)
    (hval : ∀ (x : (⟨1, ![n]⟩ : Shape).Idx) (j : (⟨2, ![R, C]⟩ : Shape).Idx), (j 0).val = t → (j 1).val = (x 0).val + c →
      val x = target j) :
    RowFilled t N f (storeIdx g ![u, v] val (fun _ => 1#1) false hidx) target := by
  subst hN
  intro j
  rw [storeIdx_row_apply g u v val hidx t c hu hv j]
  by_cases hj : (j 0).val = t ∧ c ≤ (j 1).val ∧ (j 1).val < c + n
  · rw [dif_pos hj, if_pos ⟨hj.1, hj.2.2⟩]
    exact hval _ j hj.1 (by show (j 1).val = (j 1).val - c + c; omega)
  · rw [dif_neg hj, h j]
    by_cases h1 : (j 0).val = t ∧ (j 1).val < c
    · rw [if_pos h1, if_pos ⟨h1.1, by omega⟩]
    · rw [if_neg h1, if_neg (fun h2 => hj ⟨h2.1, by have := h2.2; by_contra h3; exact h1 ⟨h2.1, by omega⟩, h2.2⟩)]

/-- A row filled to the array's width, over contents already right on the rows below it, is right on every row up to
    it. -/
theorem RowFilled.rows_le {t : ℕ} {f g : Vec F ⟨2, ![R, C]⟩ e} {target : (⟨2, ![R, C]⟩ : Shape).Idx → Elt F e}
    (h : RowFilled t C f g target) (hf : ∀ j : (⟨2, ![R, C]⟩ : Shape).Idx, (j 0).val < t → f j = target j)
    (j : (⟨2, ![R, C]⟩ : Shape).Idx) (hj : (j 0).val < t + 1) : g j = target j := by
  rw [h j]
  by_cases ht : (j 0).val = t
  · rw [if_pos ⟨ht, (j 1).isLt⟩]
  · rw [if_neg (fun h2 => ht h2.1)]
    exact hf j (by omega)

end RowFill

end Idealize.ShloMosaic
-- ==== Proof.TileValueI.lean ====
/-
  The value one lane group of a pooling trip stores.

  A token vector is sixteen consecutive entries of one row of the token block: lane `x` of the vector read at row
  `r`, column `c` is the block's entry `(r, c + x)`. Five reads of the score vector at five such token vectors, added
  left to right, are at lane `x` the tile's pooled sum for the window and the lane those tokens belong to, since a token
  below 25000 is its own residue modulo the score vector's extent.
-/
import proofs.«207257_g22479858827769_cont_8to1_397_21_alg».proof.Proof.TileLandI
import proofs.«207257_g22479858827769_cont_8to1_397_21_alg».proof.Proof.TileChkI
import proofs.«207257_g22479858827769_cont_8to1_397_21_alg».proof.Proof.TileSpec
import proofs.«207257_g22479858827769_cont_8to1_397_21_alg».proof.Proof.LibRowFill
import Idealize.ShloMosaic.Lib.Pipeline.Value

noncomputable section

namespace Cert.Proof.KI

open Cert.KernelIdeal Cert.KernelIdeal.Gen Idealize.ShloMosaic Idealize.ShloMosaic.ValueIdx Cert.Proof.TileSpec

variable {F : FTy → Type}

/-- Lane `x` of the token vector read at the rectangle of one row and sixteen columns at offsets `off`, whose closed
    form is row `r` and column `c` with `c + x = l`: the block's entry `(r, l)`. -/
theorem tok_read (T : cc1_scratch1.ty.Contents (Elt F)) (off : Fin 2 → ℕ) [co : ClosedOff off]
    (inb : ∀ a, off a + S1x16.size a ≤ S200x128.size a)
    (hsc : (Rect.unit (s := S200x128) off S1x16.size inb).toLoadRect.shape.ShapeCasts S16) (x : S16.Idx)
    (r : Fin 200) (l : Fin 128) (hr : co.form 0 = r.val) (hl : co.form 1 + (x 0).val = l.val) :
    shapeCast S16 (View.readAt (Elt F) (Memref.whole cc1_scratch1).view
        (Rect.unit (s := S200x128) off S1x16.size inb).toLoadRect T) hsc x = T (ix2 r l) := by
  have hoff : off = co.form := co.eq
  have hk : ((Rect.unit (s := S200x128) off S1x16.size inb).toLoadRect.shape.rowMajor
      (ix2 (0 : Fin 1) (⟨(x 0).val, (x 0).isLt⟩ : Fin 16))).val = (S16.rowMajor x).val := by
    rw [Shape.rowMajor_val_two, Shape.rowMajor_val_one]
    show 0 * 16 + (x 0).val = (x 0).val
    omega
  rw [shapeCast_apply _ hsc x (ix2 (0 : Fin 1) (⟨(x 0).val, (x 0).isLt⟩ : Fin 16)) hk, View.readAt_apply]
  show T _ = T _
  refine congrArg T (funext fun a => Fin.ext ?_)
  match a with
  | ⟨0, _⟩ =>
    show off 0 + 1 * 0 = r.val
    rw [hoff, hr]
    omega
  | ⟨1, _⟩ =>
    show off 1 + 1 * (x 0).val = l.val
    rw [hoff, ← hl, Nat.one_mul]

variable [FloatOps F]

/-- One read of the score vector at a token below 25000 is the read at the token's position. -/
theorem load_at_tok (Sv : SScore.Idx → F .f32) (T : STok.Idx → BitVec 32) (hT : ∀ i, (T i).toNat < 25000)
    (w : IVec S16 32) (h : ∀ a x, ((![w] : Fin 1 → IVec S16 32) a x).toNat < S25600.size a) (x : S16.Idx)
    (r : Fin 200) (l : Fin 128) (e : w x = T (ix2 r l)) :
    loadIdx (F := F) (e := .f32) Sv ![w] h x = Sv (posOf T r l) := by
  rw [loadIdx_apply1]
  refine congrArg Sv (congrArg (ix1 (n := 25600)) (Fin.ext ?_))
  show (w x).toNat = (T (ix2 r l)).toNat % 25600
  rw [e, Nat.mod_eq_of_lt (lt_trans (hT _) (by norm_num))]

/-- FIVE LOADS ADDED LEFT TO RIGHT ARE THE POOLED SUM: at lane `x`, when token vector `k` holds at that lane the
    block's token at some row `r` and lane `l` with `r = 5 t + k` and `l` the lane, for the window `t = j 0` and the lane
    `j 1`. `Sv'` is the score vector as the loads name it. -/
theorem pool5_of_loads (Sv : SScore.Idx → F .f32) (Sv' : Vec F S25600 .f32) (hSv : Sv' = Sv)
    (T : STok.Idx → BitVec 32) (hT : ∀ i, (T i).toNat < 25000) (j : SBlk.Idx) (x : S16.Idx)
    (w0 w1 w2 w3 w4 : IVec S16 32)
    (h0 : ∀ a x, ((![w0] : Fin 1 → IVec S16 32) a x).toNat < S25600.size a)
    (h1 : ∀ a x, ((![w1] : Fin 1 → IVec S16 32) a x).toNat < S25600.size a)
    (h2 : ∀ a x, ((![w2] : Fin 1 → IVec S16 32) a x).toNat < S25600.size a)
    (h3 : ∀ a x, ((![w3] : Fin 1 → IVec S16 32) a x).toNat < S25600.size a)
    (h4 : ∀ a x, ((![w4] : Fin 1 → IVec S16 32) a x).toNat < S25600.size a)
    (e0 : ∃ (r : Fin 200) (l : Fin 128), w0 x = T (ix2 r l) ∧ r.val = 5 * (j 0).val + 0 ∧ l.val = (j 1).val)
    (e1 : ∃ (r : Fin 200) (l : Fin 128), w1 x = T (ix2 r l) ∧ r.val = 5 * (j 0).val + 1 ∧ l.val = (j 1).val)
    (e2 : ∃ (r : Fin 200) (l : Fin 128), w2 x = T (ix2 r l) ∧ r.val = 5 * (j 0).val + 2 ∧ l.val = (j 1).val)
    (e3 : ∃ (r : Fin 200) (l : Fin 128), w3 x = T (ix2 r l) ∧ r.val = 5 * (j 0).val + 3 ∧ l.val = (j 1).val)
    (e4 : ∃ (r : Fin 200) (l : Fin 128), w4 x = T (ix2 r l) ∧ r.val = 5 * (j 0).val + 4 ∧ l.val = (j 1).val) :
    addf (addf (addf (addf (loadIdx Sv' ![w0] h0) (loadIdx Sv' ![w1] h1)) (loadIdx Sv' ![w2] h2))
      (loadIdx Sv' ![w3] h3)) (loadIdx Sv' ![w4] h4) x = poolBlock Sv T j := by
  subst hSv
  have key : ∀ (k : Fin 5) (w : IVec S16 32) (h : ∀ a x, ((![w] : Fin 1 → IVec S16 32) a x).toNat < S25600.size a),
      (∃ (r : Fin 200) (l : Fin 128), w x = T (ix2 r l) ∧ r.val = 5 * (j 0).val + k.val ∧ l.val = (j 1).val) →
      loadIdx (F := F) (e := .f32) Sv' ![w] h x = Sv' (posOf T (rowOfStep (j 0) k) (j 1)) := by
    rintro k w h ⟨r, l, e, hr, hl⟩
    have hr' : r = rowOfStep (j 0) k := Fin.ext hr
    have hl' : l = j 1 := Fin.ext hl
    subst hr' hl'
    exact load_at_tok Sv' T hT w h x _ _ e
  show FloatOps.addf (FloatOps.addf (FloatOps.addf (FloatOps.addf (loadIdx Sv' ![w0] h0 x) (loadIdx Sv' ![w1] h1 x))
      (loadIdx Sv' ![w2] h2 x)) (loadIdx Sv' ![w3] h3 x)) (loadIdx Sv' ![w4] h4 x) = pool5 Sv' T (j 0) (j 1)
  rw [key 0 w0 h0 e0, key 1 w1 h1 e1, key 2 w2 h2 e2, key 3 w3 h3 e3, key 4 w4 h4 e4]
  rfl

/-- A filled row is a property of the array: it may be restated along an equation of arrays. -/
theorem RowFilled_of_eq {e : EltTy} {R C t N : ℕ} {f g g' : Vec F ⟨2, ![R, C]⟩ e}
    {target : (⟨2, ![R, C]⟩ : Shape).Idx → Elt F e} (h : g' = g) (hg : RowFilled t N f g target) :
    RowFilled t N f g' target := h ▸ hg

end Cert.Proof.KI

/-- One row store of a pooling trip, peeled off a goal `RowFilled t N f (storeIdx g ![u, v] val _ false _) target`:
    `tile_row c tr hgt Sv T` — `c` the first column of the sixteen the store fills, `tr` the token block's row of the
    window's first step (`5 * k` in the first loop), `hgt` the tokens' range, `Sv` and `T` the score vector and the token
    block. It proves the stored vector is the pooled sums (five loads added left to right, each token vector read at its
    lane) and leaves the goal for the array before the store, read back as the previous store's result. -/
syntax "tile_row " term:max term:max term:max term:max term:max : tactic
macro_rules
  | `(tactic| tile_row $c $tr $hgt $Sv $T) => `(tactic| (
    refine Idealize.ShloMosaic.RowFilled.step (c := $c) (n := 16) rfl ?_
      (fun x => (Cert.Proof.KI.row_word _ _ (by omega) x).trans (by omega))
      (fun x => Cert.Proof.KI.lane_word $c (by norm_num) Cert.KernelIdeal.Gen.iota_S16_d0_w32_scVector x) (fun x j h0 h1 => ?_)
    on_goal 2 =>
      have hx : (x 0).val < 16 := (x 0).isLt
      refine Cert.Proof.KI.pool5_of_loads $Sv _ (Idealize.ShloMosaic.Memref.readAt_whole _ _ _) $T $hgt j x
        _ _ _ _ _ _ _ _ _ _ ?_ ?_ ?_ ?_ ?_
      · exact ⟨⟨$tr + 0, by omega⟩, ⟨$c + (x 0).val, by omega⟩, Cert.Proof.KI.tok_read _ _ _ _ x _ _ rfl rfl,
          (by omega : $tr + 0 = 5 * (j 0).val + 0), (by omega : $c + (x 0).val = (j 1).val)⟩
      · exact ⟨⟨$tr + 1, by omega⟩, ⟨$c + (x 0).val, by omega⟩, Cert.Proof.KI.tok_read _ _ _ _ x _ _ rfl rfl,
          (by omega : $tr + 1 = 5 * (j 0).val + 1), (by omega : $c + (x 0).val = (j 1).val)⟩
      · exact ⟨⟨$tr + 2, by omega⟩, ⟨$c + (x 0).val, by omega⟩, Cert.Proof.KI.tok_read _ _ _ _ x _ _ rfl rfl,
          (by omega : $tr + 2 = 5 * (j 0).val + 2), (by omega : $c + (x 0).val = (j 1).val)⟩
      · exact ⟨⟨$tr + 3, by omega⟩, ⟨$c + (x 0).val, by omega⟩, Cert.Proof.KI.tok_read _ _ _ _ x _ _ rfl rfl,
          (by omega : $tr + 3 = 5 * (j 0).val + 3), (by omega : $c + (x 0).val = (j 1).val)⟩
      · exact ⟨⟨$tr + 4, by omega⟩, ⟨$c + (x 0).val, by omega⟩, Cert.Proof.KI.tok_read _ _ _ _ x _ _ rfl rfl,
          (by omega : $tr + 4 = 5 * (j 0).val + 4), (by omega : $c + (x 0).val = (j 1).val)⟩
    first
      | refine Cert.Proof.KI.RowFilled_of_eq (Idealize.ShloMosaic.Memref.readCov_whole_cons _ _ _) ?_
      | refine Cert.Proof.KI.RowFilled_of_eq (Idealize.ShloMosaic.Memref.readAt_whole _ _ _) ?_))

end
-- ==== Proof.TileBodyI.lean ====
/-
  One vector subcore's task, run.
-/
import proofs.«207257_g22479858827769_cont_8to1_397_21_alg».proof.Proof.TileLandI
import proofs.«207257_g22479858827769_cont_8to1_397_21_alg».proof.Proof.TileChkI
import proofs.«207257_g22479858827769_cont_8to1_397_21_alg».proof.Proof.TileSpec
import proofs.«207257_g22479858827769_cont_8to1_397_21_alg».proof.Proof.TileValueI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

/-- The side condition of an indexed read or write, from the tokens' range `h` and the trip's bound in scope. -/
syntax "tile_chk " term : tactic
macro_rules
  | `(tactic| tile_chk $h) =>
    `(tactic| first
      | exact chk_gather _ (fun x => $h _)
      | exact chk_scatter _ _ (row_word_lt _ _ (by omega)) (lane_word_lt _ (by omega) iota_S16_d0_w32_scVector))

local notation "𝕄" => MT nD τ sig (HIx 1) (Elt F) ℕ UU ℕ

section Tile

variable [FloatOps F] [Named F] [∀ e, Nonempty (Elt F e)]
variable (m : (ℓ : Loc nD τ sig) → Buf (Elt F) ℓ)
variable (Φ : (d : Dev nD) → Buf (Elt F) (scoresLoc d) → Prop)
variable (Ψ : (d : Dev nD) → Fin 32 → Buf (Elt F) (outLoc d) → Prop)
variable (d : Dev nD) (L : grid1.Coords)

local notation "scW" => (Memref.whole Cert.KernelIdeal.main_v3_scv : Memref Cert.KernelIdeal.sig Kind.scVector Space.hbm Cert.KernelIdeal.S25600 EltTy.f32)
local notation "txW" => (Memref.whole Cert.KernelIdeal.main_arg0_scv : Memref Cert.KernelIdeal.sig Kind.scVector Space.hbm Cert.KernelIdeal.S200x4096 EltTy.i32)
local notation "ouW" => (Memref.whole Cert.KernelIdeal.main_v4_scv : Memref Cert.KernelIdeal.sig Kind.scVector Space.hbm Cert.KernelIdeal.S40x32x128 EltTy.f32)
local notation "sS" => (Memref.whole Cert.KernelIdeal.cc1_scratch0 : Memref Cert.KernelIdeal.sig Kind.scVector Space.vmem Cert.KernelIdeal.S25600 EltTy.f32)
local notation "sT" => (Memref.whole Cert.KernelIdeal.cc1_scratch1 : Memref Cert.KernelIdeal.sig Kind.scVector Space.vmem Cert.KernelIdeal.S200x128 EltTy.i32)
local notation "sO" => (Memref.whole Cert.KernelIdeal.cc1_scratch2 : Memref Cert.KernelIdeal.sig Kind.scVector Space.vmem Cert.KernelIdeal.S40x128 EltTy.f32)

/-! ## The arrays and buffers as the subcore's memrefs address them -/
omit [FloatOps F] [Named F] [∀ e, Nonempty (Elt F e)] in
theorem pts_sc (q : PosShare TreeShare) (f : Buf (Elt F) (scoresLoc d)) :
    ((scW).view.loc (V d (cV L) (jV L)) ↦{q} f : sProp 𝕄) = scoresLoc d ↦{q} f := by
  simp only [Memref.view_whole, View.set_whole]
omit [FloatOps F] [Named F] [∀ e, Nonempty (Elt F e)] in
theorem pts_tx (q : PosShare TreeShare) (f : Buf (Elt F) (textLoc d)) :
    ((txW).view.loc (V d (cV L) (jV L)) ↦{q} f : sProp 𝕄) = textLoc d ↦{q} f := by
  simp only [Memref.view_whole, View.set_whole]
omit [FloatOps F] [Named F] [∀ e, Nonempty (Elt F e)] in
theorem pts_sS (f : Buf (Elt F) ((V d (cV L) (jV L)).loc cc1_scratch0)) :
    ((sS).view.loc (V d (cV L) (jV L)) ↦{fullShare} f : sProp 𝕄) = (V d (cV L) (jV L)).loc cc1_scratch0 ↦{fullShare} f := rfl
omit [FloatOps F] [Named F] [∀ e, Nonempty (Elt F e)] in
theorem pts_sT (f : Buf (Elt F) ((V d (cV L) (jV L)).loc cc1_scratch1)) :
    ((sT).view.loc (V d (cV L) (jV L)) ↦{fullShare} f : sProp 𝕄) = (V d (cV L) (jV L)).loc cc1_scratch1 ↦{fullShare} f := rfl
omit [FloatOps F] [Named F] [∀ e, Nonempty (Elt F e)] in
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl

omit [FloatOps F] [Named F] [∀ e, Nonempty (Elt F e)] in
theorem svQ_disjoint {j k : Fin 4} (h : j ≠ k) : Disjoint (svQ j).view.set (svQ k).view.set := by
  rw [set_svQ, set_svQ]; exact qSet_disjoint h
omit [FloatOps F] [Named F] [∀ e, Nonempty (Elt F e)] in
theorem svQ_cover : (svQ 0).view.set ∪ ((svQ 1).view.set ∪ ((svQ 2).view.set ∪ (svQ 3).view.set)) = Finset.univ := by
  rw [set_svQ, set_svQ, set_svQ, set_svQ]; exact qSet_cover

omit [FloatOps F] [Named F] [∀ e, Nonempty (Elt F e)] in
/-- The subcore's copy of the score vector held whole is its four quarters held side by side. -/
theorem split_sS (f : Buf (Elt F) ((V d (cV L) (jV L)).loc cc1_scratch0)) :
    ((V d (cV L) (jV L)).loc cc1_scratch0 ↦{fullShare} f : sProp 𝕄)
      ⊣⊢ iprop(((svQ 0).view.loc (V d (cV L) (jV L)) ↦[(svQ 0).view.set]{fullShare} f) ∗ ((svQ 1).view.loc (V d (cV L) (jV L)) ↦[(svQ 1).view.set]{fullShare} f)
          ∗ ((svQ 2).view.loc (V d (cV L) (jV L)) ↦[(svQ 2).view.set]{fullShare} f) ∗ (svQ 3).view.loc (V d (cV L) (jV L)) ↦[(svQ 3).view.set]{fullShare} f) := by
  have d23 : Disjoint (svQ 2).view.set (svQ 3).view.set := svQ_disjoint (by decide)
  have d1 : Disjoint (svQ 1).view.set ((svQ 2).view.set ∪ (svQ 3).view.set) :=
    Finset.disjoint_union_right.mpr ⟨svQ_disjoint (by decide), svQ_disjoint (by decide)⟩
  have d0 : Disjoint (svQ 0).view.set ((svQ 1).view.set ∪ ((svQ 2).view.set ∪ (svQ 3).view.set)) :=
    Finset.disjoint_union_right.mpr ⟨svQ_disjoint (by decide), Finset.disjoint_union_right.mpr ⟨svQ_disjoint (by decide), svQ_disjoint (by decide)⟩⟩
  show ((V d (cV L) (jV L)).loc cc1_scratch0 ↦[Finset.univ]{fullShare} f : sProp 𝕄) ⊣⊢ _
  rw [← svQ_cover]
  constructor
  · exact (pointsTo_union d0).1.trans (sep_mono_right ((pointsTo_union d1).1.trans (sep_mono_right (pointsTo_union d23).1)))
  · exact BI.Entails.trans (sep_mono_right ((sep_mono_right (pointsTo_union d23).2).trans (pointsTo_union d1).2)) (pointsTo_union d0).2

omit [FloatOps F] [Named F] [∀ e, Nonempty (Elt F e)] in
/-- The token block held whole is its two row ranges held side by side. -/
theorem split_sT (f : Buf (Elt F) ((V d (cV L) (jV L)).loc cc1_scratch1)) :
    ((V d (cV L) (jV L)).loc cc1_scratch1 ↦{fullShare} f : sProp 𝕄)
      ⊣⊢ iprop(((tvLo).view.loc (V d (cV L) (jV L)) ↦[(tvLo).view.set]{fullShare} f) ∗ (tvHi).view.loc (V d (cV L) (jV L)) ↦[(tvHi).view.set]{fullShare} f) := by
  have dd : Disjoint (tvLo).view.set (tvHi).view.set := by rw [set_tvLo, set_tvHi]; exact lo_hi_disjoint
  have cc : (tvLo).view.set ∪ (tvHi).view.set = Finset.univ := by rw [set_tvLo, set_tvHi]; exact lo_hi_cover
  show ((V d (cV L) (jV L)).loc cc1_scratch1 ↦[Finset.univ]{fullShare} f : sProp 𝕄) ⊣⊢ _
  rw [← cc]
  exact pointsTo_union dd

/-! ## The four quarter copies' deliveries -/

abbrev landedQ (j : Fin 4) (sc : Buf (Elt F) (scoresLoc d)) (fS : Buf (Elt F) ((V d (cV L) (jV L)).loc cc1_scratch0)) :
    Buf (Elt F) ((svQ j).view.loc (V d (cV L) (jV L))) :=
  (svQ j).view.writes (Elt F) fS [⟨Rect.whole S6400, ReadAs.same.apply ((scQ j).view.read (Elt F) sc)⟩]

abbrev delivQ (sc : Buf (Elt F) (scoresLoc d)) (fS : Buf (Elt F) ((V d (cV L) (jV L)).loc cc1_scratch0)) (j : Fin 4) : sProp 𝕄 :=
  iprop(((svQ j).view.loc (V d (cV L) (jV L)) ↦[(svQ j).view.set]{fullShare} landedQ d L j sc fS)
    ∗ (scW).view.loc (V d (cV L) (jV L)) ↦[(scQ j).view.set]{tok (widL L)} sc)

/-- One quarter's credit. -/
abbrev NQ : ℕ := 204800

omit [FloatOps F] [Named F] [∀ e, Nonempty (Elt F e)] in
/-- The four landed quarters, whatever the copy held before, are the score vector held whole. -/
theorem quarters_joined (sc : Buf (Elt F) (scoresLoc d)) (f₀ f₁ f₂ f₃ : Buf (Elt F) ((V d (cV L) (jV L)).loc cc1_scratch0)) :
    iprop(((svQ 0).view.loc (V d (cV L) (jV L)) ↦[(svQ 0).view.set]{fullShare}
            (svQ 0).view.writes (Elt F) f₀ [⟨Rect.whole S6400, ReadAs.same.apply ((scQ 0).view.read (Elt F) sc)⟩])
        ∗ ((svQ 1).view.loc (V d (cV L) (jV L)) ↦[(svQ 1).view.set]{fullShare}
            (svQ 1).view.writes (Elt F) f₁ [⟨Rect.whole S6400, ReadAs.same.apply ((scQ 1).view.read (Elt F) sc)⟩])
        ∗ ((svQ 2).view.loc (V d (cV L) (jV L)) ↦[(svQ 2).view.set]{fullShare}
            (svQ 2).view.writes (Elt F) f₂ [⟨Rect.whole S6400, ReadAs.same.apply ((scQ 2).view.read (Elt F) sc)⟩])
        ∗ ((svQ 3).view.loc (V d (cV L) (jV L)) ↦[(svQ 3).view.set]{fullShare}
            (svQ 3).view.writes (Elt F) f₃ [⟨Rect.whole S6400, ReadAs.same.apply ((scQ 3).view.read (Elt F) sc)⟩]))
      ⊢ ((sS).view.loc (V d (cV L) (jV L)) ↦{fullShare} scV d L sc : sProp 𝕄) := by
  exact (BIClass.sep_mono (Entails.of_eq (pointsTo_congr (q_landed d L 0 sc f₀)))
    (BIClass.sep_mono (Entails.of_eq (pointsTo_congr (q_landed d L 1 sc f₁)))
      (BIClass.sep_mono (Entails.of_eq (pointsTo_congr (q_landed d L 2 sc f₂))) (Entails.of_eq (pointsTo_congr (q_landed d L 3 sc f₃)))))).trans
    (split_sS (F := F) d L (scV d L sc)).2

/-! ## The tile's slab of the result -/

abbrev slabK (L : grid1.Coords) : Rect S40x32x128 := Rect.unit (s := S40x32x128) (k1_off83 L) S40x1x128.size (k1_off83_inb L)
/-- The tile's slab of the result as the program slices it. -/
abbrev oSlab (L : grid1.Coords) : Memref sig .scVector .hbm S40x128 .f32 :=
  ((Memref.whole main_v4_scv : Memref sig .scVector .hbm S40x32x128 .f32).slice (slabK L) (fun _ => rfl)).squeeze S40x128 squeezes_S40x1x128_S40x128

omit [FloatOps F] [Named F] [∀ e, Nonempty (Elt F e)] in
theorem slabK_eq : slabK L = slab (widL L) := by
  unfold slabK slab Rect.part Rect.block
  congr 1 <;> funext a
  · rw [k1_off83_eq]
    match a with
    | 0 => simp [Shape.partIx, Shape.partSize]
    | 1 => simp [Shape.partIx, Shape.partSize, widL_val]; omega
    | 2 => simp [Shape.partIx, Shape.partSize]
  · match a with
    | 0 => simp [Shape.partSize]
    | 1 => simp [Shape.partSize]
    | 2 => simp [Shape.partSize]

omit [FloatOps F] [Named F] [∀ e, Nonempty (Elt F e)] in
theorem set_oSlab : (oSlab L).view.set = slabSet (widL L) := by
  show (((Memref.whole main_v4_scv : Memref sig .scVector .hbm S40x32x128 .f32).view.slice (slabK L)).reshape S40x128 squeezes_S40x1x128_S40x128.numel_eq).set
    = ((Memref.whole main_v4_scv : Memref sig .scVector .hbm S40x32x128 .f32).view.slice (slab (widL L))).set
  rw [View.set_reshape]
  exact slabK_eq L ▸ rfl

omit [FloatOps F] [Named F] [∀ e, Nonempty (Elt F e)] in
/-- Entry `(t, l)` of the tile's slab is entry `(t, w, l)` of the result. -/
theorem oSlab_emb (t : Fin 40) (l : Fin 128) :
    (oSlab L).view.emb (ValueIdx.ix2 (n0 := 40) (n1 := 128) t l) = ValueIdx.ix3 (n0 := 40) (n1 := 32) (n2 := 128) t (widL L) l := by
  have hre : Shape.reshapeEquiv (s := S40x1x128) (s' := S40x128) squeezes_S40x1x128_S40x128.numel_eq (ValueIdx.ix2 (n0 := 40) (n1 := 128) t l)
      = ValueIdx.ix3 (n0 := 40) (n1 := 1) (n2 := 128) t 0 l := by
    apply Shape.reshapeEquiv_eq_of_rowMajor
    rw [Shape.rowMajor_val_two, Shape.rowMajor_val_three]
    simp
  show (slabK L).emb (Shape.reshapeEquiv (s := S40x1x128) (s' := S40x128) squeezes_S40x1x128_S40x128.numel_eq (ValueIdx.ix2 (n0 := 40) (n1 := 128) t l)) = _
  rw [hre]
  funext a
  fin_cases a
  · apply Fin.ext
    show (k1_off83 L) 0 + 1 * t.val = t.val
    rw [k1_off83_eq]; simp
  · apply Fin.ext
    show (k1_off83 L) 1 + 1 * 0 = (widL L).val
    rw [k1_off83_eq, widL_val]; simp; omega
  · apply Fin.ext
    show (k1_off83 L) 2 + 1 * l.val = l.val
    rw [k1_off83_eq]; simp

omit [FloatOps F] [Named F] [∀ e, Nonempty (Elt F e)] in
theorem pts_oSlab (f : Buf (Elt F) (outLoc d)) :
    ((oSlab L).view.loc (V d (cV L) (jV L)) ↦[(oSlab L).view.set]{fullShare} f : sProp 𝕄) = outLoc d ↦[slabSet (widL L)]{fullShare} f := by
  rw [set_oSlab]

/-! ## What the loops keep -/

/-- Rows below `n` of the output block hold the pooled sums. -/
def OI (sc : Buf (Elt F) (scoresLoc d)) (n : ℕ) (f : Buf (Elt F) ((V d (cV L) (jV L)).loc cc1_scratch2)) : Prop :=
  ∀ (t : Fin 40) (l : Fin 128), t.val < n →
    f (ValueIdx.ix2 (n0 := 40) (n1 := 128) t l) = Cert.Proof.TileSpec.pool5 (scV d L sc) (gT m d L) t l

/-- What links the two abstract properties: if the score vector satisfies `Φ`, a result array whose slab `w` holds
    the tile's pooled sums satisfies `Ψ` there. -/
def TileGives : Prop :=
  ∀ (d : Dev nD) (L : grid1.Coords) (sc : Buf (Elt F) (scoresLoc d)) (f : Buf (Elt F) (outLoc d)), Φ d sc →
    (∀ (t : Fin 40) (l : Fin 128), f (ValueIdx.ix3 (n0 := 40) (n1 := 32) (n2 := 128) t (widL L) l)
        = Cert.Proof.TileSpec.pool5 (scV d L sc) (gT m d L) t l) → Ψ d (widL L) f

/-- While windows 0–23 are pooled: the score vector's copy whole, token rows 0–119 landed, the rows of the output
    block pooled so far, the waits recorded. -/
def inv1 (sc : Buf (Elt F) (scoresLoc d)) (O : CellTallies nD τ sig (HIx 1)) (W : Waits sig (HIx 1)) (k : Nat) (_ : PUnit) : sProp 𝕄 :=
  iprop(Transfers.MayWaits (V d (cV L) (jV L)) (none : HIx 1) O
    ∗ ((sS).view.loc (V d (cV L) (jV L)) ↦{fullShare} scV d L sc)
    ∗ ((tvLo).view.loc (V d (cV L) (jV L)) ↦[(tvLo).view.set]{fullShare} gT m d L)
    ∗ (∃ f, ⌜OI m d L sc k f⌝ ∗ (sO).view.loc (V d (cV L) (jV L)) ↦{fullShare} f)
    ∗ ∃ W', ⌜∀ p ∈ W', p ∈ W ∨ p.2 = none⌝ ∗ owes (V d (cV L) (jV L)) O W')

/-- While windows 24–39 are pooled: the same with token rows 120–199. -/
def inv2 (sc : Buf (Elt F) (scoresLoc d)) (O : CellTallies nD τ sig (HIx 1)) (W : Waits sig (HIx 1)) (k : Nat) (_ : PUnit) : sProp 𝕄 :=
  iprop(Transfers.MayWaits (V d (cV L) (jV L)) (none : HIx 1) O
    ∗ ((sS).view.loc (V d (cV L) (jV L)) ↦{fullShare} scV d L sc)
    ∗ ((tvHi).view.loc (V d (cV L) (jV L)) ↦[(tvHi).view.set]{fullShare} gT m d L)
    ∗ (∃ f, ⌜OI m d L sc (24 + k) f⌝ ∗ (sO).view.loc (V d (cV L) (jV L)) ↦{fullShare} f)
    ∗ ∃ W', ⌜∀ p ∈ W', p ∈ W ∨ p.2 = none⌝ ∗ owes (V d (cV L) (jV L)) O W')

omit [FloatOps F] [Named F] [∀ e, Nonempty (Elt F e)] in
/-- One more wait at the kernel's own index keeps the record within bounds. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

omit [FloatOps F] [Named F] [∀ e, Nonempty (Elt F e)] in
theorem trips1 : Scf.trips k1_t1_loop.lb k1_t1_loop.ub k1_t1_loop.st = 24 := by decide
omit [FloatOps F] [Named F] [∀ e, Nonempty (Elt F e)] in
theorem trips2 : Scf.trips k1_t2_loop.lb k1_t2_loop.ub k1_t2_loop.st = 16 := by decide

set_option sl_exec.skeleton false in
set_option maxHeartbeats 0 in
theorem tile_body (hF : (K (F := F)).Facts) (hr : Cert.Proof.PoolSpec.InRange (m (textLoc d))) (hΦΨ : TileGives m Φ Ψ)
    (O : CellTallies nD τ sig (HIx 1)) (W : Waits sig (HIx 1)) (hO : ∀ g, O g none = 0) :
    iprop(levAts (K (F := F)).L (K (F := F)).lev ∗ emp ∗ tileIn m Φ d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_pool L scW (Memref.isWhole_whole _) txW (Memref.isWhole_whole _) ouW (Memref.isWhole_whole _)
            sS (Memref.isWhole_whole _) sT (Memref.isWhole_whole _) sO (Memref.isWhole_whole _) cc1_scratch3 cc1_scratch4 cc1_scratch5 cc1_scoped0)
          fun _ => iprop(tileOut m Ψ d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hgt : ∀ i, (gT m d L i).toNat < 25000 := gT_lt m d L hr
  simp only [cc1__sc_pool_eq_skeleton]; unfold cc1__sc_pool_skel
  simp only [k1_part13_eq_skeleton, k1_part14_eq_skeleton]; unfold k1_part13_skel k1_part14_skel
  rw [(K (F := F)).scopedBufs_V hF d (cV L) (jV L), SparseCore.Cfg.scopedSems0_V (Val := Elt F) d (cV L) (jV L), ownSems0_V, ownBufs_V]
  unfold tileIn
  iintro ⟨#Hlv, -, ⟨Htx, ⟨%sc, %hsc, Hsc⟩, ⟨%fo, Hou⟩⟩, ⟨⟨%fS, HsS⟩, ⟨%fT, HsT⟩, ⟨%fO, HsO⟩, Hbufs⟩, ⟨HsemS, HsemT0, HsemT1, HsemO, Hsems⟩, HO⟩
  ihave Hmw := ((K (F := F)).mayWaits_none (thr := V d (cV L) (jV L)) hO) $$ Hlv
  ihave Hsc' := (Entails.of_eq (pts_sc (F := F) d L _ _).symm) $$ Hsc
  ihave Htx' := (Entails.of_eq (pts_tx (F := F) d L _ _).symm) $$ Htx
  ihave HsO' := (Entails.of_eq (pts_sO (F := F) d L _).symm) $$ HsO
  ihave Hou' := (Entails.of_eq (pts_oSlab (F := F) d L _).symm) $$ Hou
  -- the score copy's four quarters, the token block's two row ranges
  ihave HsQ := (split_sS (F := F) d L fS).1 $$ HsS
  icases HsQ with ⟨HQ0, HQ1, HQ2, HQ3⟩
  ihave HsT2 := (split_sT (F := F) d L fT).1 $$ HsT
  icases HsT2 with ⟨HTlo, HThi⟩
  imod (Transfers.batch_alloc' (Lvl := ℕ) (countersEmb (U := UU)) (V d (cV L) (jV L)) (none : HIx 1) NQ (delivQ (F := F) d L sc fS) (sm := .dma cc1_scratch3.sem) (E := Set.univ)) $$ HsemS with HB
  -- six copies started, the four on one semaphore drained, the first token copy waited for
  sl_exec
  ihave HS := (quarters_joined (F := F) d L sc _ _ _ _) $$ [HB_dst0 HB_dst1 HB_dst2 HB_dst3]
  · isplitl [HB_dst0]; · iexact HB_dst0
    isplitl [HB_dst1]; · iexact HB_dst1
    isplitl [HB_dst2]; · iexact HB_dst2
    iexact HB_dst3
  ihave HT := (Entails.of_eq (pointsTo_congr (lo_landed m d L _))) $$ HTlo
  -- windows 0–23
  sl_for (inv1 m d L sc O W) $$ [Hmw HS HT HsO' HO]
  case region =>
    intro k _
    unfold inv1
    iintro ⟨Hmw, HS, HT, ⟨%f, %hf, HOut⟩, %W', %hW', HO⟩
    have hk24 : k.val < 24 := lt_of_lt_of_le k.isLt k1_t1_abs.2.1
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    sl_step
    isplitl [Hmw]; · iexact Hmw
    isplitl [HS]; · iexact HS
    isplitl [HT]; · iexact HT
    isplitl [HOut]
    · iexists _
      isplitr
      rotate_left
      · iexact HOut
      · ipureintro
        intro t l htl
        refine (congrFun (Idealize.ShloMosaic.Memref.writes_whole_cons (Val := Elt F) cc1_scratch2 f _ _) (ValueIdx.ix2 t l)).trans ?_
        refine Idealize.ShloMosaic.RowFilled.rows_le (F := F) (e := .f32) (R := 40) (C := 128) (t := k.val) (f := f)
          (target := Cert.Proof.TileSpec.poolBlock (scV d L sc) (gT m d L)) ?_ ?_ (ValueIdx.ix2 t l) htl
        on_goal 2 => exact fun j hj => (congrArg f (ValueIdx.eq_ix2 j)).trans (hf (j 0) (j 1) hj)
        tile_row 112 (5 * k.val) hgt (scV d L sc) (gT m d L)
        tile_row 96 (5 * k.val) hgt (scV d L sc) (gT m d L)
        tile_row 80 (5 * k.val) hgt (scV d L sc) (gT m d L)
        tile_row 64 (5 * k.val) hgt (scV d L sc) (gT m d L)
        tile_row 48 (5 * k.val) hgt (scV d L sc) (gT m d L)
        tile_row 32 (5 * k.val) hgt (scV d L sc) (gT m d L)
        tile_row 16 (5 * k.val) hgt (scV d L sc) (gT m d L)
        tile_row 0 (5 * k.val) hgt (scV d L sc) (gT m d L)
        exact Idealize.ShloMosaic.RowFilled.base _ _ _
    iexists W'; isplitr
    · ipureintro; exact hW'
    · iexact HO
  · unfold inv1
    isplitr; · iexact Hmw
    isplitl [HS]; · iexact HS
    isplitl [HT]; · iexact HT
    isplitl [HsO']
    · iexists _
      isplitr
      rotate_left
      · iexact HsO'
      · ipureintro; intro t l ht; exact absurd ht (Nat.not_lt_zero _)
    iexists _
    isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ HI
  unfold inv1
  icases HI with ⟨-, HS, HT, ⟨%f1, %hf1, HOut⟩, %W1, %hW1, HO⟩
  -- the second token copy waited for
  sl_exec
  ihave HT2 := (Entails.of_eq (pointsTo_congr (hi_landed m d L _))) $$ HThi
  rw [trips1] at hf1
  -- windows 24–39
  sl_for (inv2 m d L sc O W) $$ [Hmw HS HT2 HOut HO]
  case region =>
    intro k _
    unfold inv2
    iintro ⟨Hmw, HS, HT2, ⟨%f, %hf, HOut⟩, %W', %hW', HO⟩
    have hk16 : k.val < 16 := lt_of_lt_of_le k.isLt k1_t2_abs.2.1
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorLoadIdx_bind (V d (cV L) (jV L))]
    sl_exec (disch := tile_chk hgt)
    rw [SparseCore.vectorStoreIdx_bind (V d (cV L) (jV L))]
    sl_exec (disch := tile_chk hgt)
    sl_step
    isplitl [Hmw]; · iexact Hmw
    isplitl [HS]; · iexact HS
    isplitl [HT2]; · iexact HT2
    isplitl [HOut]
    · iexists _
      isplitr
      rotate_left
      · iexact HOut
      · ipureintro
        intro t l htl
        refine (congrFun (Idealize.ShloMosaic.Memref.writes_whole_cons (Val := Elt F) cc1_scratch2 f _ _) (ValueIdx.ix2 t l)).trans ?_
        refine Idealize.ShloMosaic.RowFilled.rows_le (F := F) (e := .f32) (R := 40) (C := 128) (t := 24 + k.val) (f := f)
          (target := Cert.Proof.TileSpec.poolBlock (scV d L sc) (gT m d L)) ?_ ?_ (ValueIdx.ix2 t l) htl
        on_goal 2 => exact fun j hj => (congrArg f (ValueIdx.eq_ix2 j)).trans (hf (j 0) (j 1) hj)
        tile_row 112 (5 * k.val + 120) hgt (scV d L sc) (gT m d L)
        tile_row 96 (5 * k.val + 120) hgt (scV d L sc) (gT m d L)
        tile_row 80 (5 * k.val + 120) hgt (scV d L sc) (gT m d L)
        tile_row 64 (5 * k.val + 120) hgt (scV d L sc) (gT m d L)
        tile_row 48 (5 * k.val + 120) hgt (scV d L sc) (gT m d L)
        tile_row 32 (5 * k.val + 120) hgt (scV d L sc) (gT m d L)
        tile_row 16 (5 * k.val + 120) hgt (scV d L sc) (gT m d L)
        tile_row 0 (5 * k.val + 120) hgt (scV d L sc) (gT m d L)
        exact Idealize.ShloMosaic.RowFilled.base _ _ _
    iexists W'; isplitr
    · ipureintro; exact hW'
    · iexact HO
  · unfold inv2
    isplitr; · iexact Hmw
    isplitl [HS]; · iexact HS
    isplitl [HT2]; · iexact HT2
    isplitl [HOut]
    · iexists _
      isplitr
      rotate_left
      · iexact HOut
      · ipureintro; exact hf1
    iexists _
    isplitr
    rotate_left
    · iexact HO
    · ipureintro; exact waits_insert hW1 _
  iintro %_ HI
  unfold inv2
  icases HI with ⟨-, HS, HT2, ⟨%f2, %hf2, HOut⟩, %W2, %hW2, HO⟩
  rw [trips2] at hf2
  -- the output block copied to the tile's slab, the copy waited for
  sl_exec
  sl_step
  unfold tileOut
  isplitl [Htx' Hsc' Hou']
  · isplitl [Htx']
    · iapply (Entails.of_eq (pts_tx (F := F) d L _ _)); iexact Htx'
    isplitl [Hsc']
    · iexists _; iapply (Entails.of_eq (pts_sc (F := F) d L _ _)); iexact Hsc'
    iexists _
    isplitr
    rotate_left
    · iapply (Entails.of_eq (pts_oSlab (F := F) d L _)); iexact Hou'
    · ipureintro
      refine hΦΨ d L sc _ hsc ?_
      intro t l
      rw [← oSlab_emb L t l, landed_emb]
      simp only [cast_eq]
      exact hf2 t l (by have := t.isLt; omega)
  isplitl [HS HT HT2 HOut Hbufs]
  · isplitl [HS]
    · iexists _; iapply (Entails.of_eq (pts_sS (F := F) d L _)); iexact HS
    isplitl [HT HT2]
    · iexists _; iapply (split_sT (F := F) d L _).2
      isplitl [HT]; · iexact HT
      iexact HT2
    isplitl [HOut]
    · iexists _; iapply (Entails.of_eq (pts_sO (F := F) d L _)); iexact HOut
    iexact Hbufs
  isplitl [HB HsemT0 HsemT1 HsemO Hsems]
  · isplitl [HB]; · iexact HB
    isplitl [HsemT0]; · iexact HsemT0
    isplitl [HsemT1]; · iexact HsemT1
    isplitl [HsemO]; · iexact HsemO
    iexact Hsems
  iexists _
  isplitr
  rotate_left
  · iexact HO
  · ipureintro; exact waits_insert hW2 _

end Tile

end Cert.Proof.KI

end
-- ==== Proof.LaunchI.lean ====
/-
  The launch: every thread's obligation discharged, the program's run.

  The launch theorem for a SparseCore program asks for: each vector subcore's task (the tile's run, at a symbolic
  tile), how a SparseCore's share of the call splits among its sixteen tiles (here the share IS the sixteen tiles'
  parts, so the split is the identity), the launch element of the ghost state (the handshakes' part kept, the
  pipelined call's part turned into its cells, the copies' counters not needed), @main on the TensorCore, and how the
  final memory reads the claim.
-/
import proofs.«207257_g22479858827769_cont_8to1_397_21_alg».proof.Proof.MainI
import proofs.«207257_g22479858827769_cont_8to1_397_21_alg».proof.Proof.TileBodyI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Launch

variable [FloatOps F] [Named F] [∀ e, Nonempty (Elt F e)]
variable (m : (ℓ : Loc nD τ sig) → Buf (Elt F) ℓ) (ρ : Dev nD → PrngReg)
variable (Φ : (d : Dev nD) → Buf (Elt F) (scoresLoc d) → Prop)
variable (Ψ : (d : Dev nD) → Fin 32 → Buf (Elt F) (outLoc d) → Prop)

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_pool (coordsV c s)
          (Memref.whole main_v3_scv) (Memref.isWhole_whole _) (Memref.whole main_arg0_scv) (Memref.isWhole_whole _)
          (Memref.whole main_v4_scv) (Memref.isWhole_whole _) (Memref.whole cc1_scratch0) (Memref.isWhole_whole _)
          (Memref.whole cc1_scratch1) (Memref.isWhole_whole _) (Memref.whole cc1_scratch2) (Memref.isWhole_whole _)
          cc1_scratch3 cc1_scratch4 cc1_scratch5 cc1_scoped0) ⟨⟩ c s := rfl

omit [FloatOps F] [Named F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hr : ∀ d, Cert.Proof.PoolSpec.InRange (m (textLoc d)))
    (hΦΨ : TileGives m Φ Ψ) : (K (F := F)).TileObl (D (F := F)) 𝒱 (P m Φ Ψ) v₀ 0 := by
  intro d c i O W hO _ _
  simp only [show (P m Φ Ψ).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m Φ Ψ d (coordsV ⟨_, hc.1⟩ ⟨_, hc.2⟩) hF (hr d) hΦΨ O W hO).trans (wp_mono frame _ _ fun _ => obl_post)

/-! ## A SparseCore's share is its sixteen tiles' parts -/

omit [FloatOps F] [Named F] [∀ e, Nonempty (Elt F e)] in
theorem bigSep_tasks [FloatOps F] [Named F] (Θ : Fin 16 → sProp 𝕄) :
    (bigSep Finset.univ fun i : Fin ((K (F := F)).nSub 0) => Θ (Fin.cast nSub_zero i)) = bigSep Finset.univ Θ :=
  bigSep_congr fun _ _ => congrArg Θ (Fin.ext rfl)

theorem vecSplit : (K (F := F)).VecSplit' (P m Φ Ψ) 0 := by
  intro d c
  show (bigSep Finset.univ fun s : Fin 16 => tileIn m Φ d (widOf (Fin.cast nCore_zero c) s)) ⊢ |={Set.univ}=> iprop(
      (bigSep Finset.univ fun i : Fin ((K (F := F)).nSub 0) => tileIn m Φ d (widOf (Fin.cast nCore_zero c) (Fin.cast nSub_zero i)))
      ∗ ((bigSep Finset.univ fun i : Fin ((K (F := F)).nSub 0) => tileOut m Ψ d (widOf (Fin.cast nCore_zero c) (Fin.cast nSub_zero i)))
          -∗ bigSep Finset.univ fun s : Fin 16 => tileOut m Ψ d (widOf (Fin.cast nCore_zero c) s)))
  rw [bigSep_tasks (F := F) (fun s => tileIn m Φ d (widOf (Fin.cast nCore_zero c) s)),
    bigSep_tasks (F := F) (fun s => tileOut m Ψ d (widOf (Fin.cast nCore_zero c) s))]
  iintro H; imodintro
  isplitl [H]; · iexact H
  iintro H; iexact H

/-! ## The launch element -/

def u₀ : UU := (initOf (K (F := F)).hsCells (K (F := F)).hsToks, (uP₀, 1))

omit [FloatOps F] [Named F] [∀ e, Nonempty (Elt F e)] in
theorem bigSep_emp' {I : Type} (s : Finset I) : (bigSep s fun _ => iprop(emp)) = (iprop(emp) : sProp 𝕄) := bigSep_emp_const s

omit [∀ e, Nonempty (Elt F e)] in
theorem ownU_splitH (a : UH) (r : UP × Counters) :
    (ownU ((a, r) : UU) : sProp 𝕄) ⊢ iprop(BI.own ((EH (F := F)) a)
      ∗ BI.own ((uEmb (nD := nD) (sig := sig) (Ix := HIx 1) (Val := Elt F) (Name := ℕ) (U := UU) (Lvl := ℕ)).toEmb (((1 : UH), r) : UU))) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op r)))

omit [∀ e, Nonempty (Elt F e)] in
theorem ownU_splitP (b : UP) (c : Counters) :
    (BI.own ((uEmb (nD := nD) (sig := sig) (Ix := HIx 1) (Val := Elt F) (Name := ℕ) (U := UU) (Lvl := ℕ)).toEmb (((1 : UH), ((b, c) : UP × Counters)) : UU)) : sProp 𝕄)
      ⊢ iprop(BI.own ((EP (F := F)) b)
        ∗ BI.own ((uEmb (nD := nD) (sig := sig) (Ix := HIx 1) (Val := Elt F) (Name := ℕ) (U := UU) (Lvl := ℕ)).toEmb (((1 : UH), (((1 : UP), c) : UP × Counters)) : UU))) :=
  BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op c))))

omit [∀ e, Nonempty (Elt F e)] in
/-- The launch element splits into the handshakes' part and the pipelined call's part (the counters are dropped). -/
theorem ownU_split3 (a : UH) (b : UP) (c : Counters) :
    (ownU ((a, (b, c)) : UU) : sProp 𝕄) ⊢ iprop(BI.own ((EH (F := F)) a) ∗ BI.own ((EP (F := F)) b)) := by
  iintro Hu
  ihave H := (ownU_splitH (F := F) a (b, c)) $$ Hu
  icases H with ⟨HH, HR⟩
  ihave H2 := (ownU_splitP (F := F) b c) $$ HR
  icases H2 with ⟨HP, -⟩
  isplitl [HH]; · iexact HH
  iexact HP

theorem hu₀ : (ownU (u₀ (F := F)) : sProp 𝕄)
    ⊢ |={Set.univ}=> iprop(BI.own ((EH (F := F)) (initOf (K (F := F)).hsCells (K (F := F)).hsToks)) ∗ (bigSep Finset.univ (G (F := F)))
        ∗ bigSep Finset.univ fun thr : Thread nD τ => bigSep Finset.univ fun q : Fin 1 => (P m Φ Ψ).x q thr) := by
  unfold u₀
  iintro Hu
  ihave H := (ownU_split3 (F := F) _ _ _) $$ Hu
  icases H with ⟨HH, HP⟩
  imod (fundG (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

/-- What the run leaves: the four inputs as launched, and the result the host tail of an array whose every slab
    satisfies `Ψ`. -/
def QC : PUnit × MemSt nD τ sig (Elt F) → Prop := fun r => ∀ c : Dev nD,
  r.2.mem (textLoc c) = m (textLoc c) ∧ r.2.mem (embLoc c) = m (embLoc c) ∧ r.2.mem (wLoc c) = m (wLoc c) ∧ r.2.mem (biasLoc c) = m (biasLoc c)
    ∧ ∃ f, (∀ w, Ψ c w f) ∧ r.2.mem (resLoc c) = tailOf c f

theorem run_main (hr : ∀ d, Cert.Proof.PoolSpec.InRange (m (textLoc d)))
    (hΦ : ∀ d sc, ScoresOK m d sc → Φ d sc) (hΨ : ∀ d w f g, (∀ i ∈ slabSet w, f i = g i) → Ψ d w f → Ψ d w g)
    (hΦΨ : TileGives m Φ Ψ) :
    θ_run (Cert.KernelIdeal.defs (F := F)) (Cert.KernelIdeal.threads (F := F)) ⟨m, fun _ => 0, ρ⟩ (QC m Ψ) :=
  SparseCore.Cfg.θ_run_sc (K := K (F := F)) (D := D (F := F)) (𝒱 := 𝒱) (EH := EH) (P := P m Φ Ψ) facts v₀
    (fun q hq => match q with | 0 => nomatch hq)
    (fun q _ => match q with | 0 => tileObl m Φ Ψ facts hr hΦΨ)
    (fun q _ => match q with | 0 => SparseCore.Cfg.VecSplit.of_plain (vecSplit m Φ Ψ))
    m ρ main (G (F := F)) (FIN m Ψ) (u₀ (F := F)) (sep_elim_left.trans (hu₀ m Φ Ψ)) (hmain m ρ Φ Ψ hΦ hΨ) (fq m Ψ) (hfin m Ψ) (QC m Ψ) (fun _ h => h)

end Launch

end Cert.Proof.KI

end
-- ==== Proof.SetupB.lean ====
/-
  The program as the launch theorem reads it, and the ghost state every module of this proof shares.

  The device runs 35 threads: the TensorCore (the host operations, one pipelined matrix product that computes every
  table row's score, the start of the SparseCores and the wait for them), two sequencers and thirty-two vector
  subcores. The ghost state has three independent parts: the launch handshakes' rounds, the pipelined call's staging
  cells' rounds, and the counters of the vector subcores' own copies.
-/
import proofs.«207257_g22479858827769_cont_8to1_397_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Batch
import Idealize.ShloMosaic.Lib.Tactic
import proofs.«207257_g22479858827769_cont_8to1_397_21_alg».proof.Proof.Gen.Kernel
import proofs.«207257_g22479858827769_cont_8to1_397_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

/-- The handshakes' rounds: the left factor. -/
abbrev EH : Emb UH (MT nD τ sig (HIx 1) (Elt F) ℕ UU ℕ) := embL

/-- The pipelined call's staging cells' rounds: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.Proof.KB

end
-- ==== Proof.PayB.lean ====
/-
  What the SparseCore call hands each vector subcore and takes back.

  Tile number `w = 2 s + c` (subcore `s` of SparseCore `c`) pools batch entries `128 w … 128 w + 127`: it reads the
  whole score vector and its own 128 columns of the token array, and writes the slab `(·, w, ·)` of the [40, 32, 128]
  result. The token array and the score vector are only read, so each tile gets one read token of each (of 32 tokens
  cut from the full share; the remainder stays with the TensorCore); the result array is cut into its 32 slabs.

  What is known of the score vector when the call starts is an abstract property `Φ` (its entries beyond the table's
  25000 rows are not determined by the inputs, so the vector itself is existentially bound), and what a tile
  guarantees of its slab an abstract property `Ψ`: the frames take both trivial, the value claim takes `Φ` "entry v is
  row v's score" and `Ψ` "the slab holds the pooled sums".
-/
import proofs.«207257_g22479858827769_cont_8to1_397_21_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## The arrays, as locations of device `d` -/

abbrev textLoc (d : Dev nD) : Loc nD τ sig := (SparseCore.T d).loc main_arg0
abbrev embLoc (d : Dev nD) : Loc nD τ sig := (SparseCore.T d).loc main_arg1
abbrev wLoc (d : Dev nD) : Loc nD τ sig := (SparseCore.T d).loc main_arg2
abbrev biasLoc (d : Dev nD) : Loc nD τ sig := (SparseCore.T d).loc main_arg3
abbrev embTLoc (d : Dev nD) : Loc nD τ sig := (SparseCore.T d).loc main_v0
abbrev bias2Loc (d : Dev nD) : Loc nD τ sig := (SparseCore.T d).loc main_v1
abbrev blocksLoc (d : Dev nD) : Loc nD τ sig := (SparseCore.T d).loc main_v2
abbrev scoresLoc (d : Dev nD) : Loc nD τ sig := (SparseCore.T d).loc main_v3
abbrev outLoc (d : Dev nD) : Loc nD τ sig := (SparseCore.T d).loc main_v4
abbrev out2Loc (d : Dev nD) : Loc nD τ sig := (SparseCore.T d).loc main_v5
abbrev outTLoc (d : Dev nD) : Loc nD τ sig := (SparseCore.T d).loc main_v6
abbrev resLoc (d : Dev nD) : Loc nD τ sig := (SparseCore.T d).loc main_v7

/-! ## Tiles, tokens, slabs -/

/-- The tile number of subcore `s` of SparseCore `c`. -/
def widOf (c : Fin 2) (s : Fin 16) : Fin 32 := ⟨s.val * 2 + c.val, by omega⟩

/-- Tile `w`'s read token of an array held at the full share. -/
abbrev tok (w : Fin 32) : PosShare TreeShare := shareTok fullShare 32 w

theorem hdiv32 : 32 ∣ S40x32x128.size 1 := ⟨1, rfl⟩
/-- Slab `w` of the result array: the indices `(t, w, j)`. -/
abbrev slab (w : Fin 32) : Rect S40x32x128 := Rect.part (s := S40x32x128) (a₀ := 1) hdiv32 w
abbrev slabSet (w : Fin 32) : Finset S40x32x128.Idx :=
  ((Memref.whole main_v4_scv : Memref sig .scVector .hbm S40x32x128 .f32).view.slice (slab w)).set

section Payloads

variable [FloatOps F]
variable (m : (ℓ : Loc nD τ sig) → Buf (Elt F) ℓ)
variable (Φ : (d : Dev nD) → Buf (Elt F) (scoresLoc d) → Prop)
variable (Ψ : (d : Dev nD) → Fin 32 → Buf (Elt F) (outLoc d) → Prop)

/-- What tile `w` of device `d` starts from. -/
def tileIn (d : Dev nD) (w : Fin 32) : sProp 𝕄 :=
  iprop((textLoc d ↦{tok w} m (textLoc d)) ∗ (∃ sc, ⌜Φ d sc⌝ ∗ scoresLoc d ↦{tok w} sc) ∗ ∃ f, outLoc d ↦[slabSet w]{fullShare} f)

/-- What tile `w` of device `d` hands back. -/
def tileOut (d : Dev nD) (w : Fin 32) : sProp 𝕄 :=
  iprop((textLoc d ↦{tok w} m (textLoc d)) ∗ (∃ sc, scoresLoc d ↦{tok w} sc) ∗ ∃ f, ⌜Ψ d w f⌝ ∗ outLoc d ↦[slabSet w]{fullShare} f)

instance tileIn_storable (d : Dev nD) (w : Fin 32) : BI.Storable (upEmb : UEmb _ 𝕄) (tileIn m Φ d w) := by
  unfold tileIn; infer_instance
instance tileOut_storable (d : Dev nD) (w : Fin 32) : BI.Storable (upEmb : UEmb _ 𝕄) (tileOut m Ψ d w) := by
  unfold tileOut; infer_instance

/-- The one SparseCore call: each SparseCore takes its sixteen tiles' parts and brings them back. -/
def P : (K (F := F)).Pay (nD := nD) (Val := Elt F) (Name := ℕ) (U := UU) where
  st := fun q d c => match q with
    | 0 => bigSep Finset.univ fun s : Fin 16 => tileIn m Φ d (widOf (Fin.cast nCore_zero c) s)
  dn := fun q d c => match q with
    | 0 => bigSep Finset.univ fun s : Fin 16 => tileOut m Ψ d (widOf (Fin.cast nCore_zero c) s)
  go := fun q d c s => match q with
    | 0 => tileIn m Φ d (widOf (Fin.cast nCore_zero c) (Fin.cast nSub_zero s))
  td := fun q d c s => match q with
    | 0 => tileOut m Ψ d (widOf (Fin.cast nCore_zero c) (Fin.cast nSub_zero s))
  x := fun _ _ => iprop(emp)

instance P_storable : (P (F := F) m Φ Ψ).IsStorable where
  st q d c := match q with
    | 0 => (inferInstance : BI.Storable (upEmb : UEmb _ 𝕄) (bigSep Finset.univ fun s : Fin 16 => tileIn m Φ d (widOf (Fin.cast nCore_zero c) s)))
  dn q d c := match q with
    | 0 => (inferInstance : BI.Storable (upEmb : UEmb _ 𝕄) (bigSep Finset.univ fun s : Fin 16 => tileOut m Ψ d (widOf (Fin.cast nCore_zero c) s)))
  go q d c s := match q with
    | 0 => (inferInstance : BI.Storable (upEmb : UEmb _ 𝕄) (tileIn m Φ d (widOf (Fin.cast nCore_zero c) (Fin.cast nSub_zero s))))
  td q d c s := match q with
    | 0 => (inferInstance : BI.Storable (upEmb : UEmb _ 𝕄) (tileOut m Ψ d (widOf (Fin.cast nCore_zero c) (Fin.cast nSub_zero s))))

end Payloads

end Cert.Proof.KB

end
-- ==== Proof.GhostB.lean ====
/-
  The pipelined matrix product's part of the launch: the ghost state of its staging cells (per staging buffer the
  cell's launch state, its owner at round 0, round 0 reached) and the duty tokens of the transfers its loop issues,
  dealt to each device's TensorCore from the middle factor of the launch element.
-/
import proofs.«207257_g22479858827769_cont_8to1_397_21_alg».proof.Proof.PayB
import proofs.«207257_g22479858827769_cont_8to1_397_21_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The middle component of the launch element: every staging cell's owner at round 0 and a duty token for every
    transfer the pipeline issues. -/
def uP₀ : UP := initOf (Pipeline.cells (nD := nD) (τ := τ) cfgs cellOf_inj) (Pipeline.launchToks (nD := nD) (τ := τ) cfgs cellOf_inj)

/-- What @main needs on device `d` for the pipelined call: its staging cells' launch ghost state and duty tokens. -/
def G (d : Dev nD) : sProp 𝕄 :=
  iprop(Pipeline.cellsGhost cfgs (EP (F := F)) 0 d ∗ Pipeline.toksInit cfgs (EP (F := F)) 0 d)

theorem bigSep_fin1 (Φ : Dev nD → Fin 1 → sProp 𝕄) :
    (bigSep Finset.univ fun c : Dev nD => bigSep Finset.univ fun p : Fin 1 => Φ c p) = bigSep Finset.univ fun c : Dev nD => Φ c 0 :=
  bigSep_congr fun c _ => by
    rw [show (Finset.univ : Finset (Fin 1)) = {0} by decide, bigSep_singleton]

theorem fundG : BI.own ((EP (F := F)) uP₀) ⊢ (iprop(|==> bigSep Finset.univ (G (F := F))) : sProp 𝕄) := by
  have h := Pipeline.fund_ghost (Ix := HIx 1) (Val := Elt F) (Name := ℕ) (U := UU) (Lvl := ℕ) cfgs (EP (F := F)) cellOf_inj
  rw [bigSep_fin1, bigSep_fin1] at h
  unfold G; rw [bigSep_sep']; exact h

end Cert.Proof.KB

end
-- ==== Proof.BodyB.lean ====
/-
  The matrix-product kernel's body on its staging buffers.
-/
import proofs.«207257_g22479858827769_cont_8to1_397_21_alg».proof.Proof.GhostB
import proofs.«207257_g22479858827769_cont_8to1_397_21_alg».proof.Proof.Gen.Kernel.Points

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

/-- The kernel body on staging buffers `s0` of the table's window, `s1` of the weights', `s2` of the bias's and `s3` of the
    result's: three whole loads, the dead load of the result's buffer, the whole store of the payload — the result's buffer
    ends holding the scores of the staged block, the other three unchanged. -/
theorem sound_body (c : Dev nD) (E : Set ℕ) (i : grid0.Coords) (s0 : Fin 2) (s1 : Fin 1) (s2 : Fin 1) (s3 : Fin 2)
    (X0 : S100x12800.Idx → Elt F .f32) (X1 : S1x100.Idx → Elt F .f32) (X2 : S1x1.Idx → Elt F .f32) (X3 : S1x1x12800.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare (k0_pay1 X1 X0 X2)) -∗ K ⟨⟩))
      ⊢ wp frame (wpE (defs₀ (F := F)) 𝒱₀ c none) E
          (cc0__scores_body i (stage0_0 s0) (hstage0_0 s0) (stage0_1 s1) (hstage0_1 s1) (stage0_2 s2) (hstage0_2 s2) (stage0_3 s3) (hstage0_3 s3)) K := by
  have hz : (![0, 0] : Fin 2 → Nat) = fun _ => 0 := funext fun a => by fin_cases a <;> rfl
  have hz3 : (![0, 0, 0] : Fin 3 → Nat) = fun _ => 0 := funext fun a => by fin_cases a <;> rfl
  have hr00 : (Memref.whole cc0_stg0_0 : Memref sig .tc _ _ _).view.readAt (Elt F) (Rect.unit (s := S100x12800) ![0, 0] S100x12800.size
      inb_S100x12800_S100x12800_0_0).toLoadRect = id := funext (Memref.readAt_unit_zero (Elt F) cc0_stg0_0 hz _)
  have hr01 : (Memref.whole cc0_stg0_1 : Memref sig .tc _ _ _).view.readAt (Elt F) (Rect.unit (s := S100x12800) ![0, 0] S100x12800.size
      inb_S100x12800_S100x12800_0_0).toLoadRect = id := funext (Memref.readAt_unit_zero (Elt F) cc0_stg0_1 hz _)
  have hr1 : (Memref.whole cc0_stg1_0 : Memref sig .tc _ _ _).view.readAt (Elt F) (Rect.unit (s := S1x100) ![0, 0] S1x100.size
      inb_S1x100_S1x100_0_0).toLoadRect = id := funext (Memref.readAt_unit_zero (Elt F) cc0_stg1_0 hz _)
  have hr2 : (Memref.whole cc0_stg2_0 : Memref sig .tc _ _ _).view.readAt (Elt F) (Rect.unit (s := S1x1) ![0, 0] S1x1.size
      inb_S1x1_S1x1_0_0).toLoadRect = id := funext (Memref.readAt_unit_zero (Elt F) cc0_stg2_0 hz _)
  have hw30 : ∀ f w, (((Memref.whole cc0_stg3_0).access (Rect.unit (s := S1x1x12800) ![0, 0, 0] S1x1x12800.size inb_S1x1x12800_S1x1x12800_0_0_0)) :
      View sig .tc _ _ _).write (Elt F) f w Finset.univ = w := Memref.write_access_unit_zero_univ (Elt F) cc0_stg3_0 hz3 _
  have hw31 : ∀ f w, (((Memref.whole cc0_stg3_1).access (Rect.unit (s := S1x1x12800) ![0, 0, 0] S1x1x12800.size inb_S1x1x12800_S1x1x12800_0_0_0)) :
      View sig .tc _ _ _).write (Elt F) f w Finset.univ = w := Memref.write_access_unit_zero_univ (Elt F) cc0_stg3_1 hz3 _
  fin_cases s0 <;> fin_cases s1 <;> fin_cases s2 <;> fin_cases s3 <;>
  · simp only [owns_whole_eq, cc0__scores_body_eq_skeleton]; unfold cc0__scores_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    simp only [hr00, hr01, hr1, hr2, hw30, hw31]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k0_pay1 f1 f0 f2; isplitr; · ipureintro; rw [hf0, hf1, hf2]
      iexact H3

end Cert.Proof.KB

end
-- ==== Proof.RegionB.lean ====
/-
  The pipelined matrix product's proof data on device `d`, relational in the result window: the table's second block
  overhangs the table's end, so what the body stores in the result's staging buffer depends on staged words that no
  array names; the relation says the stored block is the body's payload of SOME filled-out table block, weights block
  and bias block. The body obligation follows from the body's run on its staging buffers.
-/
import proofs.«207257_g22479858827769_cont_8to1_397_21_alg».proof.Proof.BodyB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-! ## The host operations before the call, and the device's buffers after them -/

/-- The transpose of the table. -/
abbrev opT : HloOp τ sig (Elt F) :=
  StableHlo.unary main_arg1 main_v0 ((transpose S100x25000 [1, 0] · transposes_S25000x100_S100x25000_1_0) : (⟨S25000x100, .f32⟩ : BufTy).Contents (Elt F) → (⟨S100x25000, .f32⟩ : BufTy).Contents (Elt F))
/-- The bias as a 1 × 1 array. -/
abbrev opB : HloOp τ sig (Elt F) := StableHlo.reshape main_arg3 main_v1 rfl shapeCasts_S1_S1x1

/-- The device's buffers at launch, -/
def V0 (d : Dev nD) : Valuation τ sig (Elt F) := fun b => m (d, b)
/-- and after the two host operations that precede the pipelined call. -/
def V2 (d : Dev nD) : Valuation τ sig (Elt F) := (opB (F := F)).result ((opT (F := F)).result (V0 m d))

/-- The same, read at the TensorCore's references. -/
def W2 (d : Dev nD) (b : Ref sig .tc) : Buf (Elt F) ((d.tc : Thread nD τ).loc b) := V2 m d (Proc.devRef .tc b)

/-! ## What the staging buffers hold when fetched -/

/-- The table's block at point `t`, its columns inside the table, filled out with `dd` past the table's end. -/
def B0 (d : Dev nD) (t : Fin cfg0.N) (dd : S100x12800.Idx → Elt F .f32) : S100x12800.Idx → Elt F .f32 :=
  win0_0.fill (grid0.coords t) dd ((win0_0.blk t).view.read (Elt F) (W2 m d main_v0))
/-- The weights, as the first point's fetch lands them. -/
def B1 (d : Dev nD) (dd : S1x100.Idx → Elt F .f32) : S1x100.Idx → Elt F .f32 :=
  win0_1.fill (grid0.coords t0_0) dd ((win0_1.blk t0_0).view.read (Elt F) (W2 m d main_arg2))
/-- The bias, likewise. -/
def B2 (d : Dev nD) (dd : S1x1.Idx → Elt F .f32) : S1x1.Idx → Elt F .f32 :=
  win0_2.fill (grid0.coords t0_0) dd ((win0_2.blk t0_0).view.read (Elt F) (W2 m d main_v1))

/-- What the TensorCore owes throughout the call: the start signals of the SparseCore call that follows. -/
abbrev OT (d : Dev nD) : CellTallies nD τ sig (HIx 1) := (K (F := F)).Otc d 0

/-- The proof data: the arrays as the host operations left them; the body leaves the three inputs' buffers as it found
    them and the result's at the payload of some filled-out blocks; no invariant; the TensorCore owes its start signals
    throughout, and has recorded waits at index `none` only. -/
def rd (d : Dev nD) : RDat τ (Elt F) (HIx 1) ℕ UU ℕ cfg0 d where
  A w := W2 m d (Pipeline.arrRef spec0 w)
  after w t Y X := match w with
    | ⟨0, _⟩ => X = Y
    | ⟨1, _⟩ => X = Y
    | ⟨2, _⟩ => X = Y
    | ⟨3, _⟩ => ∃ d0 d1 d2, X = k0_pay1 (B1 m d d1) (B0 m d t d0) (B2 m d d2)
  Φ _ := iprop(emp)
  q _ := fullShare
  owed _ := OT (F := F) d
  recorded _ := {p | p.2 = none}

theorem flush0_0 : ∀ t : Fin cfg0.N, (cfg0.win 0).flush t = false :=
  (by decide +kernel : ∀ t : Fin grid0.N, win0_0.flush t = false)
theorem flush0_1 : ∀ t : Fin cfg0.N, (cfg0.win 1).flush t = false :=
  (by decide +kernel : ∀ t : Fin grid0.N, win0_1.flush t = false)
theorem flush0_2 : ∀ t : Fin cfg0.N, (cfg0.win 2).flush t = false :=
  (by decide +kernel : ∀ t : Fin grid0.N, win0_2.flush t = false)

theorem finds0 (d : Dev nD) (t : Fin cfg0.N) (Y) (h : (rd m d).Finds 0 t Y) : ∃ dd, Y = B0 m d t dd :=
  ((rd m d).finds_of_fetch (fetch0_0 t) Y).mp h

theorem finds1 (d : Dev nD) (t : Fin cfg0.N) (Y) (h : (rd m d).Finds 1 t Y) : ∃ dd, Y = B1 m d dd := by
  rcases fin_N0 t with rfl | rfl
  · exact ((rd m d).finds_of_fetch ((fetch0_1 t0_0).mpr rfl) Y).mp h
  · rw [(rd m d).finds_of_pos (w := 1) (t := t0_1) (by
      have := (fetch0_1 t0_1); cases hh : (cfg0.win 1).fetch t0_1
      · rfl
      · exact absurd (this.mp hh) (by decide)) (by decide)] at h
    rcases h with h | ⟨Y', hY', ha⟩
    · rw [flush0_1] at h; exact absurd h (by decide)
    · have e : Y = Y' := ha
      subst e
      exact ((rd m d).finds_of_fetch ((fetch0_1 _).mpr rfl) Y).mp hY'

theorem finds2 (d : Dev nD) (t : Fin cfg0.N) (Y) (h : (rd m d).Finds 2 t Y) : ∃ dd, Y = B2 m d dd := by
  rcases fin_N0 t with rfl | rfl
  · exact ((rd m d).finds_of_fetch ((fetch0_2 t0_0).mpr rfl) Y).mp h
  · rw [(rd m d).finds_of_pos (w := 2) (t := t0_1) (by
      have := (fetch0_2 t0_1); cases hh : (cfg0.win 2).fetch t0_1
      · rfl
      · exact absurd (this.mp hh) (by decide)) (by decide)] at h
    rcases h with h | ⟨Y', hY', ha⟩
    · rw [flush0_2] at h; exact absurd h (by decide)
    · have e : Y = Y' := ha
      subst e
      exact ((rd m d).finds_of_fetch ((fetch0_2 _).mpr rfl) Y).mp hY'

/-- The library's body obligation, from the body's run on the point's staging buffers. -/
theorem body_obligation (d : Dev nD) : (rd m d).BodyObligation (defs₀ (F := F)) 𝒱₀ none Set.univ := fun t Y hY => by
  obtain ⟨d0, h0⟩ := finds0 m d t _ (hY 0)
  obtain ⟨d1, h1⟩ := finds1 m d t _ (hY 1)
  obtain ⟨d2, h2⟩ := finds2 m d t _ (hY 2)
  rw [bigSep_W0, bigSep_W0]
  rw [show (rd m d).Φ t.succ = (rd m d).Φ t.castSucc from rfl,
    show (rd m d).owesAt none t.succ = (rd m d).owesAt none t.castSucc from rfl]
  iintro ⟨HΦ, Ho, H0, H1, H2, H3⟩
  iapply (sound_body (F := F) d Set.univ (grid0.coords t) (cfg0.slots t 0) (cfg0.slots t 1) (cfg0.slots t 2) (cfg0.slots t 3)
    (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; exact (rfl : Y 0 = Y 0)
    iexact H0
  isplitl [H1]
  · iexists (Y 1); isplitr; · ipureintro; exact (rfl : Y 1 = Y 1)
    iexact H1
  isplitl [H2]
  · iexists (Y 2); isplitr; · ipureintro; exact (rfl : Y 2 = Y 2)
    iexact H2
  · iexists (k0_pay1 (Y 1) (Y 0) (Y 2)); isplitr
    · ipureintro; exact ⟨d0, d1, d2, by rw [h0, h1, h2]⟩
    iexact H3

end Cert.Proof.KB

end
-- ==== Proof.StepB.lean ====
/-
  The pipelined call as one step of @main on the TensorCore: from the region boundary, the device's arrays as the host
  operations left them, what the TensorCore owes and the call's ghost state, to the boundary, the three input arrays
  unchanged and the result array at contents the write-backs may have left.
-/
import proofs.«207257_g22479858827769_cont_8to1_397_21_alg».proof.Proof.RegionB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-- The one admissible table contents: none. -/
abbrev adm : (p : Fin 1) → (pcfgs (F := F) p).Adm := fun p => (cfgs p).toPCfg_adm
/-- The proof data of the one pipeline. -/
abbrev rdats (p : Fin 1) (c : Dev nD) : RDat τ (Elt F) (HIx 1) ℕ UU ℕ (Pipeline.pin (pcfgs (F := F)) adm p) c := rd m c

theorem OT_none (d : Dev nD) (g : GSem nD τ sig) : OT (F := F) d g none = 0 := by
  by_contra h
  have := (K (F := F)).lev_of_Otc_pos (Nat.pos_of_ne_zero h)
  rw [SparseCore.Cfg.lev_none] at this; omega

/-- What the TensorCore owes before SparseCore call 0, as its handshake state holds it. -/
def owesT (d : Dev nD) : sProp 𝕄 :=
  iprop(∃ W, ⌜(K (F := F)).WBelow (T d) W (8 * 0)⌝ ∗ owes (T d) ((K (F := F)).Otc d 0) W)

theorem owesT_at (d : Dev nD) (t : Fin (cfg0.N + 1)) : owesT (F := F) d ⊢ ((rd m d).owesAt none t : sProp 𝕄) := by
  unfold owesT
  iintro ⟨%W, %hW, H⟩
  iexists W
  isplitr
  · ipureintro
    intro p hp
    refine Or.inl ?_
    have h := hW p hp
    show p.2 = none
    cases hq : p.2 with
    | none => rfl
    | some q => rw [hq] at h; have := (K (F := F)).lev_some_pos (T d, p.1) q; omega
  · iexact H

theorem at_owesT (d : Dev nD) (t : Fin (cfg0.N + 1)) : ((rd m d).owesAt none t : sProp 𝕄) ⊢ owesT (F := F) d := by
  unfold owesT
  iintro ⟨%W, %hW, H⟩
  iexists W
  isplitr
  · ipureintro
    intro p hp
    have hn : p.2 = none := by
      rcases hW hp with h | ⟨w, s, h⟩
      · exact h
      · rw [h]
    rw [hn]; exact le_of_eq rfl
  · iexact H

/-- The TensorCore's state the call is entered from: its arrays as the two host operations left them, and what it owes. -/
def preR (d : Dev nD) : sProp 𝕄 := iprop(unscopedBufs d (W2 m d) ∗ owesT (F := F) d)
/-- And the state it leaves: the call's arrays at contents the write-backs may have left, the other arrays, what it owes. -/
def postR (d : Dev nD) : sProp 𝕄 :=
  iprop(((rd m d).arraysAt cfg0.N ∗ Pipeline.unscopedRest spec0 d (W2 m d)) ∗ owesT (F := F) d)

theorem share_full (d : Dev nD) (w : Fin cfg0.W) : (rd m d).share w = fullShare := by
  unfold RDat.share; split <;> rfl

theorem prefHeld_none (c : Dev nD) : (Pipeline.prefHeld (pcfgs (F := F) 0).pre c (fun _ => fullShare) (adm (F := F) 0).1 : sProp 𝕄) = BI.emp := by
  unfold Pipeline.prefHeld; rw [Finset.univ_eq_empty, BI.bigSep_empty]

/-- The region's record. -/
def R : Pipeline.RDat.RegionSeg (pcfgs (F := F)) adm (rdats m) none (defs₀ (F := F)) 𝒱₀ (K (F := F)).L (K (F := F)).lev (0 : Fin 1) where
  win := winFacts0.to₀
  block_pos := block_pos0
  stage_whole := stage_whole0
  K := PEmpty
  osem := fun k => k.elim
  ho := Pipeline.OwnSemFacts.none _
  hbody := fun c => body_obligation m c
  hwaits := fun c => Pipeline.RDat.cellsWaits_intro (Pipeline.pin (pcfgs (F := F)) adm) (rdats m) none 0 c
    fun w s t => (K (F := F)).mayWait_none _ (OT_none (F := F) c)
  pre := preR m
  post := postR m
  X := fun _ => iprop(emp)
  Y := fun _ => iprop(emp)
  Z := fun c => Pipeline.unscopedRest spec0 c (W2 m c)
  hentry := fun c => by
    rw [prefHeld_none]
    unfold preR
    iintro ⟨⟨Hb, Ho⟩, -, -⟩
    imodintro
    ihave H := (Pipeline.RDat.arrays_of_unscopedBufs (pcfgs (F := F)) adm (rdats m) (p := 0) winFacts0 arr_whole0 c (share_full m c) (W2 m c) (fun _ => rfl)) $$ Hb
    icases H with ⟨Ha, Hr⟩
    isplitl [Ha]; · iexact Ha
    isplitr; · iempintro
    isplitl [Ho]; · iapply (owesT_at m c 0); iexact Ho
    isplitr; · iempintro
    iexact Hr
  hin := fun c => by iintro -; iempintro
  hout := fun c => by
    rw [Pipeline.ownSems0_none, scopedRest0_eq]
    iintro -; isplitr; · iempintro
    isplitr <;> iempintro
  hexit := fun c => by
    unfold postR
    iintro ⟨Ha, Ho, -, Hz⟩
    imodintro
    isplitl [Ha Hz]
    · isplitl [Ha] <;> iassumption
    · iapply (at_owesT m c (Fin.last _)); iexact Ho

set_option backward.isDefEq.respectTransparency.types false in
/-- The pipelined call on device `d`'s TensorCore, under the pipeline's body table. -/
theorem wp_region_inner (d : Dev nD) (Φ : PUnit → sProp 𝕄) :
    iprop(boundary (T d) ∗ preR m d ∗ levAts (K (F := F)).L (K (F := F)).lev ∗ G (F := F) d
        ∗ (iprop(boundary (T d) ∗ postR m d) -∗ Φ ⟨⟩))
      ⊢ wp frame (wpE (D (F := F)) 𝒱 (T d) none) Set.univ
          (.op (.customCall (Pipeline.entry 0) ()) fun x => .ret x) Φ := by
  have h := Pipeline.RDat.RegionSeg.wp (pcfgs (F := F)) adm (rdats m) none cellOf_inj (EP (F := F)) (defs₀ (F := F)) 𝒱₀
    (K (F := F)).L (K (F := F)).lev (R m) d none (fun u hu => nomatch hu) (fun x => .ret x) Φ
  rw [show (R m).pre d = preR m d from rfl, show (R m).post d = postR m d from rfl] at h
  refine .trans ?_ h
  unfold G
  iintro ⟨Hb, Hpre, Hl, ⟨Hg, Ht⟩, Hk⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- The same under the whole program's body table. -/
theorem wp_region (d : Dev nD) (Φ : PUnit → sProp 𝕄) :
    iprop(boundary (T d) ∗ preR m d ∗ levAts (K (F := F)).L (K (F := F)).lev ∗ G (F := F) d
        ∗ (iprop(boundary (T d) ∗ postR m d) -∗ Φ ⟨⟩))
      ⊢ wp frame (wpE ((K (F := F)).defs (D (F := F))) 𝒱 (T d) none) Set.univ
          (Prog.lift (.customCall (SparseCore.inner (Pipeline.entry 0)) ())) Φ :=
  (wp_region_inner m d Φ).trans
    ((K (F := F)).wp_liftProg (D (F := F)) 𝒱 (T d) Set.univ none (.op (.customCall (Pipeline.entry 0) ()) fun x => .ret x) Φ)

end Cert.Proof.KB

end
-- ==== Proof.PrepB.lean ====
/-
  Bookkeeping for @main on the TensorCore: the device's unscoped buffers as a set of whole buffers at a valuation, what
  the two leading host operations leave in the buffers they do not write, the TensorCore's handshake state with what it
  owes set apart, and the state the pipelined call leaves read buffer by buffer.
-/
import proofs.«207257_g22479858827769_cont_8to1_397_21_alg».proof.Proof.StepB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ)

/-! ## The unscoped buffers as a held set -/

/-- The TensorCore's unscoped buffers, as device buffers. -/
def Sall : Finset (DevRef τ sig) :=
  (Finset.univ.filter fun b : Ref sig .tc => ¬ b.isScoped).map ⟨Proc.devRef (τ := τ) .tc, Proc.devRef_injective _⟩

omit [FloatOps F] in
theorem unscoped_held (d : Dev nD) (V : Valuation τ sig (Elt F)) :
    (unscopedBufs d (fun b => V (Proc.devRef .tc b)) : sProp 𝕄) = StableHlo.held (T d) Sall V := by
  unfold unscopedBufs StableHlo.held Sall
  rw [bigSep_map]; rfl

omit [FloatOps F] in
theorem mem_Sall (b : Ref sig .tc) (h : b.isScoped = false) : Proc.devRef (τ := τ) .tc b ∈ Sall :=
  Finset.mem_map_of_mem _ (Finset.mem_filter.mpr ⟨Finset.mem_univ _, by rw [h]; exact Bool.false_ne_true⟩)

theorem opT_sub : (opT (F := F)).bufs ⊆ Sall := by
  rw [show (opT (F := F)).bufs = {Proc.devRef .tc main_arg1, Proc.devRef .tc main_v0} from rfl]
  intro b hb
  rcases Finset.mem_insert.mp hb with rfl | hb
  · exact mem_Sall _ (by decide)
  · rw [Finset.mem_singleton.mp hb]; exact mem_Sall _ (by decide)
theorem opB_sub : (opB (F := F)).bufs ⊆ Sall := by
  rw [show (opB (F := F)).bufs = {Proc.devRef .tc main_arg3, Proc.devRef .tc main_v1} from rfl]
  intro b hb
  rcases Finset.mem_insert.mp hb with rfl | hb
  · exact mem_Sall _ (by decide)
  · rw [Finset.mem_singleton.mp hb]; exact mem_Sall _ (by decide)

theorem bufs_launch (d : Dev nD) :
    (unscopedBufs d (fun b => m ((SparseCore.T d).loc b)) : sProp 𝕄) = StableHlo.held (SparseCore.T d) Sall (V0 m d) :=
  unscoped_held d (V0 m d)
theorem bufs_W2 (d : Dev nD) :
    (StableHlo.held (T d) Sall ((opB (F := F)).result ((opT (F := F)).result (V0 m d))) : sProp 𝕄) = unscopedBufs d (W2 m d) :=
  (unscoped_held d (V2 m d)).symm

/-- A buffer neither host operation writes holds its launch contents. -/
theorem W2_other (d : Dev nD) (b : Ref sig .tc) (h0 : b ≠ main_v0) (h1 : b ≠ main_v1) : W2 m d b = m ((SparseCore.T d).loc b) := by
  unfold W2 V2
  rw [StableHlo.reshape_result_ne _ _ _ _ _ _ _ h1, StableHlo.unary_result_ne _ _ _ _ _ _ h0]; rfl

/-! ## The handshake state, what is owed apart -/

theorem tcSt0_split (d : Dev nD) : ∃ R : sProp 𝕄, (K (F := F)).tcSt EH d 0 = iprop(owesT (F := F) d ∗ R) := by
  unfold SparseCore.Cfg.tcSt owesT; exact ⟨_, rfl⟩

/-! ## After the call -/

theorem arr_pts (d : Dev nD) (w : Fin 4) (B : Buf (Elt F) ((cfg0.win w).arr.view.loc (d.tc : Thread nD τ))) :
    ((cfg0.win w).arr.view.loc (d.tc : Thread nD τ) ↦[(cfg0.win w).arr.view.set]{(rd m d).share w} B : sProp 𝕄)
      = ((cfg0.win w).arr.view.loc (d.tc : Thread nD τ) ↦{fullShare} B) := by
  rw [(arr_whole0 w).set_eq_univ, share_full]

/-- What the pipelined call leaves, buffer by buffer: the result array at contents the write-backs may have left, the
    call's weight input and every buffer it does not touch at their launch contents (the transposed table and the 1 × 1
    bias, not needed again, are let go), and what the TensorCore owes. -/
theorem postR_elim (d : Dev nD) :
    postR m d ⊢ (iprop((∃ B, ⌜(rd m d).ArrAt 3 cfg0.N B⌝ ∗ blocksLoc d ↦{fullShare} B)
      ∗ (wLoc d ↦{fullShare} m (wLoc d))
      ∗ (textLoc d ↦{fullShare} m (textLoc d)) ∗ (embLoc d ↦{fullShare} m (embLoc d)) ∗ (biasLoc d ↦{fullShare} m (biasLoc d))
      ∗ (scoresLoc d ↦{fullShare} m (scoresLoc d)) ∗ (outLoc d ↦{fullShare} m (outLoc d)) ∗ (out2Loc d ↦{fullShare} m (out2Loc d))
      ∗ (outTLoc d ↦{fullShare} m (outTLoc d)) ∗ (resLoc d ↦{fullShare} m (resLoc d))
      ∗ owesT (F := F) d) : sProp 𝕄) := by
  unfold postR RDat.arraysAt
  rw [bigSep_W0, unscopedRest0_eq,
    W2_other m d main_arg0 (by decide) (by decide), W2_other m d main_arg1 (by decide) (by decide), W2_other m d main_arg3 (by decide) (by decide),
    W2_other m d main_v3 (by decide) (by decide), W2_other m d main_v4 (by decide) (by decide), W2_other m d main_v5 (by decide) (by decide),
    W2_other m d main_v6 (by decide) (by decide), W2_other m d main_v7 (by decide) (by decide)]
  iintro ⟨⟨⟨-, ⟨%F1, %h1, H1⟩, -, ⟨%B, %hB, H3⟩⟩, Ha0, Ha1, Ha3, Hv3, Hv4, Hv5, Hv6, Hv7⟩, Ho⟩
  rw [(rd m d).ArrAt_in 1 rfl] at h1
  have h1' : F1 = m (wLoc d) := h1.trans (W2_other m d main_arg2 (by decide) (by decide))
  subst h1'
  ihave H1' := (Entails.of_eq (arr_pts m d 1 _)) $$ H1
  ihave H3' := (Entails.of_eq (arr_pts m d 3 B)) $$ H3
  isplitl [H3']
  · iexists B; isplitr; · ipureintro; exact hB
    iexact H3'
  isplitl [H1']; · iexact H1'
  isplitl [Ha0]; · iexact Ha0
  isplitl [Ha1]; · iexact Ha1
  isplitl [Ha3]; · iexact Ha3
  isplitl [Hv3]; · iexact Hv3
  isplitl [Hv4]; · iexact Hv4
  isplitl [Hv5]; · iexact Hv5
  isplitl [Hv6]; · iexact Hv6
  isplitl [Hv7]; · iexact Hv7
  iexact Ho

end Cert.Proof.KB

end
-- ==== Proof.HostB.lean ====
/-
  A host operation with one operand and one result, run from the two buffers alone: the operand's buffer is read and
  kept, the result's buffer ends at the operation's value.
-/
import proofs.«207257_g22479858827769_cont_8to1_397_21_alg».proof.Proof.PayB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Host

variable {Λ : Labels} {defs : Defs nD τ sig (Elt F) Λ} (𝒱' : Variants) (bd : Option 𝒱'.V) {α : Type}

omit [FloatOps F] in
/-- Any valuation with two given buffers' contents. -/
def val2 (x y : Ref sig .tc) (fx : (Proc.devRef (τ := τ) .tc x).ty.Contents (Elt F)) (fy : (Proc.devRef (τ := τ) .tc y).ty.Contents (Elt F))
    (V : Valuation τ sig (Elt F)) : Valuation τ sig (Elt F) :=
  Function.update (Function.update V (Proc.devRef .tc x) fx) (Proc.devRef .tc y) fy

omit [FloatOps F] in
theorem val2_y (x y : Ref sig .tc) (fx fy) (V : Valuation τ sig (Elt F)) : val2 x y fx fy V (Proc.devRef .tc y) = fy :=
  Function.update_self _ _ _
omit [FloatOps F] in
theorem val2_x (x y : Ref sig .tc) (h : x ≠ y) (fx fy) (V : Valuation τ sig (Elt F)) : val2 x y fx fy V (Proc.devRef .tc x) = fx := by
  unfold val2
  rw [Function.update_of_ne (StableHlo.devRef_ne_of_ne h), Function.update_self]

omit [FloatOps F] in
theorem held_pair (d : Dev nD) (x y : Ref sig .tc) (h : x ≠ y) (V : Valuation τ sig (Elt F)) :
    (StableHlo.held (T d) {Proc.devRef .tc x, Proc.devRef .tc y} V : sProp 𝕄)
      = iprop(((d, Proc.devRef .tc x) ↦{fullShare} V (Proc.devRef .tc x)) ∗ ((d, Proc.devRef .tc y) ↦{fullShare} V (Proc.devRef .tc y))) := by
  unfold StableHlo.held
  rw [SparseCore.bigSep_insert' (by rw [Finset.mem_singleton]; exact StableHlo.devRef_ne_of_ne h), bigSep_singleton]

omit [FloatOps F] in
/-- `%y = ‹op› %x` from the two buffers. -/
theorem wp_unary_at (V₀ : Valuation τ sig (Elt F)) (d : Dev nD) (x y : Ref sig .tc) (h : x ≠ y) (f : x.ty.Contents (Elt F) → y.ty.Contents (Elt F)) (hx hy)
    (fx : (Proc.devRef (τ := τ) .tc x).ty.Contents (Elt F)) (fy : (Proc.devRef (τ := τ) .tc y).ty.Contents (Elt F))
    {k : ((b : (StableHlo.unary (τ := τ) x y f hx hy).writes) → b.1.ty.Contents (Elt F)) → Prog (TpuEff nD τ sig (Elt F) Λ (T (nD := nD) (τ := τ) d).2) α} {Q : α → sProp 𝕄} :
    iprop(boundary (T d) ∗ ((d, Proc.devRef .tc x) ↦{fullShare} fx) ∗ ((d, Proc.devRef .tc y) ↦{fullShare} fy)
        ∗ (∀ r, iprop(boundary (T d) ∗ ((d, Proc.devRef .tc x) ↦{fullShare} fx) ∗ ((d, Proc.devRef .tc y) ↦{fullShare} f fx))
            -∗ wp frame (wpE defs 𝒱' (T d) bd) Set.univ (k r) Q))
      ⊢ wp frame (wpE defs 𝒱' (T d) bd) Set.univ (hlo rfl (StableHlo.unary x y f hx hy) k) Q := by
  iintro ⟨Hb, Hx, Hy, Hk⟩
  iapply (StableHlo.wp_hlo_within 𝒱' (T d) bd Set.univ (op := StableHlo.unary x y f hx hy) (S := {Proc.devRef .tc x, Proc.devRef .tc y})
    (by rw [StableHlo.unary_bufs]) (V := val2 x y fx fy V₀)) $$ [Hb Hx Hy]
  · isplitl [Hb]; · iexact Hb
    rw [held_pair d x y h, val2_x x y h, val2_y]
    isplitl [Hx] <;> iassumption
  iintro ⟨Hb, Hh⟩
  ihave Hh' := (Entails.of_eq (show (StableHlo.held (T d) {Proc.devRef .tc x, Proc.devRef .tc y} ((StableHlo.unary x y f hx hy).result (val2 x y fx fy V₀)) : sProp 𝕄)
      = iprop(((d, Proc.devRef .tc x) ↦{fullShare} fx) ∗ ((d, Proc.devRef .tc y) ↦{fullShare} f fx)) from by
    rw [held_pair d x y h, StableHlo.unary_result, StableHlo.unary_result_ne _ _ _ _ _ _ h, val2_x x y h])) $$ Hh
  icases Hh' with ⟨Hx, Hy⟩
  ispecialize Hk $$ %((StableHlo.unary x y f hx hy).fn fun b => val2 x y fx fy V₀ b.1)
  iapply Hk
  isplitl [Hb]; · iexact Hb
  isplitl [Hx] <;> iassumption

omit [FloatOps F] in
/-- `%y = stablehlo.reshape %x` from the two buffers. -/
theorem wp_reshape_at (V₀ : Valuation τ sig (Elt F)) (d : Dev nD) (x y : Ref sig .tc) (h : x ≠ y) (he : x.ty.elt = y.ty.elt) (hn : x.ty.shape.ShapeCasts y.ty.shape) (hx hy)
    (fx : (Proc.devRef (τ := τ) .tc x).ty.Contents (Elt F)) (fy : (Proc.devRef (τ := τ) .tc y).ty.Contents (Elt F))
    {k : ((b : (StableHlo.reshape (τ := τ) (Val := Elt F) x y he hn hx hy).writes) → b.1.ty.Contents (Elt F)) → Prog (TpuEff nD τ sig (Elt F) Λ (T (nD := nD) (τ := τ) d).2) α} {Q : α → sProp 𝕄} :
    iprop(boundary (T d) ∗ ((d, Proc.devRef .tc x) ↦{fullShare} fx) ∗ ((d, Proc.devRef .tc y) ↦{fullShare} fy)
        ∗ (∀ r, iprop(boundary (T d) ∗ ((d, Proc.devRef .tc x) ↦{fullShare} fx)
              ∗ ((d, Proc.devRef .tc y) ↦{fullShare} (fun i => he ▸ shapeCast y.ty.shape fx hn i : (Proc.devRef (τ := τ) .tc y).ty.Contents (Elt F))))
            -∗ wp frame (wpE defs 𝒱' (T d) bd) Set.univ (k r) Q))
      ⊢ wp frame (wpE defs 𝒱' (T d) bd) Set.univ (hlo rfl (StableHlo.reshape x y he hn hx hy) k) Q := by
  iintro ⟨Hb, Hx, Hy, Hk⟩
  iapply (StableHlo.wp_hlo_within 𝒱' (T d) bd Set.univ (op := StableHlo.reshape x y he hn hx hy) (S := {Proc.devRef .tc x, Proc.devRef .tc y})
    (by rw [StableHlo.reshape_bufs]) (V := val2 x y fx fy V₀)) $$ [Hb Hx Hy]
  · isplitl [Hb]; · iexact Hb
    rw [held_pair d x y h, val2_x x y h, val2_y]
    isplitl [Hx] <;> iassumption
  iintro ⟨Hb, Hh⟩
  ihave Hh' := (Entails.of_eq (show (StableHlo.held (T d) {Proc.devRef .tc x, Proc.devRef .tc y} ((StableHlo.reshape (τ := τ) (Val := Elt F) x y he hn hx hy).result (val2 x y fx fy V₀)) : sProp 𝕄)
      = iprop(((d, Proc.devRef .tc x) ↦{fullShare} fx)
          ∗ ((d, Proc.devRef .tc y) ↦{fullShare} (fun i => he ▸ shapeCast y.ty.shape fx hn i : (Proc.devRef (τ := τ) .tc y).ty.Contents (Elt F)))) from by
    rw [held_pair d x y h, StableHlo.reshape_result, StableHlo.reshape_result_ne _ _ _ _ _ _ _ h, val2_x x y h])) $$ Hh
  icases Hh' with ⟨Hx, Hy⟩
  ispecialize Hk $$ %((StableHlo.reshape (τ := τ) (Val := Elt F) x y he hn hx hy).fn fun b => val2 x y fx fy V₀ b.1)
  iapply Hk
  isplitl [Hb]; · iexact Hb
  isplitl [Hx] <;> iassumption

end Host

end Cert.Proof.KB

end
-- ==== Proof.SplitB.lean ====
/-
  What the TensorCore hands the SparseCore call and takes back: the token array and the score vector go out as one read
  token per tile (the remainder kept), the result array as its 32 slabs; afterwards the token array is whole again and the
  slabs join into one array that every tile's property holds of.
-/
import proofs.«207257_g22479858827769_cont_8to1_397_21_alg».proof.Proof.PayB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ)
variable (Φ : (d : Dev nD) → Buf (Elt F) (scoresLoc d) → Prop)
variable (Ψ : (d : Dev nD) → Fin 32 → Buf (Elt F) (outLoc d) → Prop)

/-! ## The slabs -/

omit [FloatOps F] in
theorem slabSet_eq (w : Fin 32) : slabSet w = (slab w).set := by
  show ((View.whole (main_v4_scv : Ref sig .scVector)).slice (slab w)).set = _
  rw [View.set_slice]; exact Finset.map_refl
omit [FloatOps F] in
theorem slabs_disjoint : ∀ i ∈ (Finset.univ : Finset (Fin 32)), ∀ j ∈ (Finset.univ : Finset (Fin 32)), i ≠ j → Disjoint (slabSet i) (slabSet j) :=
  fun i _ j _ h => by rw [slabSet_eq, slabSet_eq]; exact Rect.part_disjoint hdiv32 h
omit [FloatOps F] in
theorem slabs_cover : (Finset.univ : Finset (Fin 32)).biUnion slabSet = Finset.univ :=
  (Finset.biUnion_congr rfl fun i _ => slabSet_eq i).trans (Rect.biUnion_part hdiv32)

omit [FloatOps F] in
theorem out_slabs (d : Dev nD) (f : Buf (Elt F) (outLoc d)) :
    (outLoc d ↦{fullShare} f : sProp 𝕄) = bigSep Finset.univ fun w : Fin 32 => outLoc d ↦[slabSet w]{fullShare} f := by
  rw [← pointsTo_biUnion Finset.univ (ℓ := outLoc d) slabSet slabs_disjoint, slabs_cover]; try rfl

/-! ## The 32 tiles as the two SparseCores' sixteen -/

/-- Subcore `s` of SparseCore `c` is tile `2 s + c`: a bijection. -/
def widEmb : Fin 2 × Fin 16 ↪ Fin 32 where
  toFun p := widOf p.1 p.2
  inj' := by
    rintro ⟨c, s⟩ ⟨c', s'⟩ h
    have h' : s.val * 2 + c.val = s'.val * 2 + c'.val := by
      have := congrArg Fin.val h; simpa [widOf] using this
    have hc := c.isLt; have hc' := c'.isLt
    have e1 : c.val = c'.val := by omega
    have e2 : s.val = s'.val := by omega
    exact Prod.ext (Fin.ext e1) (Fin.ext e2)

theorem widEmb_univ : (Finset.univ : Finset (Fin 2 × Fin 16)).map widEmb = Finset.univ :=
  Finset.eq_univ_of_card _ (by rw [Finset.card_map, Finset.card_univ, Fintype.card_prod, Fintype.card_fin, Fintype.card_fin, Fintype.card_fin])

omit [FloatOps F] in
theorem bigSep_tiles' (Θ : Fin 32 → sProp 𝕄) :
    (bigSep (Finset.univ : Finset (Fin 2)) fun c => bigSep (Finset.univ : Finset (Fin 16)) fun s => Θ (widOf c s)) = bigSep Finset.univ Θ := by
  rw [← widEmb_univ, bigSep_map, bigSep_univ_prod]; rfl

theorem bigSep_tiles (Θ : Fin 32 → sProp 𝕄) :
    (bigSep Finset.univ fun c : Fin ((K (F := F)).nCore 0) => bigSep (Finset.univ : Finset (Fin 16)) fun s => Θ (widOf (Fin.cast nCore_zero c) s)) = bigSep Finset.univ Θ :=
  bigSep_tiles' Θ

theorem st_eq (d : Dev nD) :
    (bigSep Finset.univ fun c : Fin ((K (F := F)).nCore 0) => (P m Φ Ψ).st 0 d c) = bigSep Finset.univ (tileIn m Φ d) :=
  bigSep_tiles (tileIn m Φ d)
theorem dn_eq (d : Dev nD) :
    (bigSep Finset.univ fun c : Fin ((K (F := F)).nCore 0) => (P m Φ Ψ).dn 0 d c) = bigSep Finset.univ (tileOut m Ψ d) :=
  bigSep_tiles (tileOut m Ψ d)

/-! ## Out and back -/

/-- What the call takes: from the token array, the score vector (of which `Φ` holds) and the result array whole, every
    tile's part; the remainders of the two read arrays stay. -/
theorem st_split (d : Dev nD) (sc : Buf (Elt F) (scoresLoc d)) (hsc : Φ d sc) (f0 : Buf (Elt F) (outLoc d)) :
    iprop((textLoc d ↦{fullShare} m (textLoc d)) ∗ (scoresLoc d ↦{fullShare} sc) ∗ (outLoc d ↦{fullShare} f0))
      ⊢ (iprop((bigSep Finset.univ fun c : Fin ((K (F := F)).nCore 0) => (P m Φ Ψ).st 0 d c)
          ∗ (textLoc d ↦{shareDrop fullShare 32} m (textLoc d)) ∗ (scoresLoc d ↦{shareDrop fullShare 32} sc)) : sProp 𝕄) := by
  have hS1 : ∀ w : Fin 32, (scoresLoc d ↦{tok w} sc : sProp 𝕄) ⊢ iprop(∃ sc, ⌜Φ d sc⌝ ∗ scoresLoc d ↦{tok w} sc) := fun w => by
    iintro H; iexists sc; isplitr; · ipureintro; exact hsc
    iexact H
  have hO1 : ∀ w : Fin 32, (outLoc d ↦[slabSet w]{fullShare} f0 : sProp 𝕄) ⊢ iprop(∃ f, outLoc d ↦[slabSet w]{fullShare} f) := fun w => by
    iintro H; iexists f0; iexact H
  have hS : (bigSep Finset.univ fun w : Fin 32 => (scoresLoc d ↦{tok w} sc : sProp 𝕄))
      ⊢ bigSep Finset.univ fun w : Fin 32 => iprop(∃ sc, ⌜Φ d sc⌝ ∗ scoresLoc d ↦{tok w} sc) :=
    bigSep_mono fun w _ => hS1 w
  have hO : (bigSep Finset.univ fun w : Fin 32 => (outLoc d ↦[slabSet w]{fullShare} f0 : sProp 𝕄))
      ⊢ bigSep Finset.univ fun w : Fin 32 => iprop(∃ f, outLoc d ↦[slabSet w]{fullShare} f) :=
    bigSep_mono fun w _ => hO1 w
  rw [st_eq, out_slabs]
  unfold tileIn
  rw [bigSep_sep', bigSep_sep']
  iintro ⟨Ht, Hs, Ho⟩
  ihave Ht' := (Transfers.pointsTo_toks_split fullShare 32) $$ Ht
  ihave Hs' := (Transfers.pointsTo_toks_split fullShare 32) $$ Hs
  icases Ht' with ⟨Htd, Htt⟩
  icases Hs' with ⟨Hsd, Hst⟩
  isplitl [Htt Hst Ho]
  · isplitl [Htt]; · iexact Htt
    isplitl [Hst]
    · iapply hS; iexact Hst
    · iapply hO; iexact Ho
  isplitl [Htd] <;> iassumption

/-- What the call brings back: the token array whole again, and the result array whole at contents every tile's property
    holds of (a property of a slab's contents only: `hΨ`). The score vector's tokens are let go. -/
theorem dn_join (hΨ : ∀ d w f g, (∀ i ∈ slabSet w, f i = g i) → Ψ d w f → Ψ d w g) (d : Dev nD) :
    iprop((bigSep Finset.univ fun c : Fin ((K (F := F)).nCore 0) => (P m Φ Ψ).dn 0 d c)
        ∗ (textLoc d ↦{shareDrop fullShare 32} m (textLoc d)))
      ⊢ (iprop((textLoc d ↦{fullShare} m (textLoc d)) ∗ ∃ f, ⌜∀ w, Ψ d w f⌝ ∗ outLoc d ↦{fullShare} f) : sProp 𝕄) := by
  rw [dn_eq]
  unfold tileOut
  rw [bigSep_sep', bigSep_sep']
  iintro ⟨⟨Htt, -, Ho⟩, Htd⟩
  isplitl [Htt Htd]
  · iapply (Transfers.pointsTo_toks_join fullShare 32)
    isplitl [Htd] <;> iassumption
  ihave Ho' := (bigSep_exists_pi Finset.univ (fun (w : Fin 32) (f : Buf (Elt F) (outLoc d)) => iprop(⌜Ψ d w f⌝ ∗ outLoc d ↦[slabSet w]{fullShare} f))) $$ Ho
  icases Ho' with ⟨%fs, Ho⟩
  ihave Ho'' := (bigSep_pure_sep Finset.univ (fun w : Fin 32 => Ψ d w (fs w)) (fun w => (outLoc d ↦[slabSet w]{fullShare} fs w : sProp 𝕄))) $$ Ho
  icases Ho'' with ⟨%hfs, Ho⟩
  ihave Hg := (pointsTo_biUnion_join Finset.univ slabSet fs (fs 0) slabs_disjoint) $$ Ho
  icases Hg with ⟨%g, %hg, Hg⟩
  rw [slabs_cover]
  iexists g
  isplitr
  · ipureintro
    exact fun w => hΨ d w (fs w) g (fun i hi => (hg w (Finset.mem_univ w) i hi).symm) (hfs w (Finset.mem_univ w))
  · iexact Hg

end Cert.Proof.KB

end
-- ==== Proof.MainB.lean ====
/-
  @main on device `d`'s TensorCore: the table transposed and the bias reshaped, the pipelined matrix product (the score
  of every table row, and of 600 columns past the table's end that depend on staged words no array names), the scores as
  one vector, the SparseCore call — every tile handed its read tokens and its slab —, and the three host operations that
  lay the pooled result out; and how the final memory reads what @main leaves.
-/
import proofs.«207257_g22479858827769_cont_8to1_397_21_alg».proof.Proof.PrepB
import proofs.«207257_g22479858827769_cont_8to1_397_21_alg».proof.Proof.HostB
import proofs.«207257_g22479858827769_cont_8to1_397_21_alg».proof.Proof.SplitB

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig (HIx 1) (Elt F) ℕ UU ℕ

variable (m : (ℓ : Loc nD τ sig) → Buf (Elt F) ℓ) (ρ : Dev nD → PrngReg)
variable (Φ : (d : Dev nD) → Buf (Elt F) (scoresLoc d) → Prop)
variable (Ψ : (d : Dev nD) → Fin 32 → Buf (Elt F) (outLoc d) → Prop)

/-- The score vector a result array of the pipelined call reshapes to. -/
def scoresOf (d : Dev nD) (B : Buf (Elt F) (blocksLoc d)) : Buf (Elt F) (scoresLoc d) :=
  fun i => shapeCast S25600 B shapeCasts_S2x1x12800_S25600 i

/-- What is known of the score vector when the SparseCore call starts: it is the reshape of an array the pipelined call's
    write-backs may have left. -/
def ScoresOK (d : Dev nD) (sc : Buf (Elt F) (scoresLoc d)) : Prop :=
  ∃ B : Buf (Elt F) (blocksLoc d), (rd m d).ArrAt 3 cfg0.N B ∧ sc = scoresOf d B

/-- The three host operations after the SparseCore call, composed: [40, 32, 128] to [40, 4096], transposed, to [4096, 40, 1]. -/
def tailOf (d : Dev nD) (f : Buf (Elt F) (outLoc d)) : Buf (Elt F) (resLoc d) :=
  fun i => shapeCast S4096x40x1
    (transpose S4096x40 [1, 0] (fun j => shapeCast S40x4096 f shapeCasts_S40x32x128_S40x4096 j : (⟨S40x4096, .f32⟩ : BufTy).Contents (Elt F)) transposes_S40x4096_S4096x40_1_0 : (⟨S4096x40, .f32⟩ : BufTy).Contents (Elt F))
    shapeCasts_S4096x40_S4096x40x1 i

/-- What @main leaves the claim: the four argument arrays at their launch contents, and the result as the tail of an
    array every tile's property holds of. -/
def FIN (d : Dev nD) : sProp 𝕄 :=
  iprop((textLoc d ↦{fullShare} m (textLoc d)) ∗ (embLoc d ↦{fullShare} m (embLoc d)) ∗ (wLoc d ↦{fullShare} m (wLoc d))
    ∗ (biasLoc d ↦{fullShare} m (biasLoc d)) ∗ ∃ f, ⌜∀ w, Ψ d w f⌝ ∗ resLoc d ↦{fullShare} tailOf d f)

set_option backward.isDefEq.respectTransparency.types false in
theorem hmain (hΦ : ∀ d sc, ScoresOK m d sc → Φ d sc)
    (hΨ : ∀ d w f g, (∀ i ∈ slabSet w, f i = g i) → Ψ d w f → Ψ d w g) (κ : GSem nD τ sig → ℕ) (d : Dev nD) :
    iprop((K (F := F)).ctx EH (P m Φ Ψ) κ ∗ (K (F := F)).tcSt EH d 0 ∗ (K (F := F)).tcRes m ρ d ∗ G (F := F) d)
      ⊢ wp frame (wpE ((K (F := F)).defs (D (F := F))) 𝒱 (SparseCore.T d) none) Set.univ (Cert.Kernel.main d)
          fun _ => iprop((K (F := F)).tcSt EH d 1 ∗ FIN m Ψ d) := by
  obtain ⟨R, hR⟩ := tcSt0_split (F := F) d
  unfold SparseCore.Cfg.tcRes
  rw [hR, bufs_launch]
  simp only [main, wp_bind, wp_pure]
  iintro ⟨#Hctx, ⟨Ho, HR⟩, ⟨Hb, Hheld, -, -⟩, HG⟩
  ihave Hlv := (SparseCore.Cfg.ctx_levAts κ) $$ Hctx
  -- the transpose and the reshape before the call
  iapply (StableHlo.wp_hlo_within 𝒱 (T d) none Set.univ (op := opT (F := F)) (S := Sall) opT_sub (V := V0 m d)) $$ [Hb Hheld]
  · isplitl [Hb] <;> iassumption
  iintro ⟨Hb, Hheld⟩
  rw [wp_ret]; imodintro
  iapply (StableHlo.wp_hlo_within 𝒱 (T d) none Set.univ (op := opB (F := F)) (S := Sall) opB_sub (V := (opT (F := F)).result (V0 m d))) $$ [Hb Hheld]
  · isplitl [Hb] <;> iassumption
  iintro ⟨Hb, Hheld⟩
  rw [wp_ret]; imodintro
  ihave Hbufs := (Entails.of_eq (bufs_W2 m d)) $$ Hheld
  -- the pipelined call
  iapply (wp_region m d _)
  isplitl [Hb]; · iexact Hb
  isplitl [Hbufs Ho]
  · unfold preR; isplitl [Hbufs] <;> iassumption
  isplitl [Hlv]; · iexact Hlv
  isplitl [HG]; · iexact HG
  iintro ⟨Hb, Hpost⟩
  ihave Hp := (postR_elim m d) $$ Hpost
  icases Hp with ⟨⟨%B, %hB, Hv2⟩, Hw, Htext, Hemb, Hbias, Hv3, Hv4, Hv5, Hv6, Hv7, Ho⟩
  -- the scores as one vector
  iapply (wp_reshape_at 𝒱 none (V0 m d) d main_v2 main_v3 (by decide) _ _ _ _ B (m (scoresLoc d)))
  isplitl [Hb]; · iexact Hb
  isplitl [Hv2]; · iexact Hv2
  isplitl [Hv3]; · iexact Hv3
  iintro %r ⟨Hb, Hv2, Hv3⟩
  rw [wp_ret]; imodintro
  -- the SparseCore call
  have hsc : Φ d (scoresOf d B) := hΦ d _ ⟨B, hB, rfl⟩
  ihave Hst := (st_split m Φ Ψ d (scoresOf d B) hsc (m (outLoc d))) $$ [Htext Hv3 Hv4]
  · isplitl [Htext]; · iexact Htext
    isplitl [Hv3]; · iexact Hv3
    iexact Hv4
  icases Hst with ⟨Hst, Htd, -⟩
  iapply ((K (F := F)).wp_run (D (F := F)) 𝒱 (EH := EH) (P := P m Φ Ψ) κ d 0)
  isplitr; · iexact Hctx
  isplitl [Ho HR]
  · iapply (Entails.of_eq hR.symm); isplitl [Ho] <;> iassumption
  isplitl [Hst]; · iexact Hst
  iintro ⟨Hst1, Hdn⟩
  ihave Hj := (dn_join m Φ Ψ hΨ d) $$ [Hdn Htd]
  · isplitl [Hdn] <;> iassumption
  icases Hj with ⟨Htext, %f, %hf, Hv4⟩
  -- the three host operations after it
  iapply (wp_reshape_at 𝒱 none (V0 m d) d main_v4 main_v5 (by decide) _ _ _ _ f (m (out2Loc d)))
  isplitl [Hb]; · iexact Hb
  isplitl [Hv4]; · iexact Hv4
  isplitl [Hv5]; · iexact Hv5
  iintro %r1 ⟨Hb, Hv4, Hv5⟩
  rw [wp_ret]; imodintro
  iapply (wp_unary_at 𝒱 none (V0 m d) d main_v5 main_v6 (by decide) _ _ _ _ (m (outTLoc d)))
  isplitl [Hb]; · iexact Hb
  isplitl [Hv5]; · iexact Hv5
  isplitl [Hv6]; · iexact Hv6
  iintro %r2 ⟨Hb, Hv5, Hv6⟩
  rw [wp_ret]; imodintro
  iapply (wp_reshape_at 𝒱 none (V0 m d) d main_v6 main_v7 (by decide) _ _ _ _ _ (m (resLoc d)))
  isplitl [Hb]; · iexact Hb
  isplitl [Hv6]; · iexact Hv6
  isplitl [Hv7]; · iexact Hv7
  iintro %r3 ⟨Hb, Hv6, Hv7⟩
  rw [wp_ret]; imodintro; imodintro
  isplitl [Hst1]; · iexact Hst1
  unfold FIN
  isplitl [Htext]; · iexact Htext
  isplitl [Hemb]; · iexact Hemb
  isplitl [Hw]; · iexact Hw
  isplitl [Hbias]; · iexact Hbias
  iexists f
  isplitr; · ipureintro; exact hf
  iexact Hv7

/-- What the final memory is read as. -/
def fq (d : Dev nD) (s' : Phys nD τ sig (Elt F)) : Prop :=
  s'.mem.mem (textLoc d) = m (textLoc d) ∧ s'.mem.mem (embLoc d) = m (embLoc d) ∧ s'.mem.mem (wLoc d) = m (wLoc d)
    ∧ s'.mem.mem (biasLoc d) = m (biasLoc d) ∧ ∃ f, (∀ w, Ψ d w f) ∧ s'.mem.mem (resLoc d) = tailOf d f

theorem hfin (d : Dev nD) (s' : Phys nD τ sig (Elt F)) : iprop(FIN m Ψ d ∗ SI s') ⊢ (⌜fq m Ψ d s'⌝ : sProp 𝕄) := by
  unfold FIN
  iintro ⟨⟨Ht, He, Hw, Hb, %f, %hf, Hr⟩, HSI⟩
  icombine HSI Ht gives %ht
  icombine HSI He gives %he
  icombine HSI Hw gives %hw
  icombine HSI Hb gives %hb
  icombine HSI Hr gives %hr
  ipureintro
  exact ⟨funext fun i => ht i (Finset.mem_univ i), funext fun i => he i (Finset.mem_univ i), funext fun i => hw i (Finset.mem_univ i),
    funext fun i => hb i (Finset.mem_univ i), f, hf, funext fun i => hr i (Finset.mem_univ i)⟩

end Cert.Proof.KB

end
-- ==== Proof.TileCellsB.lean ====
/-
  One vector subcore's task.

  Tile `w = 2 s + c` copies the whole score vector into its own memory (four quarter copies completing on one
  semaphore, all started before any is waited for and none of their buffers touched until the last wait), and its
  128 token columns in two copies (rows 0–119 and 120–199, each on a semaphore of its own). After the first token
  copy has landed it pools windows 0–23, which read token rows 0–119 only, while the second copy may still be
  landing in rows 120–199; after the second it pools windows 24–39. Pooling window `t`, for each of eight groups of
  sixteen lanes: read the five token rows `5 t … 5 t + 4` at those lanes, read the score vector at each of the five
  words (in range because every token is below 25000), add the five reads left to right, and put the sixteen sums
  into row `t` of the output block at those lanes. Last, the output block goes to the tile's slab of the result.
-/
import proofs.«207257_g22479858827769_cont_8to1_397_21_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's number. -/
abbrev widL (L : grid1.Coords) : Fin 32 := widOf (Fin.cast bound_zero (L 0)) (Fin.cast bound_one (L 1))

/-! ## The subcore's own semaphores and buffers, split out of what the launch hands it -/

abbrev cellS (d : Dev nD) (c : Fin τ.nSC) (i : Fin τ.nSub) : GSem nD τ sig := (V d c i, .dma cc1_scratch3.sem)
abbrev cellT0 (d : Dev nD) (c : Fin τ.nSC) (i : Fin τ.nSub) : GSem nD τ sig := (V d c i, .dma cc1_scratch4.sem)
abbrev cellT1 (d : Dev nD) (c : Fin τ.nSC) (i : Fin τ.nSub) : GSem nD τ sig := (V d c i, .dma cc1_scratch5.sem)
abbrev cellO (d : Dev nD) (c : Fin τ.nSC) (i : Fin τ.nSub) : GSem nD τ sig := (V d c i, .dma cc1_scoped0.sem)

theorem ownSems0_V [FloatOps F] :
    (ownSems0 (V d (cV L) (jV L)) : sProp 𝕄)
      = iprop(semVal (cellS d (cV L) (jV L)) 0 ∗ semVal (cellT0 d (cV L) (jV L)) 0 ∗ semVal (cellT1 d (cV L) (jV L)) 0 ∗ semVal (cellO d (cV L) (jV L)) 0
          ∗ bigSep (((((ownCells (V d (cV L) (jV L))).erase (cellS d (cV L) (jV L))).erase (cellT0 d (cV L) (jV L))).erase (cellT1 d (cV L) (jV L))).erase (cellO d (cV L) (jV L)))
              fun g => semVal g 0) := by
  unfold SparseCore.Cfg.ownSems0
  rw [SparseCore.bigSep_erase' ((mem_ownCells (g := cellS d (cV L) (jV L))).mpr ⟨rfl, by
      show (SemLoc.dma cc1_scratch3.sem : SemLoc sig).isScoped .scVector = true; decide⟩),
    SparseCore.bigSep_erase' (Finset.mem_erase.mpr ⟨by simp [cellS, cellT0]; decide, (mem_ownCells (g := cellT0 d (cV L) (jV L))).mpr ⟨rfl, by
      show (SemLoc.dma cc1_scratch4.sem : SemLoc sig).isScoped .scVector = true; decide⟩⟩),
    SparseCore.bigSep_erase' (Finset.mem_erase.mpr ⟨by simp [cellT0, cellT1]; decide, Finset.mem_erase.mpr ⟨by simp [cellS, cellT1]; decide,
      (mem_ownCells (g := cellT1 d (cV L) (jV L))).mpr ⟨rfl, by show (SemLoc.dma cc1_scratch5.sem : SemLoc sig).isScoped .scVector = true; decide⟩⟩⟩),
    SparseCore.bigSep_erase' (Finset.mem_erase.mpr ⟨by simp [cellT1, cellO]; decide, Finset.mem_erase.mpr ⟨by simp [cellT0, cellO]; decide,
      Finset.mem_erase.mpr ⟨by simp [cellS, cellO]; decide,
      (mem_ownCells (g := cellO d (cV L) (jV L))).mpr ⟨rfl, by show (SemLoc.dma cc1_scoped0.sem : SemLoc sig).isScoped .scVector = true; decide⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

end Tile

end Cert.Proof.KB

end
-- ==== Proof.TileViewsB.lean ====
/-
  The pieces a vector subcore's copies land in.

  The score vector's copy in the subcore's memory is filled by four copies, one per quarter (6400 entries each); the
  token block by two, rows 0–119 and rows 120–199. Each quarter, and each row range, is a rectangle of its buffer;
  the four quarters are pairwise disjoint and cover the vector, the two row ranges are disjoint and cover the block.
  So a buffer held whole is the same as its pieces held side by side.
-/
import proofs.«207257_g22479858827769_cont_8to1_397_21_alg».proof.Proof.TileCellsB

noncomputable section

namespace Cert.Proof.KB

open Cert.Kernel Cert.Kernel.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (Idealize.ShloMosaic.SparseCore.Cfg.HIx 1) (Elt F) ℕ UU ℕ

/-! ## Quarters of the score vector -/

theorem inbQ (j : Fin 4) : ∀ a, (![6400 * j.val] : Fin 1 → Nat) a + S6400.size a ≤ S25600.size a := by
  have := j.isLt; intro a; fin_cases a; show 6400 * j.val + 6400 ≤ 25600; omega
/-- Quarter `j`: entries `6400 j … 6400 j + 6399`. -/
abbrev qRect (j : Fin 4) : Rect S25600 := Rect.unit (s := S25600) ![6400 * j.val] S6400.size (inbQ j)
abbrev qSet (j : Fin 4) : Finset S25600.Idx := (qRect j).set

theorem mem_qSet {j : Fin 4} {i : S25600.Idx} : i ∈ qSet j ↔ 6400 * j.val ≤ (i 0).val ∧ (i 0).val < 6400 * j.val + 6400 := by
  unfold qSet qRect
  rw [Rect.mem_set_unit]
  constructor
  · intro h; exact h 0
  · intro h a; fin_cases a; exact h

theorem qSet_disjoint {j k : Fin 4} (h : j ≠ k) : Disjoint (qSet j) (qSet k) := by
  rw [Finset.disjoint_left]
  intro i hj hk
  rw [mem_qSet] at hj hk
  have : j.val ≠ k.val := fun e => h (Fin.ext e)
  omega

theorem qSet_cover : qSet 0 ∪ (qSet 1 ∪ (qSet 2 ∪ qSet 3)) = (Finset.univ : Finset S25600.Idx) := by
  ext i
  simp only [Finset.mem_union, mem_qSet, Finset.mem_univ, iff_true]
  have h : (i 0).val < 25600 := (i 0).isLt
  show (6400 * 0 ≤ (i 0).val ∧ (i 0).val < 6400 * 0 + 6400) ∨ (6400 * 1 ≤ (i 0).val ∧ (i 0).val < 6400 * 1 + 6400)
    ∨ (6400 * 2 ≤ (i 0).val ∧ (i 0).val < 6400 * 2 + 6400) ∨ (6400 * 3 ≤ (i 0).val ∧ (i 0).val < 6400 * 3 + 6400)
  omega

/-! ## The two row ranges of the token block -/

abbrev loRect : Rect S200x128 := Rect.unit (s := S200x128) ![0, 0] S120x128.size inb_S200x128_S120x128_0_0
abbrev hiRect : Rect S200x128 := Rect.unit (s := S200x128) ![120, 0] S80x128.size inb_S200x128_S80x128_120_0
abbrev loSet : Finset S200x128.Idx := loRect.set
abbrev hiSet : Finset S200x128.Idx := hiRect.set

theorem mem_loSet {i : S200x128.Idx} : i ∈ loSet ↔ (i 0).val < 120 := by
  unfold loSet loRect
  rw [Rect.mem_set_unit]
  constructor
  · intro h; have := h 0; simpa using this.2
  · intro h a; fin_cases a
    · exact ⟨Nat.zero_le _, by simpa using h⟩
    · exact ⟨Nat.zero_le _, by have := (i 1).isLt; simpa using this⟩

theorem mem_hiSet {i : S200x128.Idx} : i ∈ hiSet ↔ 120 ≤ (i 0).val := by
  unfold hiSet hiRect
  rw [Rect.mem_set_unit]
  constructor
  · intro h; have := h 0; simpa using this.1
  · intro h a; fin_cases a
    · exact ⟨by simpa using h, by have := (i 0).isLt; simpa using this⟩
    · exact ⟨Nat.zero_le _, by have := (i 1).isLt; simpa using this⟩

theorem lo_hi_disjoint : Disjoint loSet hiSet := by
  rw [Finset.disjoint_left]; intro i h1 h2; rw [mem_loSet] at h1; rw [mem_hiSet] at h2; omega

theorem lo_hi_cover : loSet ∪ hiSet = (Finset.univ : Finset S200x128.Idx) := by
  ext i; simp only [Finset.mem_union, mem_loSet, mem_hiSet, Finset.mem_univ, iff_true]; omega

/-! ## A buffer held whole is its pieces held side by side -/

theorem pointsTo_quarters {ℓ : Loc nD τ sig} (hℓ : ℓ.ty.shape = S25600) {q : PosShare TreeShare} (f : Buf (Elt F) ℓ)
    (Q : Fin 4 → Finset (Idx ℓ)) (hd : ∀ j k, j ≠ k → Disjoint (Q j) (Q k)) (hc : Q 0 ∪ (Q 1 ∪ (Q 2 ∪ Q 3)) = Finset.univ) :
    (ℓ ↦{q} f : sProp 𝕄) ⊣⊢ iprop((ℓ ↦[Q 0]{q} f) ∗ (ℓ ↦[Q 1]{q} f) ∗ (ℓ ↦[Q 2]{q} f) ∗ ℓ ↦[Q 3]{q} f) := by
  have d23 : Disjoint (Q 2) (Q 3) := hd 2 3 (by decide)
  have d1 : Disjoint (Q 1) (Q 2 ∪ Q 3) := Finset.disjoint_union_right.mpr ⟨hd 1 2 (by decide), hd 1 3 (by decide)⟩
  have d0 : Disjoint (Q 0) (Q 1 ∪ (Q 2 ∪ Q 3)) :=
    Finset.disjoint_union_right.mpr ⟨hd 0 1 (by decide), Finset.disjoint_union_right.mpr ⟨hd 0 2 (by decide), hd 0 3 (by decide)⟩⟩
  show (ℓ ↦[Finset.univ]{q} f : sProp 𝕄) ⊣⊢ _
  rw [← hc]
  constructor
  · refine (pointsTo_union d0).1.trans (sep_mono_right ((pointsTo_union d1).1.trans (sep_mono_right (pointsTo_union d23).1)))
  · refine BI.Entails.trans (sep_mono_right ((sep_mono_right (pointsTo_union d23).2).trans (pointsTo_union d1).2)) (pointsTo_union d0).2

end Cert.Proof.KB

end
-- ==== Proof.TileLandB.lean ====
/-
  What the token copies land.

  Tile `w`'s token block is the 200 × 128 array whose entry `(r, l)` is `text[r, 128 w + l]`: rows 0–119 arrive by the
  first copy, rows 120–199 by the second, each copying a rectangle of the token array with the same row range and the
  columns `128 w … 128 w + 127`. So after a copy has landed, the rows it wrote hold that array's entries, whatever
  the buffer held before; and every entry, being a token, is below 25000 under the precondition.
-/
import proofs.«207257_g22479858827769_cont_8to1_397_21_alg».proof.Proof.TileViewsB
import proofs.«207257_g22479858827769_cont_8to1_397_21_alg».proof.Proof.PoolSpec
import proofs.«207257_g22479858827769_cont_8to1_397_21_alg».proof.Proof.LibLanded

noncomputable section

namespace Cert.Proof.KB

open Cert.Kernel Cert.Kernel.Gen
open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (Idealize.ShloMosaic.SparseCore.Cfg.HIx 1) (Elt F) ℕ UU ℕ

section Land

variable (m : (ℓ : Loc nD τ sig) → Buf (Elt F) ℓ) (d : Dev nD) (L : grid1.Coords)

/-- The token-array column that lane `l` of tile `w` pools. -/
def colOf (L : grid1.Coords) (l : Fin 128) : Fin 4096 :=
  ⟨128 * (widL L).val + l.val, by have := (widL L).isLt; have := l.isLt; omega⟩

theorem widL_val (L : grid1.Coords) : (widL L).val = (L 1).val * 2 + (L 0).val := rfl

/-- The tile's token block as one function: entry `(r, l)` is `text[r, 128 w + l]`. -/
def gT : Buf (Elt F) ((V d (cV L) (jV L)).loc cc1_scratch1) :=
  fun i => m (textLoc d) (ix2 (n0 := 200) (n1 := 4096) ⟨(i 0).val, (i 0).isLt⟩ (colOf L ⟨(i 1).val, (i 1).isLt⟩))

/-- Every entry of the token block is a token: below 25000 under the precondition. -/
theorem gT_lt (hr : Cert.Proof.PoolSpec.InRange (m (textLoc d))) (i : S200x128.Idx) : (gT m d L i).toNat < 25000 := hr _

/-- The rows of the token array the two copies read, as the program slices them. -/
abbrev txLo (L : grid1.Coords) : Memref sig .scVector .hbm S120x128 .i32 :=
  (Memref.whole main_arg0_scv).slice (Rect.unit (s := S200x4096) (k1_off1 L) S120x128.size (k1_off1_inb L)) (fun _ => rfl)
abbrev txHi (L : grid1.Coords) : Memref sig .scVector .hbm S80x128 .i32 :=
  (Memref.whole main_arg0_scv).slice (Rect.unit (s := S200x4096) (k1_off2 L) S80x128.size (k1_off2_inb L)) (fun _ => rfl)
abbrev tvLo : Memref sig .scVector .vmem S120x128 .i32 := (Memref.whole cc1_scratch1).slice loRect (fun _ => rfl)
abbrev tvHi : Memref sig .scVector .vmem S80x128 .i32 := (Memref.whole cc1_scratch1).slice hiRect (fun _ => rfl)

theorem set_tvLo : (tvLo).view.set = loSet := View.set_slice_whole _ _
theorem set_tvHi : (tvHi).view.set = hiSet := View.set_slice_whole _ _

/-- What rows 0–119 of the block hold once the first copy has landed, over any prior contents: the token block's. -/
theorem lo_landed (f₀ : Buf (Elt F) ((tvLo).view.loc (V d (cV L) (jV L)))) :
    ∀ i ∈ (tvLo).view.set,
      (tvLo).view.writes (Elt F) f₀ [⟨Rect.whole S120x128, ReadAs.same.apply ((txLo L).view.read (Elt F) (m (textLoc d)))⟩] i = gT m d L i := by
  intro i hi
  rw [set_tvLo, mem_loSet] at hi
  obtain ⟨y, rfl⟩ : ∃ y : S120x128.Idx, (tvLo).view.emb y = i := by
    refine ⟨ix2 (n0 := 120) (n1 := 128) ⟨(i 0).val, hi⟩ ⟨(i 1).val, (i 1).isLt⟩, ?_⟩
    funext a
    fin_cases a
    · apply Fin.ext
      show (![0, 0] : Fin 2 → ℕ) 0 + 1 * (i 0).val = (i 0).val
      simp
    · apply Fin.ext
      show (![0, 0] : Fin 2 → ℕ) 1 + 1 * (i 1).val = (i 1).val
      simp
  rw [landed_emb]
  unfold gT
  simp only [ReadAs.apply, View.read_apply, cast_eq]
  congr 1
  funext a
  fin_cases a
  · apply Fin.ext
    show (k1_off1 L) 0 + 1 * (y 0).val = (![0, 0] : Fin 2 → ℕ) 0 + 1 * (y 0).val
    rw [k1_off1_eq]; simp
  · apply Fin.ext
    show (k1_off1 L) 1 + 1 * (y 1).val = 128 * (widL L).val + ((![0, 0] : Fin 2 → ℕ) 1 + 1 * (y 1).val)
    rw [k1_off1_eq, widL_val]; simp; omega

/-- What rows 120–199 of the block hold once the second copy has landed, over any prior contents: the token block's. -/
theorem hi_landed (f₀ : Buf (Elt F) ((tvHi).view.loc (V d (cV L) (jV L)))) :
    ∀ i ∈ (tvHi).view.set,
      (tvHi).view.writes (Elt F) f₀ [⟨Rect.whole S80x128, ReadAs.same.apply ((txHi L).view.read (Elt F) (m (textLoc d)))⟩] i = gT m d L i := by
  intro i hi
  rw [set_tvHi, mem_hiSet] at hi
  have h200 : (i 0).val < 200 := (i 0).isLt
  obtain ⟨y, rfl⟩ : ∃ y : S80x128.Idx, (tvHi).view.emb y = i := by
    refine ⟨ix2 (n0 := 80) (n1 := 128) ⟨(i 0).val - 120, by omega⟩ ⟨(i 1).val, (i 1).isLt⟩, ?_⟩
    funext a
    fin_cases a
    · apply Fin.ext
      show (![120, 0] : Fin 2 → ℕ) 0 + 1 * ((i 0).val - 120) = (i 0).val
      simp; omega
    · apply Fin.ext
      show (![120, 0] : Fin 2 → ℕ) 1 + 1 * (i 1).val = (i 1).val
      simp
  rw [landed_emb]
  unfold gT
  simp only [ReadAs.apply, View.read_apply, cast_eq]
  congr 1
  funext a
  fin_cases a
  · apply Fin.ext
    show (k1_off2 L) 0 + 1 * (y 0).val = (![120, 0] : Fin 2 → ℕ) 0 + 1 * (y 0).val
    rw [k1_off2_eq]; simp
  · apply Fin.ext
    show (k1_off2 L) 1 + 1 * (y 1).val = 128 * (widL L).val + ((![120, 0] : Fin 2 → ℕ) 1 + 1 * (y 1).val)
    rw [k1_off2_eq, widL_val]; simp; omega

/-! ## The score vector's copy -/

/-- Quarter `j` of the score vector in HBM and of its copy in the subcore's memory, as the program slices them. -/
abbrev scQ (j : Fin 4) : Memref sig .scVector .hbm S6400 .f32 := (Memref.whole main_v3_scv).slice (qRect j) (fun _ => rfl)
abbrev svQ (j : Fin 4) : Memref sig .scVector .vmem S6400 .f32 := (Memref.whole cc1_scratch0).slice (qRect j) (fun _ => rfl)

theorem set_svQ (j : Fin 4) : (svQ j).view.set = qSet j := View.set_slice_whole _ _
theorem set_scQ (j : Fin 4) : (scQ j).view.set = qSet j := View.set_slice_whole _ _

/-- The score vector as the contents of the subcore's copy of it (the two buffers have one index type). -/
def scV (sc : Buf (Elt F) (scoresLoc d)) : Buf (Elt F) ((V d (cV L) (jV L)).loc cc1_scratch0) := fun i => sc i

/-- What quarter `j` of the copy holds once its copy has landed, over any prior contents: the score vector's. -/
theorem q_landed (j : Fin 4) (sc : Buf (Elt F) (scoresLoc d)) (f₀ : Buf (Elt F) ((svQ j).view.loc (V d (cV L) (jV L)))) :
    ∀ i ∈ (svQ j).view.set,
      (svQ j).view.writes (Elt F) f₀ [⟨Rect.whole S6400, ReadAs.same.apply ((scQ j).view.read (Elt F) sc)⟩] i = scV d L sc i := by
  intro i hi
  rw [set_svQ, mem_qSet] at hi
  obtain ⟨y, rfl⟩ : ∃ y : S6400.Idx, (svQ j).view.emb y = i := by
    refine ⟨ix1 (n := 6400) ⟨(i 0).val - 6400 * j.val, by omega⟩, ?_⟩
    funext a
    fin_cases a
    apply Fin.ext
    show (![6400 * j.val] : Fin 1 → ℕ) 0 + 1 * ((i 0).val - 6400 * j.val) = (i 0).val
    simp; omega
  rw [landed_emb]
  unfold scV
  simp only [ReadAs.apply, View.read_apply, cast_eq]
  rfl

end Land

end Cert.Proof.KB

end
-- ==== Proof.TileChkB.lean ====
/-
  The side conditions of the indexed reads and writes.

  An indexed read of the score vector takes sixteen token words as positions: each must be below the vector's 25600
  entries, and a token is below 25000. An indexed write of the output block takes a row word per lane — the pooling
  window, the same for all lanes, below 40 — and a column word per lane — the lane number plus sixteen times the lane
  group, below 128.
-/
import proofs.«207257_g22479858827769_cont_8to1_397_21_alg».proof.Proof.TileViewsB
import Idealize.ShloMosaic.Lib.Scf

noncomputable section

namespace Cert.Proof.KB

open Cert.Kernel Cert.Kernel.Gen
open Idealize.ShloMosaic

/-- Sixteen token words name entries of the score vector. -/
theorem chk_gather (v : IVec S16 32) (hv : ∀ x, (v x).toNat < 25000) :
    ∀ a x, ((![v] : Fin 1 → IVec S16 32) a x).toNat < S25600.size a := by
  intro a x
  have ha : a = 0 := Subsingleton.elim _ _
  subst ha
  show (v x).toNat < 25600
  exact lt_trans (hv x) (by norm_num)

/-- A row word below 40 and a column word below 128 per lane name entries of the output block. -/
theorem chk_scatter (u v : IVec S16 32) (hu : ∀ x, (u x).toNat < 40) (hv : ∀ x, (v x).toNat < 128) :
    ∀ a x, ((![u, v] : Fin 2 → IVec S16 32) a x).toNat < S40x128.size a := by
  intro a x
  fin_cases a
  · exact hu x
  · exact hv x

/-- The row word of trip `k` of a loop that starts at `lb`: `lb + k`, in every lane. -/
theorem row_word (lb k : ℕ) (h : lb + k < 40) (x : S16.Idx) :
    (addi (broadcast S16 (0#32 : BitVec 32)) (broadcast S16 (Scf.iv (BitVec.ofNat 32 lb) 1#32 k)) x).toNat = lb + k := by
  show (IntOp.addi (0#32) (Scf.iv (BitVec.ofNat 32 lb) 1#32 k)).toNat = lb + k
  unfold IntOp.addi Scf.iv
  simp only [BitVec.toNat_add, BitVec.toNat_mul, BitVec.toNat_ofNat]
  omega

theorem row_word_lt (lb k : ℕ) (h : lb + k < 40) (x : S16.Idx) :
    (addi (broadcast S16 (0#32 : BitVec 32)) (broadcast S16 (Scf.iv (BitVec.ofNat 32 lb) 1#32 k)) x).toNat < 40 := by
  rw [row_word lb k h x]; exact h

/-- The column word of lane `x` in lane group `c / 16`: `x + c`. -/
theorem lane_word (c : ℕ) (hc : c ≤ 112) (h : S16.Iotas .scVector 32 [0]) (x : S16.Idx) :
    (addi (iota .scVector S16 32 [0] h) (broadcast S16 (BitVec.ofNat 32 c)) x).toNat = (x 0).val + c := by
  have hx : (x 0).val < 16 := (x 0).isLt
  show (IntOp.addi (BitVec.ofNat 32 (0 * S16.size 0 + (x 0).val)) (BitVec.ofNat 32 c)).toNat = (x 0).val + c
  unfold IntOp.addi
  simp only [BitVec.toNat_add, BitVec.toNat_ofNat]
  omega

theorem lane_word_lt (c : ℕ) (hc : c ≤ 112) (h : S16.Iotas .scVector 32 [0]) (x : S16.Idx) :
    (addi (iota .scVector S16 32 [0] h) (broadcast S16 (BitVec.ofNat 32 c)) x).toNat < 128 := by
  have hx : (x 0).val < 16 := (x 0).isLt
  rw [lane_word c hc h x]; omega

end Cert.Proof.KB

end
-- ==== Proof.TileValueB.lean ====
/-
  The value one lane group of a pooling trip stores.

  A token vector is sixteen consecutive entries of one row of the token block: lane `x` of the vector read at row
  `r`, column `c` is the block's entry `(r, c + x)`. Five reads of the score vector at five such token vectors, added
  left to right, are at lane `x` the tile's pooled sum for the window and the lane those tokens belong to, since a token
  below 25000 is its own residue modulo the score vector's extent.
-/
import proofs.«207257_g22479858827769_cont_8to1_397_21_alg».proof.Proof.TileLandB
import proofs.«207257_g22479858827769_cont_8to1_397_21_alg».proof.Proof.TileChkB
import proofs.«207257_g22479858827769_cont_8to1_397_21_alg».proof.Proof.TileSpec
import proofs.«207257_g22479858827769_cont_8to1_397_21_alg».proof.Proof.LibRowFill
import Idealize.ShloMosaic.Lib.Pipeline.Value

noncomputable section

namespace Cert.Proof.KB

open Cert.Kernel Cert.Kernel.Gen Idealize.ShloMosaic Idealize.ShloMosaic.ValueIdx Cert.Proof.TileSpec

variable {F : FTy → Type}

/-- Lane `x` of the token vector read at the rectangle of one row and sixteen columns at offsets `off`, whose closed
    form is row `r` and column `c` with `c + x = l`: the block's entry `(r, l)`. -/
theorem tok_read (T : cc1_scratch1.ty.Contents (Elt F)) (off : Fin 2 → ℕ) [co : ClosedOff off]
    (inb : ∀ a, off a + S1x16.size a ≤ S200x128.size a)
    (hsc : (Rect.unit (s := S200x128) off S1x16.size inb).toLoadRect.shape.ShapeCasts S16) (x : S16.Idx)
    (r : Fin 200) (l : Fin 128) (hr : co.form 0 = r.val) (hl : co.form 1 + (x 0).val = l.val) :
    shapeCast S16 (View.readAt (Elt F) (Memref.whole cc1_scratch1).view
        (Rect.unit (s := S200x128) off S1x16.size inb).toLoadRect T) hsc x = T (ix2 r l) := by
  have hoff : off = co.form := co.eq
  have hk : ((Rect.unit (s := S200x128) off S1x16.size inb).toLoadRect.shape.rowMajor
      (ix2 (0 : Fin 1) (⟨(x 0).val, (x 0).isLt⟩ : Fin 16))).val = (S16.rowMajor x).val := by
    rw [Shape.rowMajor_val_two, Shape.rowMajor_val_one]
    show 0 * 16 + (x 0).val = (x 0).val
    omega
  rw [shapeCast_apply _ hsc x (ix2 (0 : Fin 1) (⟨(x 0).val, (x 0).isLt⟩ : Fin 16)) hk, View.readAt_apply]
  show T _ = T _
  refine congrArg T (funext fun a => Fin.ext ?_)
  match a with
  | ⟨0, _⟩ =>
    show off 0 + 1 * 0 = r.val
    rw [hoff, hr]
    omega
  | ⟨1, _⟩ =>
    show off 1 + 1 * (x 0).val = l.val
    rw [hoff, ← hl, Nat.one_mul]

variable [FloatOps F]

/-- One read of the score vector at a token below 25000 is the read at the token's position. -/
theorem load_at_tok (Sv : SScore.Idx → F .f32) (T : STok.Idx → BitVec 32) (hT : ∀ i, (T i).toNat < 25000)
    (w : IVec S16 32) (h : ∀ a x, ((![w] : Fin 1 → IVec S16 32) a x).toNat < S25600.size a) (x : S16.Idx)
    (r : Fin 200) (l : Fin 128) (e : w x = T (ix2 r l)) :
    loadIdx (F := F) (e := .f32) Sv ![w] h x = Sv (posOf T r l) := by
  rw [loadIdx_apply1]
  refine congrArg Sv (congrArg (ix1 (n := 25600)) (Fin.ext ?_))
  show (w x).toNat = (T (ix2 r l)).toNat % 25600
  rw [e, Nat.mod_eq_of_lt (lt_trans (hT _) (by norm_num))]

/-- FIVE LOADS ADDED LEFT TO RIGHT ARE THE POOLED SUM: at lane `x`, when token vector `k` holds at that lane the
    block's token at some row `r` and lane `l` with `r = 5 t + k` and `l` the lane, for the window `t = j 0` and the lane
    `j 1`. `Sv'` is the score vector as the loads name it. -/
theorem pool5_of_loads (Sv : SScore.Idx → F .f32) (Sv' : Vec F S25600 .f32) (hSv : Sv' = Sv)
    (T : STok.Idx → BitVec 32) (hT : ∀ i, (T i).toNat < 25000) (j : SBlk.Idx) (x : S16.Idx)
    (w0 w1 w2 w3 w4 : IVec S16 32)
    (h0 : ∀ a x, ((![w0] : Fin 1 → IVec S16 32) a x).toNat < S25600.size a)
    (h1 : ∀ a x, ((![w1] : Fin 1 → IVec S16 32) a x).toNat < S25600.size a)
    (h2 : ∀ a x, ((![w2] : Fin 1 → IVec S16 32) a x).toNat < S25600.size a)
    (h3 : ∀ a x, ((![w3] : Fin 1 → IVec S16 32) a x).toNat < S25600.size a)
    (h4 : ∀ a x, ((![w4] : Fin 1 → IVec S16 32) a x).toNat < S25600.size a)
    (e0 : ∃ (r : Fin 200) (l : Fin 128), w0 x = T (ix2 r l) ∧ r.val = 5 * (j 0).val + 0 ∧ l.val = (j 1).val)
    (e1 : ∃ (r : Fin 200) (l : Fin 128), w1 x = T (ix2 r l) ∧ r.val = 5 * (j 0).val + 1 ∧ l.val = (j 1).val)
    (e2 : ∃ (r : Fin 200) (l : Fin 128), w2 x = T (ix2 r l) ∧ r.val = 5 * (j 0).val + 2 ∧ l.val = (j 1).val)
    (e3 : ∃ (r : Fin 200) (l : Fin 128), w3 x = T (ix2 r l) ∧ r.val = 5 * (j 0).val + 3 ∧ l.val = (j 1).val)
    (e4 : ∃ (r : Fin 200) (l : Fin 128), w4 x = T (ix2 r l) ∧ r.val = 5 * (j 0).val + 4 ∧ l.val = (j 1).val) :
    addf (addf (addf (addf (loadIdx Sv' ![w0] h0) (loadIdx Sv' ![w1] h1)) (loadIdx Sv' ![w2] h2))
      (loadIdx Sv' ![w3] h3)) (loadIdx Sv' ![w4] h4) x = poolBlock Sv T j := by
  subst hSv
  have key : ∀ (k : Fin 5) (w : IVec S16 32) (h : ∀ a x, ((![w] : Fin 1 → IVec S16 32) a x).toNat < S25600.size a),
      (∃ (r : Fin 200) (l : Fin 128), w x = T (ix2 r l) ∧ r.val = 5 * (j 0).val + k.val ∧ l.val = (j 1).val) →
      loadIdx (F := F) (e := .f32) Sv' ![w] h x = Sv' (posOf T (rowOfStep (j 0) k) (j 1)) := by
    rintro k w h ⟨r, l, e, hr, hl⟩
    have hr' : r = rowOfStep (j 0) k := Fin.ext hr
    have hl' : l = j 1 := Fin.ext hl
    subst hr' hl'
    exact load_at_tok Sv' T hT w h x _ _ e
  show FloatOps.addf (FloatOps.addf (FloatOps.addf (FloatOps.addf (loadIdx Sv' ![w0] h0 x) (loadIdx Sv' ![w1] h1 x))
      (loadIdx Sv' ![w2] h2 x)) (loadIdx Sv' ![w3] h3 x)) (loadIdx Sv' ![w4] h4 x) = pool5 Sv' T (j 0) (j 1)
  rw [key 0 w0 h0 e0, key 1 w1 h1 e1, key 2 w2 h2 e2, key 3 w3 h3 e3, key 4 w4 h4 e4]
  rfl

/-- A filled row is a property of the array: it may be restated along an equation of arrays. -/
theorem RowFilled_of_eq {e : EltTy} {R C t N : ℕ} {f g g' : Vec F ⟨2, ![R, C]⟩ e}
    {target : (⟨2, ![R, C]⟩ : Shape).Idx → Elt F e} (h : g' = g) (hg : RowFilled t N f g target) :
    RowFilled t N f g' target := h ▸ hg

end Cert.Proof.KB

/-- One row store of a pooling trip, peeled off a goal `RowFilled t N f (storeIdx g ![u, v] val _ false _) target`:
    `tile_rowB c tr hgt Sv T` — `c` the first column of the sixteen the store fills, `tr` the token block's row of the
    window's first step (`5 * k` in the first loop), `hgt` the tokens' range, `Sv` and `T` the score vector and the token
    block. It proves the stored vector is the pooled sums (five loads added left to right, each token vector read at its
    lane) and leaves the goal for the array before the store, read back as the previous store's result. -/
syntax "tile_rowB " term:max term:max term:max term:max term:max : tactic
macro_rules
  | `(tactic| tile_rowB $c $tr $hgt $Sv $T) => `(tactic| (
    refine Idealize.ShloMosaic.RowFilled.step (c := $c) (n := 16) rfl ?_
      (fun x => (Cert.Proof.KB.row_word _ _ (by omega) x).trans (by omega))
      (fun x => Cert.Proof.KB.lane_word $c (by norm_num) Cert.Kernel.Gen.iota_S16_d0_w32_scVector x) (fun x j h0 h1 => ?_)
    on_goal 2 =>
      have hx : (x 0).val < 16 := (x 0).isLt
      refine Cert.Proof.KB.pool5_of_loads $Sv _ (Idealize.ShloMosaic.Memref.readAt_whole _ _ _) $T $hgt j x
        _ _ _ _ _ _ _ _ _ _ ?_ ?_ ?_ ?_ ?_
      · exact ⟨⟨$tr + 0, by omega⟩, ⟨$c + (x 0).val, by omega⟩, Cert.Proof.KB.tok_read _ _ _ _ x _ _ rfl rfl,
          (by omega : $tr + 0 = 5 * (j 0).val + 0), (by omega : $c + (x 0).val = (j 1).val)⟩
      · exact ⟨⟨$tr + 1, by omega⟩, ⟨$c + (x 0).val, by omega⟩, Cert.Proof.KB.tok_read _ _ _ _ x _ _ rfl rfl,
          (by omega : $tr + 1 = 5 * (j 0).val + 1), (by omega : $c + (x 0).val = (j 1).val)⟩
      · exact ⟨⟨$tr + 2, by omega⟩, ⟨$c + (x 0).val, by omega⟩, Cert.Proof.KB.tok_read _ _ _ _ x _ _ rfl rfl,
          (by omega : $tr + 2 = 5 * (j 0).val + 2), (by omega : $c + (x 0).val = (j 1).val)⟩
      · exact ⟨⟨$tr + 3, by omega⟩, ⟨$c + (x 0).val, by omega⟩, Cert.Proof.KB.tok_read _ _ _ _ x _ _ rfl rfl,
          (by omega : $tr + 3 = 5 * (j 0).val + 3), (by omega : $c + (x 0).val = (j 1).val)⟩
      · exact ⟨⟨$tr + 4, by omega⟩, ⟨$c + (x 0).val, by omega⟩, Cert.Proof.KB.tok_read _ _ _ _ x _ _ rfl rfl,
          (by omega : $tr + 4 = 5 * (j 0).val + 4), (by omega : $c + (x 0).val = (j 1).val)⟩
    first
      | refine Cert.Proof.KB.RowFilled_of_eq (Idealize.ShloMosaic.Memref.readCov_whole_cons _ _ _) ?_
      | refine Cert.Proof.KB.RowFilled_of_eq (Idealize.ShloMosaic.Memref.readAt_whole _ _ _) ?_))

end
-- ==== Proof.TileBodyB.lean ====
/-
  One vector subcore's task, run.
-/
import proofs.«207257_g22479858827769_cont_8to1_397_21_alg».proof.Proof.TileLandB
import proofs.«207257_g22479858827769_cont_8to1_397_21_alg».proof.Proof.TileChkB
import proofs.«207257_g22479858827769_cont_8to1_397_21_alg».proof.Proof.TileSpec
import proofs.«207257_g22479858827769_cont_8to1_397_21_alg».proof.Proof.TileValueB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type}

/-- The side condition of an indexed read or write, from the tokens' range `h` and the trip's bound in scope. -/
syntax "tile_chkB " term : tactic
macro_rules
  | `(tactic| tile_chkB $h) =>
    `(tactic| first
      | exact chk_gather _ (fun x => $h _)
      | exact chk_scatter _ _ (row_word_lt _ _ (by omega)) (lane_word_lt _ (by omega) iota_S16_d0_w32_scVector))

local notation "𝕄" => MT nD τ sig (HIx 1) (Elt F) ℕ UU ℕ

section Tile

variable [FloatOps F] [∀ e, Nonempty (Elt F e)]
variable (m : (ℓ : Loc nD τ sig) → Buf (Elt F) ℓ)
variable (Φ : (d : Dev nD) → Buf (Elt F) (scoresLoc d) → Prop)
variable (Ψ : (d : Dev nD) → Fin 32 → Buf (Elt F) (outLoc d) → Prop)
variable (d : Dev nD) (L : grid1.Coords)

local notation "scW" => (Memref.whole Cert.Kernel.main_v3_scv : Memref Cert.Kernel.sig Kind.scVector Space.hbm Cert.Kernel.S25600 EltTy.f32)
local notation "txW" => (Memref.whole Cert.Kernel.main_arg0_scv : Memref Cert.Kernel.sig Kind.scVector Space.hbm Cert.Kernel.S200x4096 EltTy.i32)
local notation "ouW" => (Memref.whole Cert.Kernel.main_v4_scv : Memref Cert.Kernel.sig Kind.scVector Space.hbm Cert.Kernel.S40x32x128 EltTy.f32)
local notation "sS" => (Memref.whole Cert.Kernel.cc1_scratch0 : Memref Cert.Kernel.sig Kind.scVector Space.vmem Cert.Kernel.S25600 EltTy.f32)
local notation "sT" => (Memref.whole Cert.Kernel.cc1_scratch1 : Memref Cert.Kernel.sig Kind.scVector Space.vmem Cert.Kernel.S200x128 EltTy.i32)
local notation "sO" => (Memref.whole Cert.Kernel.cc1_scratch2 : Memref Cert.Kernel.sig Kind.scVector Space.vmem Cert.Kernel.S40x128 EltTy.f32)

/-! ## The arrays and buffers as the subcore's memrefs address them -/
omit [FloatOps F] [∀ e, Nonempty (Elt F e)] in
theorem pts_sc (q : PosShare TreeShare) (f : Buf (Elt F) (scoresLoc d)) :
    ((scW).view.loc (V d (cV L) (jV L)) ↦{q} f : sProp 𝕄) = scoresLoc d ↦{q} f := by
  simp only [Memref.view_whole, View.set_whole]
omit [FloatOps F] [∀ e, Nonempty (Elt F e)] in
theorem pts_tx (q : PosShare TreeShare) (f : Buf (Elt F) (textLoc d)) :
    ((txW).view.loc (V d (cV L) (jV L)) ↦{q} f : sProp 𝕄) = textLoc d ↦{q} f := by
  simp only [Memref.view_whole, View.set_whole]
omit [FloatOps F] [∀ e, Nonempty (Elt F e)] in
theorem pts_sS (f : Buf (Elt F) ((V d (cV L) (jV L)).loc cc1_scratch0)) :
    ((sS).view.loc (V d (cV L) (jV L)) ↦{fullShare} f : sProp 𝕄) = (V d (cV L) (jV L)).loc cc1_scratch0 ↦{fullShare} f := rfl
omit [FloatOps F] [∀ e, Nonempty (Elt F e)] in
theorem pts_sT (f : Buf (Elt F) ((V d (cV L) (jV L)).loc cc1_scratch1)) :
    ((sT).view.loc (V d (cV L) (jV L)) ↦{fullShare} f : sProp 𝕄) = (V d (cV L) (jV L)).loc cc1_scratch1 ↦{fullShare} f := rfl
omit [FloatOps F] [∀ e, Nonempty (Elt F e)] in
theorem pts_sO (f : Buf (Elt F) ((V d (cV L) (jV L)).loc cc1_scratch2)) :
    ((sO).view.loc (V d (cV L) (jV L)) ↦{fullShare} f : sProp 𝕄) = (V d (cV L) (jV L)).loc cc1_scratch2 ↦{fullShare} f := rfl

omit [FloatOps F] [∀ e, Nonempty (Elt F e)] in
theorem svQ_disjoint {j k : Fin 4} (h : j ≠ k) : Disjoint (svQ j).view.set (svQ k).view.set := by
  rw [set_svQ, set_svQ]; exact qSet_disjoint h
omit [FloatOps F] [∀ e, Nonempty (Elt F e)] in
theorem svQ_cover : (svQ 0).view.set ∪ ((svQ 1).view.set ∪ ((svQ 2).view.set ∪ (svQ 3).view.set)) = Finset.univ := by
  rw [set_svQ, set_svQ, set_svQ, set_svQ]; exact qSet_cover

omit [FloatOps F] [∀ e, Nonempty (Elt F e)] in
/-- The subcore's copy of the score vector held whole is its four quarters held side by side. -/
theorem split_sS (f : Buf (Elt F) ((V d (cV L) (jV L)).loc cc1_scratch0)) :
    ((V d (cV L) (jV L)).loc cc1_scratch0 ↦{fullShare} f : sProp 𝕄)
      ⊣⊢ iprop(((svQ 0).view.loc (V d (cV L) (jV L)) ↦[(svQ 0).view.set]{fullShare} f) ∗ ((svQ 1).view.loc (V d (cV L) (jV L)) ↦[(svQ 1).view.set]{fullShare} f)
          ∗ ((svQ 2).view.loc (V d (cV L) (jV L)) ↦[(svQ 2).view.set]{fullShare} f) ∗ (svQ 3).view.loc (V d (cV L) (jV L)) ↦[(svQ 3).view.set]{fullShare} f) := by
  have d23 : Disjoint (svQ 2).view.set (svQ 3).view.set := svQ_disjoint (by decide)
  have d1 : Disjoint (svQ 1).view.set ((svQ 2).view.set ∪ (svQ 3).view.set) :=
    Finset.disjoint_union_right.mpr ⟨svQ_disjoint (by decide), svQ_disjoint (by decide)⟩
  have d0 : Disjoint (svQ 0).view.set ((svQ 1).view.set ∪ ((svQ 2).view.set ∪ (svQ 3).view.set)) :=
    Finset.disjoint_union_right.mpr ⟨svQ_disjoint (by decide), Finset.disjoint_union_right.mpr ⟨svQ_disjoint (by decide), svQ_disjoint (by decide)⟩⟩
  show ((V d (cV L) (jV L)).loc cc1_scratch0 ↦[Finset.univ]{fullShare} f : sProp 𝕄) ⊣⊢ _
  rw [← svQ_cover]
  constructor
  · exact (pointsTo_union d0).1.trans (sep_mono_right ((pointsTo_union d1).1.trans (sep_mono_right (pointsTo_union d23).1)))
  · exact BI.Entails.trans (sep_mono_right ((sep_mono_right (pointsTo_union d23).2).trans (pointsTo_union d1).2)) (pointsTo_union d0).2

omit [FloatOps F] [∀ e, Nonempty (Elt F e)] in
/-- The token block held whole is its two row ranges held side by side. -/
theorem split_sT (f : Buf (Elt F) ((V d (cV L) (jV L)).loc cc1_scratch1)) :
    ((V d (cV L) (jV L)).loc cc1_scratch1 ↦{fullShare} f : sProp 𝕄)
      ⊣⊢ iprop(((tvLo).view.loc (V d (cV L) (jV L)) ↦[(tvLo).view.set]{fullShare} f) ∗ (tvHi).view.loc (V d (cV L) (jV L)) ↦[(tvHi).view.set]{fullShare} f) := by
  have dd : Disjoint (tvLo).view.set (tvHi).view.set := by rw [set_tvLo, set_tvHi]; exact lo_hi_disjoint
  have cc : (tvLo).view.set ∪ (tvHi).view.set = Finset.univ := by rw [set_tvLo, set_tvHi]; exact lo_hi_cover
  show ((V d (cV L) (jV L)).loc cc1_scratch1 ↦[Finset.univ]{fullShare} f : sProp 𝕄) ⊣⊢ _
  rw [← cc]
  exact pointsTo_union dd

/-! ## The four quarter copies' deliveries -/

abbrev landedQ (j : Fin 4) (sc : Buf (Elt F) (scoresLoc d)) (fS : Buf (Elt F) ((V d (cV L) (jV L)).loc cc1_scratch0)) :
    Buf (Elt F) ((svQ j).view.loc (V d (cV L) (jV L))) :=
  (svQ j).view.writes (Elt F) fS [⟨Rect.whole S6400, ReadAs.same.apply ((scQ j).view.read (Elt F) sc)⟩]

abbrev delivQ (sc : Buf (Elt F) (scoresLoc d)) (fS : Buf (Elt F) ((V d (cV L) (jV L)).loc cc1_scratch0)) (j : Fin 4) : sProp 𝕄 :=
  iprop(((svQ j).view.loc (V d (cV L) (jV L)) ↦[(svQ j).view.set]{fullShare} landedQ d L j sc fS)
    ∗ (scW).view.loc (V d (cV L) (jV L)) ↦[(scQ j).view.set]{tok (widL L)} sc)

/-- One quarter's credit. -/
abbrev NQ : ℕ := 204800

omit [FloatOps F] [∀ e, Nonempty (Elt F e)] in
/-- The four landed quarters, whatever the copy held before, are the score vector held whole. -/
theorem quarters_joined (sc : Buf (Elt F) (scoresLoc d)) (f₀ f₁ f₂ f₃ : Buf (Elt F) ((V d (cV L) (jV L)).loc cc1_scratch0)) :
    iprop(((svQ 0).view.loc (V d (cV L) (jV L)) ↦[(svQ 0).view.set]{fullShare}
            (svQ 0).view.writes (Elt F) f₀ [⟨Rect.whole S6400, ReadAs.same.apply ((scQ 0).view.read (Elt F) sc)⟩])
        ∗ ((svQ 1).view.loc (V d (cV L) (jV L)) ↦[(svQ 1).view.set]{fullShare}
            (svQ 1).view.writes (Elt F) f₁ [⟨Rect.whole S6400, ReadAs.same.apply ((scQ 1).view.read (Elt F) sc)⟩])
        ∗ ((svQ 2).view.loc (V d (cV L) (jV L)) ↦[(svQ 2).view.set]{fullShare}
            (svQ 2).view.writes (Elt F) f₂ [⟨Rect.whole S6400, ReadAs.same.apply ((scQ 2).view.read (Elt F) sc)⟩])
        ∗ ((svQ 3).view.loc (V d (cV L) (jV L)) ↦[(svQ 3).view.set]{fullShare}
            (svQ 3).view.writes (Elt F) f₃ [⟨Rect.whole S6400, ReadAs.same.apply ((scQ 3).view.read (Elt F) sc)⟩]))
      ⊢ ((sS).view.loc (V d (cV L) (jV L)) ↦{fullShare} scV d L sc : sProp 𝕄) := by
  exact (BIClass.sep_mono (Entails.of_eq (pointsTo_congr (q_landed d L 0 sc f₀)))
    (BIClass.sep_mono (Entails.of_eq (pointsTo_congr (q_landed d L 1 sc f₁)))
      (BIClass.sep_mono (Entails.of_eq (pointsTo_congr (q_landed d L 2 sc f₂))) (Entails.of_eq (pointsTo_congr (q_landed d L 3 sc f₃)))))).trans
    (split_sS (F := F) d L (scV d L sc)).2

/-! ## The tile's slab of the result -/

abbrev slabK (L : grid1.Coords) : Rect S40x32x128 := Rect.unit (s := S40x32x128) (k1_off83 L) S40x1x128.size (k1_off83_inb L)
/-- The tile's slab of the result as the program slices it. -/
abbrev oSlab (L : grid1.Coords) : Memref sig .scVector .hbm S40x128 .f32 :=
  ((Memref.whole main_v4_scv : Memref sig .scVector .hbm S40x32x128 .f32).slice (slabK L) (fun _ => rfl)).squeeze S40x128 squeezes_S40x1x128_S40x128

omit [FloatOps F] [∀ e, Nonempty (Elt F e)] in
theorem slabK_eq : slabK L = slab (widL L) := by
  unfold slabK slab Rect.part Rect.block
  congr 1 <;> funext a
  · rw [k1_off83_eq]
    match a with
    | 0 => simp [Shape.partIx, Shape.partSize]
    | 1 => simp [Shape.partIx, Shape.partSize, widL_val]; omega
    | 2 => simp [Shape.partIx, Shape.partSize]
  · match a with
    | 0 => simp [Shape.partSize]
    | 1 => simp [Shape.partSize]
    | 2 => simp [Shape.partSize]

omit [FloatOps F] [∀ e, Nonempty (Elt F e)] in
theorem set_oSlab : (oSlab L).view.set = slabSet (widL L) := by
  show (((Memref.whole main_v4_scv : Memref sig .scVector .hbm S40x32x128 .f32).view.slice (slabK L)).reshape S40x128 squeezes_S40x1x128_S40x128.numel_eq).set
    = ((Memref.whole main_v4_scv : Memref sig .scVector .hbm S40x32x128 .f32).view.slice (slab (widL L))).set
  rw [View.set_reshape]
  exact slabK_eq L ▸ rfl

omit [FloatOps F] [∀ e, Nonempty (Elt F e)] in
/-- Entry `(t, l)` of the tile's slab is entry `(t, w, l)` of the result. -/
theorem oSlab_emb (t : Fin 40) (l : Fin 128) :
    (oSlab L).view.emb (ValueIdx.ix2 (n0 := 40) (n1 := 128) t l) = ValueIdx.ix3 (n0 := 40) (n1 := 32) (n2 := 128) t (widL L) l := by
  have hre : Shape.reshapeEquiv (s := S40x1x128) (s' := S40x128) squeezes_S40x1x128_S40x128.numel_eq (ValueIdx.ix2 (n0 := 40) (n1 := 128) t l)
      = ValueIdx.ix3 (n0 := 40) (n1 := 1) (n2 := 128) t 0 l := by
    apply Shape.reshapeEquiv_eq_of_rowMajor
    rw [Shape.rowMajor_val_two, Shape.rowMajor_val_three]
    simp
  show (slabK L).emb (Shape.reshapeEquiv (s := S40x1x128) (s' := S40x128) squeezes_S40x1x128_S40x128.numel_eq (ValueIdx.ix2 (n0 := 40) (n1 := 128) t l)) = _
  rw [hre]
  funext a
  fin_cases a
  · apply Fin.ext
    show (k1_off83 L) 0 + 1 * t.val = t.val
    rw [k1_off83_eq]; simp
  · apply Fin.ext
    show (k1_off83 L) 1 + 1 * 0 = (widL L).val
    rw [k1_off83_eq, widL_val]; simp; omega
  · apply Fin.ext
    show (k1_off83 L) 2 + 1 * l.val = l.val
    rw [k1_off83_eq]; simp

omit [FloatOps F] [∀ e, Nonempty (Elt F e)] in
theorem pts_oSlab (f : Buf (Elt F) (outLoc d)) :
    ((oSlab L).view.loc (V d (cV L) (jV L)) ↦[(oSlab L).view.set]{fullShare} f : sProp 𝕄) = outLoc d ↦[slabSet (widL L)]{fullShare} f := by
  rw [set_oSlab]

/-! ## What the loops keep -/

/-- Rows below `n` of the output block hold the pooled sums. -/
def OI (sc : Buf (Elt F) (scoresLoc d)) (n : ℕ) (f : Buf (Elt F) ((V d (cV L) (jV L)).loc cc1_scratch2)) : Prop :=
  ∀ (t : Fin 40) (l : Fin 128), t.val < n →
    f (ValueIdx.ix2 (n0 := 40) (n1 := 128) t l) = Cert.Proof.TileSpec.pool5 (scV d L sc) (gT m d L) t l

/-- What links the two abstract properties: if the score vector satisfies `Φ`, a result array whose slab `w` holds
    the tile's pooled sums satisfies `Ψ` there. -/
def TileGives : Prop :=
  ∀ (d : Dev nD) (L : grid1.Coords) (sc : Buf (Elt F) (scoresLoc d)) (f : Buf (Elt F) (outLoc d)), Φ d sc →
    (∀ (t : Fin 40) (l : Fin 128), f (ValueIdx.ix3 (n0 := 40) (n1 := 32) (n2 := 128) t (widL L) l)
        = Cert.Proof.TileSpec.pool5 (scV d L sc) (gT m d L) t l) → Ψ d (widL L) f

/-- While windows 0–23 are pooled: the score vector's copy whole, token rows 0–119 landed, the rows of the output
    block pooled so far, the waits recorded. -/
def inv1 (sc : Buf (Elt F) (scoresLoc d)) (O : CellTallies nD τ sig (HIx 1)) (W : Waits sig (HIx 1)) (k : Nat) (_ : PUnit) : sProp 𝕄 :=
  iprop(Transfers.MayWaits (V d (cV L) (jV L)) (none : HIx 1) O
    ∗ ((sS).view.loc (V d (cV L) (jV L)) ↦{fullShare} scV d L sc)
    ∗ ((tvLo).view.loc (V d (cV L) (jV L)) ↦[(tvLo).view.set]{fullShare} gT m d L)
    ∗ (∃ f, ⌜OI m d L sc k f⌝ ∗ (sO).view.loc (V d (cV L) (jV L)) ↦{fullShare} f)
    ∗ ∃ W', ⌜∀ p ∈ W', p ∈ W ∨ p.2 = none⌝ ∗ owes (V d (cV L) (jV L)) O W')

/-- While windows 24–39 are pooled: the same with token rows 120–199. -/
def inv2 (sc : Buf (Elt F) (scoresLoc d)) (O : CellTallies nD τ sig (HIx 1)) (W : Waits sig (HIx 1)) (k : Nat) (_ : PUnit) : sProp 𝕄 :=
  iprop(Transfers.MayWaits (V d (cV L) (jV L)) (none : HIx 1) O
    ∗ ((sS).view.loc (V d (cV L) (jV L)) ↦{fullShare} scV d L sc)
    ∗ ((tvHi).view.loc (V d (cV L) (jV L)) ↦[(tvHi).view.set]{fullShare} gT m d L)
    ∗ (∃ f, ⌜OI m d L sc (24 + k) f⌝ ∗ (sO).view.loc (V d (cV L) (jV L)) ↦{fullShare} f)
    ∗ ∃ W', ⌜∀ p ∈ W', p ∈ W ∨ p.2 = none⌝ ∗ owes (V d (cV L) (jV L)) O W')

omit [FloatOps F] [∀ e, Nonempty (Elt F e)] in
/-- One more wait at the kernel's own index keeps the record within bounds. -/
theorem waits_insert {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

omit [FloatOps F] [∀ e, Nonempty (Elt F e)] in
theorem trips1 : Scf.trips k1_t1_loop.lb k1_t1_loop.ub k1_t1_loop.st = 24 := by decide
omit [FloatOps F] [∀ e, Nonempty (Elt F e)] in
theorem trips2 : Scf.trips k1_t2_loop.lb k1_t2_loop.ub k1_t2_loop.st = 16 := by decide

set_option sl_exec.skeleton false in
set_option maxHeartbeats 0 in
theorem tile_body (hF : (K (F := F)).Facts) (hr : Cert.Proof.PoolSpec.InRange (m (textLoc d))) (hΦΨ : TileGives m Φ Ψ)
    (O : CellTallies nD τ sig (HIx 1)) (W : Waits sig (HIx 1)) (hO : ∀ g, O g none = 0) :
    iprop(levAts (K (F := F)).L (K (F := F)).lev ∗ emp ∗ tileIn m Φ d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_pool L scW (Memref.isWhole_whole _) txW (Memref.isWhole_whole _) ouW (Memref.isWhole_whole _)
            sS (Memref.isWhole_whole _) sT (Memref.isWhole_whole _) sO (Memref.isWhole_whole _) cc1_scratch3 cc1_scratch4 cc1_scratch5 cc1_scoped0)
          fun _ => iprop(tileOut m Ψ d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  have hgt : ∀ i, (gT m d L i).toNat < 25000 := gT_lt m d L hr
  simp only [cc1__sc_pool_eq_skeleton]; unfold cc1__sc_pool_skel
  simp only [k1_part13_eq_skeleton, k1_part14_eq_skeleton]; unfold k1_part13_skel k1_part14_skel
  rw [(K (F := F)).scopedBufs_V hF d (cV L) (jV L), SparseCore.Cfg.scopedSems0_V (Val := Elt F) d (cV L) (jV L), ownSems0_V, ownBufs_V]
  unfold tileIn
  iintro ⟨#Hlv, -, ⟨Htx, ⟨%sc, %hsc, Hsc⟩, ⟨%fo, Hou⟩⟩, ⟨⟨%fS, HsS⟩, ⟨%fT, HsT⟩, ⟨%fO, HsO⟩, Hbufs⟩, ⟨HsemS, HsemT0, HsemT1, HsemO, Hsems⟩, HO⟩
  ihave Hmw := ((K (F := F)).mayWaits_none (thr := V d (cV L) (jV L)) hO) $$ Hlv
  ihave Hsc' := (Entails.of_eq (pts_sc (F := F) d L _ _).symm) $$ Hsc
  ihave Htx' := (Entails.of_eq (pts_tx (F := F) d L _ _).symm) $$ Htx
  ihave HsO' := (Entails.of_eq (pts_sO (F := F) d L _).symm) $$ HsO
  ihave Hou' := (Entails.of_eq (pts_oSlab (F := F) d L _).symm) $$ Hou
  -- the score copy's four quarters, the token block's two row ranges
  ihave HsQ := (split_sS (F := F) d L fS).1 $$ HsS
  icases HsQ with ⟨HQ0, HQ1, HQ2, HQ3⟩
  ihave HsT2 := (split_sT (F := F) d L fT).1 $$ HsT
  icases HsT2 with ⟨HTlo, HThi⟩
  imod (Transfers.batch_alloc' (Lvl := ℕ) (countersEmb (U := UU)) (V d (cV L) (jV L)) (none : HIx 1) NQ (delivQ (F := F) d L sc fS) (sm := .dma cc1_scratch3.sem) (E := Set.univ)) $$ HsemS with HB
  -- six copies started, the four on one semaphore drained, the first token copy waited for
  sl_exec
  ihave HS := (quarters_joined (F := F) d L sc _ _ _ _) $$ [HB_dst0 HB_dst1 HB_dst2 HB_dst3]
  · isplitl [HB_dst0]; · iexact HB_dst0
    isplitl [HB_dst1]; · iexact HB_dst1
    isplitl [HB_dst2]; · iexact HB_dst2
    iexact HB_dst3
  ihave HT := (Entails.of_eq (pointsTo_congr (lo_landed m d L _))) $$ HTlo
  -- windows 0–23
  sl_for (inv1 m d L sc O W) $$ [Hmw HS HT HsO' HO]
  case region =>
    intro k _
    unfold inv1
    iintro ⟨Hmw, HS, HT, ⟨%f, %hf, HOut⟩, %W', %hW', HO⟩
    have hk24 : k.val < 24 := lt_of_lt_of_le k.isLt k1_t1_abs.2.1
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    sl_step
    isplitl [Hmw]; · iexact Hmw
    isplitl [HS]; · iexact HS
    isplitl [HT]; · iexact HT
    isplitl [HOut]
    · iexists _
      isplitr
      rotate_left
      · iexact HOut
      · ipureintro
        intro t l htl
        refine (congrFun (Idealize.ShloMosaic.Memref.writes_whole_cons (Val := Elt F) cc1_scratch2 f _ _) (ValueIdx.ix2 t l)).trans ?_
        refine Idealize.ShloMosaic.RowFilled.rows_le (F := F) (e := .f32) (R := 40) (C := 128) (t := k.val) (f := f)
          (target := Cert.Proof.TileSpec.poolBlock (scV d L sc) (gT m d L)) ?_ ?_ (ValueIdx.ix2 t l) htl
        on_goal 2 => exact fun j hj => (congrArg f (ValueIdx.eq_ix2 j)).trans (hf (j 0) (j 1) hj)
        tile_rowB 112 (5 * k.val) hgt (scV d L sc) (gT m d L)
        tile_rowB 96 (5 * k.val) hgt (scV d L sc) (gT m d L)
        tile_rowB 80 (5 * k.val) hgt (scV d L sc) (gT m d L)
        tile_rowB 64 (5 * k.val) hgt (scV d L sc) (gT m d L)
        tile_rowB 48 (5 * k.val) hgt (scV d L sc) (gT m d L)
        tile_rowB 32 (5 * k.val) hgt (scV d L sc) (gT m d L)
        tile_rowB 16 (5 * k.val) hgt (scV d L sc) (gT m d L)
        tile_rowB 0 (5 * k.val) hgt (scV d L sc) (gT m d L)
        exact Idealize.ShloMosaic.RowFilled.base _ _ _
    iexists W'; isplitr
    · ipureintro; exact hW'
    · iexact HO
  · unfold inv1
    isplitr; · iexact Hmw
    isplitl [HS]; · iexact HS
    isplitl [HT]; · iexact HT
    isplitl [HsO']
    · iexists _
      isplitr
      rotate_left
      · iexact HsO'
      · ipureintro; intro t l ht; exact absurd ht (Nat.not_lt_zero _)
    iexists _
    isplitr
    rotate_left
    · iexact HO
    · ipureintro; intro p hp
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      rcases Finset.mem_insert.mp hp with rfl | hp
      · exact .inr rfl
      · exact .inl hp
  iintro %_ HI
  unfold inv1
  icases HI with ⟨-, HS, HT, ⟨%f1, %hf1, HOut⟩, %W1, %hW1, HO⟩
  -- the second token copy waited for
  sl_exec
  ihave HT2 := (Entails.of_eq (pointsTo_congr (hi_landed m d L _))) $$ HThi
  rw [trips1] at hf1
  -- windows 24–39
  sl_for (inv2 m d L sc O W) $$ [Hmw HS HT2 HOut HO]
  case region =>
    intro k _
    unfold inv2
    iintro ⟨Hmw, HS, HT2, ⟨%f, %hf, HOut⟩, %W', %hW', HO⟩
    have hk16 : k.val < 16 := lt_of_lt_of_le k.isLt k1_t2_abs.2.1
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorLoadIdx_bind (V d (cV L) (jV L))]
    sl_exec (disch := tile_chkB hgt)
    rw [SparseCore.vectorStoreIdx_bind (V d (cV L) (jV L))]
    sl_exec (disch := tile_chkB hgt)
    sl_step
    isplitl [Hmw]; · iexact Hmw
    isplitl [HS]; · iexact HS
    isplitl [HT2]; · iexact HT2
    isplitl [HOut]
    · iexists _
      isplitr
      rotate_left
      · iexact HOut
      · ipureintro
        intro t l htl
        refine (congrFun (Idealize.ShloMosaic.Memref.writes_whole_cons (Val := Elt F) cc1_scratch2 f _ _) (ValueIdx.ix2 t l)).trans ?_
        refine Idealize.ShloMosaic.RowFilled.rows_le (F := F) (e := .f32) (R := 40) (C := 128) (t := 24 + k.val) (f := f)
          (target := Cert.Proof.TileSpec.poolBlock (scV d L sc) (gT m d L)) ?_ ?_ (ValueIdx.ix2 t l) htl
        on_goal 2 => exact fun j hj => (congrArg f (ValueIdx.eq_ix2 j)).trans (hf (j 0) (j 1) hj)
        tile_rowB 112 (5 * k.val + 120) hgt (scV d L sc) (gT m d L)
        tile_rowB 96 (5 * k.val + 120) hgt (scV d L sc) (gT m d L)
        tile_rowB 80 (5 * k.val + 120) hgt (scV d L sc) (gT m d L)
        tile_rowB 64 (5 * k.val + 120) hgt (scV d L sc) (gT m d L)
        tile_rowB 48 (5 * k.val + 120) hgt (scV d L sc) (gT m d L)
        tile_rowB 32 (5 * k.val + 120) hgt (scV d L sc) (gT m d L)
        tile_rowB 16 (5 * k.val + 120) hgt (scV d L sc) (gT m d L)
        tile_rowB 0 (5 * k.val + 120) hgt (scV d L sc) (gT m d L)
        exact Idealize.ShloMosaic.RowFilled.base _ _ _
    iexists W'; isplitr
    · ipureintro; exact hW'
    · iexact HO
  · unfold inv2
    isplitr; · iexact Hmw
    isplitl [HS]; · iexact HS
    isplitl [HT2]; · iexact HT2
    isplitl [HOut]
    · iexists _
      isplitr
      rotate_left
      · iexact HOut
      · ipureintro; exact hf1
    iexists _
    isplitr
    rotate_left
    · iexact HO
    · ipureintro; exact waits_insert hW1 _
  iintro %_ HI
  unfold inv2
  icases HI with ⟨-, HS, HT2, ⟨%f2, %hf2, HOut⟩, %W2, %hW2, HO⟩
  rw [trips2] at hf2
  -- the output block copied to the tile's slab, the copy waited for
  sl_exec
  sl_step
  unfold tileOut
  isplitl [Htx' Hsc' Hou']
  · isplitl [Htx']
    · iapply (Entails.of_eq (pts_tx (F := F) d L _ _)); iexact Htx'
    isplitl [Hsc']
    · iexists _; iapply (Entails.of_eq (pts_sc (F := F) d L _ _)); iexact Hsc'
    iexists _
    isplitr
    rotate_left
    · iapply (Entails.of_eq (pts_oSlab (F := F) d L _)); iexact Hou'
    · ipureintro
      refine hΦΨ d L sc _ hsc ?_
      intro t l
      rw [← oSlab_emb L t l, landed_emb]
      simp only [cast_eq]
      exact hf2 t l (by have := t.isLt; omega)
  isplitl [HS HT HT2 HOut Hbufs]
  · isplitl [HS]
    · iexists _; iapply (Entails.of_eq (pts_sS (F := F) d L _)); iexact HS
    isplitl [HT HT2]
    · iexists _; iapply (split_sT (F := F) d L _).2
      isplitl [HT]; · iexact HT
      iexact HT2
    isplitl [HOut]
    · iexists _; iapply (Entails.of_eq (pts_sO (F := F) d L _)); iexact HOut
    iexact Hbufs
  isplitl [HB HsemT0 HsemT1 HsemO Hsems]
  · isplitl [HB]; · iexact HB
    isplitl [HsemT0]; · iexact HsemT0
    isplitl [HsemT1]; · iexact HsemT1
    isplitl [HsemO]; · iexact HsemO
    iexact Hsems
  iexists _
  isplitr
  rotate_left
  · iexact HO
  · ipureintro; exact waits_insert hW2 _

end Tile

end Cert.Proof.KB

end
-- ==== Proof.LaunchB.lean ====
/-
  The launch: every thread's obligation discharged, the program's run.

  The launch theorem for a SparseCore program asks for: each vector subcore's task (the tile's run, at a symbolic
  tile), how a SparseCore's share of the call splits among its sixteen tiles (here the share IS the sixteen tiles'
  parts, so the split is the identity), the launch element of the ghost state (the handshakes' part kept, the
  pipelined call's part turned into its cells, the copies' counters not needed), @main on the TensorCore, and how the
  final memory reads the claim.
-/
import proofs.«207257_g22479858827769_cont_8to1_397_21_alg».proof.Proof.MainB
import proofs.«207257_g22479858827769_cont_8to1_397_21_alg».proof.Proof.TileBodyB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Launch

variable [FloatOps F] [∀ e, Nonempty (Elt F e)]
variable (m : (ℓ : Loc nD τ sig) → Buf (Elt F) ℓ) (ρ : Dev nD → PrngReg)
variable (Φ : (d : Dev nD) → Buf (Elt F) (scoresLoc d) → Prop)
variable (Ψ : (d : Dev nD) → Fin 32 → Buf (Elt F) (outLoc d) → Prop)

/-! ## The tile's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_pool (coordsV c s)
          (Memref.whole main_v3_scv) (Memref.isWhole_whole _) (Memref.whole main_arg0_scv) (Memref.isWhole_whole _)
          (Memref.whole main_v4_scv) (Memref.isWhole_whole _) (Memref.whole cc1_scratch0) (Memref.isWhole_whole _)
          (Memref.whole cc1_scratch1) (Memref.isWhole_whole _) (Memref.whole cc1_scratch2) (Memref.isWhole_whole _)
          cc1_scratch3 cc1_scratch4 cc1_scratch5 cc1_scoped0) ⟨⟩ c s := rfl

omit [FloatOps F] [∀ e, Nonempty (Elt F e)] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hr : ∀ d, Cert.Proof.PoolSpec.InRange (m (textLoc d)))
    (hΦΨ : TileGives m Φ Ψ) : (K (F := F)).TileObl (D (F := F)) 𝒱 (P m Φ Ψ) v₀ 0 := by
  intro d c i O W hO _ _
  simp only [show (P m Φ Ψ).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m Φ Ψ d (coordsV ⟨_, hc.1⟩ ⟨_, hc.2⟩) hF (hr d) hΦΨ O W hO).trans (wp_mono frame _ _ fun _ => obl_post)

/-! ## A SparseCore's share is its sixteen tiles' parts -/

omit [FloatOps F] [∀ e, Nonempty (Elt F e)] in
theorem bigSep_tasks [FloatOps F] (Θ : Fin 16 → sProp 𝕄) :
    (bigSep Finset.univ fun i : Fin ((K (F := F)).nSub 0) => Θ (Fin.cast nSub_zero i)) = bigSep Finset.univ Θ :=
  bigSep_congr fun _ _ => congrArg Θ (Fin.ext rfl)

theorem vecSplit : (K (F := F)).VecSplit' (P m Φ Ψ) 0 := by
  intro d c
  show (bigSep Finset.univ fun s : Fin 16 => tileIn m Φ d (widOf (Fin.cast nCore_zero c) s)) ⊢ |={Set.univ}=> iprop(
      (bigSep Finset.univ fun i : Fin ((K (F := F)).nSub 0) => tileIn m Φ d (widOf (Fin.cast nCore_zero c) (Fin.cast nSub_zero i)))
      ∗ ((bigSep Finset.univ fun i : Fin ((K (F := F)).nSub 0) => tileOut m Ψ d (widOf (Fin.cast nCore_zero c) (Fin.cast nSub_zero i)))
          -∗ bigSep Finset.univ fun s : Fin 16 => tileOut m Ψ d (widOf (Fin.cast nCore_zero c) s)))
  rw [bigSep_tasks (F := F) (fun s => tileIn m Φ d (widOf (Fin.cast nCore_zero c) s)),
    bigSep_tasks (F := F) (fun s => tileOut m Ψ d (widOf (Fin.cast nCore_zero c) s))]
  iintro H; imodintro
  isplitl [H]; · iexact H
  iintro H; iexact H

/-! ## The launch element -/

def u₀ : UU := (initOf (K (F := F)).hsCells (K (F := F)).hsToks, (uP₀, 1))

omit [FloatOps F] [∀ e, Nonempty (Elt F e)] in
theorem bigSep_emp' {I : Type} (s : Finset I) : (bigSep s fun _ => iprop(emp)) = (iprop(emp) : sProp 𝕄) := bigSep_emp_const s

omit [∀ e, Nonempty (Elt F e)] in
theorem ownU_splitH (a : UH) (r : UP × Counters) :
    (ownU ((a, r) : UU) : sProp 𝕄) ⊢ iprop(BI.own ((EH (F := F)) a)
      ∗ BI.own ((uEmb (nD := nD) (sig := sig) (Ix := HIx 1) (Val := Elt F) (Name := ℕ) (U := UU) (Lvl := ℕ)).toEmb (((1 : UH), r) : UU))) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op r)))

omit [∀ e, Nonempty (Elt F e)] in
theorem ownU_splitP (b : UP) (c : Counters) :
    (BI.own ((uEmb (nD := nD) (sig := sig) (Ix := HIx 1) (Val := Elt F) (Name := ℕ) (U := UU) (Lvl := ℕ)).toEmb (((1 : UH), ((b, c) : UP × Counters)) : UU)) : sProp 𝕄)
      ⊢ iprop(BI.own ((EP (F := F)) b)
        ∗ BI.own ((uEmb (nD := nD) (sig := sig) (Ix := HIx 1) (Val := Elt F) (Name := ℕ) (U := UU) (Lvl := ℕ)).toEmb (((1 : UH), (((1 : UP), c) : UP × Counters)) : UU))) :=
  BI.own_op_elim ((uEmb (nD := nD) (sig := sig) (Ix := HIx 1) (Val := Elt F) (Name := ℕ) (U := UU) (Lvl := ℕ)).toEmb.op_of_mem
    (Prod.mk_mem_op (URA.mem_op_one (1 : UH)) (Prod.mk_mem_op (URA.mem_op_one b) (URA.mem_one_op c))))

omit [∀ e, Nonempty (Elt F e)] in
/-- The launch element splits into the handshakes' part and the pipelined call's part (the counters are dropped). -/
theorem ownU_split3 (a : UH) (b : UP) (c : Counters) :
    (ownU ((a, (b, c)) : UU) : sProp 𝕄) ⊢ iprop(BI.own ((EH (F := F)) a) ∗ BI.own ((EP (F := F)) b)) := by
  iintro Hu
  ihave H := (ownU_splitH (F := F) a (b, c)) $$ Hu
  icases H with ⟨HH, HR⟩
  ihave H2 := (ownU_splitP (F := F) b c) $$ HR
  icases H2 with ⟨HP, -⟩
  isplitl [HH]; · iexact HH
  iexact HP

theorem hu₀ : (ownU (u₀ (F := F)) : sProp 𝕄)
    ⊢ |={Set.univ}=> iprop(BI.own ((EH (F := F)) (initOf (K (F := F)).hsCells (K (F := F)).hsToks)) ∗ (bigSep Finset.univ (G (F := F)))
        ∗ bigSep Finset.univ fun thr : Thread nD τ => bigSep Finset.univ fun q : Fin 1 => (P m Φ Ψ).x q thr) := by
  unfold u₀
  iintro Hu
  ihave H := (ownU_split3 (F := F) _ _ _) $$ Hu
  icases H with ⟨HH, HP⟩
  imod (fundG (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program's run -/

/-- What the run leaves: the four inputs as launched, and the result the host tail of an array whose every slab
    satisfies `Ψ`. -/
def QC : PUnit × MemSt nD τ sig (Elt F) → Prop := fun r => ∀ c : Dev nD,
  r.2.mem (textLoc c) = m (textLoc c) ∧ r.2.mem (embLoc c) = m (embLoc c) ∧ r.2.mem (wLoc c) = m (wLoc c) ∧ r.2.mem (biasLoc c) = m (biasLoc c)
    ∧ ∃ f, (∀ w, Ψ c w f) ∧ r.2.mem (resLoc c) = tailOf c f

theorem run_main (hr : ∀ d, Cert.Proof.PoolSpec.InRange (m (textLoc d)))
    (hΦ : ∀ d sc, ScoresOK m d sc → Φ d sc) (hΨ : ∀ d w f g, (∀ i ∈ slabSet w, f i = g i) → Ψ d w f → Ψ d w g)
    (hΦΨ : TileGives m Φ Ψ) :
    θ_run (Cert.Kernel.defs (F := F)) (Cert.Kernel.threads (F := F)) ⟨m, fun _ => 0, ρ⟩ (QC m Ψ) :=
  SparseCore.Cfg.θ_run_sc (K := K (F := F)) (D := D (F := F)) (𝒱 := 𝒱) (EH := EH) (P := P m Φ Ψ) facts v₀
    (fun q hq => match q with | 0 => nomatch hq)
    (fun q _ => match q with | 0 => tileObl m Φ Ψ facts hr hΦΨ)
    (fun q _ => match q with | 0 => SparseCore.Cfg.VecSplit.of_plain (vecSplit m Φ Ψ))
    m ρ main (G (F := F)) (FIN m Ψ) (u₀ (F := F)) (sep_elim_left.trans (hu₀ m Φ Ψ)) (hmain m ρ Φ Ψ hΦ hΨ) (fq m Ψ) (hfin m Ψ) (QC m Ψ) (fun _ h => h)

end Launch

end Cert.Proof.KB

end
-- ==== Proof.RefRun.lean ====
/-
  The reference program's run, read back as one closed term of its four argument arrays.

  The reference is a straight line of thirty-six host operations: the twenty-three of the table lookup (an index
  below zero is moved up by the table's extent, the rows are gathered with the index clamped into the table, and an
  index outside the table selects a quiet NaN instead of the gathered row), then the transposition to batch-major
  order, the split of the sequence axis into windows of five, the sum over each window, the division by five, the
  product with the transposed weights and the addition of the bias. Every weakly fair execution terminates with the
  result buffer at the composition of those operations applied to the launch contents of the arguments, and with
  the arguments unchanged.
-/
import proofs.«207257_g22479858827769_cont_8to1_397_21_alg».proof.Proof.Gen.ReferenceIdeal
import Idealize.ShloMosaic.Lib.StableHlo.Run

noncomputable section

namespace Cert.Proof.RefSide

open Cert.ReferenceIdeal Cert.ReferenceIdeal.Gen Idealize.ShloMosaic Idealize.ShloMosaic.TcCoe Idealize.SL.Sem
  Idealize.ShloMosaic.StableHlo

variable {F : FTy → Type} [FloatOps F]

/-! ## The value, stage by stage -/

/-- The index after the wrap of negative values: an index below zero (signed) has the table's extent added. -/
def wrapped (text : IVec S200x4096 32) : IVec S200x4096 32 :=
  select (cmpi .slt text (broadcastInDim S200x4096 ![] bcast_S_S200x4096 (constantI S_ 32 0#32)))
    (addi text (broadcastInDim S200x4096 ![] bcast_S_S200x4096 (constantI S_ 32 25000#32))) text

/-- The wrapped index as a column of row numbers: a trailing axis of extent one. -/
def idxCol (text : IVec S200x4096 32) : IVec S200x4096x1 32 :=
  broadcastInDim S200x4096x1 ![0, 1] bcast_S200x4096_S200x4096x1_0_1 (wrapped text)

/-- Whether the wrapped index lies in the table, `0 ≤ i ≤ 24999` signed, per token. -/
def inTable (text : IVec S200x4096 32) : IVec S200x4096 1 :=
  Host.reduce IntOp.andi
    (andi
      (cmpi .sge (idxCol text) (broadcastInDim S200x4096x1 ![] bcast_S_S200x4096x1 (constantI S_ 32 0#32)))
      (cmpi .sle (idxCol text)
        (broadcastInDim S200x4096x1 ![0, 1, 2] bcast_S1x1x1_S200x4096x1_0_1_2
          (broadcastInDim S1x1x1 ![2] bcast_S1_S1x1x1_2 (constantI S1 32 24999#32)))))
    (constantI S_ 1 1#1) reducesTo_S200x4096x1_S200x4096_d2 h_S_

/-- The looked-up rows: the gathered row where the index is in the table, a quiet NaN elsewhere. -/
def taken (text : IVec S200x4096 32) (emb : FVec F S25000x100 .f32) : FVec F S200x4096x100 .f32 :=
  select (broadcastInDim S200x4096x100 ![0, 1] bcast_S200x4096_S200x4096x100_0_1 (inTable text))
    (Host.gather gather_S25000x100_S200x4096x1_S200x4096x100_2_0_n_n_0_2_1100 emb (idxCol text))
    (broadcastInDim S200x4096x100 ![] bcast_S_S200x4096x100 (constant S_ .f32 0x7FC00000#32))

/-- The rows in batch-major order, the sequence axis split into forty windows of five. -/
def windows (text : IVec S200x4096 32) (emb : FVec F S25000x100 .f32) : FVec F S4096x40x5x100 .f32 :=
  fun i => shapeCast S4096x40x5x100
    (transpose S4096x200x100 [1, 0, 2] (taken text emb) transposes_S200x4096x100_S4096x200x100_1_0_2)
    shapeCasts_S4096x200x100_S4096x40x5x100 i

/-- The mean of each window: the sum over its five rows from zero, divided by five. -/
def meanRows (text : IVec S200x4096 32) (emb : FVec F S25000x100 .f32) : FVec F S4096x40x100 .f32 :=
  Host.divf
    (Host.reduceAdd (windows text emb) (constant S_ .f32 0x00000000#32) reducesTo_S4096x40x5x100_S4096x40x100_d2 h_S_)
    (broadcastInDim S4096x40x100 ![] bcast_S_S4096x40x100 (constant S_ .f32 0x40A00000#32))

/-- The reference's result: the window means against the transposed weights, plus the bias. -/
def refVal (text : IVec S200x4096 32) (emb : FVec F S25000x100 .f32) (w : FVec F S1x100 .f32) (bias : FVec F S1 .f32) :
    FVec F S4096x40x1 .f32 :=
  addf
    (Host.dotGeneral dot_S4096x40x100_S100x1_S4096x40x1_2_0_01_1_n_n none (meanRows text emb)
      (transpose S100x1 [1, 0] w transposes_S1x100_S100x1_1_0))
    (broadcastInDim S4096x40x1 ![0, 1, 2] bcast_S1x1x1_S4096x40x1_0_1_2
      (broadcastInDim S1x1x1 ![2] bcast_S1_S1x1x1_2 bias))

/-! ## The program as a list of operations -/

/-- The thirty-six operations in order: the lookup's twenty-three over its own buffers (the selection of the wrapped
    index is the inner function's single operation), then the thirteen of the pooling and the linear layer. -/
abbrev ops : List (HloOp τ sig (Elt F)) :=
  [ TRef.nullary main_call0.c (constantI S_ 32 0#32),
    TRef.unary main_call0.c main_call0.v0 (broadcastInDim S200x4096 ![] bcast_S_S200x4096),
    TRef.binary (.of main_arg0) main_call0.v0 main_call0.v1 (cmpi .slt),
    TRef.nullary main_call0.c_0 (constantI S_ 32 25000#32),
    TRef.unary main_call0.c_0 main_call0.v2 (broadcastInDim S200x4096 ![] bcast_S_S200x4096),
    TRef.binary (.of main_arg0) main_call0.v2 main_call0.v3 addi,
    TRef.ternary main_call0.v1 main_call0.v3 (.of main_arg0) main_call0.call0.v0 select,
    TRef.unary main_call0.call0.v0 main_call0.v5 (broadcastInDim S200x4096x1 ![0, 1] bcast_S200x4096_S200x4096x1_0_1),
    TRef.nullary main_call0.c_1 (constantI S1 32 24999#32),
    TRef.nullary main_call0.c_2 (constantI S_ 32 0#32),
    TRef.unary main_call0.c_2 main_call0.v6 (broadcastInDim S200x4096x1 ![] bcast_S_S200x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S200x4096x1 ![0, 1, 2] bcast_S1x1x1_S200x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S200x4096x1_S200x4096_d2 h_S_),
    TRef.binary (.of main_arg1) main_call0.v5 main_call0.v13 (fun x i => Host.gather gather_S25000x100_S200x4096x1_S200x4096x100_2_0_n_n_0_2_1100 x i),
    TRef.unary main_call0.v12 main_call0.v14 (broadcastInDim S200x4096x100 ![0, 1] bcast_S200x4096_S200x4096x100_0_1),
    TRef.nullary main_call0.cst (constant S_ .f32 0x7FC00000#32),
    TRef.unary main_call0.cst main_call0.v15 (broadcastInDim S200x4096x100 ![] bcast_S_S200x4096x100),
    TRef.ternary main_call0.v14 main_call0.v13 main_call0.v15 main_call0.v16 select,
    unary main_v0 main_v1 ((transpose S4096x200x100 [1, 0, 2] · transposes_S200x4096x100_S4096x200x100_1_0_2) : (⟨S200x4096x100, .f32⟩ : BufTy).Contents (Elt F) → (⟨S4096x200x100, .f32⟩ : BufTy).Contents (Elt F)),
    reshape main_v1 main_v2 rfl shapeCasts_S4096x200x100_S4096x40x5x100,
    nullary main_cst (constant S_ .f32 0x00000000#32),
    binary main_v2 main_cst main_v3 ((fun x v => Host.reduceAdd x v reducesTo_S4096x40x5x100_S4096x40x100_d2 h_S_) : (⟨S4096x40x5x100, .f32⟩ : BufTy).Contents (Elt F) → (⟨S_, .f32⟩ : BufTy).Contents (Elt F) → (⟨S4096x40x100, .f32⟩ : BufTy).Contents (Elt F)),
    nullary main_cst_0 (constant S_ .f32 0x40A00000#32),
    unary main_cst_0 main_v4 (broadcastInDim S4096x40x100 ![] bcast_S_S4096x40x100 : (⟨S_, .f32⟩ : BufTy).Contents (Elt F) → (⟨S4096x40x100, .f32⟩ : BufTy).Contents (Elt F)),
    binary main_v3 main_v4 main_v5 (Host.divf : (⟨S4096x40x100, .f32⟩ : BufTy).Contents (Elt F) → (⟨S4096x40x100, .f32⟩ : BufTy).Contents (Elt F) → (⟨S4096x40x100, .f32⟩ : BufTy).Contents (Elt F)),
    unary main_arg2 main_v6 ((transpose S100x1 [1, 0] · transposes_S1x100_S100x1_1_0) : (⟨S1x100, .f32⟩ : BufTy).Contents (Elt F) → (⟨S100x1, .f32⟩ : BufTy).Contents (Elt F)),
    binary main_v5 main_v6 main_v7 ((fun l r => Host.dotGeneral dot_S4096x40x100_S100x1_S4096x40x1_2_0_01_1_n_n none l r) : (⟨S4096x40x100, .f32⟩ : BufTy).Contents (Elt F) → (⟨S100x1, .f32⟩ : BufTy).Contents (Elt F) → (⟨S4096x40x1, .f32⟩ : BufTy).Contents (Elt F)),
    unary main_arg3 main_v8 (broadcastInDim S1x1x1 ![2] bcast_S1_S1x1x1_2 : (⟨S1, .f32⟩ : BufTy).Contents (Elt F) → (⟨S1x1x1, .f32⟩ : BufTy).Contents (Elt F)),
    unary main_v8 main_v9 (broadcastInDim S4096x40x1 ![0, 1, 2] bcast_S1x1x1_S4096x40x1_0_1_2 : (⟨S1x1x1, .f32⟩ : BufTy).Contents (Elt F) → (⟨S4096x40x1, .f32⟩ : BufTy).Contents (Elt F)),
    binary main_v7 main_v9 main_v10 (addf : (⟨S4096x40x1, .f32⟩ : BufTy).Contents (Elt F) → (⟨S4096x40x1, .f32⟩ : BufTy).Contents (Elt F) → (⟨S4096x40x1, .f32⟩ : BufTy).Contents (Elt F)) ]

-- thirty-six binds re-associated
set_option maxRecDepth 1024 in
/-- The program is that straight line: the two functions' definitions unfolded at their calls, sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., reshape_bufs_sub .., nullary_bufs_sub .., binary_bufs_sub .., nullary_bufs_sub .., unary_bufs_sub ..,
    binary_bufs_sub .., unary_bufs_sub .., binary_bufs_sub .., unary_bufs_sub .., unary_bufs_sub .., binary_bufs_sub ..⟩

/-! ## The fold at the result and at the arguments -/

attribute [local irreducible] Host.reduce Host.gather Host.reduceAdd in
set_option maxRecDepth 8192 in
set_option maxHeartbeats 400000 in
/-- The fold of the operations at the result buffer is `refVal` of the contents at the four arguments: each
    operation's result is its function of its operands' contents, every other buffer keeps what it held, and the
    typed references' transports are the identity at literal references. -/
theorem out_eq (V : Valuation τ sig (Elt F)) :
    after ops V (main_v10 : DevRef τ sig)
      = refVal (V (main_arg0 : DevRef τ sig)) (V (main_arg1 : DevRef τ sig)) (V (main_arg2 : DevRef τ sig))
          (V (main_arg3 : DevRef τ sig)) := by
  after_results_simp
  unfold refVal meanRows windows taken inTable idxCol wrapped
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

/-! ## The run -/

/-- On every device, for any float values, from any memory with zero counters: every weakly fair execution of the
    program terminates with the result buffer at `refVal` of the arguments' launch contents, and the four arguments
    unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = refVal (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v10).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.Proof.RefSide

end
-- ==== Proof.LibGatherRows3.lean ====
/-
  A gather of whole rows at a rank-3 column of row numbers, read at an index.

  Taking rows of a matrix `x : [N, D]` at an integer array of row numbers `idx : [R, C, 1]` is a gather that collapses
  the row axis, keeps the column axis as its one offset axis (slices of one row, `D` wide) and reads each start index
  off `idx`'s last axis. Its element `(r, c, d)` is `x` at row `idx[r, c, 0]` — read as a signed integer and clamped into
  `[0, N − 1]`, as every start index of a gather is — and column `d`.
-/
import Idealize.ShloMosaic.PureOps
import Idealize.ShloMosaic.Lib.ValueIdx

namespace Cert.Lib.GatherRows3

open Idealize.ShloMosaic Idealize.ShloMosaic.ValueIdx

variable {α : Type}

/-- A rank-3 index's first coordinate is below the first extent, stated with the extent `n0` itself. -/
theorem idx3_lt0 {n0 n1 n2 : Nat} (j : (⟨3, ![n0, n1, n2]⟩ : Shape).Idx) : (j 0).val < n0 := (j 0).isLt
/-- A rank-3 index's second coordinate is below the second extent. -/
theorem idx3_lt1 {n0 n1 n2 : Nat} (j : (⟨3, ![n0, n1, n2]⟩ : Shape).Idx) : (j 1).val < n1 := (j 1).isLt
/-- A rank-3 index's third coordinate is below the third extent. -/
theorem idx3_lt2 {n0 n1 n2 : Nat} (j : (⟨3, ![n0, n1, n2]⟩ : Shape).Idx) : (j 2).val < n2 := (j 2).isLt

/-- The dimension numbers of that gather for an operand `[N, D]`, start indices `[R, C, 1]` and a result `[R, C, D]`. -/
abbrev rows3Dims (N R C D : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- Where result index `(r, c, d)` reads its row number: `[r, c, 0]`. -/
abbrev rows3Idx {R C D : Nat} (y : (⟨3, ![R, C, D]⟩ : Shape).Idx) : (⟨3, ![R, C, 1]⟩ : Shape).Idx :=
  fun a => match a with
    | ⟨0, _⟩ => ⟨(y 0).val, idx3_lt0 y⟩
    | ⟨1, _⟩ => ⟨(y 1).val, idx3_lt1 y⟩
    | ⟨2, _⟩ => ⟨0, Nat.one_pos⟩

/-- THE GATHER READ AT `(r, c, d)`: the operand at the row `idx[r, c, 0]`, read signed and clamped into `[0, N − 1]`,
    and column `d`. -/
theorem gather_rows3_apply {N R C D w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (rows3Dims N R C D wf) x idx y
      = x (ix2 (⟨min (idx (rows3Idx y)).toInt.toNat (N - 1), by omega⟩ : Fin N) (⟨(y 2).val, idx3_lt2 y⟩ : Fin D)) := by
  unfold Host.gather
  congr 1
  funext a
  refine Fin.ext ?_
  show (rows3Dims N R C D wf).start y idx a + (rows3Dims N R C D wf).batchCoord y a + (rows3Dims N R C D wf).offCoord y a = _
  rw [GatherDims.batchCoord_eq_zero _ _ _ List.not_mem_nil, Nat.add_zero]
  -- the row axis: collapsed (no offset), its start the clamped row number
  have row : (rows3Dims N R C D wf).start y idx (0 : Fin 2) + (rows3Dims N R C D wf).offCoord y (0 : Fin 2)
      = min (idx (rows3Idx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rows3Dims N R C D wf).startIndexMap from List.mem_singleton.mpr rfl)]
    have hsi : (rows3Dims N R C D wf).siIdx y ⟨List.idxOf (0 : Fin 2) (rows3Dims N R C D wf).startIndexMap,
        List.idxOf_lt_length_iff.2 (List.mem_singleton.mpr rfl)⟩ = rows3Idx y := by
      funext b; refine Fin.ext ?_
      match b with
      | ⟨0, _⟩ => rfl
      | ⟨1, _⟩ => rfl
      | ⟨2, _⟩ => rfl
    rw [hsi]
    rfl
  -- the column axis: not in the start index map (start 0), the result's offset axis
  have col : (rows3Dims N R C D wf).start y idx (1 : Fin 2) + (rows3Dims N R C D wf).offCoord y (1 : Fin 2) = (y 2).val := by
    have h1 : (1 : Fin 2) ∉ ([0] : List (Fin 2)) := by decide
    have hk : (1 : Fin 2) ∈ (rows3Dims N R C D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows3
-- ==== Proof.RefRead.lean ====
/-
  The reference's value read at an index, stage by stage.

  Under the range hypothesis on the tokens the wrap of negative indices changes nothing and the mask of the lookup is
  all ones, so a looked-up entry is the table's entry at the token's row. The transposition and the split of the
  sequence axis only move that entry: window `t`, step `k` of batch entry `b` is sequence position `5 t + k`. At the
  extended reals the mean over a window is the sum of its five entries (from zero) divided by five, and the product
  with the transposed weights at `(b, t)` is the sum over the hundred columns of the mean times the weight, to which
  the bias is added.
-/
import proofs.«207257_g22479858827769_cont_8to1_397_21_alg».proof.Proof.RefRun
import proofs.«207257_g22479858827769_cont_8to1_397_21_alg».proof.Proof.PoolSpec
import proofs.«207257_g22479858827769_cont_8to1_397_21_alg».proof.Proof.LibGatherRows3
import Idealize.ShloMosaic.Lib.Pipeline.Value
import Idealize.ShloMosaic.Lib.ValueIdx
import Idealize.ShloMosaic.Lib.Affine
import Idealize.ShloMosaic.PureOps.Ideal.Laws
import Idealize.ShloMosaic.PureOps.Reduce

noncomputable section

namespace Cert.Proof.RefSide

open Cert.ReferenceIdeal Cert.ReferenceIdeal.Gen Idealize.ShloMosaic Idealize.ShloMosaic.ValueIdx
  Cert.Proof.PoolSpec Cert.Lib.GatherRows3
open scoped BigOperators

/-! ## Words -/

/-- A 32-bit word below 25000 read unsigned is the same number read signed. -/
theorem toInt_of_lt (v : BitVec 32) (h : v.toNat < 25000) : v.toInt = (v.toNat : Int) := by
  rw [BitVec.toInt_eq_toNat_cond, if_pos (by omega)]

/-- A left fold by `and` from one over words that are all one is one. -/
theorem foldl_andi_one {ι : Type} (f : ι → BitVec 1) :
    ∀ l : List ι, (∀ n ∈ l, f n = 1#1) → l.foldl (fun r n => IntOp.andi r (f n)) 1#1 = 1#1
  | [], _ => rfl
  | a :: l, hf => by
    rw [List.foldl_cons, hf a (List.mem_cons_self ..)]
    have h11 : IntOp.andi 1#1 1#1 = (1#1 : BitVec 1) := by decide
    rw [h11]
    exact foldl_andi_one f l fun n hn => hf n (List.mem_cons_of_mem _ hn)

/-! ## The lookup -/

variable {F : FTy → Type} [FloatOps F]

/-- In range, no index is negative: the wrap is the identity. -/
theorem wrapped_eq {text : IVec S200x4096 32} (hr : InRange text) : wrapped text = text := by
  funext i
  have hi : (text i).toNat < 25000 := hr i
  have hneg : ¬ IntOp.cmpi .slt (text i) 0#32 = 1#1 := by
    rw [IntOp.cmpi_slt, toInt_of_lt _ hi]
    simp
  show Scalar.select (IntOp.cmpi .slt (text i) 0#32) _ (text i) = text i
  rw [eq_zero_of_ne_one hneg, select_zero]

/-- The index column at `(s, b, 0)` is the wrapped index at `(s, b)`. -/
theorem idxCol_ix3 (text : IVec S200x4096 32) (s : Fin 200) (b : Fin 4096) (z : Fin 1) :
    idxCol text (ix3 s b z) = wrapped text (ix2 s b) := by
  unfold idxCol
  exact broadcastInDim_apply _ _ _ (ix3 s b z) (ix2 s b) fun a => by
    match a with
    | ⟨0, _⟩ => rfl
    | ⟨1, _⟩ => rfl

/-- In range, the mask of the lookup is one everywhere. -/
theorem inTable_eq_one {text : IVec S200x4096 32} (hr : InRange text) (p : S200x4096.Idx) : inTable text p = 1#1 := by
  unfold inTable
  rw [Host.reduce_eq_foldl]
  refine foldl_andi_one _ _ fun q _ => ?_
  obtain ⟨s, b, z, rfl⟩ : ∃ s b z, q = ix3 s b z := ⟨q 0, q 1, q 2, eq_ix3 q⟩
  show IntOp.andi (IntOp.cmpi .sge (idxCol text (ix3 s b z)) 0#32) (IntOp.cmpi .sle (idxCol text (ix3 s b z)) 24999#32) = 1#1
  rw [idxCol_ix3, wrapped_eq hr]
  have hi : (text (ix2 s b)).toNat < 25000 := hr _
  refine IntOp.andi_eq_one.2 ⟨?_, ?_⟩
  · rw [IntOp.cmpi_sge, toInt_of_lt _ hi]; simp
  · rw [IntOp.cmpi_sle, toInt_of_lt _ hi]; simp; omega

/-- In range, the looked-up entry at `(s, b, d)` is the table's entry at the token's row and column `d`. -/
theorem taken_ix3 {text : IVec S200x4096 32} (hr : InRange text) (emb : FVec F S25000x100 .f32)
    (s : Fin 200) (b : Fin 4096) (d : Fin 100) :
    taken text emb (ix3 s b d) = emb (ix2 (rowOf text s b) d) := by
  unfold taken
  rw [select_apply]
  have hm : broadcastInDim S200x4096x100 ![0, 1] bcast_S200x4096_S200x4096x100_0_1 (inTable text) (ix3 s b d) = 1#1 := by
    rw [broadcastInDim_apply _ _ _ (ix3 s b d) (ix2 s b) fun a => by
      match a with
      | ⟨0, _⟩ => rfl
      | ⟨1, _⟩ => rfl]
    exact inTable_eq_one hr _
  rw [hm, select_one]
  show Host.gather (rows3Dims 25000 200 4096 100 gather_S25000x100_S200x4096x1_S200x4096x100_2_0_n_n_0_2_1100_wf) emb
      (idxCol text) (ix3 s b d) = _
  rw [gather_rows3_apply (by norm_num)]
  refine congrArg emb (funext fun a => ?_)
  match a with
  | ⟨0, _⟩ =>
    refine Fin.ext ?_
    have hidx : rows3Idx (ix3 s b d) = ix3 s b (0 : Fin 1) := funext fun c => by
      match c with
      | ⟨0, _⟩ => rfl
      | ⟨1, _⟩ => rfl
      | ⟨2, _⟩ => rfl
    show min (idxCol text (rows3Idx (ix3 s b d))).toInt.toNat (25000 - 1) = (rowOf text s b).val
    rw [hidx, idxCol_ix3, wrapped_eq hr, rowOf_val_of_inRange hr, toInt_of_lt _ (hr _)]
    have hi : (text (ix2 s b)).toNat < 25000 := hr _
    simp only [Int.toNat_natCast]
    omega
  | ⟨1, _⟩ => rfl

/-! ## The windows -/

/-- Window `t`, step `k` of batch entry `b` is the looked-up row at sequence position `5 t + k`. -/
theorem windows_ix4 (text : IVec S200x4096 32) (emb : FVec F S25000x100 .f32)
    (b : Fin 4096) (t : Fin 40) (k : Fin 5) (d : Fin 100) :
    windows text emb (ix4 b t k d) = taken text emb (ix3 (stepOf t k) b d) := by
  unfold windows
  have hk : (S4096x200x100.rowMajor (ix3 b (stepOf t k) d)).val = (S4096x40x5x100.rowMajor (ix4 b t k d)).val := by
    rw [Shape.rowMajor_val_three, Shape.rowMajor_val_four]
    show ((b.val * 200 + (5 * t.val + k.val)) * 100 + d.val) = (((b.val * 40 + t.val) * 5 + k.val) * 100 + d.val)
    omega
  rw [shapeCast_apply _ _ (ix4 b t k d) (ix3 b (stepOf t k) d) hk]
  exact transpose_apply _ _ _ (ix3 b (stepOf t k) d) (ix3 (stepOf t k) b d) fun a => by
    match a with
    | ⟨0, _⟩ => rfl
    | ⟨1, _⟩ => rfl
    | ⟨2, _⟩ => rfl

end Cert.Proof.RefSide

end
-- ==== Proof.RefMean.lean ====
/-
  The reference's last two stages at the extended reals, read at an index.

  The mean of window `t` of batch entry `b` at column `d` is the sum of the window's five entries, from zero, divided
  by five; the result at `(b, t)` is the sum over the hundred columns of that mean times the weight of the column,
  plus the bias.
-/
import proofs.«207257_g22479858827769_cont_8to1_397_21_alg».proof.Proof.RefRead

noncomputable section

namespace Cert.Proof.RefSide

open Cert.ReferenceIdeal Cert.ReferenceIdeal.Gen Idealize.ShloMosaic Idealize.ShloMosaic.ValueIdx
  Cert.Proof.PoolSpec
open scoped BigOperators

/-- The bit pattern of five denotes the real number five. -/
theorem ofBits_five : Ideal.ofBits .f32 0x40A00000#32 = ((5 : ℝ) : EReal) := by
  simp [Ideal.ofBits, Ideal.ieee, -EReal.coe_mul]
  norm_num

/-- The mean at `(b, t, d)`: the five entries of the window summed from zero, divided by five. -/
theorem meanRows_ix3 (text : IVec S200x4096 32) (emb : FVec Ideal S25000x100 .f32)
    (b : Fin 4096) (t : Fin 40) (d : Fin 100) :
    meanRows text emb (ix3 b t d)
      = Ideal.div (0 + ∑ k : Fin 5, windows text emb (ix4 b t k d)) ((5 : ℝ) : EReal) := by
  unfold meanRows
  show Ideal.div
      (Ideal.hostReduceAdd reducesTo_S4096x40x5x100_S4096x40x100_d2 (windows text emb) (Ideal.ofBits .f32 0x00000000#32) (ix3 b t d))
      (Ideal.ofBits .f32 0x40A00000#32) = _
  rw [ofBits_five, Ideal.ofBits_zero_f32,
    Ideal.hostReduceAdd_single _ (by decide : S4096x40x5x100.Reduces [2] S4096x40x100)]
  congr 2

/-- The product of a `[4096, 40, 100]` array with a `[100, 1]` array over the hundred columns, read at `(b, t, z)`:
    the sum over the column of the left entry `(b, t, d)` times the right entry `(d, z)`. -/
theorem dot_ix3 (l : FVec Ideal S4096x40x100 .f32) (r : FVec Ideal S100x1 .f32) (b : Fin 4096) (t : Fin 40) (z : Fin 1) :
    Host.dotGeneral dot_S4096x40x100_S100x1_S4096x40x1_2_0_01_1_n_n none l r (ix3 b t z)
      = ∑ d : Fin 100, l (ix3 b t d) * r (ix2 d z) := by
  simp only [Host.dotGeneral]
  rw [Ideal.dotGeneral_apply]
  have l0 : ∀ c, ((dot_S4096x40x100_S100x1_S4096x40x1_2_0_01_1_n_n.lhsIdx (ix3 b t z) c) 0).val = b.val := fun c => by
    unfold DotDims.lhsIdx
    rw [dif_neg (show ¬(0 : Fin S4096x40x100.rank) ∈ dot_S4096x40x100_S100x1_S4096x40x1_2_0_01_1_n_n.lhsBatch by decide),
      dif_pos (show (0 : Fin S4096x40x100.rank) ∈ dot_S4096x40x100_S100x1_S4096x40x1_2_0_01_1_n_n.lhsNonContracting by decide)]
    rfl
  have l1 : ∀ c, ((dot_S4096x40x100_S100x1_S4096x40x1_2_0_01_1_n_n.lhsIdx (ix3 b t z) c) 1).val = t.val := fun c => by
    unfold DotDims.lhsIdx
    rw [dif_neg (show ¬(1 : Fin S4096x40x100.rank) ∈ dot_S4096x40x100_S100x1_S4096x40x1_2_0_01_1_n_n.lhsBatch by decide),
      dif_pos (show (1 : Fin S4096x40x100.rank) ∈ dot_S4096x40x100_S100x1_S4096x40x1_2_0_01_1_n_n.lhsNonContracting by decide)]
    rfl
  have l2 : ∀ c, ((dot_S4096x40x100_S100x1_S4096x40x1_2_0_01_1_n_n.lhsIdx (ix3 b t z) c) 2).val = (c ⟨0, by decide⟩).val :=
    fun c => dot_S4096x40x100_S100x1_S4096x40x1_2_0_01_1_n_n.lhsIdx_val_of_single rfl (ix3 b t z) c
  have r0 : ∀ c, ((dot_S4096x40x100_S100x1_S4096x40x1_2_0_01_1_n_n.rhsIdx (ix3 b t z) c) 0).val = (c ⟨0, by decide⟩).val :=
    fun c => dot_S4096x40x100_S100x1_S4096x40x1_2_0_01_1_n_n.rhsIdx_val_of_single rfl (ix3 b t z) c
  have r1 : ∀ c, ((dot_S4096x40x100_S100x1_S4096x40x1_2_0_01_1_n_n.rhsIdx (ix3 b t z) c) 1).val = z.val := fun c => by
    unfold DotDims.rhsIdx
    rw [dif_neg (show ¬(1 : Fin S100x1.rank) ∈ dot_S4096x40x100_S100x1_S4096x40x1_2_0_01_1_n_n.rhsBatch by decide),
      dif_pos (show (1 : Fin S100x1.rank) ∈ dot_S4096x40x100_S100x1_S4096x40x1_2_0_01_1_n_n.rhsNonContracting by decide)]
    rfl
  rw [← Equiv.sum_comp (contrEquiv1 dot_S4096x40x100_S100x1_S4096x40x1_2_0_01_1_n_n 100 rfl rfl).symm]
  refine Finset.sum_congr rfl fun k _ => ?_
  have hk := contrEquiv1_symm_val dot_S4096x40x100_S100x1_S4096x40x1_2_0_01_1_n_n 100 rfl rfl k
  have el : dot_S4096x40x100_S100x1_S4096x40x1_2_0_01_1_n_n.lhsIdx (ix3 b t z)
      ((contrEquiv1 dot_S4096x40x100_S100x1_S4096x40x1_2_0_01_1_n_n 100 rfl rfl).symm k) = ix3 b t k :=
    funext fun a => Fin.ext (by
      match a with
      | ⟨0, _⟩ => exact l0 _
      | ⟨1, _⟩ => exact l1 _
      | ⟨2, _⟩ => exact (l2 _).trans hk)
  have er : dot_S4096x40x100_S100x1_S4096x40x1_2_0_01_1_n_n.rhsIdx (ix3 b t z)
      ((contrEquiv1 dot_S4096x40x100_S100x1_S4096x40x1_2_0_01_1_n_n 100 rfl rfl).symm k) = ix2 k z :=
    funext fun a => Fin.ext (by
      match a with
      | ⟨0, _⟩ => exact (r0 _).trans hk
      | ⟨1, _⟩ => exact r1 _)
  rw [el, er]

/-- The reference's result at `(b, t, 0)`: the sum over the columns of the window mean times the weight, plus the
    bias. -/
theorem refVal_ix3 (text : IVec S200x4096 32) (emb : FVec Ideal S25000x100 .f32) (w : FVec Ideal S1x100 .f32)
    (bias : FVec Ideal S1 .f32) (b : Fin 4096) (t : Fin 40) (z : Fin 1) :
    refVal text emb w bias (ix3 b t z)
      = (∑ d : Fin 100, meanRows text emb (ix3 b t d) * w (ix2 0 d)) + bias (ix1 0) := by
  obtain rfl : z = 0 := Subsingleton.elim _ _
  unfold refVal
  rw [addf_apply, dot_ix3]
  congr 1
  · refine Finset.sum_congr rfl fun d _ => congrArg _ ?_
    exact transpose_apply _ _ _ (ix2 d 0) (ix2 0 d) fun a => by
      match a with
      | ⟨0, _⟩ => rfl
      | ⟨1, _⟩ => rfl
  · rw [broadcastInDim_apply _ _ _ (ix3 b t 0) (ix3 0 0 0) fun a => by
      match a with
      | ⟨0, _⟩ => rfl
      | ⟨1, _⟩ => rfl
      | ⟨2, _⟩ => rfl]
    exact broadcastInDim_apply _ _ _ (ix3 0 0 0) (ix1 0) fun a => by
      match a with
      | ⟨0, _⟩ => rfl

end Cert.Proof.RefSide

end
-- ==== Proof.PoolAlgebra.lean ====
/-
  The reference's value is the pooled score.

  With every table entry, weight and the bias a real number, both sides are coercions of real expressions: the
  reference's is the sum over the columns of the window's mean times the weight, plus the bias; the pooled score is
  the sum of five scores, each the weights' inner product with one row times one fifth, plus the bias times one
  fifth. They are equal because a real factor distributes over a finite sum of reals and the five fifths of the bias
  add up to the bias.
-/
import proofs.«207257_g22479858827769_cont_8to1_397_21_alg».proof.Proof.RefMean

noncomputable section

namespace Cert.Proof.RefSide

open Cert.ReferenceIdeal Cert.ReferenceIdeal.Gen Idealize.ShloMosaic Idealize.ShloMosaic.ValueIdx
  Cert.Proof.PoolSpec
open scoped BigOperators

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: the mean of five rows against the weights, plus the bias, is the sum of the five
    rows' scores. -/
theorem pool_real (E : Fin 5 → Fin 100 → ℝ) (W : Fin 100 → ℝ) (B : ℝ) :
    ∑ d, (∑ k, E k d) * (1 / 5) * W d + B
      = (∑ d, W d * E 0 d) * (1 / 5) + B * (1 / 5) + ((∑ d, W d * E 1 d) * (1 / 5) + B * (1 / 5))
        + ((∑ d, W d * E 2 d) * (1 / 5) + B * (1 / 5)) + ((∑ d, W d * E 3 d) * (1 / 5) + B * (1 / 5))
        + ((∑ d, W d * E 4 d) * (1 / 5) + B * (1 / 5)) := by
  have key : ∑ d, (∑ k, E k d) * (1 / 5) * W d
      = ((∑ d, W d * E 0 d) + (∑ d, W d * E 1 d) + (∑ d, W d * E 2 d) + (∑ d, W d * E 3 d) + (∑ d, W d * E 4 d)) * (1 / 5) := by
    rw [← Finset.sum_add_distrib, ← Finset.sum_add_distrib, ← Finset.sum_add_distrib, ← Finset.sum_add_distrib,
      Finset.sum_mul]
    refine Finset.sum_congr rfl fun d _ => ?_
    rw [Fin.sum_univ_five]
    ring
  rw [key]
  ring

/-- THE REFERENCE'S VALUE IS THE POOLED SCORE, for tokens in range and real table entries, weights and bias. -/
theorem refVal_eq_pooled (text : IVec SText 32) (emb : SEmb.Idx → EReal) (w : SW.Idx → EReal) (bias : SB.Idx → EReal)
    (hr : InRange text) (he : AllReal emb) (hw : AllReal w) (hb : AllReal bias) :
    refVal (F := Ideal) text emb w bias = pooled text emb w bias := by
  funext j
  obtain ⟨b, t, z, rfl⟩ : ∃ b t z, j = ix3 b t z := ⟨j 0, j 1, j 2, eq_ix3 j⟩
  rw [refVal_ix3]
  show _ = pooledAt text emb w bias b t
  simp only [meanRows_ix3, windows_ix4, taken_ix3 hr]
  choose E hE using he
  choose W hW using hw
  choose B hB using hb
  unfold pooledAt scoreAt
  simp only [hE, hW, hB, zero_add, Ideal.div_coe (by norm_num : (5 : ℝ) ≠ 0)]
  have H := congrArg (fun x : ℝ => (x : EReal))
    (pool_real (fun k d => E (ix2 (rowOf text (stepOf t k) b) d)) (fun d => W (ix2 0 d)) (B (ix1 0)))
  simp only [EReal.coe_add, EReal.coe_mul, coe_sum] at H
  exact H

end Cert.Proof.RefSide

end
-- ==== Proof.PreFacts.lean ====
/-
  From the precondition to the facts the proof uses.

  The precondition is the conjunction of four reductions by `and` over whole arrays: every table entry, every weight
  and the bias have absolute value below plus infinity, and every token is at least zero and at most 24999 as a
  signed word. A conjunction that is one has both conjuncts one; a reduction by `and` over a whole array that is one
  has every element one. So every token, read unsigned, is below 25000; and, at the extended reals, every table entry,
  weight and bias is a real number, since the absolute value of either infinity is plus infinity.
-/
import proofs.«207257_g22479858827769_cont_8to1_397_21_alg».proof.Pre_input_domain
import proofs.«207257_g22479858827769_cont_8to1_397_21_alg».proof.Proof.PoolSpec
import Idealize.ShloMosaic.Lib.ReduceAll
import Idealize.ShloMosaic.PureOps.Ideal.Laws

noncomputable section

namespace Cert.Proof.PreFacts

open Idealize.ShloMosaic Cert.Proof.PoolSpec

/-- The rank-zero shape has one index. -/
instance : Subsingleton Cert.Pre_input_domain.S_.Idx := ⟨fun a b => funext fun d => d.elim0⟩

/-- A 32-bit word that is at least zero and at most 24999 as a signed integer is below 25000 read unsigned. -/
theorem word_in_range (v : BitVec 32)
    (e : IntOp.andi (IntOp.cmpi .sge v 0#32) (IntOp.cmpi .sle v 24999#32) = 1#1) : v.toNat < 25000 := by
  obtain ⟨h0, h1⟩ := IntOp.andi_eq_one.1 e
  rw [IntOp.cmpi_sge] at h0
  rw [IntOp.cmpi_sle] at h1
  simp only [BitVec.toInt_eq_toNat_cond, BitVec.toNat_ofNat, Nat.reducePow, Nat.reduceMod] at h0 h1
  omega

/-- The bit pattern of plus infinity denotes plus infinity. -/
theorem ofBits_inf : Ideal.ofBits .f32 0x7F800000#32 = ⊤ := by
  simp [Ideal.ofBits, Ideal.ieee]

/-- An extended real whose absolute value is below plus infinity is a real number. -/
theorem real_of_abs_lt_inf (x : EReal)
    (e : Ideal.cmp .olt (max x (-x)) (Ideal.ofBits .f32 0x7F800000#32) = 1#1) : ∃ r : ℝ, x = (r : EReal) := by
  rw [ofBits_inf] at e
  have hlt : max x (-x) < ⊤ := by
    by_contra hn
    simp [Ideal.cmp, hn] at e
  induction x using EReal.rec with
  | bot => simp at hlt
  | top => simp at hlt
  | coe r => exact ⟨r, rfl⟩

variable [Cert.Pre_input_domain.Facts]

/-- Under the precondition every token names a row of the table. Only the integer conjunct is read, so the statement
    holds at every float instance. -/
theorem inRange_of_pre {F : FTy → Type} [FloatOps F] (text : IVec SText 32) (emb : FVec F SEmb .f32)
    (w : FVec F SW .f32) (bias : FVec F SB .f32)
    (h : Cert.Pre_input_domain.fn (F := F) text emb w bias = (fun _ => 1#1)) : InRange text := by
  intro i
  have e := congrFun h (fun d => d.elim0)
  simp only [Cert.Pre_input_domain.fn, Cert.Pre_input_domain.fn_part1] at e
  have e19 := (IntOp.andi_eq_one.1 e).2
  have ei := Host.reduce_andi_all _ _ _ _ _ e19 i
  exact word_in_range _ ei

/-- Under the precondition, at the extended reals, every table entry, every weight and the bias is a real number. -/
theorem allReal_of_pre (text : IVec SText 32) (emb : FVec Ideal SEmb .f32) (w : FVec Ideal SW .f32)
    (bias : FVec Ideal SB .f32)
    (h : Cert.Pre_input_domain.fn (F := Ideal) text emb w bias = (fun _ => 1#1)) :
    AllReal emb ∧ AllReal w ∧ AllReal bias := by
  have e := congrFun h (fun d => d.elim0)
  simp only [Cert.Pre_input_domain.fn, Cert.Pre_input_domain.fn_part1] at e
  have e13 := (IntOp.andi_eq_one.1 e).1
  obtain ⟨e8, e12⟩ := IntOp.andi_eq_one.1 e13
  obtain ⟨e3, e7⟩ := IntOp.andi_eq_one.1 e8
  refine ⟨fun i => ?_, fun i => ?_, fun i => ?_⟩
  · exact real_of_abs_lt_inf _ (Host.reduce_andi_all _ _ _ _ _ e3 i)
  · exact real_of_abs_lt_inf _ (Host.reduce_andi_all _ _ _ _ _ e7 i)
  · exact real_of_abs_lt_inf _ (Host.reduce_andi_all _ _ _ _ _ e12 i)

end Cert.Proof.PreFacts

end
-- ==== Proof.RefPooled.lean ====
/-
  The reference's run, ending at the pooled score.

  Under the precondition every token is in range and every table entry, weight and the bias is a real number, so the
  value the reference ends with is the pooled score of its four arguments, which it leaves unchanged.
-/
import proofs.«207257_g22479858827769_cont_8to1_397_21_alg».proof.Proof.PoolAlgebra
import proofs.«207257_g22479858827769_cont_8to1_397_21_alg».proof.Proof.PreFacts

noncomputable section

namespace Cert.Proof.RefSide

open Idealize.ShloMosaic Idealize.SL.Sem Cert.Proof.PoolSpec

/-- From any memory whose argument arrays satisfy the precondition on every device, with zero counters: every weakly
    fair execution of the reference terminates with the result buffer at the pooled score of the arguments' launch
    contents and the four arguments unchanged. -/
theorem run_pooled [Cert.Pre_input_domain.Facts]
    (m : (ℓ : Loc Cert.ReferenceIdeal.nD Cert.ReferenceIdeal.τ Cert.ReferenceIdeal.sig) → Buf (Elt Ideal) ℓ)
    (ρ : Dev Cert.ReferenceIdeal.nD → PrngReg)
    (hpre : ∀ c : Dev Cert.ReferenceIdeal.nD,
      Cert.Pre_input_domain.fn (F := Ideal)
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)) = (fun _ => 1#1)) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v10)
            = pooled (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => by
      obtain ⟨hv, h0, h1, h2, h3⟩ := h c
      have hR := Cert.Proof.PreFacts.allReal_of_pre _ _ _ _ (hpre c)
      exact ⟨hv.trans (refVal_eq_pooled _ _ _ _ (Cert.Proof.PreFacts.inRange_of_pre _ _ _ _ (hpre c)) hR.1 hR.2.1 hR.2.2),
        h0, h1, h2, h3⟩)
    (run (F := Ideal) m ρ)

end Cert.Proof.RefSide

end
-- ==== Proof.TailRead.lean ====
/-
  The three layout operations after the tiles, read at an index.

  A `[40, 32, 128]` array (window, tile, lane) is reshaped to `[40, 4096]` — tile `q`, lane `l` becomes column
  `128 q + l` —, transposed to `[4096, 40]`, and given a trailing unit axis. So entry `(b, t, 0)` of the result is
  entry `(t, b / 128, b % 128)` of the array: batch entry `b` is lane `b % 128` of tile `b / 128`.
-/
import Idealize.ShloMosaic.PureOps
import Idealize.ShloMosaic.Lib.ValueIdx
import Idealize.ShloMosaic.Lib.Pipeline.Value

namespace Cert.Proof.TailRead

open Idealize.ShloMosaic Idealize.ShloMosaic.ValueIdx

/-- The composition of the reshape to `[40, 4096]`, the transposition and the reshape to `[4096, 40, 1]`, read at
    `(b, t, z)`: the operand at window `t`, tile `b / 128`, lane `b % 128`. -/
theorem tail_ix3 {α : Type} (f : (⟨3, ![40, 32, 128]⟩ : Shape).Idx → α)
    (h1 : (⟨3, ![40, 32, 128]⟩ : Shape).ShapeCasts ⟨2, ![40, 4096]⟩)
    (h2 : (⟨2, ![40, 4096]⟩ : Shape).Transposes [1, 0] ⟨2, ![4096, 40]⟩)
    (h3 : (⟨2, ![4096, 40]⟩ : Shape).ShapeCasts ⟨3, ![4096, 40, 1]⟩)
    (b : Fin 4096) (t : Fin 40) (z : Fin 1) :
    shapeCast ⟨3, ![4096, 40, 1]⟩
        (transpose ⟨2, ![4096, 40]⟩ [1, 0] (fun j => shapeCast ⟨2, ![40, 4096]⟩ f h1 j) h2) h3 (ix3 b t z)
      = f (ix3 t (⟨b.val / 128, by omega⟩ : Fin 32) (⟨b.val % 128, by omega⟩ : Fin 128)) := by
  have hz : z.val = 0 := by omega
  have hk3 : ((⟨2, ![4096, 40]⟩ : Shape).rowMajor (ix2 b t)).val
      = ((⟨3, ![4096, 40, 1]⟩ : Shape).rowMajor (ix3 b t z)).val := by
    rw [Shape.rowMajor_val_two, Shape.rowMajor_val_three]
    show b.val * 40 + t.val = (b.val * 40 + t.val) * 1 + z.val
    omega
  rw [shapeCast_apply _ h3 (ix3 b t z) (ix2 b t) hk3]
  rw [transpose_apply [1, 0] _ h2 (ix2 b t) (ix2 t b) fun a => by
    match a with
    | ⟨0, _⟩ => rfl
    | ⟨1, _⟩ => rfl]
  have hk1 : ((⟨3, ![40, 32, 128]⟩ : Shape).rowMajor
        (ix3 t (⟨b.val / 128, by omega⟩ : Fin 32) (⟨b.val % 128, by omega⟩ : Fin 128))).val
      = ((⟨2, ![40, 4096]⟩ : Shape).rowMajor (ix2 t b)).val := by
    rw [Shape.rowMajor_val_two, Shape.rowMajor_val_three]
    show (t.val * 32 + b.val / 128) * 128 + b.val % 128 = t.val * 4096 + b.val
    omega
  exact shapeCast_apply f h1 (ix2 t b) _ hk1

end Cert.Proof.TailRead
-- ==== Proof.TailI.lean ====
/-
  The result array the kernel leaves, read at an index: batch entry `b`, window `t` is lane `b % 128` of tile `b / 128`
  at window `t` of the array the tiles wrote.
-/
import proofs.«207257_g22479858827769_cont_8to1_397_21_alg».proof.Proof.MainI
import proofs.«207257_g22479858827769_cont_8to1_397_21_alg».proof.Proof.TailRead

noncomputable section

namespace Cert.Proof.KI

open Cert.KernelIdeal Cert.KernelIdeal.Gen Idealize.ShloMosaic Idealize.ShloMosaic.ValueIdx

variable {F : FTy → Type} [FloatOps F] [Named F]

/-- The composed tail at `(b, t, 0)` is the tiles' array at `(t, b / 128, b % 128)`. -/
theorem tailOf_ix3 (d : Dev nD) (f : Buf (Elt F) (outLoc d)) (b : Fin 4096) (t : Fin 40) :
    tailOf d f (ix3 b t 0) = f (ix3 t (⟨b.val / 128, by omega⟩ : Fin 32) (⟨b.val % 128, by omega⟩ : Fin 128)) := by
  unfold tailOf
  exact Cert.Proof.TailRead.tail_ix3 f _ _ _ b t 0

end Cert.Proof.KI

end
-- ==== Proof.TileIdeal.lean ====
/-
  One tile's sum is the pooled score, at the extended reals.

  Tile `wd` holds lanes `128 wd` to `128 wd + 127` of the tokens: its block entry `(r, l)` is token `(r, 128 wd + l)`.
  A token in range is below 25000, so it is its own residue modulo the score vector's extent 25600 and modulo the
  table's extent 25000: the position the tile reads is the row the token names. When the score vector holds, at every
  row of the table, that row's score, the five reads are the five scores, and the float addition of the extended reals
  is their addition, in the same left-to-right order.
-/
import proofs.«207257_g22479858827769_cont_8to1_397_21_alg».proof.Proof.TileSpec
import proofs.«207257_g22479858827769_cont_8to1_397_21_alg».proof.Proof.PoolSpec
import Idealize.ShloMosaic.PureOps.Ideal

noncomputable section

namespace Cert.Proof.TileIdeal

open Idealize.ShloMosaic Idealize.ShloMosaic.ValueIdx Cert.Proof.TileSpec Cert.Proof.PoolSpec

/-- One read of the score vector by the tile is the score of the row the token names. -/
theorem Sv_posOf (text : IVec SText 32) (emb : SEmb.Idx → EReal) (w : SW.Idx → EReal) (bias : SB.Idx → EReal)
    (Sv : SScore.Idx → EReal) (wd : Fin 32) (T : STok.Idx → BitVec 32) (hr : InRange text)
    (hS : ∀ v : Fin 25000, Sv (ix1 ⟨v.val, by omega⟩) = scoreAt emb w bias v)
    (hT : ∀ (r : Fin 200) (l : Fin 128), T (ix2 r l) = text (ix2 r ⟨128 * wd.val + l.val, by omega⟩))
    (t : Fin 40) (k : Fin 5) (l : Fin 128) :
    Sv (posOf T (rowOfStep t k) l)
      = scoreAt emb w bias (rowOf text (stepOf t k) ⟨128 * wd.val + l.val, by omega⟩) := by
  have hlt : (text (ix2 (stepOf t k) (⟨128 * wd.val + l.val, by omega⟩ : Fin 4096))).toNat < 25000 := hr _
  rw [← hS (rowOf text (stepOf t k) ⟨128 * wd.val + l.val, by omega⟩)]
  refine congrArg Sv (congrArg (ix1 (n := 25600)) (Fin.ext ?_))
  show (T (ix2 (stepOf t k) l)).toNat % 25600 = (rowOf text (stepOf t k) ⟨128 * wd.val + l.val, by omega⟩).val
  rw [hT, rowOf_val_of_inRange hr]
  exact Nat.mod_eq_of_lt (by omega)

/-- THE TILE'S ENTRY `(t, l)` IS THE POOLED SCORE of batch entry `128 wd + l`, window `t`. -/
theorem pool5_eq_pooledAt (text : IVec SText 32) (emb : SEmb.Idx → EReal) (w : SW.Idx → EReal) (bias : SB.Idx → EReal)
    (Sv : SScore.Idx → EReal) (wd : Fin 32) (T : STok.Idx → BitVec 32) (hr : InRange text)
    (hS : ∀ v : Fin 25000, Sv (ix1 ⟨v.val, by omega⟩) = scoreAt emb w bias v)
    (hT : ∀ (r : Fin 200) (l : Fin 128), T (ix2 r l) = text (ix2 r ⟨128 * wd.val + l.val, by omega⟩))
    (t : Fin 40) (l : Fin 128) :
    pool5 (F := Ideal) Sv T t l = pooledAt text emb w bias ⟨128 * wd.val + l.val, by omega⟩ t := by
  unfold pool5 pooledAt
  rw [Sv_posOf text emb w bias Sv wd T hr hS hT t 0 l, Sv_posOf text emb w bias Sv wd T hr hS hT t 1 l,
    Sv_posOf text emb w bias Sv wd T hr hS hT t 2 l, Sv_posOf text emb w bias Sv wd T hr hS hT t 3 l,
    Sv_posOf text emb w bias Sv wd T hr hS hT t 4 l]
  rfl

end Cert.Proof.TileIdeal

end
-- ==== Proof.FinalIdeal.lean ====
/-
  What the tiles' array must hold for the kernel's result to be the pooled score.

  Tile `wd`'s slab of the `[40, 32, 128]` array is the entries `(t, wd, l)`. The slab is right when entry `(t, wd, l)`
  is the pooled score of batch entry `128 wd + l`, window `t`; that is a property of the slab's entries alone. When all
  thirty-two slabs are right, the array laid out by the three layout operations is the pooled result: entry `(b, t, 0)`
  reads lane `b % 128` of tile `b / 128`, and `128 (b / 128) + b % 128 = b`.
-/
import proofs.«207257_g22479858827769_cont_8to1_397_21_alg».proof.Proof.TailI
import proofs.«207257_g22479858827769_cont_8to1_397_21_alg».proof.Proof.TileIdeal
import proofs.«207257_g22479858827769_cont_8to1_397_21_alg».proof.Proof.PoolSpec

noncomputable section

namespace Cert.Proof.KI

open Cert.KernelIdeal Cert.KernelIdeal.Gen Idealize.ShloMosaic Idealize.ShloMosaic.ValueIdx Cert.Proof.PoolSpec

/-- Tile `wd`'s slab of the array holds the pooled scores of its 128 batch entries. -/
def SlabOK (text : IVec SText 32) (emb : SEmb.Idx → EReal) (w : SW.Idx → EReal) (bias : SB.Idx → EReal) (d : Dev nD)
    (wd : Fin 32) (f : Buf (Elt Ideal) (outLoc d)) : Prop :=
  ∀ (t : Fin 40) (l : Fin 128),
    f (ix3 t wd l) = pooledAt text emb w bias ⟨128 * wd.val + l.val, by omega⟩ t

/-- Entry `(t, wd, l)` lies in tile `wd`'s slab. -/
theorem ix3_mem_slabSet (t : Fin 40) (wd : Fin 32) (l : Fin 128) : (ix3 t wd l : S40x32x128.Idx) ∈ slabSet wd := by
  rw [slabSet_eq, Rect.mem_set_unit]
  intro a
  match a with
  | ⟨0, _⟩ =>
    show 0 * 40 ≤ t.val ∧ t.val < 0 * 40 + 40
    omega
  | ⟨1, _⟩ =>
    show wd.val * (32 / 32) ≤ wd.val ∧ wd.val < wd.val * (32 / 32) + 32 / 32
    omega
  | ⟨2, _⟩ =>
    show 0 * 128 ≤ l.val ∧ l.val < 0 * 128 + 128
    omega

/-- Being right is a property of the slab's entries only. -/
theorem slabOK_local (text : IVec SText 32) (emb : SEmb.Idx → EReal) (w : SW.Idx → EReal) (bias : SB.Idx → EReal)
    (d : Dev nD) (wd : Fin 32) (f g : Buf (Elt Ideal) (outLoc d)) (h : ∀ i ∈ slabSet wd, f i = g i) :
    SlabOK text emb w bias d wd f → SlabOK text emb w bias d wd g :=
  fun hf t l => (h _ (ix3_mem_slabSet t wd l)).symm.trans (hf t l)

/-- When every slab is right, the laid-out result is the pooled result. -/
theorem tail_pooled (text : IVec SText 32) (emb : SEmb.Idx → EReal) (w : SW.Idx → EReal) (bias : SB.Idx → EReal)
    (d : Dev nD) (f : Buf (Elt Ideal) (outLoc d)) (h : ∀ wd, SlabOK text emb w bias d wd f) :
    tailOf d f = pooled text emb w bias := by
  funext j
  obtain ⟨b, t, z, rfl⟩ : ∃ b t z, j = ix3 b t z := ⟨j 0, j 1, j 2, eq_ix3 j⟩
  obtain rfl : z = 0 := Subsingleton.elim _ _
  rw [tailOf_ix3]
  show _ = pooledAt text emb w bias b t
  rw [h ⟨b.val / 128, by omega⟩ t ⟨b.val % 128, by omega⟩]
  refine congrArg (fun q => pooledAt text emb w bias q t) (Fin.ext ?_)
  show 128 * (b.val / 128) + b.val % 128 = b.val
  omega

end Cert.Proof.KI

end
-- ==== Proof.ReadI.lean ====
/-
  The staged blocks and the written-back result read at an index.
-/
import proofs.«207257_g22479858827769_cont_8to1_397_21_alg».proof.Proof.MainI
import Idealize.ShloMosaic.Lib.ValueIdx

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F] [Named F]

local notation "𝕄" => MT nD τ sig (HIx 1) (Elt F) ℕ UU ℕ

open Idealize.ShloMosaic.ValueIdx

variable (m : (ℓ : Loc nD τ sig) → Buf (Elt F) ℓ)

/-- The table's block at point `t`, at a column inside the table: the transposed table's entry. -/
theorem B0_at (d : Dev nD) (t : Fin cfg0.N) (dd : S100x12800.Idx → Elt F .f32) (k : Fin 100) (q : Fin 12800)
    (hq : t.val * 12800 + q.val < 25000) :
    B0 m d t dd (ix2 k q) = W2 m d main_v0 (ix2 k ⟨t.val * 12800 + q.val, hq⟩) := by
  have hx0 : win0_0.xsize (grid0.coords t) 0 = 100 := by
    rcases fin_N0 t with rfl | rfl <;> decide +kernel
  have hx1 : t.val * 12800 + win0_0.xsize (grid0.coords t) 1 = min 25000 (t.val * 12800 + 12800) := by
    rcases fin_N0 t with rfl | rfl <;> decide +kernel
  have ho0 : win0_0.index t 0 * win0_0.size 0 = 0 := by
    rcases fin_N0 t with rfl | rfl <;> decide +kernel
  have ho1 : win0_0.index t 1 * win0_0.size 1 = t.val * 12800 := by
    rcases fin_N0 t with rfl | rfl <;> decide +kernel
  have hmv : win0_0.moved (grid0.coords t) (ix2 k q) = true := by
    rw [Window.moved_iff]
    intro a
    match a with
    | ⟨0, _⟩ => show k.val < win0_0.xsize (grid0.coords t) 0; rw [hx0]; exact k.isLt
    | ⟨1, _⟩ => show q.val < win0_0.xsize (grid0.coords t) 1; omega
  unfold B0 Window.fill
  rw [dif_pos hmv, View.read_apply]
  refine (cast_eq _ _).trans (congrArg (W2 m d main_v0) (funext fun a => Fin.ext ?_))
  match a with
  | ⟨0, _⟩ => show win0_0.index t 0 * win0_0.size 0 + 1 * k.val = k.val; rw [ho0]; omega
  | ⟨1, _⟩ => show win0_0.index t 1 * win0_0.size 1 + 1 * q.val = t.val * 12800 + q.val; rw [ho1]; omega

/-- The weights, as the first point's fetch lands them: the weights array's entry. -/
theorem B1_at (d : Dev nD) (dd : S1x100.Idx → Elt F .f32) (k : Fin 100) :
    B1 m d dd (ix2 (0 : Fin 1) k) = W2 m d main_arg2 (ix2 (0 : Fin 1) k) := by
  have hx0 : win0_1.xsize (grid0.coords t0_0) 0 = 1 := by decide +kernel
  have hx1 : win0_1.xsize (grid0.coords t0_0) 1 = 100 := by decide +kernel
  have ho0 : win0_1.index t0_0 0 * win0_1.size 0 = 0 := by decide +kernel
  have ho1 : win0_1.index t0_0 1 * win0_1.size 1 = 0 := by decide +kernel
  have hmv : win0_1.moved (grid0.coords t0_0) (ix2 (0 : Fin 1) k) = true := by
    rw [Window.moved_iff]
    intro a
    match a with
    | ⟨0, _⟩ => show 0 < win0_1.xsize (grid0.coords t0_0) 0; rw [hx0]; exact Nat.one_pos
    | ⟨1, _⟩ => show k.val < win0_1.xsize (grid0.coords t0_0) 1; rw [hx1]; exact k.isLt
  unfold B1 Window.fill
  rw [dif_pos hmv, View.read_apply]
  refine (cast_eq _ _).trans (congrArg (W2 m d main_arg2) (funext fun a => Fin.ext ?_))
  match a with
  | ⟨0, _⟩ => show win0_1.index t0_0 0 * win0_1.size 0 + 1 * 0 = 0; rw [ho0]
  | ⟨1, _⟩ => show win0_1.index t0_0 1 * win0_1.size 1 + 1 * k.val = k.val; rw [ho1]; omega

/-- The bias, likewise. -/
theorem B2_at (d : Dev nD) (dd : S1x1.Idx → Elt F .f32) :
    B2 m d dd (ix2 (0 : Fin 1) (0 : Fin 1)) = W2 m d main_v1 (ix2 (0 : Fin 1) (0 : Fin 1)) := by
  have hx0 : win0_2.xsize (grid0.coords t0_0) 0 = 1 := by decide +kernel
  have hx1 : win0_2.xsize (grid0.coords t0_0) 1 = 1 := by decide +kernel
  have ho0 : win0_2.index t0_0 0 * win0_2.size 0 = 0 := by decide +kernel
  have ho1 : win0_2.index t0_0 1 * win0_2.size 1 = 0 := by decide +kernel
  have hmv : win0_2.moved (grid0.coords t0_0) (ix2 (0 : Fin 1) (0 : Fin 1)) = true := by
    rw [Window.moved_iff]
    intro a
    match a with
    | ⟨0, _⟩ => show 0 < win0_2.xsize (grid0.coords t0_0) 0; rw [hx0]; exact Nat.one_pos
    | ⟨1, _⟩ => show 0 < win0_2.xsize (grid0.coords t0_0) 1; rw [hx1]; exact Nat.one_pos
  unfold B2 Window.fill
  rw [dif_pos hmv, View.read_apply]
  refine (cast_eq _ _).trans (congrArg (W2 m d main_v1) (funext fun a => Fin.ext ?_))
  match a with
  | ⟨0, _⟩ => show win0_2.index t0_0 0 * win0_2.size 0 + 1 * 0 = 0; rw [ho0]
  | ⟨1, _⟩ => show win0_2.index t0_0 1 * win0_2.size 1 + 1 * 0 = 0; rw [ho1]

/-! ## The result array after the two write-backs -/

theorem flush0_3' : ∀ t : Fin cfg0.N, (cfg0.win 3).flush t = true := flush0_3

/-- The result array after the call: its launch contents overwritten by the two points' stored blocks, each the body's
    payload of some filled-out staged blocks. -/
theorem arrAt3 (d : Dev nD) (B : Buf (Elt F) (blocksLoc d)) (h : (rd m d).ArrAt 3 cfg0.N B) :
    ∃ d00 d01 d02 d10 d11 d12 G, B = (win0_3.blk t0_1).view.write (Elt F)
        ((win0_3.blk t0_0).view.write (Elt F) G
          (win0_3.cut (grid0.coords t0_0) (k0_pay1 (B1 m d d01) (B0 m d t0_0 d00) (B2 m d d02))) Finset.univ)
        (win0_3.cut (grid0.coords t0_1) (k0_pay1 (B1 m d d11) (B0 m d t0_1 d10) (B2 m d d12))) Finset.univ := by
  have h2 : (rd m d).ArrAt 3 (t0_1.val + 1) B := h
  rw [(rd m d).ArrAt_succ 3 t0_1, if_pos (flush0_3 t0_1)] at h2
  obtain ⟨G1, X1, hG1, ⟨Y1, -, hX1⟩, rfl⟩ := h2
  have h1 : (rd m d).ArrAt 3 (t0_0.val + 1) G1 := hG1
  rw [(rd m d).ArrAt_succ 3 t0_0, if_pos (flush0_3 t0_0)] at h1
  obtain ⟨G0, X0, -, ⟨Y0, -, hX0⟩, rfl⟩ := h1
  obtain ⟨d10, d11, d12, rfl⟩ : ∃ d0 d1 d2, X1 = k0_pay1 (B1 m d d1) (B0 m d t0_1 d0) (B2 m d d2) := hX1
  obtain ⟨d00, d01, d02, rfl⟩ : ∃ d0 d1 d2, X0 = k0_pay1 (B1 m d d1) (B0 m d t0_0 d0) (B2 m d d2) := hX0
  exact ⟨d00, d01, d02, d10, d11, d12, G0, rfl⟩

/-- The array after the two write-backs, read at block `t`, column `q`: what the staging buffer held there at point `t`. -/
theorem wr_at (d : Dev nD) (G : Buf (Elt F) (blocksLoc d)) (X0 X1 : S1x1x12800.Idx → Elt F .f32) (q : Fin 12800) :
    ((win0_3.blk t0_1).view.write (Elt F) ((win0_3.blk t0_0).view.write (Elt F) G (win0_3.cut (grid0.coords t0_0) X0) Finset.univ)
        (win0_3.cut (grid0.coords t0_1) X1) Finset.univ) (ix3 (0 : Fin 2) (0 : Fin 1) q) = X0 (ix3 (0 : Fin 1) (0 : Fin 1) q)
    ∧ ((win0_3.blk t0_1).view.write (Elt F) ((win0_3.blk t0_0).view.write (Elt F) G (win0_3.cut (grid0.coords t0_0) X0) Finset.univ)
        (win0_3.cut (grid0.coords t0_1) X1) Finset.univ) (ix3 (1 : Fin 2) (0 : Fin 1) q) = X1 (ix3 (0 : Fin 1) (0 : Fin 1) q) := by
  have hx : ∀ u : Fin cfg0.N, ∀ a, (ix3 (0 : Fin 1) (0 : Fin 1) q a).val < win0_3.xsize (grid0.coords u) a := by
    intro u a
    have h0 : win0_3.xsize (grid0.coords u) 0 = 1 := by rcases fin_N0 u with rfl | rfl <;> decide +kernel
    have h1 : win0_3.xsize (grid0.coords u) 1 = 1 := by rcases fin_N0 u with rfl | rfl <;> decide +kernel
    have h2 : win0_3.xsize (grid0.coords u) 2 = 12800 := by rcases fin_N0 u with rfl | rfl <;> decide +kernel
    match a with
    | ⟨0, _⟩ => show 0 < win0_3.xsize (grid0.coords u) 0; rw [h0]; exact Nat.one_pos
    | ⟨1, _⟩ => show 0 < win0_3.xsize (grid0.coords u) 1; rw [h1]; exact Nat.one_pos
    | ⟨2, _⟩ => show q.val < win0_3.xsize (grid0.coords u) 2; rw [h2]; exact q.isLt
  let j (u : Fin cfg0.N) : (win0_3.xblock (grid0.coords u)).Idx := fun a => ⟨(ix3 (0 : Fin 1) (0 : Fin 1) q a).val, hx u a⟩
  have hinj : ∀ u, win0_3.xinj (grid0.coords u) (j u) = ix3 (0 : Fin 1) (0 : Fin 1) q := fun u => funext fun a => Fin.ext rfl
  have ho : ∀ u : Fin cfg0.N, win0_3.index u 0 * win0_3.size 0 = u.val ∧ win0_3.index u 1 * win0_3.size 1 = 0 ∧ win0_3.index u 2 * win0_3.size 2 = 0 := by
    intro u; rcases fin_N0 u with rfl | rfl <;> decide +kernel
  have hemb : ∀ u : Fin cfg0.N, (win0_3.blk u).view.emb (j u) = ix3 (⟨u.val, by have := u.isLt; have h2 : cfg0.N = 2 := N_0; omega⟩ : Fin 2) (0 : Fin 1) q := by
    intro u
    refine funext fun a => Fin.ext ?_
    match a with
    | ⟨0, _⟩ => show win0_3.index u 0 * win0_3.size 0 + 1 * 0 = u.val; rw [(ho u).1]; omega
    | ⟨1, _⟩ => show win0_3.index u 1 * win0_3.size 1 + 1 * 0 = 0; rw [(ho u).2.1]
    | ⟨2, _⟩ => show win0_3.index u 2 * win0_3.size 2 + 1 * q.val = q.val; rw [(ho u).2.2]; omega
  have e0 : (ix3 (0 : Fin 2) (0 : Fin 1) q : S2x1x12800.Idx) = (win0_3.blk t0_0).view.emb (j t0_0) := (hemb t0_0).symm
  have e1 : (ix3 (1 : Fin 2) (0 : Fin 1) q : S2x1x12800.Idx) = (win0_3.blk t0_1).view.emb (j t0_1) := (hemb t0_1).symm
  constructor
  · rw [View.write_of_not_mem]
    · rw [e0, View.write_emb_of_mem _ _ (Finset.mem_univ _)]
      exact (cast_eq _ _).trans (congrArg X0 (hinj t0_0))
    · rw [View.setOn_univ]
      show ix3 (0 : Fin 2) (0 : Fin 1) q ∉ ((View.whole main_v2).slice (win0_3.rect t0_1)).set
      rw [View.set_slice_whole, Rect.mem_set_unit]
      intro hmem
      have := (hmem 0).1
      rw [(ho t0_1).1] at this
      exact absurd this (Nat.not_succ_le_zero 0)
  · rw [e1, View.write_emb_of_mem _ _ (Finset.mem_univ _)]
    exact (cast_eq _ _).trans (congrArg X1 (hinj t0_1))

end Cert.Proof.KI

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.ScoresIdeal.lean ====
/-
  Over the extended reals: the score vector the pipelined matrix product leaves holds, at every entry that names a table
  row, that row's score — the weights' inner product with the row, times one fifth, plus the bias times one fifth. The
  600 entries past the table's end read staged words no array names; no table row reads them.
-/
import proofs.«207257_g22479858827769_cont_8to1_397_21_alg».proof.Proof.ReadI
import proofs.«207257_g22479858827769_cont_8to1_397_21_alg».proof.Proof.PoolSpec
import proofs.«207257_g22479858827769_cont_8to1_397_21_alg».proof.Proof.LibDotRows
import Idealize.ShloMosaic.Lib.ValueLayout
import Idealize.ShloMosaic.Lib.Pipeline.Value
import Idealize.ShloMosaic.PureOps.IdealRules

noncomputable section

namespace Cert.Proof.KI

open Cert.KernelIdeal Cert.KernelIdeal.Gen

open Idealize.ShloMosaic
open Idealize.ShloMosaic.TcCoe
open Idealize.ShloMosaic.ValueIdx
open Idealize.ShloMosaic.SparseCore.Cfg (HIx Pay)
open Idealize.SL Idealize.SL.RA
open Idealize.ShloMosaic.Pipeline (RDat Cfg Window)

variable (m : (ℓ : Loc nD τ sig) → Buf (Elt Ideal) ℓ)

/-- The kernel's named constant denotes one fifth, by the certificate's table. -/
theorem inv5 : Named.named (F := Ideal) Cert.KernelIdeal.κ "inv_5" (φ := .f32) 0x3E4CCCCD#32 = ((1 / 5 : ℝ) : EReal) :=
  IdealRules.named_const.ideal_named_scalar _ _ _ _ rfl

/-- The matrix product's sum at an output column, over the contraction index. -/
theorem dot_sum (l : FVec Ideal S1x100 .f32) (r : FVec Ideal S100x12800 .f32) (p : Fin 1) (q : Fin 12800) :
    ∑ c, l (dot_S1x100_S100x12800_S1x12800_1_0_0_1_n_n.lhsIdx (ix2 p q) c) * r (dot_S1x100_S100x12800_S1x12800_1_0_0_1_n_n.rhsIdx (ix2 p q) c)
      = ∑ k : Fin 100, l (ix2 p k) * r (ix2 k q) := by
  dot_rows dot_S1x100_S100x12800_S1x12800_1_0_0_1_n_n S1x100 S100x12800 100

/-- The body's payload at a column: the weights' inner product with the staged block's column, times one fifth, plus the
    staged bias times one fifth. -/
theorem pay_at (v0 : Vec Ideal S1x100 .f32) (v1 : Vec Ideal S100x12800 .f32) (v6 : Vec Ideal S1x1 .f32) (q : Fin 12800) :
    k0_pay1 v0 v1 v6 (ix3 (0 : Fin 1) (0 : Fin 1) q)
      = (∑ k : Fin 100, v0 (ix2 (0 : Fin 1) k) * v1 (ix2 k q)) * ((1 / 5 : ℝ) : EReal) + v6 (ix2 (0 : Fin 1) (0 : Fin 1)) * ((1 / 5 : ℝ) : EReal) := by
  have hcast : ∀ k : Fin 100, shapeCast S100x12800 v1 shapeCasts_S100x12800_S100x12800 (ix2 k q) = v1 (ix2 k q) :=
    fun k => shapeCast_apply v1 _ _ _ rfl
  have hext : extractAt ![0, 0] v6 inpos_S1x1_p0_0 = v6 (ix2 (0 : Fin 1) (0 : Fin 1)) :=
    congrArg v6 (funext fun a => Fin.ext (by
      match a with
      | ⟨0, _⟩ => rfl
      | ⟨1, _⟩ => rfl))
  have hmm : matmul (F := Ideal) (φ₁ := .f32) (φ₂ := .f32) dot_S1x100_S100x12800_S1x12800_1_0_0_1_n_n none v0 (shapeCast S100x12800 v1 shapeCasts_S100x12800_S100x12800)
      (constant S1x12800 .f32 0x00000000#32) (ix2 (0 : Fin 1) q) = ∑ k : Fin 100, v0 (ix2 (0 : Fin 1) k) * v1 (ix2 k q) := by
    show FloatOps.matmul (F := Ideal) (φ₁ := .f32) (φ₂ := .f32) dot_S1x100_S100x12800_S1x12800_1_0_0_1_n_n none v0 (shapeCast S100x12800 v1 shapeCasts_S100x12800_S100x12800)
      (constant S1x12800 .f32 0x00000000#32) (ix2 (0 : Fin 1) q) = _
    rw [Ideal.matmul_constant_zero_apply, dot_sum]
    exact Finset.sum_congr rfl fun k _ => by rw [hcast k]
  unfold k0_pay1
  rw [shapeCast_ab_1ab_apply, addf_apply, mulf_apply, broadcast_apply, broadcast_apply, Ideal.scalar_mulf_def, hext, inv5, hmm]

/-! ## What the call's arrays held -/

theorem W2_v0 (d : Dev nD) :
    W2 m d main_v0 = (transpose S100x25000 [1, 0] (m (embLoc d)) transposes_S25000x100_S100x25000_1_0 : (⟨S100x25000, .f32⟩ : BufTy).Contents (Elt Ideal)) := by
  unfold W2 V2
  rw [StableHlo.reshape_result_ne _ _ _ _ _ _ _ (show main_v0 ≠ main_v1 by decide), StableHlo.unary_result]; rfl

theorem W2_v1 (d : Dev nD) :
    W2 m d main_v1 = (fun i => shapeCast S1x1 (m (biasLoc d)) shapeCasts_S1_S1x1 i : (⟨S1x1, .f32⟩ : BufTy).Contents (Elt Ideal)) := by
  unfold W2 V2
  rw [StableHlo.reshape_result, StableHlo.unary_result_ne _ _ _ _ _ _ (show main_arg3 ≠ main_v0 by decide)]; rfl

/-- A staged column inside the table, read as the table's row. -/
theorem B0_emb (d : Dev nD) (t : Fin cfg0.N) (dd : S100x12800.Idx → Elt Ideal .f32) (k : Fin 100) (q : Fin 12800)
    (hq : t.val * 12800 + q.val < 25000) :
    B0 m d t dd (ix2 k q) = m (embLoc d) (ix2 (⟨t.val * 12800 + q.val, hq⟩ : Fin 25000) k) := by
  rw [B0_at m d t dd k q hq, W2_v0]
  exact transpose_ix2_apply (m (embLoc d)) transposes_S25000x100_S100x25000_1_0 k ⟨t.val * 12800 + q.val, hq⟩

theorem B1_w (d : Dev nD) (dd : S1x100.Idx → Elt Ideal .f32) (k : Fin 100) :
    B1 m d dd (ix2 (0 : Fin 1) k) = m (wLoc d) (ix2 (0 : Fin 1) k) := by
  rw [B1_at, W2_other m d main_arg2 (by decide) (by decide)]

theorem B2_b (d : Dev nD) (dd : S1x1.Idx → Elt Ideal .f32) :
    B2 m d dd (ix2 (0 : Fin 1) (0 : Fin 1)) = m (biasLoc d) (ix1 (0 : Fin 1)) := by
  rw [B2_at, W2_v1]
  exact shapeCast_a_1a_apply (m (biasLoc d)) shapeCasts_S1_S1x1 (0 : Fin 1) (0 : Fin 1)

/-- A stored block at a column inside the table: the column's row's score. -/
theorem stored_at (d : Dev nD) (t : Fin cfg0.N) (d0 : S100x12800.Idx → Elt Ideal .f32) (d1 : S1x100.Idx → Elt Ideal .f32)
    (d2 : S1x1.Idx → Elt Ideal .f32) (q : Fin 12800) (v : Fin 25000) (hv : t.val * 12800 + q.val = v.val) :
    k0_pay1 (B1 m d d1) (B0 m d t d0) (B2 m d d2) (ix3 (0 : Fin 1) (0 : Fin 1) q)
      = PoolSpec.scoreAt (m (embLoc d)) (m (wLoc d)) (m (biasLoc d)) v := by
  have hq : t.val * 12800 + q.val < 25000 := hv ▸ v.isLt
  have e : (⟨t.val * 12800 + q.val, hq⟩ : Fin 25000) = v := Fin.ext hv
  rw [← e, pay_at, B2_b]
  unfold PoolSpec.scoreAt
  congr 2
  exact Finset.sum_congr rfl fun k _ => by rw [B1_w, B0_emb m d t d0 k q hq]

/-- Every entry of the score vector that names a table row holds that row's score. -/
theorem scoresOK_ideal (d : Dev nD) (sc : Buf (Elt Ideal) (scoresLoc d)) (h : ScoresOK (F := Ideal) m d sc) (v : Fin 25000) :
    sc (ix1 (⟨v.val, by have := v.isLt; omega⟩ : Fin 25600)) = PoolSpec.scoreAt (m (embLoc d)) (m (wLoc d)) (m (biasLoc d)) v := by
  obtain ⟨B, hB, rfl⟩ := h
  obtain ⟨d00, d01, d02, d10, d11, d12, G, rfl⟩ := arrAt3 m d B hB
  unfold scoresOf
  by_cases hv : v.val < 12800
  · rw [shapeCast_apply _ _ _ (ix3 (0 : Fin 2) (0 : Fin 1) (⟨v.val, hv⟩ : Fin 12800)) (by
      rw [Shape.rowMajor_val_three, Shape.rowMajor_val_one]
      show (0 * 1 + 0) * 12800 + v.val = v.val
      omega)]
    rw [(wr_at d G _ _ ⟨v.val, hv⟩).1]
    exact stored_at m d t0_0 d00 d01 d02 ⟨v.val, hv⟩ v (by show 0 * 12800 + v.val = v.val; omega)
  · have hq : v.val - 12800 < 12800 := by have := v.isLt; omega
    rw [shapeCast_apply _ _ _ (ix3 (1 : Fin 2) (0 : Fin 1) (⟨v.val - 12800, hq⟩ : Fin 12800)) (by
      rw [Shape.rowMajor_val_three, Shape.rowMajor_val_one]
      show (1 * 1 + 0) * 12800 + (v.val - 12800) = v.val
      omega)]
    rw [(wr_at d G _ _ ⟨v.val - 12800, hq⟩).2]
    exact stored_at m d t0_1 d10 d11 d12 ⟨v.val - 12800, hq⟩ v (by show 1 * 12800 + (v.val - 12800) = v.val; omega)

end Cert.Proof.KI

end
-- ==== Proof.lean ====
/-
  The certificate: a pooled embedding lookup with a linear head, computed on the SparseCore, against its plain
  array-language reference.

  Inputs: tokens `text` (200 steps × 4096 batch entries, each a row number of the table), a table `emb` (25000 rows
  of 100 numbers), weights `w` (100 numbers) and a bias. The reference averages the table rows of each five
  consecutive tokens of a batch entry and applies the linear head: `out[b, t] = Σ_d (Σ_k emb[text[5t+k, b], d] / 5)·w[d]
  + bias`. The kernel first computes, on the TensorCore, every table row's SCORE `(Σ_d w[d]·emb[v, d])·(1/5) + bias·(1/5)`
  (one pipelined matrix product; its last block runs past the table's end and what it computes there is never
  read), then on the thirty-two vector subcores copies the score vector and 128 token columns per subcore into local
  memory and, per pooling window and lane, adds the five scores its five tokens name. With the kernel's constant
  named `1/5` the two results are the same real number whenever table, weights and bias are real: a real factor
  distributes over a finite sum of reals.

  Frames. Every thread's run terminates and faults nowhere because every token is below 25000 (the precondition):
  an indexed read of the 25600-entry score copy is then in range, and the copies' sources, destinations and waits
  never overlap a pending copy — the four quarter copies of the score vector complete on one semaphore, are all
  started before any is waited for, and none of their buffers is touched before the last wait; the second token
  copy lands in rows 120–199 while only rows 0–119 are read.

  What is proved where: the reference's run and its value (RefRun, RefRead, RefMean, PoolAlgebra, RefPooled); the
  TensorCore side of the kernel (Ghost, Body, Region, Step, Prep, Host, Split, Main; ScoresIdeal for the scores'
  value); a vector subcore's task (TileCells, TileViews, TileLand, TileChk, TileBody) and the launch (Launch); the
  pure statements both sides meet (PoolSpec, TileSpec, TileIdeal, TailRead, TailI, FinalIdeal). The modules ending in
  I read the idealized kernel, those ending in B the kernel as printed; the two sets differ only in the program's name and in the names of two tactic macros.
-/
import proofs.«207257_g22479858827769_cont_8to1_397_21_alg».proof.Defs
import proofs.«207257_g22479858827769_cont_8to1_397_21_alg».proof.Proof.Gen.Kernel
import proofs.«207257_g22479858827769_cont_8to1_397_21_alg».proof.Proof.Gen.KernelIdeal
import proofs.«207257_g22479858827769_cont_8to1_397_21_alg».proof.Proof.Gen.ReferenceIdeal
import proofs.«207257_g22479858827769_cont_8to1_397_21_alg».proof.Proof.Gen.Pre_input_domain
import proofs.«207257_g22479858827769_cont_8to1_397_21_alg».proof.Proof.LaunchI
import proofs.«207257_g22479858827769_cont_8to1_397_21_alg».proof.Proof.LaunchB
import proofs.«207257_g22479858827769_cont_8to1_397_21_alg».proof.Proof.RefPooled
import proofs.«207257_g22479858827769_cont_8to1_397_21_alg».proof.Proof.FinalIdeal
import proofs.«207257_g22479858827769_cont_8to1_397_21_alg».proof.Proof.ScoresIdeal
import proofs.«207257_g22479858827769_cont_8to1_397_21_alg».proof.Proof.TileIdeal
import proofs.«207257_g22479858827769_cont_8to1_397_21_alg».proof.Proof.PreFacts
import Idealize.ShloMosaic.Adequacy
import Idealize.ShloMosaic.Init
import Idealize.ShloMosaic.PureOps.IdealRules

noncomputable section

namespace Cert.Proof

open Idealize.ShloMosaic Idealize.SL.Sem
open Cert.Proof.PoolSpec

/-- The kernel as printed runs, and leaves its four inputs as launched: the value properties are taken trivial. -/
theorem frame_kernel : Cert.frame_Kernel (hKernel := Cert.Kernel.Gen.facts) (hPre_input_domain := Cert.Pre_input_domain.Gen.facts) := by
  intro m ρ hpre
  have hr : ∀ d, InRange (m (KB.textLoc d)) := fun d => PreFacts.inRange_of_pre _ _ _ _ (hpre d)
  refine (θ_run (Cert.Kernel.defs (F := Bits)) _ _).mono (fun r h c => ?_)
    (KB.run_main (F := Bits) m ρ (fun _ _ => True) (fun _ _ _ => True) hr (fun _ _ _ => trivial) (fun _ _ _ _ _ _ => trivial)
      (fun _ _ _ _ _ _ => trivial))
  exact ⟨(h c).1, (h c).2.1, (h c).2.2.1, (h c).2.2.2.1⟩

/-- The idealized kernel runs, and leaves its four inputs as launched. -/
theorem frame_kernelIdeal : Cert.frame_KernelIdeal (hKernelIdeal := Cert.KernelIdeal.Gen.facts) (hPre_input_domain := Cert.Pre_input_domain.Gen.facts) := by
  intro m ρ hpre
  have hr : ∀ d, InRange (m (KI.textLoc d)) := fun d => PreFacts.inRange_of_pre _ _ _ _ (hpre d)
  refine (θ_run (Cert.KernelIdeal.defs (F := Ideal)) _ _).mono (fun r h c => ?_)
    (KI.run_main (F := Ideal) m ρ (fun _ _ => True) (fun _ _ _ => True) hr (fun _ _ _ => trivial) (fun _ _ _ _ _ _ => trivial)
      (fun _ _ _ _ _ _ => trivial))
  exact ⟨(h c).1, (h c).2.1, (h c).2.2.1, (h c).2.2.2.1⟩

/-- The reference runs, and leaves its four inputs as launched: its run with the result dropped. -/
theorem frame_reference : Cert.frame_ReferenceIdeal (hReferenceIdeal := Cert.ReferenceIdeal.Gen.facts) (hPre_input_domain := Cert.Pre_input_domain.Gen.facts) :=
  fun m g hpre => (θ_run _ _ _).mono (fun _ h c => (h c).2) (Cert.Proof.RefSide.run_pooled m g hpre)

/-- The two sites where the kernel's literal 0.2 was read as one fifth: the certificate's table gives the name that value. -/
theorem preserves : Cert.preserves_Kernel_KernelIdeal :=
  ⟨IdealRules.named_const.statement Cert.KernelIdeal.κ "inv_5" .f32 0x3E4CCCCD#32 ((1 / 5 : ℝ) : EReal) rfl,
    IdealRules.named_const.statement Cert.KernelIdeal.κ "inv_5" .f32 0x3E4CCCCD#32 ((1 / 5 : ℝ) : EReal) rfl⟩

/-- Both idealized programs end at the pooled sums of the spec: the kernel because every score-vector entry a token
    names is that row's score and every slab holds its tile's five-term sums, the reference by its own run. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hr : ∀ d, InRange (m (KI.textLoc d)) := fun d => PreFacts.inRange_of_pre _ _ _ _ (hpre d)
  refine ⟨fun c => pooled (m (KI.textLoc c)) (m (KI.embLoc c)) (m (KI.wLoc c)) (m (KI.biasLoc c)), ?_, ?_⟩
  · -- the kernel
    let Φ : (d : Dev Cert.KernelIdeal.nD) → Buf (Elt Ideal) (KI.scoresLoc d) → Prop := fun d sc =>
      ∀ v : Fin 25000, sc (ValueIdx.ix1 (⟨v.val, by have := v.isLt; omega⟩ : Fin 25600))
        = scoreAt (m (KI.embLoc d)) (m (KI.wLoc d)) (m (KI.biasLoc d)) v
    let Ψ : (d : Dev Cert.KernelIdeal.nD) → Fin 32 → Buf (Elt Ideal) (KI.outLoc d) → Prop := fun d wd f =>
      KI.SlabOK (m (KI.textLoc d)) (m (KI.embLoc d)) (m (KI.wLoc d)) (m (KI.biasLoc d)) d wd f
    have hΦ : ∀ d sc, KI.ScoresOK m d sc → Φ d sc := fun d sc h v => KI.scoresOK_ideal m d sc h v
    have hΨ : ∀ d wd f g, (∀ i ∈ KI.slabSet wd, f i = g i) → Ψ d wd f → Ψ d wd g := fun d wd f g h =>
      KI.slabOK_local _ _ _ _ d wd f g h
    have hΦΨ : KI.TileGives m Φ Ψ := fun d L sc f hsc hf t l =>
      (hf t l).trans (TileIdeal.pool5_eq_pooledAt (m (KI.textLoc d)) (m (KI.embLoc d)) (m (KI.wLoc d)) (m (KI.biasLoc d))
        (KI.scV d L sc) (KI.widL L) (KI.gT m d L) (hr d) (fun v => hsc v) (fun _ _ => rfl) t l)
    refine (θ_run (Cert.KernelIdeal.defs (F := Ideal)) _ _).mono (fun r h c => ?_) (KI.run_main (F := Ideal) m g Φ Ψ hr hΦ hΨ hΦΨ)
    obtain ⟨h0, h1, h2, h3, f, hf, hres⟩ := h c
    exact ⟨hres.trans (KI.tail_pooled _ _ _ _ c f hf), h0, h1, h2, h3⟩
  · -- the reference, from a memory that agrees on the inputs
    have hpre' : Cert.Pre_ReferenceIdeal (hPre_input_domain := Cert.Pre_input_domain.Gen.facts) m' := fun c => by
      rw [(hagree c).1, (hagree c).2.1, (hagree c).2.2.1, (hagree c).2.2.2]; exact hpre c
    refine (θ_run _ _ _).mono (fun r h c => ?_) (Cert.Proof.RefSide.run_pooled m' g' hpre')
    obtain ⟨hv, h0, h1, h2, h3⟩ := h c
    refine ⟨?_, h0, h1, h2, h3⟩
    rw [hv, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_input_domain.Gen.facts,
    frame_kernel, frame_kernelIdeal, frame_reference, preserves, algebraic⟩

end Cert.Proof

end
